-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x16x16 : Shape := ⟨4, ![2048, 16, 16, 16]⟩
abbrev S16 : Shape := ⟨1, ![16]⟩
abbrev S128x4096 : Shape := ⟨2, ![128, 4096]⟩
abbrev S128 : Shape := ⟨1, ![128]⟩
abbrev S_ : Shape := ⟨0, ![]⟩

class Facts : Prop where
  bcast_S_S2048x16x16x16 : S_.BroadcastsInDim S2048x16x16x16 (![] : Fin 0 → Fin S2048x16x16x16.rank)
  reducesTo_S2048x16x16x16_S_d0_1_2_3 : S2048x16x16x16.ReducesTo [0, 1, 2, 3] S_
  h_S_ : 0 < S_.numel
  bcast_S_S16 : S_.BroadcastsInDim S16 (![] : Fin 0 → Fin S16.rank)
  reducesTo_S16_S_d0 : S16.ReducesTo [0] S_
  bcast_S_S128x4096 : S_.BroadcastsInDim S128x4096 (![] : Fin 0 → Fin S128x4096.rank)
  reducesTo_S128x4096_S_d0_1 : S128x4096.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2048x16x16x16 .f32) (main_arg1 : FVec F S16 .f32) (main_arg2 : FVec F S16 .f32) (main_arg3 : FVec F S128x4096 .f32) (main_arg4 : FVec F S128 .f32) : IVec S_ 1 :=
  let main_v0 : FVec F S2048x16x16x16 .f32 := Host.absf main_arg0
  let main_cst : FVec F S_ .f32 := constant S_ .f32 0x7F800000#32
  let main_v1 : FVec F S2048x16x16x16 .f32 := broadcastInDim S2048x16x16x16 ![] bcast_S_S2048x16x16x16 main_cst
  let main_v2 : IVec S2048x16x16x16 1 := cmpf .olt main_v0 main_v1
  let main_c : IVec S_ 1 := constantI S_ 1 1#1
  let main_v3 : IVec S_ 1 := (fun x v => Host.reduce IntOp.andi x v reducesTo_S2048x16x16x16_S_d0_1_2_3 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S128x4096 .f32 := Host.absf main_arg3
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_arg4 main_v13 main_v16
-- ==== Kernel.lean ====
abbrev S2048x16x16x16 : Shape := ⟨4, ![2048, 16, 16, 16]⟩
abbrev S16 : Shape := ⟨1, ![16]⟩
abbrev S128x4096 : Shape := ⟨2, ![128, 4096]⟩
abbrev S128 : Shape := ⟨1, ![128]⟩
abbrev S2048x4096 : Shape := ⟨2, ![2048, 4096]⟩
abbrev S4096x2048 : Shape := ⟨2, ![4096, 2048]⟩
abbrev S1x16 : Shape := ⟨2, ![1, 16]⟩
abbrev S1x128 : Shape := ⟨2, ![1, 128]⟩
abbrev S2048x128 : Shape := ⟨2, ![2048, 128]⟩
abbrev S1024x2048 : Shape := ⟨2, ![1024, 2048]⟩
abbrev S16x128x256 : Shape := ⟨3, ![16, 128, 256]⟩
abbrev S16x1x2048 : Shape := ⟨3, ![16, 1, 2048]⟩
abbrev S16x2048x128 : Shape := ⟨3, ![16, 2048, 128]⟩
abbrev S128x256 : Shape := ⟨2, ![128, 256]⟩
abbrev S1x128x256 : Shape := ⟨3, ![1, 128, 256]⟩
abbrev S256x2048 : Shape := ⟨2, ![256, 2048]⟩
abbrev S2048 : Shape := ⟨1, ![2048]⟩
abbrev S1x2048 : Shape := ⟨2, ![1, 2048]⟩
abbrev S1x1x2048 : Shape := ⟨3, ![1, 1, 2048]⟩
abbrev S1x2048x128 : Shape := ⟨3, ![1, 2048, 128]⟩
abbrev S16x2048 : Shape := ⟨2, ![16, 2048]⟩
abbrev S16x1 : Shape := ⟨2, ![16, 1]⟩
abbrev S1x256 : Shape := ⟨2, ![1, 256]⟩
abbrev S1x1 : Shape := ⟨2, ![1, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x16x16x16, .f32⟩
  | .hbm, ⟨1, _⟩ => ⟨S16, .f32⟩
  | .hbm, ⟨2, _⟩ => ⟨S16, .f32⟩
  | .hbm, ⟨3, _⟩ => ⟨S128x4096, .f32⟩
  | .hbm, ⟨4, _⟩ => ⟨S128, .f32⟩
  | .hbm, ⟨5, _⟩ => ⟨S2048x4096, .f32⟩
  | .hbm, ⟨6, _⟩ => ⟨S4096x2048, .f32⟩
  | .hbm, ⟨7, _⟩ => ⟨S1x16, .f32⟩
  | .hbm, ⟨8, _⟩ => ⟨S1x16, .f32⟩
  | .hbm, ⟨9, _⟩ => ⟨S1x128, .f32⟩
  | .hbm, ⟨10, _⟩ => ⟨S2048x128, .f32⟩
  | .local _ .vmem, ⟨0, _⟩ => ⟨S1024x2048, .f32⟩
  | .local _ .vmem, ⟨1, _⟩ => ⟨S1024x2048, .f32⟩
  | .local _ .vmem, ⟨2, _⟩ => ⟨S1x16, .f32⟩
  | .local _ .vmem, ⟨3, _⟩ => ⟨S1x16, .f32⟩
  | .local _ .vmem, ⟨4, _⟩ => ⟨S128x4096, .f32⟩
  | .local _ .vmem, ⟨5, _⟩ => ⟨S1x128, .f32⟩
  | .local _ .vmem, ⟨6, _⟩ => ⟨S2048x128, .f32⟩
  | .local _ .vmem, ⟨7, _⟩ => ⟨S16x128x256, .bf16⟩
  | .local _ .vmem, ⟨8, _⟩ => ⟨S16x1x2048, .f32⟩
  | .local _ .vmem, ⟨9, _⟩ => ⟨S16x1x2048, .f32⟩
  | .local _ .vmem, ⟨10, _⟩ => ⟨S16x2048x128, .f32⟩
  | _, _ => ⟨S2048x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![4], ![false]⟩

def k0_off1 (i : grid0.Coords) (c0_i32_2 : BitVec 32) : Fin 3 → Nat :=
  let c4_i32 : BitVec 32 := 4#32
  let arg0 : BitVec 32 := BitVec.ofNat 32 (i 0).val
  let v6 : BitVec 32 := Scalar.muli c4_i32 arg0
  let v7 : BitVec 32 := Scalar.addi v6 c0_i32_2
  let v11 : Index := Scalar.indexCast v7
  let c0_3 : Index := 0#32
  let c0_4 : Index := 0#32
  ![v11.toNat, 0, 0]
def k0_off2 (i : grid0.Coords) (c0_i32_2 : BitVec 32) : Fin 3 → Nat :=
  let c4_i32 : BitVec 32 := 4#32
  let arg0 : BitVec 32 := BitVec.ofNat 32 (i 0).val
  let v6 : BitVec 32 := Scalar.muli c4_i32 arg0
  let v7 : BitVec 32 := Scalar.addi v6 c0_i32_2
  let v23 : Index := Scalar.indexCast v7
  let c0_8 : Index := 0#32
  let c0_9 : Index := 0#32
  ![v23.toNat, 0, 0]
def k0_off3 (i : grid0.Coords) (c0_i32_2 : BitVec 32) : Fin 3 → Nat :=
  let c4_i32 : BitVec 32 := 4#32
  let arg0 : BitVec 32 := BitVec.ofNat 32 (i 0).val
  let v6 : BitVec 32 := Scalar.muli c4_i32 arg0
  let v7 : BitVec 32 := Scalar.addi v6 c0_i32_2
  let v27 : Index := Scalar.indexCast v7
  let c0_11 : Index := 0#32
  let c0_12 : Index := 0#32
  ![v27.toNat, 0, 0]
def k0_cond2 (i : grid0.Coords) : BitVec 1 :=
  let arg0 : BitVec 32 := BitVec.ofNat 32 (i 0).val
  let c3_i32_49 : BitVec 32 := 3#32
  let v106 : BitVec 1 := Scalar.cmpi .eq arg0 c3_i32_49
  let v107 : BitVec 32 := Scalar.extui v106
  let c0_i32_50 : BitVec 32 := 0#32
  let v108 : BitVec 1 := Scalar.cmpi .ne v107 c0_i32_50
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S2048x16x16x16_S2048x4096 : S2048x16x16x16.ShapeCasts S2048x4096
  transposes_S2048x4096_S4096x2048_1_0 : S2048x4096.Transposes [1, 0] S4096x2048
  shapeCasts_S16_S1x16 : S16.ShapeCasts S1x16
  shapeCasts_S128_S1x128 : S128.ShapeCasts S1x128
  inb_S128x4096_S128x256_0_0 : ∀ a, (![0, 0] : Fin 2 → Nat) a + S128x256.size a ≤ S128x4096.size a
  h_S128x256 : 0 < S128x256.numel
  bitsLt_bf16_f32 : FTy.bits .bf16 < FTy.bits .f32
  inb_S16x128x256_S1x128x256_0_0_0 : ∀ a, (![0, 0, 0] : Fin 3 → Nat) a + S1x128x256.size a ≤ S16x128x256.size a
  h_S1x128x256 : 0 < S1x128x256.numel
  shapeCasts_S1x128x256_S128x256 : S1x128x256.ShapeCasts S128x256
  shapeCasts_S128x256_S1x128x256 : S128x256.ShapeCasts S1x128x256
  packedbf16_S16x128x256_S1x128x256_0_0_0 : (Rect.unit (s := S16x128x256) ![0, 0, 0] S1x128x256.size inb_S16x128x256_S1x128x256_0_0_0).PackedRows (EltTy.packing .bf16)
  inb_S128x4096_S128x256_0_256 : ∀ a, (![0, 256] : Fin 2 → Nat) a + S128x256.size a ≤ S128x4096.size a
  inb_S16x128x256_S1x128x256_1_0_0 : ∀ a, (![1, 0, 0] : Fin 3 → Nat) a + S1x128x256.size a ≤ S16x128x256.size a
  packedbf16_S16x128x256_S1x128x256_1_0_0 : (Rect.unit (s := S16x128x256) ![1, 0, 0] S1x128x256.size inb_S16x128x256_S1x128x256_1_0_0).PackedRows (EltTy.packing .bf16)
  inb_S128x4096_S128x256_0_512 : ∀ a, (![0, 512] : Fin 2 → Nat) a + S128x256.size a ≤ S128x4096.size a
  inb_S16x128x256_S1x128x256_2_0_0 : ∀ a, (![2, 0, 0] : Fin 3 → Nat) a + S1x128x256.size a ≤ S16x128x256.size a
  packedbf16_S16x128x256_S1x128x256_2_0_0 : (Rect.unit (s := S16x128x256) ![2, 0, 0] S1x128x256.size inb_S16x128x256_S1x128x256_2_0_0).PackedRows (EltTy.packing .bf16)
  inb_S128x4096_S128x256_0_768 : ∀ a, (![0, 768] : Fin 2 → Nat) a + S128x256.size a ≤ S128x4096.size a
  inb_S16x128x256_S1x128x256_3_0_0 : ∀ a, (![3, 0, 0] : Fin 3 → Nat) a + S1x128x256.size a ≤ S16x128x256.size a
  packedbf16_S16x128x256_S1x128x256_3_0_0 : (Rect.unit (s := S16x128x256) ![3, 0, 0] S1x128x256.size inb_S16x128x256_S1x128x256_3_0_0).PackedRows (EltTy.packing .bf16)
  inb_S128x4096_S128x256_0_1024 : ∀ a, (![0, 1024] : Fin 2 → Nat) a + S128x256.size a ≤ S128x4096.size a
  inb_S16x128x256_S1x128x256_4_0_0 : ∀ a, (![4, 0, 0] : Fin 3 → Nat) a + S1x128x256.size a ≤ S16x128x256.size a
  packedbf16_S16x128x256_S1x128x256_4_0_0 : (Rect.unit (s := S16x128x256) ![4, 0, 0] S1x128x256.size inb_S16x128x256_S1x128x256_4_0_0).PackedRows (EltTy.packing .bf16)
  inb_S128x4096_S128x256_0_1280 : ∀ a, (![0, 1280] : Fin 2 → Nat) a + S128x256.size a ≤ S128x4096.size a
  inb_S16x128x256_S1x128x256_5_0_0 : ∀ a, (![5, 0, 0] : Fin 3 → Nat) a + S1x128x256.size a ≤ S16x128x256.size a
  packedbf16_S16x128x256_S1x128x256_5_0_0 : (Rect.unit (s := S16x128x256) ![5, 0, 0] S1x128x256.size inb_S16x128x256_S1x128x256_5_0_0).PackedRows (EltTy.packing .bf16)
  inb_S128x4096_S128x256_0_1536 : ∀ a, (![0, 1536] : Fin 2 → Nat) a + S128x256.size a ≤ S128x4096.size a
  inb_S16x128x256_S1x128x256_6_0_0 : ∀ a, (![6, 0, 0] : Fin 3 → Nat) a + S1x128x256.size a ≤ S16x128x256.size a
  packedbf16_S16x128x256_S1x128x256_6_0_0 : (Rect.unit (s := S16x128x256) ![6, 0, 0] S1x128x256.size inb_S16x128x256_S1x128x256_6_0_0).PackedRows (EltTy.packing .bf16)
  inb_S128x4096_S128x256_0_1792 : ∀ a, (![0, 1792] : Fin 2 → Nat) a + S128x256.size a ≤ S128x4096.size a
  inb_S16x128x256_S1x128x256_7_0_0 : ∀ a, (![7, 0, 0] : Fin 3 → Nat) a + S1x128x256.size a ≤ S16x128x256.size a
  packedbf16_S16x128x256_S1x128x256_7_0_0 : (Rect.unit (s := S16x128x256) ![7, 0, 0] S1x128x256.size inb_S16x128x256_S1x128x256_7_0_0).PackedRows (EltTy.packing .bf16)
  inb_S128x4096_S128x256_0_2048 : ∀ a, (![0, 2048] : Fin 2 → Nat) a + S128x256.size a ≤ S128x4096.size a
  inb_S16x128x256_S1x128x256_8_0_0 : ∀ a, (![8, 0, 0] : Fin 3 → Nat) a + S1x128x256.size a ≤ S16x128x256.size a
  packedbf16_S16x128x256_S1x128x256_8_0_0 : (Rect.unit (s := S16x128x256) ![8, 0, 0] S1x128x256.size inb_S16x128x256_S1x128x256_8_0_0).PackedRows (EltTy.packing .bf16)
  inb_S128x4096_S128x256_0_2304 : ∀ a, (![0, 2304] : Fin 2 → Nat) a + S128x256.size a ≤ S128x4096.size a
  inb_S16x128x256_S1x128x256_9_0_0 : ∀ a, (![9, 0, 0] : Fin 3 → Nat) a + S1x128x256.size a ≤ S16x128x256.size a
  packedbf16_S16x128x256_S1x128x256_9_0_0 : (Rect.unit (s := S16x128x256) ![9, 0, 0] S1x128x256.size inb_S16x128x256_S1x128x256_9_0_0).PackedRows (EltTy.packing .bf16)
  inb_S128x4096_S128x256_0_2560 : ∀ a, (![0, 2560] : Fin 2 → Nat) a + S128x256.size a ≤ S128x4096.size a
  inb_S16x128x256_S1x128x256_10_0_0 : ∀ a, (![10, 0, 0] : Fin 3 → Nat) a + S1x128x256.size a ≤ S16x128x256.size a
  packedbf16_S16x128x256_S1x128x256_10_0_0 : (Rect.unit (s := S16x128x256) ![10, 0, 0] S1x128x256.size inb_S16x128x256_S1x128x256_10_0_0).PackedRows (EltTy.packing .bf16)
  inb_S128x4096_S128x256_0_2816 : ∀ a, (![0, 2816] : Fin 2 → Nat) a + S128x256.size a ≤ S128x4096.size a
  inb_S16x128x256_S1x128x256_11_0_0 : ∀ a, (![11, 0, 0] : Fin 3 → Nat) a + S1x128x256.size a ≤ S16x128x256.size a
  packedbf16_S16x128x256_S1x128x256_11_0_0 : (Rect.unit (s := S16x128x256) ![11, 0, 0] S1x128x256.size inb_S16x128x256_S1x128x256_11_0_0).PackedRows (EltTy.packing .bf16)
  inb_S128x4096_S128x256_0_3072 : ∀ a, (![0, 3072] : Fin 2 → Nat) a + S128x256.size a ≤ S128x4096.size a
  inb_S16x128x256_S1x128x256_12_0_0 : ∀ a, (![12, 0, 0] : Fin 3 → Nat) a + S1x128x256.size a ≤ S16x128x256.size a
  packedbf16_S16x128x256_S1x128x256_12_0_0 : (Rect.unit (s := S16x128x256) ![12, 0, 0] S1x128x256.size inb_S16x128x256_S1x128x256_12_0_0).PackedRows (EltTy.packing .bf16)
  inb_S128x4096_S128x256_0_3328 : ∀ a, (![0, 3328] : Fin 2 → Nat) a + S128x256.size a ≤ S128x4096.size a
  inb_S16x128x256_S1x128x256_13_0_0 : ∀ a, (![13, 0, 0] : Fin 3 → Nat) a + S1x128x256.size a ≤ S16x128x256.size a
  packedbf16_S16x128x256_S1x128x256_13_0_0 : (Rect.unit (s := S16x128x256) ![13, 0, 0] S1x128x256.size inb_S16x128x256_S1x128x256_13_0_0).PackedRows (EltTy.packing .bf16)
  inb_S128x4096_S128x256_0_3584 : ∀ a, (![0, 3584] : Fin 2 → Nat) a + S128x256.size a ≤ S128x4096.size a
  inb_S16x128x256_S1x128x256_14_0_0 : ∀ a, (![14, 0, 0] : Fin 3 → Nat) a + S1x128x256.size a ≤ S16x128x256.size a
  packedbf16_S16x128x256_S1x128x256_14_0_0 : (Rect.unit (s := S16x128x256) ![14, 0, 0] S1x128x256.size inb_S16x128x256_S1x128x256_14_0_0).PackedRows (EltTy.packing .bf16)
  inb_S128x4096_S128x256_0_3840 : ∀ a, (![0, 3840] : Fin 2 → Nat) a + S128x256.size a ≤ S128x4096.size a
  inb_S16x128x256_S1x128x256_15_0_0 : ∀ a, (![15, 0, 0] : Fin 3 → Nat) a + S1x128x256.size a ≤ S16x128x256.size a
  packedbf16_S16x128x256_S1x128x256_15_0_0 : (Rect.unit (s := S16x128x256) ![15, 0, 0] S1x128x256.size inb_S16x128x256_S1x128x256_15_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x2048_o0_0_S256x2048 : S1024x2048.Slices ![0, 0] S256x2048
  reduces_S256x2048_S2048 : S256x2048.Reduces [0] S2048
  shapeCasts_S2048_S1x2048 : S2048.ShapeCasts S1x2048
  h_S1x1x2048 : 0 < S1x1x2048.numel
  shapeCasts_S1x1x2048_S1x2048 : S1x1x2048.ShapeCasts S1x2048
  shapeCasts_S1x2048_S1x1x2048 : S1x2048.ShapeCasts S1x1x2048
  h_S1x2048x128 : 0 < S1x2048x128.numel
  shapeCasts_S1x2048x128_S2048x128 : S1x2048x128.ShapeCasts S2048x128
  shapeCasts_S2048x128_S1x2048x128 : S2048x128.ShapeCasts S1x2048x128
  slices_S1024x2048_o256_0_S256x2048 : S1024x2048.Slices ![256, 0] S256x2048
  slices_S1024x2048_o512_0_S256x2048 : S1024x2048.Slices ![512, 0] S256x2048
  slices_S1024x2048_o768_0_S256x2048 : S1024x2048.Slices ![768, 0] S256x2048
  inb_S16x1x2048_S16x1x2048_0_0_0 : ∀ a, (![0, 0, 0] : Fin 3 → Nat) a + S16x1x2048.size a ≤ S16x1x2048.size a
  h_S16x1x2048 : 0 < S16x1x2048.numel
  shapeCasts_S16x1x2048_S16x2048 : S16x1x2048.ShapeCasts S16x2048
  reduces_S16x2048_S16 : S16x2048.Reduces [1] S16
  shapeCasts_S16_S16x1 : S16.ShapeCasts S16x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  transposes_S1x16_p1_0_S16x1 : S1x16.Transposes [1, 0] S16x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S16x1_o0_0_S1x1 : S16x1.Slices ![0, 0] S1x1
  broadcasts_S1x1_S1x128 : S1x1.Broadcasts S1x128
  slices_S16x1_o1_0_S1x1 : S16x1.Slices ![1, 0] S1x1
  slices_S16x1_o2_0_S1x1 : S16x1.Slices ![2, 0] S1x1
  slices_S16x1_o3_0_S1x1 : S16x1.Slices ![3, 0] S1x1
  slices_S16x1_o4_0_S1x1 : S16x1.Slices ![4, 0] S1x1
  slices_S16x1_o5_0_S1x1 : S16x1.Slices ![5, 0] S1x1
  slices_S16x1_o6_0_S1x1 : S16x1.Slices ![6, 0] S1x1
  slices_S16x1_o7_0_S1x1 : S16x1.Slices ![7, 0] S1x1
  slices_S16x1_o8_0_S1x1 : S16x1.Slices ![8, 0] S1x1
  slices_S16x1_o9_0_S1x1 : S16x1.Slices ![9, 0] S1x1
  slices_S16x1_o10_0_S1x1 : S16x1.Slices ![10, 0] S1x1
  slices_S16x1_o11_0_S1x1 : S16x1.Slices ![11, 0] S1x1
  slices_S16x1_o12_0_S1x1 : S16x1.Slices ![12, 0] S1x1
  slices_S16x1_o13_0_S1x1 : S16x1.Slices ![13, 0] S1x1
  slices_S16x1_o14_0_S1x1 : S16x1.Slices ![14, 0] S1x1
  slices_S16x1_o15_0_S1x1 : S16x1.Slices ![15, 0] S1x1
  inb_S16x2048x128_S1x2048x128_0_0_0 : ∀ a, (![0, 0, 0] : Fin 3 → Nat) a + S1x2048x128.size a ≤ S16x2048x128.size a
  broadcasts_S1x1_S2048x128 : S1x1.Broadcasts S2048x128
  inb_S16x2048x128_S1x2048x128_1_0_0 : ∀ a, (![1, 0, 0] : Fin 3 → Nat) a + S1x2048x128.size a ≤ S16x2048x128.size a
  inb_S16x2048x128_S1x2048x128_2_0_0 : ∀ a, (![2, 0, 0] : Fin 3 → Nat) a + S1x2048x128.size a ≤ S16x2048x128.size a
  inb_S16x2048x128_S1x2048x128_3_0_0 : ∀ a, (![3, 0, 0] : Fin 3 → Nat) a + S1x2048x128.size a ≤ S16x2048x128.size a
  inb_S16x2048x128_S1x2048x128_4_0_0 : ∀ a, (![4, 0, 0] : Fin 3 → Nat) a + S1x2048x128.size a ≤ S16x2048x128.size a
  inb_S16x2048x128_S1x2048x128_5_0_0 : ∀ a, (![5, 0, 0] : Fin 3 → Nat) a + S1x2048x128.size a ≤ S16x2048x128.size a
  inb_S16x2048x128_S1x2048x128_6_0_0 : ∀ a, (![6, 0, 0] : Fin 3 → Nat) a + S1x2048x128.size a ≤ S16x2048x128.size a
  inb_S16x2048x128_S1x2048x128_7_0_0 : ∀ a, (![7, 0, 0] : Fin 3 → Nat) a + S1x2048x128.size a ≤ S16x2048x128.size a
  inb_S16x2048x128_S1x2048x128_8_0_0 : ∀ a, (![8, 0, 0] : Fin 3 → Nat) a + S1x2048x128.size a ≤ S16x2048x128.size a
  inb_S16x2048x128_S1x2048x128_9_0_0 : ∀ a, (![9, 0, 0] : Fin 3 → Nat) a + S1x2048x128.size a ≤ S16x2048x128.size a
  inb_S16x2048x128_S1x2048x128_10_0_0 : ∀ a, (![10, 0, 0] : Fin 3 → Nat) a + S1x2048x128.size a ≤ S16x2048x128.size a
  inb_S16x2048x128_S1x2048x128_11_0_0 : ∀ a, (![11, 0, 0] : Fin 3 → Nat) a + S1x2048x128.size a ≤ S16x2048x128.size a
  inb_S16x2048x128_S1x2048x128_12_0_0 : ∀ a, (![12, 0, 0] : Fin 3 → Nat) a + S1x2048x128.size a ≤ S16x2048x128.size a
  inb_S16x2048x128_S1x2048x128_13_0_0 : ∀ a, (![13, 0, 0] : Fin 3 → Nat) a + S1x2048x128.size a ≤ S16x2048x128.size a
  inb_S16x2048x128_S1x2048x128_14_0_0 : ∀ a, (![14, 0, 0] : Fin 3 → Nat) a + S1x2048x128.size a ≤ S16x2048x128.size a
  inb_S16x2048x128_S1x2048x128_15_0_0 : ∀ a, (![15, 0, 0] : Fin 3 → Nat) a + S1x2048x128.size a ≤ S16x2048x128.size a
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S256x2048_S128x256_S2048x128_0_1_1_0_n_n_wf : DotDims.WF S256x2048 S128x256 S2048x128 [0] [1] [1] [0] [] []
  dot_S1x256_S128x256_S1x128_1_1_0_0_n_n_wf : DotDims.WF S1x256 S128x256 S1x128 [1] [1] [0] [0] [] []
  hrank0 : 0 < grid0.rank
  k0_off1_inb : ∀ i : grid0.Coords, ∀ (r : Fin 4), ∀ a, (k0_off1 i (BitVec.ofNat 32 r.val)) a + S1x1x2048.size a ≤ S16x1x2048.size a
  k0_off2_inb : ∀ i : grid0.Coords, ∀ (r : Fin 4), ∀ a, (k0_off2 i (BitVec.ofNat 32 r.val)) a + S1x128x256.size a ≤ S16x128x256.size a
  k0_off3_inb : ∀ i : grid0.Coords, ∀ (r : Fin 4), ∀ a, (k0_off3 i (BitVec.ofNat 32 r.val)) a + S1x2048x128.size a ≤ S16x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .f32 = 32 ∨ (Rect.block (s := S128x4096) S128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .f32 = 32 ∨ (Rect.block (s := S2048x128) S2048x128.size (cc0_transform_5 i) (hinb0_5 i)).WholeWords (EltTy.packing .f32)

variable [Facts₀]

def dot_S256x2048_S128x256_S2048x128_0_1_1_0_n_n : DotDims S256x2048 S128x256 S2048x128 where
  lhsContracting := [0]
  rhsContracting := [1]
  lhsNonContracting := [1]
  rhsNonContracting := [0]
  lhsBatch := []
  rhsBatch := []
  wf := dot_S256x2048_S128x256_S2048x128_0_1_1_0_n_n_wf
def dot_S1x256_S128x256_S1x128_1_1_0_0_n_n : DotDims S1x256 S128x256 S1x128 where
  lhsContracting := [1]
  rhsContracting := [1]
  lhsNonContracting := [0]
  rhsNonContracting := [0]
  lhsBatch := []
  rhsBatch := []
  wf := dot_S1x256_S128x256_S1x128_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x16x16x16 : Shape := ⟨4, ![2048, 16, 16, 16]⟩
abbrev S16 : Shape := ⟨1, ![16]⟩
abbrev S128x4096 : Shape := ⟨2, ![128, 4096]⟩
abbrev S128 : Shape := ⟨1, ![128]⟩
abbrev S2048x16x256 : Shape := ⟨3, ![2048, 16, 256]⟩
abbrev S128x16x256 : Shape := ⟨3, ![128, 16, 256]⟩
abbrev S16x1 : Shape := ⟨2, ![16, 1]⟩
abbrev S16x2048x128 : Shape := ⟨3, ![16, 2048, 128]⟩
abbrev S256x16x256 : Shape := ⟨3, ![256, 16, 256]⟩
abbrev S16x256x128 : Shape := ⟨3, ![16, 256, 128]⟩
abbrev S16x256 : Shape := ⟨2, ![16, 256]⟩
abbrev S256x1x256 : Shape := ⟨3, ![256, 1, 256]⟩
abbrev S256x256 : Shape := ⟨2, ![256, 256]⟩
abbrev S128x1x256 : Shape := ⟨3, ![128, 1, 256]⟩
abbrev S128x256 : Shape := ⟨2, ![128, 256]⟩
abbrev S256x128 : Shape := ⟨2, ![256, 128]⟩
abbrev S1x256x128 : Shape := ⟨3, ![1, 256, 128]⟩
abbrev S_ : Shape := ⟨0, ![]⟩
abbrev S128x16 : Shape := ⟨2, ![128, 16]⟩
abbrev S1x128 : Shape := ⟨2, ![1, 128]⟩
abbrev S1x16 : Shape := ⟨2, ![1, 16]⟩
abbrev S16x128 : Shape := ⟨2, ![16, 128]⟩
abbrev S2048x128 : Shape := ⟨2, ![2048, 128]⟩
abbrev S1x1 : Shape := ⟨2, ![1, 1]⟩

abbrev nBuf : Space → Nat
  | .hbm => 20
  | .vmem => 17
  | .smem => 0
  | _ => 0

abbrev bufTy : (tb : Table) → Fin (tcTables nBuf tb) → BufTy
  | .hbm, ⟨0, _⟩ => ⟨S2048x16x16x16, .f32⟩
  | .hbm, ⟨1, _⟩ => ⟨S16, .f32⟩
  | .hbm, ⟨2, _⟩ => ⟨S16, .f32⟩
  | .hbm, ⟨3, _⟩ => ⟨S128x4096, .f32⟩
  | .hbm, ⟨4, _⟩ => ⟨S128, .f32⟩
  | .hbm, ⟨5, _⟩ => ⟨S2048x16x256, .f32⟩
  | .hbm, ⟨6, _⟩ => ⟨S128x16x256, .f32⟩
  | .hbm, ⟨7, _⟩ => ⟨S16x1, .f32⟩
  | .hbm, ⟨8, _⟩ => ⟨S16x1, .f32⟩
  | .hbm, ⟨9, _⟩ => ⟨S16x2048x128, .f32⟩
  | .hbm, ⟨10, _⟩ => ⟨S16x1, .f32⟩
  | .hbm, ⟨11, _⟩ => ⟨S16x1, .f32⟩
  | .hbm, ⟨12, _⟩ => ⟨S_, .f32⟩
  | .hbm, ⟨13, _⟩ => ⟨S128x16, .f32⟩
  | .hbm, ⟨14, _⟩ => ⟨S1x128, .f32⟩
  | .hbm, ⟨15, _⟩ => ⟨S1x16, .f32⟩
  | .hbm, ⟨16, _⟩ => ⟨S16x128, .f32⟩
  | .hbm, ⟨17, _⟩ => ⟨S1x128, .f32⟩
  | .hbm, ⟨18, _⟩ => ⟨S1x128, .f32⟩
  | .hbm, ⟨19, _⟩ => ⟨S2048x128, .f32⟩
  | .local _ .vmem, ⟨0, _⟩ => ⟨S256x16x256, .f32⟩
  | .local _ .vmem, ⟨1, _⟩ => ⟨S256x16x256, .f32⟩
  | .local _ .vmem, ⟨2, _⟩ => ⟨S16x1, .f32⟩
  | .local _ .vmem, ⟨3, _⟩ => ⟨S16x1, .f32⟩
  | .local _ .vmem, ⟨4, _⟩ => ⟨S128x16x256, .f32⟩
  | .local _ .vmem, ⟨5, _⟩ => ⟨S16x256x128, .f32⟩
  | .local _ .vmem, ⟨6, _⟩ => ⟨S16x256x128, .f32⟩
  | .local _ .vmem, ⟨7, _⟩ => ⟨S16x1, .f32⟩
  | .local _ .vmem, ⟨8, _⟩ => ⟨S16x1, .f32⟩
  | .local _ .vmem, ⟨9, _⟩ => ⟨S16x256, .f32⟩
  | .local _ .vmem, ⟨10, _⟩ => ⟨S16x256, .f32⟩
  | .local _ .vmem, ⟨11, _⟩ => ⟨S16x256x128, .f32⟩
  | .local _ .vmem, ⟨12, _⟩ => ⟨S16x256x128, .f32⟩
  | .local _ .vmem, ⟨13, _⟩ => ⟨S16x1, .f32⟩
  | .local _ .vmem, ⟨14, _⟩ => ⟨S1x128, .f32⟩
  | .local _ .vmem, ⟨15, _⟩ => ⟨S256x128, .f32⟩
  | .local _ .vmem, ⟨16, _⟩ => ⟨S256x128, .f32⟩
  | _, _ => ⟨S2048x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v146 : BitVec 1 := Scalar.cmpi .eq arg0 c7_i32
  let v147 : BitVec 32 := Scalar.extui v146
  let c0_i32_157 : BitVec 32 := 0#32
  let v148 : BitVec 1 := Scalar.cmpi .ne v147 c0_i32_157
  v148

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2048x16x16x16_S2048x16x256 : S2048x16x16x16.ShapeCasts S2048x16x256
  shapeCasts_S128x4096_S128x16x256 : S128x4096.ShapeCasts S128x16x256
  shapeCasts_S16_S16x1 : S16.ShapeCasts S16x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x16x256_S256x16x256_0_0_0 : ∀ a, (![0, 0, 0] : Fin 3 → Nat) a + S256x16x256.size a ≤ S256x16x256.size a
  h_S256x16x256 : 0 < S256x16x256.numel
  shapeCasts_S256x16x256_S256x16x256 : S256x16x256.ShapeCasts S256x16x256
  reduces_S256x16x256_S16x256 : S256x16x256.Reduces [0] S16x256
  inb_S256x16x256_S256x1x256_0_0_0 : ∀ a, (![0, 0, 0] : Fin 3 → Nat) a + S256x1x256.size a ≤ S256x16x256.size a
  h_S256x1x256 : 0 < S256x1x256.numel
  shapeCasts_S256x1x256_S256x256 : S256x1x256.ShapeCasts S256x256
  inb_S128x16x256_S128x1x256_0_0_0 : ∀ a, (![0, 0, 0] : Fin 3 → Nat) a + S128x1x256.size a ≤ S128x16x256.size a
  h_S128x1x256 : 0 < S128x1x256.numel
  shapeCasts_S128x1x256_S128x256 : S128x1x256.ShapeCasts S128x256
  inb_S16x256x128_S1x256x128_0_0_0 : ∀ a, (![0, 0, 0] : Fin 3 → Nat) a + S1x256x128.size a ≤ S16x256x128.size a
  h_S1x256x128 : 0 < S1x256x128.numel
  shapeCasts_S1x256x128_S256x128 : S1x256x128.ShapeCasts S256x128
  shapeCasts_S256x128_S1x256x128 : S256x128.ShapeCasts S1x256x128
  inb_S256x16x256_S256x1x256_0_1_0 : ∀ a, (![0, 1, 0] : Fin 3 → Nat) a + S256x1x256.size a ≤ S256x16x256.size a
  inb_S128x16x256_S128x1x256_0_1_0 : ∀ a, (![0, 1, 0] : Fin 3 → Nat) a + S128x1x256.size a ≤ S128x16x256.size a
  inb_S16x256x128_S1x256x128_1_0_0 : ∀ a, (![1, 0, 0] : Fin 3 → Nat) a + S1x256x128.size a ≤ S16x256x128.size a
  inb_S256x16x256_S256x1x256_0_2_0 : ∀ a, (![0, 2, 0] : Fin 3 → Nat) a + S256x1x256.size a ≤ S256x16x256.size a
  inb_S128x16x256_S128x1x256_0_2_0 : ∀ a, (![0, 2, 0] : Fin 3 → Nat) a + S128x1x256.size a ≤ S128x16x256.size a
  inb_S16x256x128_S1x256x128_2_0_0 : ∀ a, (![2, 0, 0] : Fin 3 → Nat) a + S1x256x128.size a ≤ S16x256x128.size a
  inb_S256x16x256_S256x1x256_0_3_0 : ∀ a, (![0, 3, 0] : Fin 3 → Nat) a + S256x1x256.size a ≤ S256x16x256.size a
  inb_S128x16x256_S128x1x256_0_3_0 : ∀ a, (![0, 3, 0] : Fin 3 → Nat) a + S128x1x256.size a ≤ S128x16x256.size a
  inb_S16x256x128_S1x256x128_3_0_0 : ∀ a, (![3, 0, 0] : Fin 3 → Nat) a + S1x256x128.size a ≤ S16x256x128.size a
  inb_S256x16x256_S256x1x256_0_4_0 : ∀ a, (![0, 4, 0] : Fin 3 → Nat) a + S256x1x256.size a ≤ S256x16x256.size a
  inb_S128x16x256_S128x1x256_0_4_0 : ∀ a, (![0, 4, 0] : Fin 3 → Nat) a + S128x1x256.size a ≤ S128x16x256.size a
  inb_S16x256x128_S1x256x128_4_0_0 : ∀ a, (![4, 0, 0] : Fin 3 → Nat) a + S1x256x128.size a ≤ S16x256x128.size a
  inb_S256x16x256_S256x1x256_0_5_0 : ∀ a, (![0, 5, 0] : Fin 3 → Nat) a + S256x1x256.size a ≤ S256x16x256.size a
  inb_S128x16x256_S128x1x256_0_5_0 : ∀ a, (![0, 5, 0] : Fin 3 → Nat) a + S128x1x256.size a ≤ S128x16x256.size a
  inb_S16x256x128_S1x256x128_5_0_0 : ∀ a, (![5, 0, 0] : Fin 3 → Nat) a + S1x256x128.size a ≤ S16x256x128.size a
  inb_S256x16x256_S256x1x256_0_6_0 : ∀ a, (![0, 6, 0] : Fin 3 → Nat) a + S256x1x256.size a ≤ S256x16x256.size a
  inb_S128x16x256_S128x1x256_0_6_0 : ∀ a, (![0, 6, 0] : Fin 3 → Nat) a + S128x1x256.size a ≤ S128x16x256.size a
  inb_S16x256x128_S1x256x128_6_0_0 : ∀ a, (![6, 0, 0] : Fin 3 → Nat) a + S1x256x128.size a ≤ S16x256x128.size a
  inb_S256x16x256_S256x1x256_0_7_0 : ∀ a, (![0, 7, 0] : Fin 3 → Nat) a + S256x1x256.size a ≤ S256x16x256.size a
  inb_S128x16x256_S128x1x256_0_7_0 : ∀ a, (![0, 7, 0] : Fin 3 → Nat) a + S128x1x256.size a ≤ S128x16x256.size a
  inb_S16x256x128_S1x256x128_7_0_0 : ∀ a, (![7, 0, 0] : Fin 3 → Nat) a + S1x256x128.size a ≤ S16x256x128.size a
  inb_S256x16x256_S256x1x256_0_8_0 : ∀ a, (![0, 8, 0] : Fin 3 → Nat) a + S256x1x256.size a ≤ S256x16x256.size a
  inb_S128x16x256_S128x1x256_0_8_0 : ∀ a, (![0, 8, 0] : Fin 3 → Nat) a + S128x1x256.size a ≤ S128x16x256.size a
  inb_S16x256x128_S1x256x128_8_0_0 : ∀ a, (![8, 0, 0] : Fin 3 → Nat) a + S1x256x128.size a ≤ S16x256x128.size a
  inb_S256x16x256_S256x1x256_0_9_0 : ∀ a, (![0, 9, 0] : Fin 3 → Nat) a + S256x1x256.size a ≤ S256x16x256.size a
  inb_S128x16x256_S128x1x256_0_9_0 : ∀ a, (![0, 9, 0] : Fin 3 → Nat) a + S128x1x256.size a ≤ S128x16x256.size a
  inb_S16x256x128_S1x256x128_9_0_0 : ∀ a, (![9, 0, 0] : Fin 3 → Nat) a + S1x256x128.size a ≤ S16x256x128.size a
  inb_S256x16x256_S256x1x256_0_10_0 : ∀ a, (![0, 10, 0] : Fin 3 → Nat) a + S256x1x256.size a ≤ S256x16x256.size a
  inb_S128x16x256_S128x1x256_0_10_0 : ∀ a, (![0, 10, 0] : Fin 3 → Nat) a + S128x1x256.size a ≤ S128x16x256.size a
  inb_S16x256x128_S1x256x128_10_0_0 : ∀ a, (![10, 0, 0] : Fin 3 → Nat) a + S1x256x128.size a ≤ S16x256x128.size a
  inb_S256x16x256_S256x1x256_0_11_0 : ∀ a, (![0, 11, 0] : Fin 3 → Nat) a + S256x1x256.size a ≤ S256x16x256.size a
  inb_S128x16x256_S128x1x256_0_11_0 : ∀ a, (![0, 11, 0] : Fin 3 → Nat) a + S128x1x256.size a ≤ S128x16x256.size a
  inb_S16x256x128_S1x256x128_11_0_0 : ∀ a, (![11, 0, 0] : Fin 3 → Nat) a + S1x256x128.size a ≤ S16x256x128.size a
  inb_S256x16x256_S256x1x256_0_12_0 : ∀ a, (![0, 12, 0] : Fin 3 → Nat) a + S256x1x256.size a ≤ S256x16x256.size a
  inb_S128x16x256_S128x1x256_0_12_0 : ∀ a, (![0, 12, 0] : Fin 3 → Nat) a + S128x1x256.size a ≤ S128x16x256.size a
  inb_S16x256x128_S1x256x128_12_0_0 : ∀ a, (![12, 0, 0] : Fin 3 → Nat) a + S1x256x128.size a ≤ S16x256x128.size a
  inb_S256x16x256_S256x1x256_0_13_0 : ∀ a, (![0, 13, 0] : Fin 3 → Nat) a + S256x1x256.size a ≤ S256x16x256.size a
  inb_S128x16x256_S128x1x256_0_13_0 : ∀ a, (![0, 13, 0] : Fin 3 → Nat) a + S128x1x256.size a ≤ S128x16x256.size a
  inb_S16x256x128_S1x256x128_13_0_0 : ∀ a, (![13, 0, 0] : Fin 3 → Nat) a + S1x256x128.size a ≤ S16x256x128.size a
  inb_S256x16x256_S256x1x256_0_14_0 : ∀ a, (![0, 14, 0] : Fin 3 → Nat) a + S256x1x256.size a ≤ S256x16x256.size a
  inb_S128x16x256_S128x1x256_0_14_0 : ∀ a, (![0, 14, 0] : Fin 3 → Nat) a + S128x1x256.size a ≤ S128x16x256.size a
  inb_S16x256x128_S1x256x128_14_0_0 : ∀ a, (![14, 0, 0] : Fin 3 → Nat) a + S1x256x128.size a ≤ S16x256x128.size a
  inb_S256x16x256_S256x1x256_0_15_0 : ∀ a, (![0, 15, 0] : Fin 3 → Nat) a + S256x1x256.size a ≤ S256x16x256.size a
  inb_S128x16x256_S128x1x256_0_15_0 : ∀ a, (![0, 15, 0] : Fin 3 → Nat) a + S128x1x256.size a ≤ S128x16x256.size a
  inb_S16x256x128_S1x256x128_15_0_0 : ∀ a, (![15, 0, 0] : Fin 3 → Nat) a + S1x256x128.size a ≤ S16x256x128.size a
  reduces_S16x256_S16 : S16x256.Reduces [1] S16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reducesTo_S128x16x256_S128x16_d2 : S128x16x256.ReducesTo [2] S128x16
  h_S_ : 0 < S_.numel
  shapeCasts_S128_S1x128 : S128.ShapeCasts S1x128
  shapeCasts_S16x1_S1x16 : S16x1.ShapeCasts S1x16
  transposes_S128x16_S16x128_1_0 : S128x16.Transposes [1, 0] S16x128
  inb_S16x1_S1x1_0_0 : ∀ a, (![0, 0] : Fin 2 → Nat) a + S1x1.size a ≤ S16x1.size a
  h_S1x1 : 0 < S1x1.numel
  shapeCasts_S1x1_S1x1 : S1x1.ShapeCasts S1x1
  broadcasts_S1x1_S256x128 : S1x1.Broadcasts S256x128
  inb_S16x1_S1x1_1_0 : ∀ a, (![1, 0] : Fin 2 → Nat) a + S1x1.size a ≤ S16x1.size a
  inb_S16x1_S1x1_2_0 : ∀ a, (![2, 0] : Fin 2 → Nat) a + S1x1.size a ≤ S16x1.size a
  inb_S16x1_S1x1_3_0 : ∀ a, (![3, 0] : Fin 2 → Nat) a + S1x1.size a ≤ S16x1.size a
  inb_S16x1_S1x1_4_0 : ∀ a, (![4, 0] : Fin 2 → Nat) a + S1x1.size a ≤ S16x1.size a
  inb_S16x1_S1x1_5_0 : ∀ a, (![5, 0] : Fin 2 → Nat) a + S1x1.size a ≤ S16x1.size a
  inb_S16x1_S1x1_6_0 : ∀ a, (![6, 0] : Fin 2 → Nat) a + S1x1.size a ≤ S16x1.size a
  inb_S16x1_S1x1_7_0 : ∀ a, (![7, 0] : Fin 2 → Nat) a + S1x1.size a ≤ S16x1.size a
  inb_S16x1_S1x1_8_0 : ∀ a, (![8, 0] : Fin 2 → Nat) a + S1x1.size a ≤ S16x1.size a
  inb_S16x1_S1x1_9_0 : ∀ a, (![9, 0] : Fin 2 → Nat) a + S1x1.size a ≤ S16x1.size a
  inb_S16x1_S1x1_10_0 : ∀ a, (![10, 0] : Fin 2 → Nat) a + S1x1.size a ≤ S16x1.size a
  inb_S16x1_S1x1_11_0 : ∀ a, (![11, 0] : Fin 2 → Nat) a + S1x1.size a ≤ S16x1.size a
  inb_S16x1_S1x1_12_0 : ∀ a, (![12, 0] : Fin 2 → Nat) a + S1x1.size a ≤ S16x1.size a
  inb_S16x1_S1x1_13_0 : ∀ a, (![13, 0] : Fin 2 → Nat) a + S1x1.size a ≤ S16x1.size a
  inb_S16x1_S1x1_14_0 : ∀ a, (![14, 0] : Fin 2 → Nat) a + S1x1.size a ≤ S16x1.size a
  inb_S16x1_S1x1_15_0 : ∀ a, (![15, 0] : Fin 2 → Nat) a + S1x1.size a ≤ S16x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x256_S128x256_S256x128_1_1_0_0_n_n_wf : DotDims.WF S256x256 S128x256 S256x128 [1] [1] [0] [0] [] []
  dot_S1x16_S16x128_S1x128_1_0_0_1_n_n_wf : DotDims.WF S1x16 S16x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x256.size a ≤ S2048x16x256.size a
  hwx0_0 : ∀ i : grid0.Coords, EltTy.bits .f32 = 32 ∨ (Rect.block (s := S2048x16x256) S256x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S16x1.size a
  hwx0_1 : ∀ i : grid0.Coords, EltTy.bits .f32 = 32 ∨ (Rect.block (s := S16x1) S16x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16x256.size a ≤ S128x16x256.size a
  hwx0_3 : ∀ i : grid0.Coords, EltTy.bits .f32 = 32 ∨ (Rect.block (s := S128x16x256) S128x16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x128.size a ≤ S16x2048x128.size a
  hwx0_4 : ∀ i : grid0.Coords, EltTy.bits .f32 = 32 ∨ (Rect.block (s := S16x2048x128) S16x256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x128.size a ≤ S16x2048x128.size a
  hwx1_0 : ∀ i : grid1.Coords, EltTy.bits .f32 = 32 ∨ (Rect.block (s := S16x2048x128) S16x256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S2048x128.size a
  hwx1_3 : ∀ i : grid1.Coords, EltTy.bits .f32 = 32 ∨ (Rect.block (s := S2048x128) S256x128.size (cc1_transform_3 i) (hinb1_3 i)).WholeWords (EltTy.packing .f32)

variable [Facts₀]

def dot_S256x256_S128x256_S256x128_1_1_0_0_n_n : DotDims S256x256 S128x256 S256x128 where
  lhsContracting := [1]
  rhsContracting := [1]
  lhsNonContracting := [0]
  rhsNonContracting := [0]
  lhsBatch := []
  rhsBatch := []
  wf := dot_S256x256_S128x256_S256x128_1_1_0_0_n_n_wf
def dot_S1x16_S16x128_S1x128_1_0_0_1_n_n : DotDims S1x16 S16x128 S1x128 where
  lhsContracting := [1]
  rhsContracting := [0]
  lhsNonContracting := [0]
  rhsNonContracting := [1]
  lhsBatch := []
  rhsBatch := []
  wf := dot_S1x16_S16x128_S1x128_1_0_0_1_n_n_wf

abbrev win0_0 : Pipeline.Window sig grid0 :=
  Pipeline.Window.ofSpec (Memref.whole main_v0) S256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S16x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S16x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S16x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v4_0) S16x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KBitsBase.lean ====
/-
  The fused batch-norm + linear kernel's body: what the runs of its three control cases share.
  The grid has four points, one per group of four channels. The first point also converts the
  weight into the scratch it is kept in; the last point also reads the per-channel sums back,
  forms scale and shift, and writes the output block. Every point stores four rows of the two
  sum scratches and four slabs of the partial-product scratch.
-/
import proofs.«170975_g2000502485364553_pallasbulk_1302_22_alg».proof.Proof.Gen.Kernel.Frame
import proofs.«170975_g2000502485364553_pallasbulk_1302_22_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first conditional's test (the point is the first), from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test (the point is the last). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
/-- The four scratch operands: the converted weight, the per-channel row sums, the per-channel
    row sums of squares, the per-channel partial products. -/
abbrev scM0_0 : Memref sig .tc .vmem S16x128x256 .bf16 := Memref.whole cc0_scratch0
abbrev scM0_1 : Memref sig .tc .vmem S16x1x2048 .f32 := Memref.whole cc0_scratch1
abbrev scM0_2 : Memref sig .tc .vmem S16x1x2048 .f32 := Memref.whole cc0_scratch2
abbrev scM0_3 : Memref sig .tc .vmem S16x2048x128 .f32 := Memref.whole cc0_scratch3

/-- The region invariant of the class, with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.KBitsRunA.lean ====
/-
  The kernel body's run at the first point: the weight is converted into its scratch (sixteen slabs, covering it), then four rows of each sum scratch and four slabs of the partial-product scratch are stored; the output buffer is left untouched.
  The run is stated over whole staging memrefs at named contents and hands each buffer back with
  the list of stored pieces it found (newest first); what a piece holds is a term over the
  body's loads.
-/
import proofs.«170975_g2000502485364553_pallasbulk_1302_22_alg».proof.Proof.KBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the first point, with the stored pieces of each buffer it writes as the witness. -/
noncomputable def kernelRun0_A (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i)
    (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) :
    Σ' (LS0 : List (View.Piece (Elt F) S16x128x256 .bf16)) (LS1 : List (View.Piece (Elt F) S16x1x2048 .f32)) (LS2 : List (View.Piece (Elt F) S16x1x2048 .f32)), { LS3 : List (View.Piece (Elt F) S16x2048x128 .f32) //
      ∀ (xi5 : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (arg8.view.loc (c : Thread nD τ) ↦[arg8.view.set]{fullShare} arg8.view.writes (Elt F) (harg8.unread xs1) LS1) ∗ (arg9.view.loc (c : Thread nD τ) ↦[arg9.view.set]{fullShare} arg9.view.writes (Elt F) (harg9.unread xs2) LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc0__fused_bn_fc_kernel_eq_skeleton]; unfold cc0__fused_bn_fc_kernel_skel
    simp only [k0_part9_eq_skeleton, k0_part1_eq_skeleton, k0_part2_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexact HS1
    isplitl [HS2]; · iexact HS2
    iexact HS3

end Cert.Kernel.Body

end
-- ==== Proof.KBitsRunB.lean ====
/-
  The kernel body's run at a middle point: four rows of each sum scratch and four slabs of the partial-product scratch are stored over what the points before left; the converted weight is only read; the output buffer is left untouched.
  The run is stated over whole staging memrefs at named contents and hands each buffer back with
  the list of stored pieces it found (newest first); what a piece holds is a term over the
  body's loads.
-/
import proofs.«170975_g2000502485364553_pallasbulk_1302_22_alg».proof.Proof.KBitsRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a middle point, with the stored pieces of each buffer it writes as the witness. -/
noncomputable def kernelRun0_B (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i)
    (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) :
    Σ' (LS1 : List (View.Piece (Elt F) S16x1x2048 .f32)) (LS2 : List (View.Piece (Elt F) S16x1x2048 .f32)), { LS3 : List (View.Piece (Elt F) S16x2048x128 .f32) //
      ∀ (xi5 : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (arg8.view.loc (c : Thread nD τ) ↦[arg8.view.set]{fullShare} arg8.view.writes (Elt F) (harg8.unread xs1) LS1) ∗ (arg9.view.loc (c : Thread nD τ) ↦[arg9.view.set]{fullShare} arg9.view.writes (Elt F) (harg9.unread xs2) LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__fused_bn_fc_kernel_eq_skeleton]; unfold cc0__fused_bn_fc_kernel_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]; · iexact HS1
    isplitl [HS2]; · iexact HS2
    iexact HS3

end Cert.Kernel.Body

end
-- ==== Proof.KBitsRunC.lean ====
/-
  The kernel body's run at the last point: four rows of each sum scratch and four slabs of the partial-product scratch are stored, then the three scratches are read back whole, scale and shift are formed, and the output buffer is stored whole.
  The run is stated over whole staging memrefs at named contents and hands each buffer back with
  the list of stored pieces it found (newest first); what a piece holds is a term over the
  body's loads.
-/
import proofs.«170975_g2000502485364553_pallasbulk_1302_22_alg».proof.Proof.KBitsRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the last point, with the stored pieces of each buffer it writes as the witness. -/
noncomputable def kernelRun0_C (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i)
    (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) :
    Σ' (L5 : List (View.Piece (Elt F) S2048x128 .f32)) (LS1 : List (View.Piece (Elt F) S16x1x2048 .f32)) (LS2 : List (View.Piece (Elt F) S16x1x2048 .f32)), { LS3 : List (View.Piece (Elt F) S16x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (arg8.view.loc (c : Thread nD τ) ↦[arg8.view.set]{fullShare} arg8.view.writes (Elt F) (harg8.unread xs1) LS1) ∗ (arg9.view.loc (c : Thread nD τ) ↦[arg9.view.set]{fullShare} arg9.view.writes (Elt F) (harg9.unread xs2) LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_bn_fc_kernel_eq_skeleton]; unfold cc0__fused_bn_fc_kernel_skel
    simp only [k0_part9_eq_skeleton, k0_part10_eq_skeleton, k0_part11_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]; · iexact HS1
    isplitl [HS2]; · iexact HS2
    iexact HS3

end Cert.Kernel.Body

end
-- ==== Proof.KBitsDat.lean ====
/-
  What the four scratch buffers and the output buffer hold after each grid point, and the
  pipeline's proof data built on it.
  The weight scratch is covered whole at the first point. Each sum scratch gets rows 4t..4t+3 at
  point t and the partial-product scratch slabs 4t..4t+3, over what was there before: after the
  fourth point every row and slab has been stored. The state after a point is therefore stated
  over the contents the three partially stored scratches had when the region was entered.
-/
import proofs.«170975_g2000502485364553_pallasbulk_1302_22_alg».proof.Proof.KBitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch buffers' contents: converted weight, row sums, row sums of squares, partial products. -/
abbrev St (F : FTy → Type) [FloatOps F] : Type := Vec F S16x128x256 .bf16 × Vec F S16x1x2048 .f32 × Vec F S16x1x2048 .f32 × Vec F S16x2048x128 .f32

/-- The scratch after the first point, from what the three partially stored ones held before. -/
def stepA (c : Dev nD) (t : Fin cfg0.N) (h0 : t.val % 4 = 0) (h1 : ¬t.val % 4 = 3) (j : St F) : St F :=
  let R := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2
  (scM0_0.view.read (Elt F) (scM0_0.view.writes (Elt F) scM0_0.view.junk R.1),
   scM0_1.view.read (Elt F) (scM0_1.view.writes (Elt F) ((Memref.isWhole_whole cc0_scratch1).unread j.2.1) R.2.1),
   scM0_2.view.read (Elt F) (scM0_2.view.writes (Elt F) ((Memref.isWhole_whole cc0_scratch2).unread j.2.2.1) R.2.2.1),
   scM0_3.view.read (Elt F) (scM0_3.view.writes (Elt F) ((Memref.isWhole_whole cc0_scratch3).unread j.2.2.2) R.2.2.2.1))

/-- The scratch after a middle point, from what the point before left. -/
def stepB (c : Dev nD) (t : Fin cfg0.N) (h0 : ¬t.val % 4 = 0) (h1 : ¬t.val % 4 = 3) (s : St F) : St F :=
  let R := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2
  (s.1,
   scM0_1.view.read (Elt F) (scM0_1.view.writes (Elt F) ((Memref.isWhole_whole cc0_scratch1).unread s.2.1) R.1),
   scM0_2.view.read (Elt F) (scM0_2.view.writes (Elt F) ((Memref.isWhole_whole cc0_scratch2).unread s.2.2.1) R.2.1),
   scM0_3.view.read (Elt F) (scM0_3.view.writes (Elt F) ((Memref.isWhole_whole cc0_scratch3).unread s.2.2.2) R.2.2.1))

/-- The scratch after the last point, from what the point before left. -/
def stepC (c : Dev nD) (t : Fin cfg0.N) (h0 : ¬t.val % 4 = 0) (h1 : t.val % 4 = 3) (s : St F) : St F :=
  let R := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2
  (s.1,
   scM0_1.view.read (Elt F) (scM0_1.view.writes (Elt F) ((Memref.isWhole_whole cc0_scratch1).unread s.2.1) R.2.1),
   scM0_2.view.read (Elt F) (scM0_2.view.writes (Elt F) ((Memref.isWhole_whole cc0_scratch2).unread s.2.2.1) R.2.2.1),
   scM0_3.view.read (Elt F) (scM0_3.view.writes (Elt F) ((Memref.isWhole_whole cc0_scratch3).unread s.2.2.2) R.2.2.2.1))

/-- The output buffer after the last point: its one stored piece read back. -/
def outC (c : Dev nD) (t : Fin cfg0.N) (h0 : ¬t.val % 4 = 0) (h1 : t.val % 4 = 3) (s : St F) : Vec F S2048x128 .f32 :=
  (ms0_5 t).view.read (Elt F) ((ms0_5 t).view.writes (Elt F) (ms0_5 t).view.junk
    (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2).1)

/-- THE ACCUMULATION: the scratch after the body at position `n`, by recursion on the point. -/
def stAt (c : Dev nD) (j : St F) : (n : ℕ) → n < cfg0.N → St F
  | 0, hn => stepA m c ⟨0, hn⟩ (Nat.zero_mod _) (show ¬0 % 4 = 3 by decide) j
  | n + 1, hn =>
    if h0 : (n + 1) % 4 = 0 then j
    else if h1 : (n + 1) % 4 = 3 then stepC m c ⟨n + 1, hn⟩ h0 h1 (stAt c j n (Nat.lt_of_succ_lt hn))
    else stepB m c ⟨n + 1, hn⟩ h0 h1 (stAt c j n (Nat.lt_of_succ_lt hn))

theorem stAt_A (c : Dev nD) (j : St F) (t : Fin cfg0.N) (hz : t.val = 0) :
    stAt m c j t.val t.isLt = stepA m c t (by rw [hz]) (by rw [hz]; decide) j := by
  obtain ⟨n, hn⟩ := t
  cases n with
  | zero => rfl
  | succ n => exact absurd hz (Nat.succ_ne_zero n)

theorem stAt_B (c : Dev nD) (j : St F) (t : Fin cfg0.N) (h0 : ¬t.val % 4 = 0) (h1 : ¬t.val % 4 = 3) :
    stAt m c j t.val t.isLt = stepB m c t h0 h1 (stAt m c j (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_C (c : Dev nD) (j : St F) (t : Fin cfg0.N) (h0 : ¬t.val % 4 = 0) (h1 : t.val % 4 = 3) :
    stAt m c j t.val t.isLt = stepC m c t h0 h1 (stAt m c j (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- Contents chosen once for the scratch at the region's entry, where nothing is known of it: the
    output of the last point does not depend on them (every row has been stored by then). -/
def J0 : St F := (scM0_0.view.read (Elt F) scM0_0.view.junk, scM0_1.view.read (Elt F) scM0_1.view.junk, scM0_2.view.read (Elt F) scM0_2.view.junk, scM0_3.view.read (Elt F) scM0_3.view.junk)

/-- What the output buffer holds after the body at position `n`: at the last point the stored block; elsewhere nothing is stored and nothing is consulted. -/
def outAt (c : Dev nD) (n : ℕ) (hn : n < cfg0.N) : Vec F S2048x128 .f32 :=
  if h : ¬n % 4 = 0 ∧ n % 4 = 3 then outC m c ⟨n, hn⟩ h.1 h.2 (stAt m c J0 (n - 1) (Nat.lt_of_le_of_lt (Nat.sub_le _ _) hn))
  else (ms0_5 ⟨n, hn⟩).view.read (Elt F) (ms0_5 ⟨n, hn⟩).view.junk

/-- The region invariant before position `n`: before the first point every scratch at anything; afterwards the four
    scratch buffers at the state the points so far produce from SOME entry contents, and the generator register at some state. -/
def PhiS (c : Dev nD) : (n : ℕ) → n ≤ cfg0.N → sProp 𝕄
  | 0, _ => Pipeline.ΦA spec0 c
  | n + 1, hn => iprop(iprop(∃ j : St F, owns (c : Thread nD τ) scM0_0 fullShare (stAt m c j n hn).1 ∗ owns (c : Thread nD τ) scM0_1 fullShare (stAt m c j n hn).2.1 ∗ owns (c : Thread nD τ) scM0_2 fullShare (stAt m c j n hn).2.2.1 ∗ owns (c : Thread nD τ) scM0_3 fullShare (stAt m c j n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ j : St F, owns (c : Thread nD τ) scM0_0 fullShare (stAt m c j n hn).1 ∗ owns (c : Thread nD τ) scM0_1 fullShare (stAt m c j n hn).2.1 ∗ owns (c : Thread nD τ) scM0_2 fullShare (stAt m c j n hn).2.2.1 ∗ owns (c : Thread nD τ) scM0_3 fullShare (stAt m c j n hn).2.2.2) ∗ (∃ r, prngReg c r)) := rfl

theorem PhiS_pos (c : Dev nD) (n : ℕ) (h : n ≤ cfg0.N) (hz : n ≠ 0) :
    PhiS m c n h = iprop(iprop(∃ j : St F, owns (c : Thread nD τ) scM0_0 fullShare (stAt m c j (n - 1) (by omega)).1 ∗ owns (c : Thread nD τ) scM0_1 fullShare (stAt m c j (n - 1) (by omega)).2.1 ∗ owns (c : Thread nD τ) scM0_2 fullShare (stAt m c j (n - 1) (by omega)).2.2.1 ∗ owns (c : Thread nD τ) scM0_3 fullShare (stAt m c j (n - 1) (by omega)).2.2.2) ∗ (∃ r, prngReg c r)) := by
  cases n with
  | zero => exact absurd rfl hz
  | succ n => rfl

/-! ## The pipeline's proof data -/

/-- The proof data: the arrays as the region finds them; after the body each input's buffer at its block and the
    output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Body

end
-- ==== Proof.KBitsRowsBase.lean ====
/-
  Covers, bands and agreement: the first point's stores cover the weight scratch, the last point's one store covers the output buffer; a one-row (one-slab) rectangle holds exactly that row's indices; writes reaching a band of four rows keep two prior contents' agreement below the band and extend it over the band.
-/
import proofs.«170975_g2000502485364553_pallasbulk_1302_22_alg».proof.Proof.KBitsDat

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's sixteen stored slabs cover the weight scratch. -/
theorem scoverA (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i)
    (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x128x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).1 S1x128x256.size (by sl_kernel_rfl) y

/-- The last point's one stored piece covers the output buffer. -/
theorem coverC (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i)
    (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S2048x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1 S2048x128.size (by sl_kernel_rfl) y

/-- A one-row rectangle of a sum scratch at row `o` holds exactly the indices of that row. -/
theorem mem_band_rows (o : ℕ) (y : S16x1x2048.Idx) :
    (∀ a : Fin 3, (![o, 0, 0] : Fin 3 → ℕ) a ≤ (y a).val ∧ (y a).val < (![o, 0, 0] : Fin 3 → ℕ) a + (![1, 1, 2048] : Fin 3 → ℕ) a) ↔ (y 0).val = o := by
  have h1 : (y 1).val < 1 := (y 1).isLt
  have h2 : (y 2).val < 2048 := (y 2).isLt
  constructor
  · intro h; have := h 0; simp at this; omega
  · intro h a; fin_cases a <;> simp <;> omega

/-- A one-slab rectangle of the partial-product scratch at slab `o` holds exactly the indices of that slab. -/
theorem mem_band_slabs (o : ℕ) (y : S16x2048x128.Idx) :
    (∀ a : Fin 3, (![o, 0, 0] : Fin 3 → ℕ) a ≤ (y a).val ∧ (y a).val < (![o, 0, 0] : Fin 3 → ℕ) a + (![1, 2048, 128] : Fin 3 → ℕ) a) ↔ (y 0).val = o := by
  have h1 : (y 1).val < 2048 := (y 1).isLt
  have h2 : (y 2).val < 128 := (y 2).isLt
  constructor
  · intro h; have := h 0; simp at this; omega
  · intro h a; fin_cases a <;> simp <;> omega

/-- The grid coordinate of point `t` is `t`. -/
theorem coords_val : ∀ t : Fin cfg0.N, ((grid0.coords t) 0).val = t.val :=
  (by decide +kernel : ∀ t : Fin grid0.N, ((grid0.coords t) 0).val = t.val)

/-! ## Agreement of two scratch states on the rows stored so far -/

/-- Writes whose pieces reach exactly the band of four rows from `lo`, over two prior contents that agree
    below `lo`, leave contents that agree below `lo + 4`. -/
theorem agree_step {sg : RefSig} {κ : Kind} {sp : Space} {s : Shape} {e : EltTy} {Val : EltTy → Type}
    (v : View sg κ sp s e) (f f' : v.ty.Contents Val) (L : List (View.Piece Val s e)) (lo : ℕ) (row : s.Idx → ℕ)
    (hband : ∀ y, (∃ p ∈ L, y ∈ p.1.set) ↔ (lo ≤ row y ∧ row y < lo + 4))
    (hag : ∀ y, row y < lo → v.read Val f y = v.read Val f' y) :
    ∀ y, row y < lo + 4 → v.read Val (v.writes Val f L) y = v.read Val (v.writes Val f' L) y := by
  intro y hy
  by_cases hc : ∃ p ∈ L, y ∈ p.1.set
  · exact View.read_writes_apply_eq v f v f' y L hc
  · have hn : ∀ p ∈ L, y ∉ p.1.set := fun p hp hm => hc ⟨p, hp, hm⟩
    rw [View.read_writes_apply_of_forall_not_mem v f y L hn, View.read_writes_apply_of_forall_not_mem v f' y L hn]
    have : ¬(lo ≤ row y ∧ row y < lo + 4) := fun h => hc ((hband y).mpr h)
    exact hag y (by omega)

/-- `agree_step` with the two piece lists equal rather than the same. -/
theorem agree_step2 {sg : RefSig} {κ : Kind} {sp : Space} {s : Shape} {e : EltTy} {Val : EltTy → Type}
    (v : View sg κ sp s e) (f f' : v.ty.Contents Val) (L L' : List (View.Piece Val s e)) (hLL : L = L') (lo : ℕ) (row : s.Idx → ℕ)
    (hband : ∀ y, (∃ p ∈ L, y ∈ p.1.set) ↔ (lo ≤ row y ∧ row y < lo + 4))
    (hag : ∀ y, row y < lo → v.read Val f y = v.read Val f' y) :
    ∀ y, row y < lo + 4 → v.read Val (v.writes Val f L) y = v.read Val (v.writes Val f' L') y := by
  subst hLL; exact agree_step v f f' L lo row hband hag

/-- Contents of a whole memref that read the same are the same. -/
theorem contents_ext {sp : Space} {s : Shape} {e : EltTy} (M : Memref sig .tc sp s e) (hM : M.IsWhole)
    (f f' : M.view.ty.Contents (Elt F)) (h : M.view.read (Elt F) f = M.view.read (Elt F) f') : f = f' :=
  (hM.eq_unread rfl).trans (h ▸ (hM.eq_unread rfl).symm)

end Cert.Kernel.Body

end
-- ==== Proof.KBitsRowsA.lean ====
/-
  The first point's stores into the two sum scratches and the partial-product scratch reach exactly rows (slabs) 0..3, and what they store does not depend on the scratches' prior contents.
-/
import proofs.«170975_g2000502485364553_pallasbulk_1302_22_alg».proof.Proof.KBitsRowsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem rowsA1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x1x2048.Idx) :
    (∃ p ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.1, y ∈ p.1.set) ↔ (4 * (i 0).val ≤ (y 0).val ∧ (y 0).val < 4 * (i 0).val + 4) := by
  unfold kernelRun0_A; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsA2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x1x2048.Idx) :
    (∃ p ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.1, y ∈ p.1.set) ↔ (4 * (i 0).val ≤ (y 0).val ∧ (y 0).val < 4 * (i 0).val + 4) := by
  unfold kernelRun0_A; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsA3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x2048x128.Idx) :
    (∃ p ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.2.1, y ∈ p.1.set) ↔ (4 * (i 0).val ≤ (y 0).val ∧ (y 0).val < 4 * (i 0).val + 4) := by
  unfold kernelRun0_A; dsimp only; sl_unfold_run_names
  simp only [List.mem_cons, List.mem_nil_iff, or_false, exists_eq_or_imp, exists_eq_left, Rect.mem_set_unit]
  rw [show k0_off3 i (3#32) = _ from k0_off3_eq i ⟨3, by decide⟩, show k0_off3 i (2#32) = _ from k0_off3_eq i ⟨2, by decide⟩, show k0_off3 i (1#32) = _ from k0_off3_eq i ⟨1, by decide⟩, show k0_off3 i (0#32) = _ from k0_off3_eq i ⟨0, by decide⟩]
  rw [mem_band_slabs, mem_band_slabs, mem_band_slabs, mem_band_slabs]
  dsimp only
  omega

theorem piecesA1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.1 = (kernelRun0_A c i arg1 harg1 arg2 harg2 arg3 harg3 arg4 harg4 arg5 harg5 arg6 harg6 arg7 harg7 arg8 harg8 arg9 harg9 arg10 harg10 hc0 hc1 x0 x1 x2 x3 x4 xs1' xs2' xs3').2.1 := by
  unfold kernelRun0_A; dsimp only; try rfl

theorem piecesA2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.1 = (kernelRun0_A c i arg1 harg1 arg2 harg2 arg3 harg3 arg4 harg4 arg5 harg5 arg6 harg6 arg7 harg7 arg8 harg8 arg9 harg9 arg10 harg10 hc0 hc1 x0 x1 x2 x3 x4 xs1' xs2' xs3').2.2.1 := by
  unfold kernelRun0_A; dsimp only; try rfl

theorem piecesA3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.2.1 = (kernelRun0_A c i arg1 harg1 arg2 harg2 arg3 harg3 arg4 harg4 arg5 harg5 arg6 harg6 arg7 harg7 arg8 harg8 arg9 harg9 arg10 harg10 hc0 hc1 x0 x1 x2 x3 x4 xs1' xs2' xs3').2.2.2.1 := by
  unfold kernelRun0_A; dsimp only; try rfl

end Cert.Kernel.Body

end
-- ==== Proof.KBitsRowsB.lean ====
/-
  A middle point's stores reach exactly rows (slabs) 4t..4t+3, and what they store does not depend on the three partially stored scratches' prior contents.
-/
import proofs.«170975_g2000502485364553_pallasbulk_1302_22_alg».proof.Proof.KBitsRowsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem rowsB1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).1, y ∈ p.1.set) ↔ (4 * (i 0).val ≤ (y 0).val ∧ (y 0).val < 4 * (i 0).val + 4) := by
  unfold kernelRun0_B; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsB2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.1, y ∈ p.1.set) ↔ (4 * (i 0).val ≤ (y 0).val ∧ (y 0).val < 4 * (i 0).val + 4) := by
  unfold kernelRun0_B; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsB3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x2048x128.Idx) :
    (∃ p ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1, y ∈ p.1.set) ↔ (4 * (i 0).val ≤ (y 0).val ∧ (y 0).val < 4 * (i 0).val + 4) := by
  unfold kernelRun0_B; dsimp only; sl_unfold_run_names
  simp only [List.mem_cons, List.mem_nil_iff, or_false, exists_eq_or_imp, exists_eq_left, Rect.mem_set_unit]
  rw [show k0_off3 i (3#32) = _ from k0_off3_eq i ⟨3, by decide⟩, show k0_off3 i (2#32) = _ from k0_off3_eq i ⟨2, by decide⟩, show k0_off3 i (1#32) = _ from k0_off3_eq i ⟨1, by decide⟩, show k0_off3 i (0#32) = _ from k0_off3_eq i ⟨0, by decide⟩]
  rw [mem_band_slabs, mem_band_slabs, mem_band_slabs, mem_band_slabs]
  dsimp only
  omega

theorem piecesB1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).1 = (kernelRun0_B c i arg1 harg1 arg2 harg2 arg3 harg3 arg4 harg4 arg5 harg5 arg6 harg6 arg7 harg7 arg8 harg8 arg9 harg9 arg10 harg10 hc0 hc1 x0 x1 x2 x3 x4 xs0 xs1' xs2' xs3').1 := by
  unfold kernelRun0_B; dsimp only; try rfl

theorem piecesB2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = (kernelRun0_B c i arg1 harg1 arg2 harg2 arg3 harg3 arg4 harg4 arg5 harg5 arg6 harg6 arg7 harg7 arg8 harg8 arg9 harg9 arg10 harg10 hc0 hc1 x0 x1 x2 x3 x4 xs0 xs1' xs2' xs3').2.1 := by
  unfold kernelRun0_B; dsimp only; try rfl

theorem piecesB3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1 = (kernelRun0_B c i arg1 harg1 arg2 harg2 arg3 harg3 arg4 harg4 arg5 harg5 arg6 harg6 arg7 harg7 arg8 harg8 arg9 harg9 arg10 harg10 hc0 hc1 x0 x1 x2 x3 x4 xs0 xs1' xs2' xs3').2.2.1 := by
  unfold kernelRun0_B; dsimp only; try rfl

end Cert.Kernel.Body

end
-- ==== Proof.KBitsRowsC.lean ====
/-
  The last point's stores reach exactly rows (slabs) 4t..4t+3.
-/
import proofs.«170975_g2000502485364553_pallasbulk_1302_22_alg».proof.Proof.KBitsRowsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem rowsC1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1, y ∈ p.1.set) ↔ (4 * (i 0).val ≤ (y 0).val ∧ (y 0).val < 4 * (i 0).val + 4) := by
  unfold kernelRun0_C; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsC2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1, y ∈ p.1.set) ↔ (4 * (i 0).val ≤ (y 0).val ∧ (y 0).val < 4 * (i 0).val + 4) := by
  unfold kernelRun0_C; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsC3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x2048x128.Idx) :
    (∃ p ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1, y ∈ p.1.set) ↔ (4 * (i 0).val ≤ (y 0).val ∧ (y 0).val < 4 * (i 0).val + 4) := by
  unfold kernelRun0_C; dsimp only; sl_unfold_run_names
  simp only [List.mem_cons, List.mem_nil_iff, or_false, exists_eq_or_imp, exists_eq_left, Rect.mem_set_unit]
  rw [show k0_off3 i (3#32) = _ from k0_off3_eq i ⟨3, by decide⟩, show k0_off3 i (2#32) = _ from k0_off3_eq i ⟨2, by decide⟩, show k0_off3 i (1#32) = _ from k0_off3_eq i ⟨1, by decide⟩, show k0_off3 i (0#32) = _ from k0_off3_eq i ⟨0, by decide⟩]
  rw [mem_band_slabs, mem_band_slabs, mem_band_slabs, mem_band_slabs]
  dsimp only
  omega

end Cert.Kernel.Body

end
-- ==== Proof.KBitsL5.lean ====
/-
  The last point's output piece depends on the three partially stored scratches only through what they hold after the point's own stores.
-/
import proofs.«170975_g2000502485364553_pallasbulk_1302_22_alg».proof.Proof.KBitsRowsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The output's stored piece depends on the three partially stored scratches only through what they hold after the
    last point's own stores. -/
theorem L5_congr (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32)
    (xs1' : Vec F S16x1x2048 .f32) (xs2' : Vec F S16x1x2048 .f32) (xs3' : Vec F S16x2048x128 .f32)
    (h8 : arg8.view.writes (Elt F) (harg8.unread xs1) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1
        = arg8.view.writes (Elt F) (harg8.unread xs1') (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1)
    (h9 : arg9.view.writes (Elt F) (harg9.unread xs2) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1
        = arg9.view.writes (Elt F) (harg9.unread xs2') (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1)
    (h10 : arg10.view.writes (Elt F) (harg10.unread xs3) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1
        = arg10.view.writes (Elt F) (harg10.unread xs3') (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1
      = (kernelRun0_C c i arg1 harg1 arg2 harg2 arg3 harg3 arg4 harg4 arg5 harg5 arg6 harg6 arg7 harg7 arg8 harg8 arg9 harg9 arg10 harg10 hc0 hc1 x0 x1 x2 x3 x4 xs0 xs1' xs2' xs3').1 := by
  revert h8 h9 h10
  unfold kernelRun0_C; dsimp only; sl_unfold_run_names
  intro h8 h9 h10
  rw [h8, h9, h10]

end Cert.Kernel.Body

end
-- ==== Proof.KBitsRows.lean ====
/-
  The row, piece and cover facts of the three control cases, gathered.
-/
import proofs.«170975_g2000502485364553_pallasbulk_1302_22_alg».proof.Proof.KBitsRowsA
import proofs.«170975_g2000502485364553_pallasbulk_1302_22_alg».proof.Proof.KBitsRowsB
import proofs.«170975_g2000502485364553_pallasbulk_1302_22_alg».proof.Proof.KBitsRowsC
import proofs.«170975_g2000502485364553_pallasbulk_1302_22_alg».proof.Proof.KBitsL5
-- ==== Proof.KBitsIndep.lean ====
/-
  The last point's output block does not depend on what the scratch held when the region was entered:
  two runs from different entry contents agree, after point t, on rows (slabs) 0..4t+3 of the three
  partially stored scratches, and the last point reads them only after storing rows 12..15.
-/
import proofs.«170975_g2000502485364553_pallasbulk_1302_22_alg».proof.Proof.KBitsRows

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Two scratch states agree up to row `n`: the same converted weight, and the same rows (slabs) below `n` in the
    three partially stored scratches. -/
def AgreeUpTo (n : ℕ) (s s' : St F) : Prop :=
  s.1 = s'.1 ∧ (∀ y : S16x1x2048.Idx, (y 0).val < n → s.2.1 y = s'.2.1 y) ∧ (∀ y : S16x1x2048.Idx, (y 0).val < n → s.2.2.1 y = s'.2.2.1 y)
    ∧ (∀ y : S16x2048x128.Idx, (y 0).val < n → s.2.2.2 y = s'.2.2.2 y)

set_option maxHeartbeats 4000000 in
theorem agreeA (c : Dev nD) (t : Fin cfg0.N) (h0 : t.val % 4 = 0) (h1 : ¬t.val % 4 = 3) (hz : t.val = 0) (j j' : St F) :
    AgreeUpTo (4 * t.val + 4) (stepA m c t h0 h1 j) (stepA m c t h0 h1 j') := by
  have hi : ((grid0.coords t) 0).val = t.val := coords_val t
  obtain ⟨s0, s1, s2, s3⟩ := j
  obtain ⟨s0', s1', s2', s3'⟩ := j'
  unfold AgreeUpTo stepA
  dsimp only
  refine ⟨by first | rfl | trivial, ?_, ?_, ?_⟩
  · intro y hy
    exact agree_step2 (Val := Elt F) scM0_1.view _ _ _ _
      (piecesA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) s1 s2 s3 s1' s2' s3')
      (4 * t.val) (fun y => (y 0).val) (fun y => by rw [rowsA1, hi])
      (fun y hy => absurd hy (by omega)) y hy
  · intro y hy
    exact agree_step2 (Val := Elt F) scM0_2.view _ _ _ _
      (piecesA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) s1 s2 s3 s1' s2' s3')
      (4 * t.val) (fun y => (y 0).val) (fun y => by rw [rowsA2, hi])
      (fun y hy => absurd hy (by omega)) y hy
  · intro y hy
    exact agree_step2 (Val := Elt F) scM0_3.view _ _ _ _
      (piecesA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) s1 s2 s3 s1' s2' s3')
      (4 * t.val) (fun y => (y 0).val) (fun y => by rw [rowsA3, hi])
      (fun y hy => absurd hy (by omega)) y hy

set_option maxHeartbeats 4000000 in
theorem agreeB (c : Dev nD) (t : Fin cfg0.N) (h0 : ¬t.val % 4 = 0) (h1 : ¬t.val % 4 = 3) (s s' : St F)
    (hs : AgreeUpTo (4 * t.val) s s') : AgreeUpTo (4 * t.val + 4) (stepB m c t h0 h1 s) (stepB m c t h0 h1 s') := by
  have hi : ((grid0.coords t) 0).val = t.val := coords_val t
  obtain ⟨s0, s1, s2, s3⟩ := s
  obtain ⟨s0', s1', s2', s3'⟩ := s'
  obtain ⟨e0, a1, a2, a3⟩ := hs
  dsimp only at e0 a1 a2 a3
  subst e0
  unfold AgreeUpTo stepB
  dsimp only
  refine ⟨by first | rfl | trivial, ?_, ?_, ?_⟩
  · intro y hy
    exact agree_step2 (Val := Elt F) scM0_1.view _ _ _ _
      (piecesB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s0 s1 s2 s3 s1' s2' s3')
      (4 * t.val) (fun y => (y 0).val) (fun y => by rw [rowsB1, hi])
      (fun y hy => by rw [Memref.IsWhole.read_unread, Memref.IsWhole.read_unread]; exact a1 y hy) y hy
  · intro y hy
    exact agree_step2 (Val := Elt F) scM0_2.view _ _ _ _
      (piecesB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s0 s1 s2 s3 s1' s2' s3')
      (4 * t.val) (fun y => (y 0).val) (fun y => by rw [rowsB2, hi])
      (fun y hy => by rw [Memref.IsWhole.read_unread, Memref.IsWhole.read_unread]; exact a2 y hy) y hy
  · intro y hy
    exact agree_step2 (Val := Elt F) scM0_3.view _ _ _ _
      (piecesB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s0 s1 s2 s3 s1' s2' s3')
      (4 * t.val) (fun y => (y 0).val) (fun y => by rw [rowsB3, hi])
      (fun y hy => by rw [Memref.IsWhole.read_unread, Memref.IsWhole.read_unread]; exact a3 y hy) y hy

set_option maxHeartbeats 8000000 in
/-- The last point's output block from two scratch states that agree on the rows the points before stored. -/
theorem outC_agree (c : Dev nD) (t : Fin cfg0.N) (h0 : ¬t.val % 4 = 0) (h1 : t.val % 4 = 3) (s s' : St F)
    (hs : AgreeUpTo (4 * t.val) s s') : outC m c t h0 h1 s = outC m c t h0 h1 s' := by
  have hi : ((grid0.coords t) 0).val = t.val := coords_val t
  have hN : t.val < 4 := lt_of_lt_of_eq t.isLt (show cfg0.N = 4 from N_0)
  have h3 : t.val = 3 := by omega
  obtain ⟨s0, s1, s2, s3⟩ := s
  obtain ⟨s0', s1', s2', s3'⟩ := s'
  obtain ⟨e0, a1, a2, a3⟩ := hs
  dsimp only at e0 a1 a2 a3
  subst e0
  unfold outC
  dsimp only
  rw [L5_congr c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s0 s1 s2 s3 s1' s2' s3' ?_ ?_ ?_]
  · refine contents_ext scM0_1 (Memref.isWhole_whole _) _ _ (funext fun y => ?_)
    exact agree_step (Val := Elt F) scM0_1.view _ _ _ (4 * t.val) (fun y => (y 0).val) (fun y => by rw [rowsC1, hi])
      (fun y hy => by rw [Memref.IsWhole.read_unread, Memref.IsWhole.read_unread]; exact a1 y hy) y (by have hy16 : (y 0).val < 16 := (y 0).isLt; show (y 0).val < 4 * t.val + 4; omega)
  · refine contents_ext scM0_2 (Memref.isWhole_whole _) _ _ (funext fun y => ?_)
    exact agree_step (Val := Elt F) scM0_2.view _ _ _ (4 * t.val) (fun y => (y 0).val) (fun y => by rw [rowsC2, hi])
      (fun y hy => by rw [Memref.IsWhole.read_unread, Memref.IsWhole.read_unread]; exact a2 y hy) y (by have hy16 : (y 0).val < 16 := (y 0).isLt; show (y 0).val < 4 * t.val + 4; omega)
  · refine contents_ext scM0_3 (Memref.isWhole_whole _) _ _ (funext fun y => ?_)
    exact agree_step (Val := Elt F) scM0_3.view _ _ _ (4 * t.val) (fun y => (y 0).val) (fun y => by rw [rowsC3, hi])
      (fun y hy => by rw [Memref.IsWhole.read_unread, Memref.IsWhole.read_unread]; exact a3 y hy) y (by have hy16 : (y 0).val < 16 := (y 0).isLt; show (y 0).val < 4 * t.val + 4; omega)

/-- After the points before point `n + 1`, two runs from different entry contents agree on the rows stored so far. -/
theorem stAt_agree (c : Dev nD) (j j' : St F) : ∀ (n : ℕ) (hn : n < cfg0.N), n < 3 → AgreeUpTo (4 * n + 4) (stAt m c j n hn) (stAt m c j' n hn)
  | 0, hn, _ => by
    rw [stAt_A m c j ⟨0, hn⟩ rfl, stAt_A m c j' ⟨0, hn⟩ rfl]
    exact agreeA m c ⟨0, hn⟩ _ _ rfl j j'
  | n + 1, hn, h3 => by
    have h0 : ¬(n + 1) % 4 = 0 := by omega
    have h1 : ¬(n + 1) % 4 = 3 := by omega
    have ih := stAt_agree c j j' n (Nat.lt_of_succ_lt hn) (by omega)
    rw [stAt_B m c j ⟨n + 1, hn⟩ h0 h1, stAt_B m c j' ⟨n + 1, hn⟩ h0 h1]
    exact agreeB m c ⟨n + 1, hn⟩ h0 h1 _ _ ih

/-- The last point's output block is the same whatever the scratch held at the region's entry. -/
theorem outC_indep (c : Dev nD) (t : Fin cfg0.N) (h0 : ¬t.val % 4 = 0) (h1 : t.val % 4 = 3) (j : St F) :
    outC m c t h0 h1 (stAt m c j (t.val - 1) (Nat.lt_of_le_of_lt (Nat.sub_le _ _) t.isLt))
      = outC m c t h0 h1 (stAt m c J0 (t.val - 1) (Nat.lt_of_le_of_lt (Nat.sub_le _ _) t.isLt)) := by
  have hN : t.val < 4 := lt_of_lt_of_eq t.isLt (show cfg0.N = 4 from N_0)
  have h3 : t.val = 3 := by omega
  refine outC_agree m c t h0 h1 _ _ ?_
  have := stAt_agree m c j J0 (t.val - 1) (Nat.lt_of_le_of_lt (Nat.sub_le _ _) t.isLt) (by omega)
  rwa [show 4 * (t.val - 1) + 4 = 4 * t.val by omega] at this

end Cert.Kernel.Body

end
-- ==== Proof.KBitsBody.lean ====
/-
  The body obligation of the fused kernel at every grid point, the run of @main and the frame.
  At each point the invariant hands the body the four scratch buffers at the state the points
  before left (at anything before the first point) and takes them back at this point's state; at
  the last point the output buffer is handed back at the stored block, which does not depend on
  what the scratch held when the region was entered.
-/
import proofs.«170975_g2000502485364553_pallasbulk_1302_22_alg».proof.Proof.KBitsIndep

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t) := by
  refine ⟨?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rewrite [show (dats m 0 c).owesAt () t.succ = (dats m 0 c).owesAt () t.castSucc from rfl]
  rewrite [show (dats m 0 c).Φ t.succ = PhiS m c (t.val + 1) t.isLt from rfl, PhiS_succ]
  rewrite [(leaves_in m c t).1, (leaves_in m c t).2.1, (leaves_in m c t).2.2.1, (leaves_in m c t).2.2.2.1, (leaves_in m c t).2.2.2.2]
  have hN : t.val < 4 := lt_of_lt_of_eq t.isLt (show cfg0.N = 4 from N_0)
  by_cases h0 : t.val % 4 = 0
  · have h1 : ¬t.val % 4 = 3 := by omega
    have hz : t.val = 0 := by omega
    rewrite [Dat.leavesExact_idle (dats m 0 c) 5 t (idleAt0_5 t (fun h => h1 ((hcond0_1 t).mp h))) (noFlush0_5 t (fun h => h1 ((hcond0_1 t).mp h)))]
    rewrite [PhiS_castSucc m c t, PhiS_zero m c _ _ hz, PhiA0_eq]
    iintro ⟨⟨⟨HS0, ⟨%d8, HS1⟩, ⟨%d9, HS2⟩, ⟨%d10, HS3⟩⟩, Hg⟩, Ho, ⟨%e0, H0⟩, ⟨%e1, H1⟩, ⟨%e2, H2⟩, ⟨%e3, H3⟩, ⟨%e4, H4⟩, ⟨%e5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) d8 d9 d10).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, HS1, HS2, HS3⟩
    isplitl [HS0 HS1 HS2 HS3 Hg]
    · isplitr [Hg]
      · iexists ((scM0_0.view.read (Elt F) scM0_0.view.junk, d8, d9, d10) : St F)
        rewrite [stAt_A m c _ t hz]
        unfold stepA; dsimp only
        isplitl [HS0]
        · unfold owns; iexists _; isplitr
          swap; · iexact HS0
          ipureintro; exact View.read_writes_of_cover _ _ _ _ _ (scoverA c _ _ _ _ _ _ _ _ _ _ _ _ _ _ _ _ _ _ _ _ _ _ _ _ _ _ _ _ _ _ _)
        isplitl [HS1]
        · unfold owns; iexists _; isplitr
          swap; · iexact HS1
          ipureintro; rfl
        isplitl [HS2]
        · unfold owns; iexists _; isplitr
          swap; · iexact HS2
          ipureintro; rfl
        unfold owns; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 4 = 3
    · rewrite [show (dats m 0 c).leavesExact 5 t = owns (c : Thread nD τ) (ms0_5 t) fullShare ((dats m 0 c).after 5 t) from by
        unfold Dat.leavesExact; rw [liveAt0_5 t ((hcond0_1 t).mpr h1)]]
      rewrite [after0_5, show outAt m c t.val t.isLt = outC m c t h0 h1 (stAt m c J0 (t.val - 1) (Nat.lt_of_le_of_lt (Nat.sub_le _ _) t.isLt)) from dif_pos ⟨h0, h1⟩]
      rewrite [PhiS_castSucc m c t, PhiS_pos m c _ _ hz]
      iintro ⟨⟨⟨%j, HS0, HS1, HS2, HS3⟩, Hg⟩, Ho, ⟨%e0, H0⟩, ⟨%e1, H1⟩, ⟨%e2, H2⟩, ⟨%e3, H3⟩, ⟨%e4, H4⟩, ⟨%e5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (stAt m c j (t.val - 1) (by omega)).1 (stAt m c j (t.val - 1) (by omega)).2.1 (stAt m c j (t.val - 1) (by omega)).2.2.1 (stAt m c j (t.val - 1) (by omega)).2.2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%f5, H5⟩, HS0, HS1, HS2, HS3⟩
      isplitl [HS0 HS1 HS2 HS3 Hg]
      · isplitr [Hg]
        · iexists j
          rewrite [stAt_C m c j t h0 h1]
          unfold stepC; dsimp only
          isplitl [HS0]; · iexact HS0
          isplitl [HS1]
          · unfold owns; iexists _; isplitr
            swap; · iexact HS1
            ipureintro; rfl
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_of_cover _ _ _ _ _ (coverC c _ _ _ _ _ _ _ _ _ _ _ _ _ _ _ _ _ _ _ _ _ _ _ _ _ _ _ _ _ _ _ _)).trans (outC_indep m c t h0 h1 j)
    · rewrite [Dat.leavesExact_idle (dats m 0 c) 5 t (idleAt0_5 t (fun h => h1 ((hcond0_1 t).mp h))) (noFlush0_5 t (fun h => h1 ((hcond0_1 t).mp h)))]
      rewrite [PhiS_castSucc m c t, PhiS_pos m c _ _ hz]
      iintro ⟨⟨⟨%j, HS0, HS1, HS2, HS3⟩, Hg⟩, Ho, ⟨%e0, H0⟩, ⟨%e1, H1⟩, ⟨%e2, H2⟩, ⟨%e3, H3⟩, ⟨%e4, H4⟩, ⟨%e5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (stAt m c j (t.val - 1) (by omega)).1 (stAt m c j (t.val - 1) (by omega)).2.1 (stAt m c j (t.val - 1) (by omega)).2.2.1 (stAt m c j (t.val - 1) (by omega)).2.2.2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitr [Hg]
        · iexists j
          rewrite [stAt_B m c j t h0 h1]
          unfold stepB; dsimp only
          isplitl [HS0]; · iexact HS0
          isplitl [HS1]
          · unfold owns; iexists _; isplitr
            swap; · iexact HS1
            ipureintro; rfl
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%j, HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- Every weakly fair execution of @main terminates, every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KIdealBase.lean ====
/-
  The fused batch-norm + linear kernel's body: what the runs of its three control cases share.
  The grid has four points, one per group of four channels. The first point also converts the
  weight into the scratch it is kept in; the last point also reads the per-channel sums back,
  forms scale and shift, and writes the output block. Every point stores four rows of the two
  sum scratches and four slabs of the partial-product scratch.
-/
import proofs.«170975_g2000502485364553_pallasbulk_1302_22_alg».proof.Proof.Gen.KernelIdeal.Frame
import proofs.«170975_g2000502485364553_pallasbulk_1302_22_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first conditional's test (the point is the first), from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's test (the point is the last). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
/-- The four scratch operands: the converted weight, the per-channel row sums, the per-channel
    row sums of squares, the per-channel partial products. -/
abbrev scM0_0 : Memref sig .tc .vmem S16x128x256 .bf16 := Memref.whole cc0_scratch0
abbrev scM0_1 : Memref sig .tc .vmem S16x1x2048 .f32 := Memref.whole cc0_scratch1
abbrev scM0_2 : Memref sig .tc .vmem S16x1x2048 .f32 := Memref.whole cc0_scratch2
abbrev scM0_3 : Memref sig .tc .vmem S16x2048x128 .f32 := Memref.whole cc0_scratch3

/-- The region invariant of the class, with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KIdealRunA.lean ====
/-
  The kernel body's run at the first point: the weight is converted into its scratch (sixteen slabs, covering it), then four rows of each sum scratch and four slabs of the partial-product scratch are stored; the output buffer is left untouched.
  The run is stated over whole staging memrefs at named contents and hands each buffer back with
  the list of stored pieces it found (newest first); what a piece holds is a term over the
  body's loads.
-/
import proofs.«170975_g2000502485364553_pallasbulk_1302_22_alg».proof.Proof.KIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the first point, with the stored pieces of each buffer it writes as the witness. -/
noncomputable def kernelRun0_A (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i)
    (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) :
    Σ' (LS0 : List (View.Piece (Elt F) S16x128x256 .bf16)) (LS1 : List (View.Piece (Elt F) S16x1x2048 .f32)) (LS2 : List (View.Piece (Elt F) S16x1x2048 .f32)), { LS3 : List (View.Piece (Elt F) S16x2048x128 .f32) //
      ∀ (xi5 : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (arg8.view.loc (c : Thread nD τ) ↦[arg8.view.set]{fullShare} arg8.view.writes (Elt F) (harg8.unread xs1) LS1) ∗ (arg9.view.loc (c : Thread nD τ) ↦[arg9.view.set]{fullShare} arg9.view.writes (Elt F) (harg9.unread xs2) LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc0__fused_bn_fc_kernel_eq_skeleton]; unfold cc0__fused_bn_fc_kernel_skel
    simp only [k0_part9_eq_skeleton, k0_part1_eq_skeleton, k0_part2_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexact HS1
    isplitl [HS2]; · iexact HS2
    iexact HS3

end Cert.KernelIdeal.Body

end
-- ==== Proof.KIdealRunB.lean ====
/-
  The kernel body's run at a middle point: four rows of each sum scratch and four slabs of the partial-product scratch are stored over what the points before left; the converted weight is only read; the output buffer is left untouched.
  The run is stated over whole staging memrefs at named contents and hands each buffer back with
  the list of stored pieces it found (newest first); what a piece holds is a term over the
  body's loads.
-/
import proofs.«170975_g2000502485364553_pallasbulk_1302_22_alg».proof.Proof.KIdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a middle point, with the stored pieces of each buffer it writes as the witness. -/
noncomputable def kernelRun0_B (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i)
    (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) :
    Σ' (LS1 : List (View.Piece (Elt F) S16x1x2048 .f32)) (LS2 : List (View.Piece (Elt F) S16x1x2048 .f32)), { LS3 : List (View.Piece (Elt F) S16x2048x128 .f32) //
      ∀ (xi5 : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (arg8.view.loc (c : Thread nD τ) ↦[arg8.view.set]{fullShare} arg8.view.writes (Elt F) (harg8.unread xs1) LS1) ∗ (arg9.view.loc (c : Thread nD τ) ↦[arg9.view.set]{fullShare} arg9.view.writes (Elt F) (harg9.unread xs2) LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__fused_bn_fc_kernel_eq_skeleton]; unfold cc0__fused_bn_fc_kernel_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]; · iexact HS1
    isplitl [HS2]; · iexact HS2
    iexact HS3

end Cert.KernelIdeal.Body

end
-- ==== Proof.KIdealRunC.lean ====
/-
  The kernel body's run at the last point: four rows of each sum scratch and four slabs of the partial-product scratch are stored, then the three scratches are read back whole, scale and shift are formed, and the output buffer is stored whole.
  The run is stated over whole staging memrefs at named contents and hands each buffer back with
  the list of stored pieces it found (newest first); what a piece holds is a term over the
  body's loads.
-/
import proofs.«170975_g2000502485364553_pallasbulk_1302_22_alg».proof.Proof.KIdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the last point, with the stored pieces of each buffer it writes as the witness. -/
noncomputable def kernelRun0_C (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i)
    (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) :
    Σ' (L5 : List (View.Piece (Elt F) S2048x128 .f32)) (LS1 : List (View.Piece (Elt F) S16x1x2048 .f32)) (LS2 : List (View.Piece (Elt F) S16x1x2048 .f32)), { LS3 : List (View.Piece (Elt F) S16x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (arg8.view.loc (c : Thread nD τ) ↦[arg8.view.set]{fullShare} arg8.view.writes (Elt F) (harg8.unread xs1) LS1) ∗ (arg9.view.loc (c : Thread nD τ) ↦[arg9.view.set]{fullShare} arg9.view.writes (Elt F) (harg9.unread xs2) LS2) ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__fused_bn_fc_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__fused_bn_fc_kernel_eq_skeleton]; unfold cc0__fused_bn_fc_kernel_skel
    simp only [k0_part9_eq_skeleton, k0_part10_eq_skeleton, k0_part11_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]; · iexact HS1
    isplitl [HS2]; · iexact HS2
    iexact HS3

end Cert.KernelIdeal.Body

end
-- ==== Proof.KIdealDat.lean ====
/-
  What the four scratch buffers and the output buffer hold after each grid point, and the
  pipeline's proof data built on it.
  The weight scratch is covered whole at the first point. Each sum scratch gets rows 4t..4t+3 at
  point t and the partial-product scratch slabs 4t..4t+3, over what was there before: after the
  fourth point every row and slab has been stored. The state after a point is therefore stated
  over the contents the three partially stored scratches had when the region was entered.
-/
import proofs.«170975_g2000502485364553_pallasbulk_1302_22_alg».proof.Proof.KIdealRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch buffers' contents: converted weight, row sums, row sums of squares, partial products. -/
abbrev St (F : FTy → Type) [FloatOps F] : Type := Vec F S16x128x256 .bf16 × Vec F S16x1x2048 .f32 × Vec F S16x1x2048 .f32 × Vec F S16x2048x128 .f32

/-- The scratch after the first point, from what the three partially stored ones held before. -/
def stepA (c : Dev nD) (t : Fin cfg0.N) (h0 : t.val % 4 = 0) (h1 : ¬t.val % 4 = 3) (j : St F) : St F :=
  let R := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2
  (scM0_0.view.read (Elt F) (scM0_0.view.writes (Elt F) scM0_0.view.junk R.1),
   scM0_1.view.read (Elt F) (scM0_1.view.writes (Elt F) ((Memref.isWhole_whole cc0_scratch1).unread j.2.1) R.2.1),
   scM0_2.view.read (Elt F) (scM0_2.view.writes (Elt F) ((Memref.isWhole_whole cc0_scratch2).unread j.2.2.1) R.2.2.1),
   scM0_3.view.read (Elt F) (scM0_3.view.writes (Elt F) ((Memref.isWhole_whole cc0_scratch3).unread j.2.2.2) R.2.2.2.1))

/-- The scratch after a middle point, from what the point before left. -/
def stepB (c : Dev nD) (t : Fin cfg0.N) (h0 : ¬t.val % 4 = 0) (h1 : ¬t.val % 4 = 3) (s : St F) : St F :=
  let R := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2
  (s.1,
   scM0_1.view.read (Elt F) (scM0_1.view.writes (Elt F) ((Memref.isWhole_whole cc0_scratch1).unread s.2.1) R.1),
   scM0_2.view.read (Elt F) (scM0_2.view.writes (Elt F) ((Memref.isWhole_whole cc0_scratch2).unread s.2.2.1) R.2.1),
   scM0_3.view.read (Elt F) (scM0_3.view.writes (Elt F) ((Memref.isWhole_whole cc0_scratch3).unread s.2.2.2) R.2.2.1))

/-- The scratch after the last point, from what the point before left. -/
def stepC (c : Dev nD) (t : Fin cfg0.N) (h0 : ¬t.val % 4 = 0) (h1 : t.val % 4 = 3) (s : St F) : St F :=
  let R := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2
  (s.1,
   scM0_1.view.read (Elt F) (scM0_1.view.writes (Elt F) ((Memref.isWhole_whole cc0_scratch1).unread s.2.1) R.2.1),
   scM0_2.view.read (Elt F) (scM0_2.view.writes (Elt F) ((Memref.isWhole_whole cc0_scratch2).unread s.2.2.1) R.2.2.1),
   scM0_3.view.read (Elt F) (scM0_3.view.writes (Elt F) ((Memref.isWhole_whole cc0_scratch3).unread s.2.2.2) R.2.2.2.1))

/-- The output buffer after the last point: its one stored piece read back. -/
def outC (c : Dev nD) (t : Fin cfg0.N) (h0 : ¬t.val % 4 = 0) (h1 : t.val % 4 = 3) (s : St F) : Vec F S2048x128 .f32 :=
  (ms0_5 t).view.read (Elt F) ((ms0_5 t).view.writes (Elt F) (ms0_5 t).view.junk
    (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2).1)

/-- THE ACCUMULATION: the scratch after the body at position `n`, by recursion on the point. -/
def stAt (c : Dev nD) (j : St F) : (n : ℕ) → n < cfg0.N → St F
  | 0, hn => stepA m c ⟨0, hn⟩ (Nat.zero_mod _) (show ¬0 % 4 = 3 by decide) j
  | n + 1, hn =>
    if h0 : (n + 1) % 4 = 0 then j
    else if h1 : (n + 1) % 4 = 3 then stepC m c ⟨n + 1, hn⟩ h0 h1 (stAt c j n (Nat.lt_of_succ_lt hn))
    else stepB m c ⟨n + 1, hn⟩ h0 h1 (stAt c j n (Nat.lt_of_succ_lt hn))

theorem stAt_A (c : Dev nD) (j : St F) (t : Fin cfg0.N) (hz : t.val = 0) :
    stAt m c j t.val t.isLt = stepA m c t (by rw [hz]) (by rw [hz]; decide) j := by
  obtain ⟨n, hn⟩ := t
  cases n with
  | zero => rfl
  | succ n => exact absurd hz (Nat.succ_ne_zero n)

theorem stAt_B (c : Dev nD) (j : St F) (t : Fin cfg0.N) (h0 : ¬t.val % 4 = 0) (h1 : ¬t.val % 4 = 3) :
    stAt m c j t.val t.isLt = stepB m c t h0 h1 (stAt m c j (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt_C (c : Dev nD) (j : St F) (t : Fin cfg0.N) (h0 : ¬t.val % 4 = 0) (h1 : t.val % 4 = 3) :
    stAt m c j t.val t.isLt = stepC m c t h0 h1 (stAt m c j (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- Contents chosen once for the scratch at the region's entry, where nothing is known of it: the
    output of the last point does not depend on them (every row has been stored by then). -/
def J0 : St F := (scM0_0.view.read (Elt F) scM0_0.view.junk, scM0_1.view.read (Elt F) scM0_1.view.junk, scM0_2.view.read (Elt F) scM0_2.view.junk, scM0_3.view.read (Elt F) scM0_3.view.junk)

/-- What the output buffer holds after the body at position `n`: at the last point the stored block; elsewhere nothing is stored and nothing is consulted. -/
def outAt (c : Dev nD) (n : ℕ) (hn : n < cfg0.N) : Vec F S2048x128 .f32 :=
  if h : ¬n % 4 = 0 ∧ n % 4 = 3 then outC m c ⟨n, hn⟩ h.1 h.2 (stAt m c J0 (n - 1) (Nat.lt_of_le_of_lt (Nat.sub_le _ _) hn))
  else (ms0_5 ⟨n, hn⟩).view.read (Elt F) (ms0_5 ⟨n, hn⟩).view.junk

/-- The region invariant before position `n`: before the first point every scratch at anything; afterwards the four
    scratch buffers at the state the points so far produce from SOME entry contents, and the generator register at some state. -/
def PhiS (c : Dev nD) : (n : ℕ) → n ≤ cfg0.N → sProp 𝕄
  | 0, _ => Pipeline.ΦA spec0 c
  | n + 1, hn => iprop(iprop(∃ j : St F, owns (c : Thread nD τ) scM0_0 fullShare (stAt m c j n hn).1 ∗ owns (c : Thread nD τ) scM0_1 fullShare (stAt m c j n hn).2.1 ∗ owns (c : Thread nD τ) scM0_2 fullShare (stAt m c j n hn).2.2.1 ∗ owns (c : Thread nD τ) scM0_3 fullShare (stAt m c j n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ j : St F, owns (c : Thread nD τ) scM0_0 fullShare (stAt m c j n hn).1 ∗ owns (c : Thread nD τ) scM0_1 fullShare (stAt m c j n hn).2.1 ∗ owns (c : Thread nD τ) scM0_2 fullShare (stAt m c j n hn).2.2.1 ∗ owns (c : Thread nD τ) scM0_3 fullShare (stAt m c j n hn).2.2.2) ∗ (∃ r, prngReg c r)) := rfl

theorem PhiS_pos (c : Dev nD) (n : ℕ) (h : n ≤ cfg0.N) (hz : n ≠ 0) :
    PhiS m c n h = iprop(iprop(∃ j : St F, owns (c : Thread nD τ) scM0_0 fullShare (stAt m c j (n - 1) (by omega)).1 ∗ owns (c : Thread nD τ) scM0_1 fullShare (stAt m c j (n - 1) (by omega)).2.1 ∗ owns (c : Thread nD τ) scM0_2 fullShare (stAt m c j (n - 1) (by omega)).2.2.1 ∗ owns (c : Thread nD τ) scM0_3 fullShare (stAt m c j (n - 1) (by omega)).2.2.2) ∗ (∃ r, prngReg c r)) := by
  cases n with
  | zero => exact absurd rfl hz
  | succ n => rfl

/-! ## The pipeline's proof data -/

/-- The proof data: the arrays as the region finds them; after the body each input's buffer at its block and the
    output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Body

end
-- ==== Proof.KIdealRowsBase.lean ====
/-
  Covers, bands and agreement: the first point's stores cover the weight scratch, the last point's one store covers the output buffer; a one-row (one-slab) rectangle holds exactly that row's indices; writes reaching a band of four rows keep two prior contents' agreement below the band and extend it over the band.
-/
import proofs.«170975_g2000502485364553_pallasbulk_1302_22_alg».proof.Proof.KIdealDat

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's sixteen stored slabs cover the weight scratch. -/
theorem scoverA (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i)
    (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x128x256.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).1 S1x128x256.size (by sl_kernel_rfl) y

/-- The last point's one stored piece covers the output buffer. -/
theorem coverC (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i)
    (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S2048x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1 S2048x128.size (by sl_kernel_rfl) y

/-- A one-row rectangle of a sum scratch at row `o` holds exactly the indices of that row. -/
theorem mem_band_rows (o : ℕ) (y : S16x1x2048.Idx) :
    (∀ a : Fin 3, (![o, 0, 0] : Fin 3 → ℕ) a ≤ (y a).val ∧ (y a).val < (![o, 0, 0] : Fin 3 → ℕ) a + (![1, 1, 2048] : Fin 3 → ℕ) a) ↔ (y 0).val = o := by
  have h1 : (y 1).val < 1 := (y 1).isLt
  have h2 : (y 2).val < 2048 := (y 2).isLt
  constructor
  · intro h; have := h 0; simp at this; omega
  · intro h a; fin_cases a <;> simp <;> omega

/-- A one-slab rectangle of the partial-product scratch at slab `o` holds exactly the indices of that slab. -/
theorem mem_band_slabs (o : ℕ) (y : S16x2048x128.Idx) :
    (∀ a : Fin 3, (![o, 0, 0] : Fin 3 → ℕ) a ≤ (y a).val ∧ (y a).val < (![o, 0, 0] : Fin 3 → ℕ) a + (![1, 2048, 128] : Fin 3 → ℕ) a) ↔ (y 0).val = o := by
  have h1 : (y 1).val < 2048 := (y 1).isLt
  have h2 : (y 2).val < 128 := (y 2).isLt
  constructor
  · intro h; have := h 0; simp at this; omega
  · intro h a; fin_cases a <;> simp <;> omega

/-- The grid coordinate of point `t` is `t`. -/
theorem coords_val : ∀ t : Fin cfg0.N, ((grid0.coords t) 0).val = t.val :=
  (by decide +kernel : ∀ t : Fin grid0.N, ((grid0.coords t) 0).val = t.val)

/-! ## Agreement of two scratch states on the rows stored so far -/

/-- Writes whose pieces reach exactly the band of four rows from `lo`, over two prior contents that agree
    below `lo`, leave contents that agree below `lo + 4`. -/
theorem agree_step {sg : RefSig} {κ : Kind} {sp : Space} {s : Shape} {e : EltTy} {Val : EltTy → Type}
    (v : View sg κ sp s e) (f f' : v.ty.Contents Val) (L : List (View.Piece Val s e)) (lo : ℕ) (row : s.Idx → ℕ)
    (hband : ∀ y, (∃ p ∈ L, y ∈ p.1.set) ↔ (lo ≤ row y ∧ row y < lo + 4))
    (hag : ∀ y, row y < lo → v.read Val f y = v.read Val f' y) :
    ∀ y, row y < lo + 4 → v.read Val (v.writes Val f L) y = v.read Val (v.writes Val f' L) y := by
  intro y hy
  by_cases hc : ∃ p ∈ L, y ∈ p.1.set
  · exact View.read_writes_apply_eq v f v f' y L hc
  · have hn : ∀ p ∈ L, y ∉ p.1.set := fun p hp hm => hc ⟨p, hp, hm⟩
    rw [View.read_writes_apply_of_forall_not_mem v f y L hn, View.read_writes_apply_of_forall_not_mem v f' y L hn]
    have : ¬(lo ≤ row y ∧ row y < lo + 4) := fun h => hc ((hband y).mpr h)
    exact hag y (by omega)

/-- `agree_step` with the two piece lists equal rather than the same. -/
theorem agree_step2 {sg : RefSig} {κ : Kind} {sp : Space} {s : Shape} {e : EltTy} {Val : EltTy → Type}
    (v : View sg κ sp s e) (f f' : v.ty.Contents Val) (L L' : List (View.Piece Val s e)) (hLL : L = L') (lo : ℕ) (row : s.Idx → ℕ)
    (hband : ∀ y, (∃ p ∈ L, y ∈ p.1.set) ↔ (lo ≤ row y ∧ row y < lo + 4))
    (hag : ∀ y, row y < lo → v.read Val f y = v.read Val f' y) :
    ∀ y, row y < lo + 4 → v.read Val (v.writes Val f L) y = v.read Val (v.writes Val f' L') y := by
  subst hLL; exact agree_step v f f' L lo row hband hag

/-- Contents of a whole memref that read the same are the same. -/
theorem contents_ext {sp : Space} {s : Shape} {e : EltTy} (M : Memref sig .tc sp s e) (hM : M.IsWhole)
    (f f' : M.view.ty.Contents (Elt F)) (h : M.view.read (Elt F) f = M.view.read (Elt F) f') : f = f' :=
  (hM.eq_unread rfl).trans (h ▸ (hM.eq_unread rfl).symm)

end Cert.KernelIdeal.Body

end
-- ==== Proof.KIdealRowsA.lean ====
/-
  The first point's stores into the two sum scratches and the partial-product scratch reach exactly rows (slabs) 0..3, and what they store does not depend on the scratches' prior contents.
-/
import proofs.«170975_g2000502485364553_pallasbulk_1302_22_alg».proof.Proof.KIdealRowsBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem rowsA1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x1x2048.Idx) :
    (∃ p ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.1, y ∈ p.1.set) ↔ (4 * (i 0).val ≤ (y 0).val ∧ (y 0).val < 4 * (i 0).val + 4) := by
  unfold kernelRun0_A; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsA2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x1x2048.Idx) :
    (∃ p ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.1, y ∈ p.1.set) ↔ (4 * (i 0).val ≤ (y 0).val ∧ (y 0).val < 4 * (i 0).val + 4) := by
  unfold kernelRun0_A; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsA3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (y : S16x2048x128.Idx) :
    (∃ p ∈ (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.2.1, y ∈ p.1.set) ↔ (4 * (i 0).val ≤ (y 0).val ∧ (y 0).val < 4 * (i 0).val + 4) := by
  unfold kernelRun0_A; dsimp only; sl_unfold_run_names
  simp only [List.mem_cons, List.mem_nil_iff, or_false, exists_eq_or_imp, exists_eq_left, Rect.mem_set_unit]
  rw [show k0_off3 i (3#32) = _ from k0_off3_eq i ⟨3, by decide⟩, show k0_off3 i (2#32) = _ from k0_off3_eq i ⟨2, by decide⟩, show k0_off3 i (1#32) = _ from k0_off3_eq i ⟨1, by decide⟩, show k0_off3 i (0#32) = _ from k0_off3_eq i ⟨0, by decide⟩]
  rw [mem_band_slabs, mem_band_slabs, mem_band_slabs, mem_band_slabs]
  dsimp only
  omega

theorem piecesA1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.1 = (kernelRun0_A c i arg1 harg1 arg2 harg2 arg3 harg3 arg4 harg4 arg5 harg5 arg6 harg6 arg7 harg7 arg8 harg8 arg9 harg9 arg10 harg10 hc0 hc1 x0 x1 x2 x3 x4 xs1' xs2' xs3').2.1 := by
  unfold kernelRun0_A; dsimp only; try rfl

theorem piecesA2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.1 = (kernelRun0_A c i arg1 harg1 arg2 harg2 arg3 harg3 arg4 harg4 arg5 harg5 arg6 harg6 arg7 harg7 arg8 harg8 arg9 harg9 arg10 harg10 hc0 hc1 x0 x1 x2 x3 x4 xs1' xs2' xs3').2.2.1 := by
  unfold kernelRun0_A; dsimp only; try rfl

theorem piecesA3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : cond0_0 i) (hc1 : ¬cond0_1 i) (x0 : Vec F S1024x2048 .f32) (x1 : Vec F S1x16 .f32) (x2 : Vec F S1x16 .f32) (x3 : Vec F S128x4096 .f32) (x4 : Vec F S1x128 .f32) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_A c i arg1 harg1 arg2 harg2 arg3 harg3 arg4 harg4 arg5 harg5 arg6 harg6 arg7 harg7 arg8 harg8 arg9 harg9 arg10 harg10 hc0 hc1 x0 x1 x2 x3 x4 xs1 xs2 xs3).2.2.2.1 = (kernelRun0_A c i arg1 harg1 arg2 harg2 arg3 harg3 arg4 harg4 arg5 harg5 arg6 harg6 arg7 harg7 arg8 harg8 arg9 harg9 arg10 harg10 hc0 hc1 x0 x1 x2 x3 x4 xs1' xs2' xs3').2.2.2.1 := by
  unfold kernelRun0_A; dsimp only; try rfl

end Cert.KernelIdeal.Body

end
-- ==== Proof.KIdealRowsB.lean ====
/-
  A middle point's stores reach exactly rows (slabs) 4t..4t+3, and what they store does not depend on the three partially stored scratches' prior contents.
-/
import proofs.«170975_g2000502485364553_pallasbulk_1302_22_alg».proof.Proof.KIdealRowsBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem rowsB1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).1, y ∈ p.1.set) ↔ (4 * (i 0).val ≤ (y 0).val ∧ (y 0).val < 4 * (i 0).val + 4) := by
  unfold kernelRun0_B; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsB2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.1, y ∈ p.1.set) ↔ (4 * (i 0).val ≤ (y 0).val ∧ (y 0).val < 4 * (i 0).val + 4) := by
  unfold kernelRun0_B; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsB3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x2048x128.Idx) :
    (∃ p ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1, y ∈ p.1.set) ↔ (4 * (i 0).val ≤ (y 0).val ∧ (y 0).val < 4 * (i 0).val + 4) := by
  unfold kernelRun0_B; dsimp only; sl_unfold_run_names
  simp only [List.mem_cons, List.mem_nil_iff, or_false, exists_eq_or_imp, exists_eq_left, Rect.mem_set_unit]
  rw [show k0_off3 i (3#32) = _ from k0_off3_eq i ⟨3, by decide⟩, show k0_off3 i (2#32) = _ from k0_off3_eq i ⟨2, by decide⟩, show k0_off3 i (1#32) = _ from k0_off3_eq i ⟨1, by decide⟩, show k0_off3 i (0#32) = _ from k0_off3_eq i ⟨0, by decide⟩]
  rw [mem_band_slabs, mem_band_slabs, mem_band_slabs, mem_band_slabs]
  dsimp only
  omega

theorem piecesB1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).1 = (kernelRun0_B c i arg1 harg1 arg2 harg2 arg3 harg3 arg4 harg4 arg5 harg5 arg6 harg6 arg7 harg7 arg8 harg8 arg9 harg9 arg10 harg10 hc0 hc1 x0 x1 x2 x3 x4 xs0 xs1' xs2' xs3').1 := by
  unfold kernelRun0_B; dsimp only; try rfl

theorem piecesB2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = (kernelRun0_B c i arg1 harg1 arg2 harg2 arg3 harg3 arg4 harg4 arg5 harg5 arg6 harg6 arg7 harg7 arg8 harg8 arg9 harg9 arg10 harg10 hc0 hc1 x0 x1 x2 x3 x4 xs0 xs1' xs2' xs3').2.1 := by
  unfold kernelRun0_B; dsimp only; try rfl

theorem piecesB3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : ¬cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (xs1' : Vec F S16x1x2048 .f32) (xs2' : Vec F S16x1x2048 .f32) (xs3' : Vec F S16x2048x128 .f32) :
    (kernelRun0_B c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1 = (kernelRun0_B c i arg1 harg1 arg2 harg2 arg3 harg3 arg4 harg4 arg5 harg5 arg6 harg6 arg7 harg7 arg8 harg8 arg9 harg9 arg10 harg10 hc0 hc1 x0 x1 x2 x3 x4 xs0 xs1' xs2' xs3').2.2.1 := by
  unfold kernelRun0_B; dsimp only; try rfl

end Cert.KernelIdeal.Body

end
-- ==== Proof.KIdealRowsC.lean ====
/-
  The last point's stores reach exactly rows (slabs) 4t..4t+3.
-/
import proofs.«170975_g2000502485364553_pallasbulk_1302_22_alg».proof.Proof.KIdealRowsBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem rowsC1 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1, y ∈ p.1.set) ↔ (4 * (i 0).val ≤ (y 0).val ∧ (y 0).val < 4 * (i 0).val + 4) := by
  unfold kernelRun0_C; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsC2 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x1x2048.Idx) :
    (∃ p ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1, y ∈ p.1.set) ↔ (4 * (i 0).val ≤ (y 0).val ∧ (y 0).val < 4 * (i 0).val + 4) := by
  unfold kernelRun0_C; dsimp only; sl_unfold_run_names
  simp only [List.mem_cons, List.mem_nil_iff, or_false, exists_eq_or_imp, exists_eq_left, Rect.mem_set_unit]
  rw [show k0_off1 i (3#32) = _ from k0_off1_eq i ⟨3, by decide⟩, show k0_off1 i (2#32) = _ from k0_off1_eq i ⟨2, by decide⟩, show k0_off1 i (1#32) = _ from k0_off1_eq i ⟨1, by decide⟩, show k0_off1 i (0#32) = _ from k0_off1_eq i ⟨0, by decide⟩]
  rw [mem_band_rows, mem_band_rows, mem_band_rows, mem_band_rows]
  dsimp only
  omega

set_option maxHeartbeats 4000000 in
theorem rowsC3 (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32) (y : S16x2048x128.Idx) :
    (∃ p ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1, y ∈ p.1.set) ↔ (4 * (i 0).val ≤ (y 0).val ∧ (y 0).val < 4 * (i 0).val + 4) := by
  unfold kernelRun0_C; dsimp only; sl_unfold_run_names
  simp only [List.mem_cons, List.mem_nil_iff, or_false, exists_eq_or_imp, exists_eq_left, Rect.mem_set_unit]
  rw [show k0_off3 i (3#32) = _ from k0_off3_eq i ⟨3, by decide⟩, show k0_off3 i (2#32) = _ from k0_off3_eq i ⟨2, by decide⟩, show k0_off3 i (1#32) = _ from k0_off3_eq i ⟨1, by decide⟩, show k0_off3 i (0#32) = _ from k0_off3_eq i ⟨0, by decide⟩]
  rw [mem_band_slabs, mem_band_slabs, mem_band_slabs, mem_band_slabs]
  dsimp only
  omega

end Cert.KernelIdeal.Body

end
-- ==== Proof.KIdealL5.lean ====
/-
  The last point's output piece depends on the three partially stored scratches only through what they hold after the point's own stores.
-/
import proofs.«170975_g2000502485364553_pallasbulk_1302_22_alg».proof.Proof.KIdealRowsBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The output's stored piece depends on the three partially stored scratches only through what they hold after the
    last point's own stores. -/
theorem L5_congr (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32)
    (xs1' : Vec F S16x1x2048 .f32) (xs2' : Vec F S16x1x2048 .f32) (xs3' : Vec F S16x2048x128 .f32)
    (h8 : arg8.view.writes (Elt F) (harg8.unread xs1) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1
        = arg8.view.writes (Elt F) (harg8.unread xs1') (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1)
    (h9 : arg9.view.writes (Elt F) (harg9.unread xs2) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1
        = arg9.view.writes (Elt F) (harg9.unread xs2') (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1)
    (h10 : arg10.view.writes (Elt F) (harg10.unread xs3) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1
        = arg10.view.writes (Elt F) (harg10.unread xs3') (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1
      = (kernelRun0_C c i arg1 harg1 arg2 harg2 arg3 harg3 arg4 harg4 arg5 harg5 arg6 harg6 arg7 harg7 arg8 harg8 arg9 harg9 arg10 harg10 hc0 hc1 x0 x1 x2 x3 x4 xs0 xs1' xs2' xs3').1 := by
  revert h8 h9 h10
  unfold kernelRun0_C; dsimp only; sl_unfold_run_names
  intro h8 h9 h10
  rw [h8, h9, h10]

end Cert.KernelIdeal.Body

end
-- ==== Proof.KIdealRows.lean ====
/-
  The row, piece and cover facts of the three control cases, gathered.
-/
import proofs.«170975_g2000502485364553_pallasbulk_1302_22_alg».proof.Proof.KIdealRowsA
import proofs.«170975_g2000502485364553_pallasbulk_1302_22_alg».proof.Proof.KIdealRowsB
import proofs.«170975_g2000502485364553_pallasbulk_1302_22_alg».proof.Proof.KIdealRowsC
import proofs.«170975_g2000502485364553_pallasbulk_1302_22_alg».proof.Proof.KIdealL5
-- ==== Proof.KIdealIndep.lean ====
/-
  The last point's output block does not depend on what the scratch held when the region was entered:
  two runs from different entry contents agree, after point t, on rows (slabs) 0..4t+3 of the three
  partially stored scratches, and the last point reads them only after storing rows 12..15.
-/
import proofs.«170975_g2000502485364553_pallasbulk_1302_22_alg».proof.Proof.KIdealRows

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Two scratch states agree up to row `n`: the same converted weight, and the same rows (slabs) below `n` in the
    three partially stored scratches. -/
def AgreeUpTo (n : ℕ) (s s' : St F) : Prop :=
  s.1 = s'.1 ∧ (∀ y : S16x1x2048.Idx, (y 0).val < n → s.2.1 y = s'.2.1 y) ∧ (∀ y : S16x1x2048.Idx, (y 0).val < n → s.2.2.1 y = s'.2.2.1 y)
    ∧ (∀ y : S16x2048x128.Idx, (y 0).val < n → s.2.2.2 y = s'.2.2.2 y)

set_option maxHeartbeats 4000000 in
theorem agreeA (c : Dev nD) (t : Fin cfg0.N) (h0 : t.val % 4 = 0) (h1 : ¬t.val % 4 = 3) (hz : t.val = 0) (j j' : St F) :
    AgreeUpTo (4 * t.val + 4) (stepA m c t h0 h1 j) (stepA m c t h0 h1 j') := by
  have hi : ((grid0.coords t) 0).val = t.val := coords_val t
  obtain ⟨s0, s1, s2, s3⟩ := j
  obtain ⟨s0', s1', s2', s3'⟩ := j'
  unfold AgreeUpTo stepA
  dsimp only
  refine ⟨by first | rfl | trivial, ?_, ?_, ?_⟩
  · intro y hy
    exact agree_step2 (Val := Elt F) scM0_1.view _ _ _ _
      (piecesA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) s1 s2 s3 s1' s2' s3')
      (4 * t.val) (fun y => (y 0).val) (fun y => by rw [rowsA1, hi])
      (fun y hy => absurd hy (by omega)) y hy
  · intro y hy
    exact agree_step2 (Val := Elt F) scM0_2.view _ _ _ _
      (piecesA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) s1 s2 s3 s1' s2' s3')
      (4 * t.val) (fun y => (y 0).val) (fun y => by rw [rowsA2, hi])
      (fun y hy => absurd hy (by omega)) y hy
  · intro y hy
    exact agree_step2 (Val := Elt F) scM0_3.view _ _ _ _
      (piecesA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) s1 s2 s3 s1' s2' s3')
      (4 * t.val) (fun y => (y 0).val) (fun y => by rw [rowsA3, hi])
      (fun y hy => absurd hy (by omega)) y hy

set_option maxHeartbeats 4000000 in
theorem agreeB (c : Dev nD) (t : Fin cfg0.N) (h0 : ¬t.val % 4 = 0) (h1 : ¬t.val % 4 = 3) (s s' : St F)
    (hs : AgreeUpTo (4 * t.val) s s') : AgreeUpTo (4 * t.val + 4) (stepB m c t h0 h1 s) (stepB m c t h0 h1 s') := by
  have hi : ((grid0.coords t) 0).val = t.val := coords_val t
  obtain ⟨s0, s1, s2, s3⟩ := s
  obtain ⟨s0', s1', s2', s3'⟩ := s'
  obtain ⟨e0, a1, a2, a3⟩ := hs
  dsimp only at e0 a1 a2 a3
  subst e0
  unfold AgreeUpTo stepB
  dsimp only
  refine ⟨by first | rfl | trivial, ?_, ?_, ?_⟩
  · intro y hy
    exact agree_step2 (Val := Elt F) scM0_1.view _ _ _ _
      (piecesB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s0 s1 s2 s3 s1' s2' s3')
      (4 * t.val) (fun y => (y 0).val) (fun y => by rw [rowsB1, hi])
      (fun y hy => by rw [Memref.IsWhole.read_unread, Memref.IsWhole.read_unread]; exact a1 y hy) y hy
  · intro y hy
    exact agree_step2 (Val := Elt F) scM0_2.view _ _ _ _
      (piecesB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s0 s1 s2 s3 s1' s2' s3')
      (4 * t.val) (fun y => (y 0).val) (fun y => by rw [rowsB2, hi])
      (fun y hy => by rw [Memref.IsWhole.read_unread, Memref.IsWhole.read_unread]; exact a2 y hy) y hy
  · intro y hy
    exact agree_step2 (Val := Elt F) scM0_3.view _ _ _ _
      (piecesB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s0 s1 s2 s3 s1' s2' s3')
      (4 * t.val) (fun y => (y 0).val) (fun y => by rw [rowsB3, hi])
      (fun y hy => by rw [Memref.IsWhole.read_unread, Memref.IsWhole.read_unread]; exact a3 y hy) y hy

set_option maxHeartbeats 8000000 in
/-- The last point's output block from two scratch states that agree on the rows the points before stored. -/
theorem outC_agree (c : Dev nD) (t : Fin cfg0.N) (h0 : ¬t.val % 4 = 0) (h1 : t.val % 4 = 3) (s s' : St F)
    (hs : AgreeUpTo (4 * t.val) s s') : outC m c t h0 h1 s = outC m c t h0 h1 s' := by
  have hi : ((grid0.coords t) 0).val = t.val := coords_val t
  have hN : t.val < 4 := lt_of_lt_of_eq t.isLt (show cfg0.N = 4 from N_0)
  have h3 : t.val = 3 := by omega
  obtain ⟨s0, s1, s2, s3⟩ := s
  obtain ⟨s0', s1', s2', s3'⟩ := s'
  obtain ⟨e0, a1, a2, a3⟩ := hs
  dsimp only at e0 a1 a2 a3
  subst e0
  unfold outC
  dsimp only
  rw [L5_congr c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s0 s1 s2 s3 s1' s2' s3' ?_ ?_ ?_]
  · refine contents_ext scM0_1 (Memref.isWhole_whole _) _ _ (funext fun y => ?_)
    exact agree_step (Val := Elt F) scM0_1.view _ _ _ (4 * t.val) (fun y => (y 0).val) (fun y => by rw [rowsC1, hi])
      (fun y hy => by rw [Memref.IsWhole.read_unread, Memref.IsWhole.read_unread]; exact a1 y hy) y (by have hy16 : (y 0).val < 16 := (y 0).isLt; show (y 0).val < 4 * t.val + 4; omega)
  · refine contents_ext scM0_2 (Memref.isWhole_whole _) _ _ (funext fun y => ?_)
    exact agree_step (Val := Elt F) scM0_2.view _ _ _ (4 * t.val) (fun y => (y 0).val) (fun y => by rw [rowsC2, hi])
      (fun y hy => by rw [Memref.IsWhole.read_unread, Memref.IsWhole.read_unread]; exact a2 y hy) y (by have hy16 : (y 0).val < 16 := (y 0).isLt; show (y 0).val < 4 * t.val + 4; omega)
  · refine contents_ext scM0_3 (Memref.isWhole_whole _) _ _ (funext fun y => ?_)
    exact agree_step (Val := Elt F) scM0_3.view _ _ _ (4 * t.val) (fun y => (y 0).val) (fun y => by rw [rowsC3, hi])
      (fun y hy => by rw [Memref.IsWhole.read_unread, Memref.IsWhole.read_unread]; exact a3 y hy) y (by have hy16 : (y 0).val < 16 := (y 0).isLt; show (y 0).val < 4 * t.val + 4; omega)

/-- After the points before point `n + 1`, two runs from different entry contents agree on the rows stored so far. -/
theorem stAt_agree (c : Dev nD) (j j' : St F) : ∀ (n : ℕ) (hn : n < cfg0.N), n < 3 → AgreeUpTo (4 * n + 4) (stAt m c j n hn) (stAt m c j' n hn)
  | 0, hn, _ => by
    rw [stAt_A m c j ⟨0, hn⟩ rfl, stAt_A m c j' ⟨0, hn⟩ rfl]
    exact agreeA m c ⟨0, hn⟩ _ _ rfl j j'
  | n + 1, hn, h3 => by
    have h0 : ¬(n + 1) % 4 = 0 := by omega
    have h1 : ¬(n + 1) % 4 = 3 := by omega
    have ih := stAt_agree c j j' n (Nat.lt_of_succ_lt hn) (by omega)
    rw [stAt_B m c j ⟨n + 1, hn⟩ h0 h1, stAt_B m c j' ⟨n + 1, hn⟩ h0 h1]
    exact agreeB m c ⟨n + 1, hn⟩ h0 h1 _ _ ih

/-- The last point's output block is the same whatever the scratch held at the region's entry. -/
theorem outC_indep (c : Dev nD) (t : Fin cfg0.N) (h0 : ¬t.val % 4 = 0) (h1 : t.val % 4 = 3) (j : St F) :
    outC m c t h0 h1 (stAt m c j (t.val - 1) (Nat.lt_of_le_of_lt (Nat.sub_le _ _) t.isLt))
      = outC m c t h0 h1 (stAt m c J0 (t.val - 1) (Nat.lt_of_le_of_lt (Nat.sub_le _ _) t.isLt)) := by
  have hN : t.val < 4 := lt_of_lt_of_eq t.isLt (show cfg0.N = 4 from N_0)
  have h3 : t.val = 3 := by omega
  refine outC_agree m c t h0 h1 _ _ ?_
  have := stAt_agree m c j J0 (t.val - 1) (Nat.lt_of_le_of_lt (Nat.sub_le _ _) t.isLt) (by omega)
  rwa [show 4 * (t.val - 1) + 4 = 4 * t.val by omega] at this

end Cert.KernelIdeal.Body

end
-- ==== Proof.KIdealBody.lean ====
/-
  The body obligation of the fused kernel at every grid point, the run of @main and the frame.
  At each point the invariant hands the body the four scratch buffers at the state the points
  before left (at anything before the first point) and takes them back at this point's state; at
  the last point the output buffer is handed back at the stored block, which does not depend on
  what the scratch held when the region was entered.
-/
import proofs.«170975_g2000502485364553_pallasbulk_1302_22_alg».proof.Proof.KIdealIndep

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t) := by
  refine ⟨?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rewrite [show (dats m 0 c).owesAt () t.succ = (dats m 0 c).owesAt () t.castSucc from rfl]
  rewrite [show (dats m 0 c).Φ t.succ = PhiS m c (t.val + 1) t.isLt from rfl, PhiS_succ]
  rewrite [(leaves_in m c t).1, (leaves_in m c t).2.1, (leaves_in m c t).2.2.1, (leaves_in m c t).2.2.2.1, (leaves_in m c t).2.2.2.2]
  have hN : t.val < 4 := lt_of_lt_of_eq t.isLt (show cfg0.N = 4 from N_0)
  by_cases h0 : t.val % 4 = 0
  · have h1 : ¬t.val % 4 = 3 := by omega
    have hz : t.val = 0 := by omega
    rewrite [Dat.leavesExact_idle (dats m 0 c) 5 t (idleAt0_5 t (fun h => h1 ((hcond0_1 t).mp h))) (noFlush0_5 t (fun h => h1 ((hcond0_1 t).mp h)))]
    rewrite [PhiS_castSucc m c t, PhiS_zero m c _ _ hz, PhiA0_eq]
    iintro ⟨⟨⟨HS0, ⟨%d8, HS1⟩, ⟨%d9, HS2⟩, ⟨%d10, HS3⟩⟩, Hg⟩, Ho, ⟨%e0, H0⟩, ⟨%e1, H1⟩, ⟨%e2, H2⟩, ⟨%e3, H3⟩, ⟨%e4, H4⟩, ⟨%e5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) d8 d9 d10).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, HS1, HS2, HS3⟩
    isplitl [HS0 HS1 HS2 HS3 Hg]
    · isplitr [Hg]
      · iexists ((scM0_0.view.read (Elt F) scM0_0.view.junk, d8, d9, d10) : St F)
        rewrite [stAt_A m c _ t hz]
        unfold stepA; dsimp only
        isplitl [HS0]
        · unfold owns; iexists _; isplitr
          swap; · iexact HS0
          ipureintro; exact View.read_writes_of_cover _ _ _ _ _ (scoverA c _ _ _ _ _ _ _ _ _ _ _ _ _ _ _ _ _ _ _ _ _ _ _ _ _ _ _ _ _ _ _)
        isplitl [HS1]
        · unfold owns; iexists _; isplitr
          swap; · iexact HS1
          ipureintro; rfl
        isplitl [HS2]
        · unfold owns; iexists _; isplitr
          swap; · iexact HS2
          ipureintro; rfl
        unfold owns; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 4 = 3
    · rewrite [show (dats m 0 c).leavesExact 5 t = owns (c : Thread nD τ) (ms0_5 t) fullShare ((dats m 0 c).after 5 t) from by
        unfold Dat.leavesExact; rw [liveAt0_5 t ((hcond0_1 t).mpr h1)]]
      rewrite [after0_5, show outAt m c t.val t.isLt = outC m c t h0 h1 (stAt m c J0 (t.val - 1) (Nat.lt_of_le_of_lt (Nat.sub_le _ _) t.isLt)) from dif_pos ⟨h0, h1⟩]
      rewrite [PhiS_castSucc m c t, PhiS_pos m c _ _ hz]
      iintro ⟨⟨⟨%j, HS0, HS1, HS2, HS3⟩, Hg⟩, Ho, ⟨%e0, H0⟩, ⟨%e1, H1⟩, ⟨%e2, H2⟩, ⟨%e3, H3⟩, ⟨%e4, H4⟩, ⟨%e5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (stAt m c j (t.val - 1) (by omega)).1 (stAt m c j (t.val - 1) (by omega)).2.1 (stAt m c j (t.val - 1) (by omega)).2.2.1 (stAt m c j (t.val - 1) (by omega)).2.2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%f5, H5⟩, HS0, HS1, HS2, HS3⟩
      isplitl [HS0 HS1 HS2 HS3 Hg]
      · isplitr [Hg]
        · iexists j
          rewrite [stAt_C m c j t h0 h1]
          unfold stepC; dsimp only
          isplitl [HS0]; · iexact HS0
          isplitl [HS1]
          · unfold owns; iexists _; isplitr
            swap; · iexact HS1
            ipureintro; rfl
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_of_cover _ _ _ _ _ (coverC c _ _ _ _ _ _ _ _ _ _ _ _ _ _ _ _ _ _ _ _ _ _ _ _ _ _ _ _ _ _ _ _)).trans (outC_indep m c t h0 h1 j)
    · rewrite [Dat.leavesExact_idle (dats m 0 c) 5 t (idleAt0_5 t (fun h => h1 ((hcond0_1 t).mp h))) (noFlush0_5 t (fun h => h1 ((hcond0_1 t).mp h)))]
      rewrite [PhiS_castSucc m c t, PhiS_pos m c _ _ hz]
      iintro ⟨⟨⟨%j, HS0, HS1, HS2, HS3⟩, Hg⟩, Ho, ⟨%e0, H0⟩, ⟨%e1, H1⟩, ⟨%e2, H2⟩, ⟨%e3, H3⟩, ⟨%e4, H4⟩, ⟨%e5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (stAt m c j (t.val - 1) (by omega)).1 (stAt m c j (t.val - 1) (by omega)).2.1 (stAt m c j (t.val - 1) (by omega)).2.2.1 (stAt m c j (t.val - 1) (by omega)).2.2.2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitr [Hg]
        · iexists j
          rewrite [stAt_B m c j t h0 h1]
          unfold stepB; dsimp only
          isplitl [HS0]; · iexact HS0
          isplitl [HS1]
          · unfold owns; iexists _; isplitr
            swap; · iexact HS1
            ipureintro; rfl
          isplitl [HS2]
          · unfold owns; iexists _; isplitr
            swap; · iexact HS2
            ipureintro; rfl
          unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%j, HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- Every weakly fair execution of @main terminates, every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.RefCombineBody.lean ====
import proofs.«170975_g2000502485364553_pallasbulk_1302_22_alg».proof.Proof.Gen.ReferenceIdeal.Launch
import proofs.«170975_g2000502485364553_pallasbulk_1302_22_alg».proof.Proof.Gen.ReferenceIdeal.Skeleton
import proofs.«170975_g2000502485364553_pallasbulk_1302_22_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

/-! # Region 1 of the reference: the combine body

The body of the second pallas_call folds, from a zero accumulator, the sixteen channel slabs of the staged
block of `P` each scaled by its entry of `s`, adds the staged row `const` broadcast over the rows, and stores
the result over the whole output block. This module names that result as a function of the three input blocks
and runs the body to it. -/

set_option maxRecDepth 16384

noncomputable section

namespace Cert.ReferenceIdeal.RefCombine

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rP0 : Rect S16x256x128 := Rect.unit (s := S16x256x128) ![0, 0, 0] S1x256x128.size inb_S16x256x128_S1x256x128_0_0_0
abbrev rP1 : Rect S16x256x128 := Rect.unit (s := S16x256x128) ![1, 0, 0] S1x256x128.size inb_S16x256x128_S1x256x128_1_0_0
abbrev rP2 : Rect S16x256x128 := Rect.unit (s := S16x256x128) ![2, 0, 0] S1x256x128.size inb_S16x256x128_S1x256x128_2_0_0
abbrev rP3 : Rect S16x256x128 := Rect.unit (s := S16x256x128) ![3, 0, 0] S1x256x128.size inb_S16x256x128_S1x256x128_3_0_0
abbrev rP4 : Rect S16x256x128 := Rect.unit (s := S16x256x128) ![4, 0, 0] S1x256x128.size inb_S16x256x128_S1x256x128_4_0_0
abbrev rP5 : Rect S16x256x128 := Rect.unit (s := S16x256x128) ![5, 0, 0] S1x256x128.size inb_S16x256x128_S1x256x128_5_0_0
abbrev rP6 : Rect S16x256x128 := Rect.unit (s := S16x256x128) ![6, 0, 0] S1x256x128.size inb_S16x256x128_S1x256x128_6_0_0
abbrev rP7 : Rect S16x256x128 := Rect.unit (s := S16x256x128) ![7, 0, 0] S1x256x128.size inb_S16x256x128_S1x256x128_7_0_0
abbrev rP8 : Rect S16x256x128 := Rect.unit (s := S16x256x128) ![8, 0, 0] S1x256x128.size inb_S16x256x128_S1x256x128_8_0_0
abbrev rP9 : Rect S16x256x128 := Rect.unit (s := S16x256x128) ![9, 0, 0] S1x256x128.size inb_S16x256x128_S1x256x128_9_0_0
abbrev rP10 : Rect S16x256x128 := Rect.unit (s := S16x256x128) ![10, 0, 0] S1x256x128.size inb_S16x256x128_S1x256x128_10_0_0
abbrev rP11 : Rect S16x256x128 := Rect.unit (s := S16x256x128) ![11, 0, 0] S1x256x128.size inb_S16x256x128_S1x256x128_11_0_0
abbrev rP12 : Rect S16x256x128 := Rect.unit (s := S16x256x128) ![12, 0, 0] S1x256x128.size inb_S16x256x128_S1x256x128_12_0_0
abbrev rP13 : Rect S16x256x128 := Rect.unit (s := S16x256x128) ![13, 0, 0] S1x256x128.size inb_S16x256x128_S1x256x128_13_0_0
abbrev rP14 : Rect S16x256x128 := Rect.unit (s := S16x256x128) ![14, 0, 0] S1x256x128.size inb_S16x256x128_S1x256x128_14_0_0
abbrev rP15 : Rect S16x256x128 := Rect.unit (s := S16x256x128) ![15, 0, 0] S1x256x128.size inb_S16x256x128_S1x256x128_15_0_0
abbrev rS0 : Rect S16x1 := Rect.unit (s := S16x1) ![0, 0] S1x1.size inb_S16x1_S1x1_0_0
abbrev rS1 : Rect S16x1 := Rect.unit (s := S16x1) ![1, 0] S1x1.size inb_S16x1_S1x1_1_0
abbrev rS2 : Rect S16x1 := Rect.unit (s := S16x1) ![2, 0] S1x1.size inb_S16x1_S1x1_2_0
abbrev rS3 : Rect S16x1 := Rect.unit (s := S16x1) ![3, 0] S1x1.size inb_S16x1_S1x1_3_0
abbrev rS4 : Rect S16x1 := Rect.unit (s := S16x1) ![4, 0] S1x1.size inb_S16x1_S1x1_4_0
abbrev rS5 : Rect S16x1 := Rect.unit (s := S16x1) ![5, 0] S1x1.size inb_S16x1_S1x1_5_0
abbrev rS6 : Rect S16x1 := Rect.unit (s := S16x1) ![6, 0] S1x1.size inb_S16x1_S1x1_6_0
abbrev rS7 : Rect S16x1 := Rect.unit (s := S16x1) ![7, 0] S1x1.size inb_S16x1_S1x1_7_0
abbrev rS8 : Rect S16x1 := Rect.unit (s := S16x1) ![8, 0] S1x1.size inb_S16x1_S1x1_8_0
abbrev rS9 : Rect S16x1 := Rect.unit (s := S16x1) ![9, 0] S1x1.size inb_S16x1_S1x1_9_0
abbrev rS10 : Rect S16x1 := Rect.unit (s := S16x1) ![10, 0] S1x1.size inb_S16x1_S1x1_10_0
abbrev rS11 : Rect S16x1 := Rect.unit (s := S16x1) ![11, 0] S1x1.size inb_S16x1_S1x1_11_0
abbrev rS12 : Rect S16x1 := Rect.unit (s := S16x1) ![12, 0] S1x1.size inb_S16x1_S1x1_12_0
abbrev rS13 : Rect S16x1 := Rect.unit (s := S16x1) ![13, 0] S1x1.size inb_S16x1_S1x1_13_0
abbrev rS14 : Rect S16x1 := Rect.unit (s := S16x1) ![14, 0] S1x1.size inb_S16x1_S1x1_14_0
abbrev rS15 : Rect S16x1 := Rect.unit (s := S16x1) ![15, 0] S1x1.size inb_S16x1_S1x1_15_0
abbrev rC : Rect S1x128 := Rect.unit (s := S1x128) ![0, 0] S1x128.size inb_S1x128_S1x128_0_0
abbrev rO : Rect S256x128 := Rect.unit (s := S256x128) ![0, 0] S256x128.size inb_S256x128_S256x128_0_0

/-! ## What the body stores -/

/-- The accumulator after channels 0–3, from the zero vector. -/
def acc4 (x0 : Vec F S16x256x128 .f32) (x1 : Vec F S16x1 .f32) : FVec F S256x128 .f32 :=
  k1_pay2 (View.ld x0 rP0) (View.ld x1 rS0) (View.ld x0 rP1) (View.ld x1 rS1) (View.ld x0 rP2) (View.ld x1 rS2) (View.ld x0 rP3) (View.ld x1 rS3)

/-- The accumulator after channels 0–8 (channel 4's slab and scale carried in from the first part). -/
def acc9 (x0 : Vec F S16x256x128 .f32) (x1 : Vec F S16x1 .f32) : FVec F S256x128 .f32 :=
  k1_pay5 (acc4 x0 x1) (k1_pay3 (View.ld x0 rP4)) (k1_pay4 (View.ld x1 rS4))
    (View.ld x0 rP5) (View.ld x1 rS5) (View.ld x0 rP6) (View.ld x1 rS6) (View.ld x0 rP7) (View.ld x1 rS7) (View.ld x0 rP8) (View.ld x1 rS8)

/-- The accumulator after channels 0–13 (channel 9's slab and scale carried in from the second part). -/
def acc14 (x0 : Vec F S16x256x128 .f32) (x1 : Vec F S16x1 .f32) : FVec F S256x128 .f32 :=
  k1_pay8 (acc9 x0 x1) (k1_pay6 (View.ld x0 rP9)) (k1_pay7 (View.ld x1 rS9))
    (View.ld x0 rP10) (View.ld x1 rS10) (View.ld x0 rP11) (View.ld x1 rS11) (View.ld x0 rP12) (View.ld x1 rS12) (View.ld x0 rP13) (View.ld x1 rS13)

/-- The stored vector: channels 14 and 15 folded in, the row `const` added. -/
def stored (x0 : Vec F S16x256x128 .f32) (x1 : Vec F S16x1 .f32) (x2 : Vec F S1x128 .f32) : FVec F S256x128 .f32 :=
  k1_pay1 (acc14 x0 x1) (k1_pay9 (View.ld x0 rP14)) (k1_pay10 (View.ld x1 rS14)) (View.ld x0 rP15) (View.ld x1 rS15) (View.ld x2 rC)

/-- The output window's staging buffer after the body, from the input windows' blocks: its one store, which covers it. -/
def out1_3 (x0 : Vec F S16x256x128 .f32) (x1 : Vec F S16x1 .f32) (x2 : Vec F S1x128 .f32) : Vec F S256x128 .f32 :=
  View.canon [⟨rO, stored x0 x1 x2⟩]

/-- The store tiles the buffer, so it covers it. -/
theorem cover1_3 (p0 : Vec F S256x128 .f32) (y : S256x128.Idx) :
    ∃ pc ∈ ([⟨rO, p0⟩] : List (View.Piece (Elt F) S256x128 .f32)), y ∈ pc.1.set :=
  View.cover_of_tiled [⟨rO, p0⟩] S256x128.size (by rfl) y

/-- The canon of the one whole-buffer store is its payload. -/
theorem out1_3_eq (x0 : Vec F S16x256x128 .f32) (x1 : Vec F S16x1 .f32) (x2 : Vec F S1x128 .f32) :
    out1_3 x0 x1 x2 = stored x0 x1 x2 :=
  View.canon_unit_zero (S := S256x128) (funext fun a => by match a with | ⟨0, _⟩ => rfl | ⟨1, _⟩ => rfl) _ _

/-! ## The body's triple -/

set_option maxHeartbeats 4000000 in
/-- The body on whole staging memrefs, the inputs' at read contents `x0 x1 x2` and the output's at anything, runs to the
    continuation holding the inputs' as they were and the output's at `out1_3` of them. -/
theorem sound_kernel (c : Dev nD) (E : Set ℕ) (i : grid1.Coords)
    (arg1 : Memref sig .tc .vmem S16x256x128 .f32) (harg1 : arg1.IsWhole) (arg2 : Memref sig .tc .vmem S16x1 .f32) (harg2 : arg2.IsWhole)
    (arg3 : Memref sig .tc .vmem S1x128 .f32) (harg3 : arg3.IsWhole) (arg4 : Memref sig .tc .vmem S256x128 .f32) (harg4 : arg4.IsWhole)
    (x0 : Vec F S16x256x128 .f32) (x1 : Vec F S16x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.ReferenceIdeal.RefCombine

end
-- ==== Proof.RefPartialFam.lean ====
/-
  The family of proof data over the program's two pipelines, and the choices both regions' records share: no index
  of dues (Unit), the rounds algebra alone, natural-number levels none of which is assigned, and the rest state that
  rides beside the unscoped buffers between @main's items (the core owing nothing, the generator register at some
  state).
-/
import proofs.«170975_g2000502485364553_pallasbulk_1302_22_alg».proof.Proof.Gen.ReferenceIdeal.Launch
import Idealize.ShloMosaic.Lib.Pipeline.Regions
import Idealize.ShloMosaic.Lib.Tactic

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof data of pipeline `p` on core `c`. -/
abbrev DatAt (p : Fin 2) (c : Dev nD) : Type _ := Dat τ (Elt F) Unit ℕ (UR sig nD τ) ℕ (cfgs p) c

/-- One family over both pipelines from each pipeline's own proof data. -/
def pdatsOf (d0 : (c : Dev nD) → DatAt (F := F) 0 c) (d1 : (c : Dev nD) → DatAt (F := F) 1 c) :
    (p : Fin 2) → (c : Dev nD) → DatAt (F := F) p c
  | ⟨0, _⟩ => d0
  | ⟨1, _⟩ => d1
  | ⟨_ + 2, h⟩ => absurd h (Nat.not_lt.2 (Nat.le_add_left _ _))

@[simp] theorem pdatsOf_zero (d0 : (c : Dev nD) → DatAt (F := F) 0 c) (d1 : (c : Dev nD) → DatAt (F := F) 1 c) :
    pdatsOf d0 d1 0 = d0 := rfl
@[simp] theorem pdatsOf_one (d0 : (c : Dev nD) → DatAt (F := F) 0 c) (d1 : (c : Dev nD) → DatAt (F := F) 1 c) :
    pdatsOf d0 d1 1 = d1 := rfl

/-- No core owes another anything: no level is assigned. -/
abbrev L0 : GSem nD τ sig → Finset Unit := fun _ => ∅
abbrev lv0 : GSem nD τ sig → Unit → ℕ := fun _ _ => 0

/-- What rides beside the unscoped buffers between @main's items: the core owing nothing, the generator register at
    some state. -/
abbrev Erest (_ : Fin 3) (c : Dev nD) : sProp 𝕄 :=
  iprop((∃ W, owes (c : Thread nD τ) (0 : CellTallies nD τ sig Unit) W) ∗ ∃ r, prngReg c r)

end Cert.ReferenceIdeal.RefPartial

end
-- ==== Proof.RefCombineDat.lean ====
import proofs.«170975_g2000502485364553_pallasbulk_1302_22_alg».proof.Proof.RefCombineBody
import proofs.«170975_g2000502485364553_pallasbulk_1302_22_alg».proof.Proof.RefPartialFam
import Idealize.ShloMosaic.Lib.Pipeline.Regions

/-! # Region 1 of the reference: the proof data and the body obligation

The proof data of the second pallas_call, over ANY contents `V c` of core `c`'s unscoped buffers at the region's
entry: the four windows' arrays are read off `V c`; after the body at a point each input's staging buffer holds its
block and the output's holds the body's result on the three input blocks. -/

set_option maxRecDepth 16384

noncomputable section

namespace Cert.ReferenceIdeal.RefCombine

open Cert.ReferenceIdeal Cert.ReferenceIdeal.Gen Cert.ReferenceIdeal.RefPartial
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- Core `c`'s buffer `b` as the region finds it. -/
abbrev At (c : Dev nD) (b : Ref sig .tc) : Buf (Elt F) ((c : Thread nD τ).loc b) := V c b

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (At V c (Pipeline.arrRef spec1 w))

/-! ## The proof data -/

/-- The proof data on core `c`: the arrays as the region finds them; after the body at point `t` each input's buffer at
    its block and the output's at the body's result on the input blocks; the invariant the scoped buffers that are no
    staging buffer of this pipeline, at anything; nothing owed; full shares. -/
def pdats1 (c : Dev nD) : Dat τ (Elt F) Unit ℕ (UR sig nD τ) ℕ cfg1 c where
  A w := At V c (Pipeline.arrRef spec1 w)
  after w t := match w with
    | ⟨0, _⟩ => iblk V c 0 t
    | ⟨1, _⟩ => iblk V c 1 t
    | ⟨2, _⟩ => iblk V c 2 t
    | ⟨3, _⟩ => out1_3 (iblk V c 0 t) (iblk V c 1 t) (iblk V c 2 t)
  Φ _ := Pipeline.scopedRest (Ix := Unit) (Name := ℕ) (U := UR sig nD τ) (Lvl := ℕ) (Val := Elt F) spec1 c
  q _ := fullShare
  owed _ := 0

theorem A_eq (c : Dev nD) (w : Fin cfg1.W) : (pdats1 V c).A w = At V c (Pipeline.arrRef spec1 w) := by
  dsimp only [pdats1]

theorem after1_0 (c : Dev nD) (t : Fin cfg1.N) : (pdats1 V c).after 0 t = iblk V c 0 t := by dsimp only [pdats1]
theorem after1_1 (c : Dev nD) (t : Fin cfg1.N) : (pdats1 V c).after 1 t = iblk V c 1 t := by dsimp only [pdats1]
theorem after1_2 (c : Dev nD) (t : Fin cfg1.N) : (pdats1 V c).after 2 t = iblk V c 2 t := by dsimp only [pdats1]
theorem after1_3 (c : Dev nD) (t : Fin cfg1.N) :
    (pdats1 V c).after 3 t = out1_3 (iblk V c 0 t) (iblk V c 1 t) (iblk V c 2 t) := by dsimp only [pdats1]

/-- Each input's current staging buffer holds its block at every point, fetched there or not: unfetched, the block
    index has not moved and the body left the block in place. -/
theorem before1_0 (c : Dev nD) (t : Fin cfg1.N) (d) : (pdats1 V c).before 0 t d = iblk V c 0 t :=
  ((pdats1 V c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (pdats1 V c).before 1 t d = iblk V c 1 t :=
  ((pdats1 V c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (pdats1 V c).before 2 t d = iblk V c 2 t :=
  ((pdats1 V c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((pdats1 V c).Φ t.castSucc ∗ (pdats1 V c).owesAt () t.castSucc
    ∗ (∃ d, owns (c : Thread nD τ) (st1_0 t) fullShare ((pdats1 V c).before 0 t d))
    ∗ (∃ d, owns (c : Thread nD τ) (st1_1 t) fullShare ((pdats1 V c).before 1 t d))
    ∗ (∃ d, owns (c : Thread nD τ) (st1_2 t) fullShare ((pdats1 V c).before 2 t d))
    ∗ (∃ d, owns (c : Thread nD τ) (st1_3 t) fullShare ((pdats1 V c).before 3 t d)))

/-- and what it returns. -/
def bodyPost (c : Dev nD) (t : Fin cfg1.N) : sProp 𝕄 :=
  iprop((pdats1 V c).Φ t.succ ∗ (pdats1 V c).owesAt () t.succ
    ∗ owns (c : Thread nD τ) (st1_0 t) fullShare ((pdats1 V c).after 0 t)
    ∗ owns (c : Thread nD τ) (st1_1 t) fullShare ((pdats1 V c).after 1 t)
    ∗ owns (c : Thread nD τ) (st1_2 t) fullShare ((pdats1 V c).after 2 t)
    ∗ owns (c : Thread nD τ) (st1_3 t) fullShare ((pdats1 V c).after 3 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (pdats1 V c).Φ t.succ = (pdats1 V c).Φ t.castSucc from rfl,
    show (pdats1 V c).owesAt () t.succ = (pdats1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (pdats1 V c) (defs₀ (F := F)) Variants.none () Set.univ := fun t => by
  rw [bigSep_W1, bigSep_W1]
  exact sound_body V c t

/-! ## What the region leaves in the output array -/

/-- The output array after the region: the entry contents overwritten, point by point, by what the body left. -/
def Out1 (c : Dev nD) : Buf (Elt F) ((c : Thread nD τ).loc main_v11) := (pdats1 V c).arrAt 3 cfg1.N

end Cert.ReferenceIdeal.RefCombine

end
-- ==== Proof.RefCombineSeg.lean ====
import proofs.«170975_g2000502485364553_pallasbulk_1302_22_alg».proof.Proof.RefCombineDat
import proofs.«170975_g2000502485364553_pallasbulk_1302_22_alg».proof.Proof.Gen.ReferenceIdeal.Regions

/-! # Region 1 of the reference: the region's record

The second pallas_call as a segment of @main, entered from ANY contents `V c` of the unscoped buffers beside the
rest state (the core owing nothing, the generator register): its four arrays go into the pipeline, every other
unscoped buffer and the register bypass it, and it leaves the buffers as it found them but for the output array,
which holds `Out1 V c`. -/

set_option maxRecDepth 16384

noncomputable section

namespace Cert.ReferenceIdeal.RefCombine

open Cert.ReferenceIdeal Cert.ReferenceIdeal.Gen Cert.ReferenceIdeal.RefPartial
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The unscoped buffers after the region: as found, the output array at `Out1`. -/
abbrev Vout (c : Dev nD) : Valuation τ sig (Elt F) := Function.update (V c) main_v11 (Out1 V c)

/-- A buffer other than the output array is as the region found it. -/
theorem Vout_of_ne (c : Dev nD) {b : Ref sig .tc} (h : b ≠ main_v11) : Vout V c b = V c b :=
  Function.update_of_ne (StableHlo.devRef_ne_of_ne h) _ _

theorem Vout_main_v11 (c : Dev nD) : Vout V c main_v11 = Out1 V c := Function.update_self ..

/-- Every array of the pipeline after the region is what `Vout` holds at it: an input is never written, the output is
    `Out1` by definition. -/
theorem arr_Vout (c : Dev nD) (w : Fin cfg1.W) : (pdats1 V c).arrAt w cfg1.N = Vout V c (Pipeline.arrRef spec1 w) := by
  match w with
  | ⟨0, _⟩ => exact ((pdats1 V c).arrAt_in 0 rfl _).trans (((A_eq V c 0)).trans (Vout_of_ne V c (by decide)).symm)
  | ⟨1, _⟩ => exact ((pdats1 V c).arrAt_in 1 rfl _).trans (((A_eq V c 1)).trans (Vout_of_ne V c (by decide)).symm)
  | ⟨2, _⟩ => exact ((pdats1 V c).arrAt_in 2 rfl _).trans (((A_eq V c 2)).trans (Vout_of_ne V c (by decide)).symm)
  | ⟨3, _⟩ => exact (Vout_main_v11 V c).symm

/-- The bypassing buffers are untouched: the output array is none of them. -/
theorem unscopedRest_Vout (c : Dev nD) :
    (Pipeline.unscopedRest (Ix := Unit) (Name := ℕ) (U := UR sig nD τ) (Lvl := ℕ) spec1 c (fun b => Vout V c b) : sProp 𝕄)
      = Pipeline.unscopedRest (Ix := Unit) (Name := ℕ) (U := UR sig nD τ) (Lvl := ℕ) spec1 c (fun b => V c b) := by
  unfold Pipeline.unscopedRest
  refine bigSep_congr fun b hb => ?_
  have hne : b ≠ main_v11 := fun e =>
    (Finset.mem_sdiff.mp hb).2 (Finset.mem_image.mpr ⟨(3 : Fin 4), Finset.mem_univ _, e.symm⟩)
  beta_reduce
  rw [Vout_of_ne V c hne]

section Seg

variable (d0 : (c : Dev nD) → DatAt (F := F) 0 c)

/-- The arrays at their final contents beside the bypassing buffers are the unscoped buffers at `Vout`. -/
theorem unscopedBufs_of_arrays (c : Dev nD) :
    iprop((pdatsOf d0 (pdats1 V) 1 c).arrays ((pdatsOf d0 (pdats1 V) 1 c).arrAt · cfg1.N)
        ∗ Pipeline.unscopedRest (Ix := Unit) (Name := ℕ) (U := UR sig nD τ) (Lvl := ℕ) spec1 c (fun b => V c b))
      ⊢ (unscopedBufs c (fun b => Vout V c b) : sProp 𝕄) := by
  rw [Pipeline.unscopedBufs_split (Pipeline.pin (pcfgs (F := F)) adm) 1 launch1.win.arr_unscoped launch1.win.arr_inj c (fun b => Vout V c b),
    Pipeline.arrays_eq (Pipeline.pin (pcfgs (F := F)) adm) (pdatsOf d0 (pdats1 V)) 1 c launch1.arr_whole ((pdats1 V c).share_full fun _ => rfl)]
  refine BI.sep_mono (Entails.of_eq (bigSep_congr fun w _ => ?_)) (Entails.of_eq (unscopedRest_Vout V c).symm)
  rw [show (pdatsOf d0 (pdats1 V) 1 c).arrAt w cfg1.N = Vout V c (Pipeline.arrRef spec1 w) from arr_Vout V c w]
  rfl

-- `iapply` of a launch lemma stated over `cfgs p` at the pinned configuration unifies only when unification may
-- unfold plain definitions in a metavariable's type
set_option backward.isDefEq.respectTransparency.types false in
/-- THE REGION: the windows' layout as the launch decides it, no semaphore of its own, the body obligation; entered from the unscoped buffers
    at `V c` beside the rest state, left with them at `Vout V c` beside it. -/
def R1 : Pipeline.RegionSeg (pcfgs (F := F)) adm (pdatsOf d0 (pdats1 V)) () defs₀ Variants.none L0 lv0 1 where
  win := launch1.win.to₀
  block_pos := launch1.block_pos
  stage_whole := launch1.stage_whole
  K := PEmpty
  osem := fun k => k.elim
  ho := Pipeline.OwnSemFacts.none _
  hbody c := (body_obligation V c).loose
  hwaits := Pipeline.hwaits_of_owed_zero _ _ _ _ L0 lv0 1 fun _ _ => rfl
  pre c := iprop(StableHlo.held (c : Thread nD τ) (Pipeline.ucRefs τ sig) (V c) ∗ Erest 1 c)
  post c := iprop(StableHlo.held (c : Thread nD τ) (Pipeline.ucRefs τ sig) (Vout V c) ∗ Erest 2 c)
  X c := iprop(emp)
  Y c := iprop(emp)
  Z c := iprop(Pipeline.unscopedRest (Ix := Unit) (Name := ℕ) (U := UR sig nD τ) (Lvl := ℕ) spec1 c (fun b => V c b) ∗ ∃ r, prngReg c r)
  hentry c := by
    rw [show StableHlo.held (c : Thread nD τ) (Pipeline.ucRefs τ sig) (V c) = unscopedBufs c (fun b => V c b) from (Pipeline.unscopedBufs_held c _).symm]
    have hsplit := Pipeline.arrays_of_unscopedBufs (p := (1 : Fin 2)) (pcfgs (F := F)) adm (pdatsOf d0 (pdats1 V)) launch1.win launch1.arr_whole c
      ((pdats1 V c).share_full fun _ => rfl) (fun b => V c b) fun _ => rfl
    iintro ⟨⟨Hub, HO, Hp⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hr]; · iexact Hr
    iexact Hp
  hin c := by
    change _ ⊢ (Pipeline.scopedRest (Ix := Unit) (Name := ℕ) (U := UR sig nD τ) (Lvl := ℕ) (Val := Elt F) spec1 c : sProp 𝕄)
    iintro ⟨-, -, Hr⟩
    iexact Hr
  hout c := by
    rw [Pipeline.ownSems0_none]
    change (Pipeline.scopedRest (Ix := Unit) (Name := ℕ) (U := UR sig nD τ) (Lvl := ℕ) (Val := Elt F) spec1 c : sProp 𝕄) ⊢ _
    iintro Hr
    isplitr; · iempintro
    isplitr; · iempintro
    iexact Hr
  hexit c := by
    rw [show StableHlo.held (c : Thread nD τ) (Pipeline.ucRefs τ sig) (Vout V c) = unscopedBufs c (fun b => Vout V c b) from (Pipeline.unscopedBufs_held c _).symm]
    have hjoin := unscopedBufs_of_arrays V d0 c
    iintro ⟨Ha, HO, -, Hr, Hp⟩
    imodintro
    isplitl [Ha Hr]
    · iapply hjoin
      isplitl [Ha]; · iexact Ha
      iexact Hr
    isplitl [HO]
    · unfold Pipeline.Dat.owesAt Pipeline.owesWithin
      icases HO with ⟨%W, -, HO⟩; iexists W; iexact HO
    iexact Hp

end Seg

end Cert.ReferenceIdeal.RefCombine

end
-- ==== Proof.RefChain.lean ====
import proofs.«170975_g2000502485364553_pallasbulk_1302_22_alg».proof.Proof.Gen.ReferenceIdeal.Regions

/-! # The reference's run, with the result array read at the end

The program's conditional frame — every argument array ends holding its launch contents, given one segment record per
kernel region pinned to the thread states between @main's items — extended by what the LAST thread state holds at the
result array `main_v11`: what the second region left there. -/

noncomputable section

namespace Cert.ReferenceIdeal.RefChain

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-- The last thread state holds at the result array what the second region left there. -/
theorem V4_main_v11 (c : Dev nD) : V4 m outs c main_v11 = outs 4 main_v11 c := Function.update_self ..

set_option backward.isDefEq.respectTransparency.types false in
/-- The conditional frame WITH the result: given, per region, a segment record entered from the thread state before it
    and left at the one after it, every weakly fair execution of @main from memory `m` with zero counters terminates, and
    every final memory holds each argument as launched and the result array at what the second region left. -/
theorem frame_cond_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v11) = outs 4 main_v11 c) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4)) ∧ s.mem ((c.tc : Thread nD τ).loc main_v11) = outs 4 main_v11 c)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c)⟩,
        (h (Proc.devRef .tc main_v11) (Finset.mem_filter.mpr ⟨StableHlo.devRef_mem_tcRefs main_v11, by decide⟩)).trans (V4_main_v11 m outs c)⟩
    · iexact HSI

end Cert.ReferenceIdeal.RefChain

end
-- ==== Proof.RefChainAsm.lean ====
import proofs.«170975_g2000502485364553_pallasbulk_1302_22_alg».proof.Proof.RefCombineSeg
import proofs.«170975_g2000502485364553_pallasbulk_1302_22_alg».proof.Proof.RefChain
import Idealize.ShloMosaic.Lib.Pipeline.Kit
import Idealize.ShloMosaic.Lib.Pipeline.Frame

/-! # The reference's run, assembled

The second region's record pinned to the generated thread states, and the whole run from the first region's record:
the rounds algebra alone, no level assigned, nothing owed at launch, and between @main's items the core owing
nothing beside the generator register at some state. -/

set_option maxRecDepth 16384

noncomputable section

namespace Cert.ReferenceIdeal.RefChain

open Cert.ReferenceIdeal Cert.ReferenceIdeal.Gen Cert.ReferenceIdeal.RefPartial Cert.ReferenceIdeal.RefCombine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))
variable (d0 : (c : Dev nD) → DatAt (F := F) 0 c)

/-- The second region is entered from the thread state the second host stretch leaves, -/
theorem hpre1 (c : Dev nD) :
    (iprop(StableHlo.held (c : Thread nD τ) (Pipeline.ucRefs τ sig) (V3 m outs c) ∗ Erest 1 c) : sProp 𝕄) ⊢ (R1 (V3 m outs) d0).pre c :=
  .rfl

/-- and leaves the last thread state, when `outs` names at the result array what the region leaves there. -/
theorem hpost1 (hout : ∀ c, outs 4 main_v11 c = Out1 (V3 m outs) c) (c : Dev nD) :
    (R1 (V3 m outs) d0).post c ⊢ (iprop(StableHlo.held (c : Thread nD τ) (Pipeline.ucRefs τ sig) (V4 m outs c) ∗ Erest 2 c) : sProp 𝕄) := by
  show _ ⊢ (iprop(StableHlo.held (c : Thread nD τ) (Pipeline.ucRefs τ sig) (Function.update (V3 m outs c) main_v11 (outs 4 main_v11 c)) ∗ Erest 2 c) : sProp 𝕄)
  rw [hout c]
  exact .rfl

/-- The launch element: the rounds algebra's at the staging cells and the pipelines' transfers. -/
abbrev u₀ : UR sig nD τ := initOf (Pipeline.cells cfgs cellOf_inj) (Pipeline.launchToks cfgs cellOf_inj)

set_option backward.isDefEq.respectTransparency.types false in
/-- THE RUN: given the first region's record between the thread states around it, and `outs` naming at the result array
    what the second region leaves, every weakly fair execution of @main from memory `m` with zero counters terminates,
    every argument ends as launched and the result array holds `outs 4 main_v11 c`. -/
theorem run_val
    (R0 : RegionSeg (pcfgs (F := F)) adm (pdatsOf d0 (pdats1 (V3 m outs))) () defs₀ Variants.none L0 lv0 0)
    (hpre0 : ∀ c : Dev nD, (iprop(StableHlo.held (c : Thread nD τ) (Pipeline.ucRefs τ sig) (V1 m c) ∗ Erest 0 c) : sProp 𝕄) ⊢ R0.pre c)
    (hpost0 : ∀ c : Dev nD, R0.post c ⊢ (iprop(StableHlo.held (c : Thread nD τ) (Pipeline.ucRefs τ sig) (V2 m outs c) ∗ Erest 1 c) : sProp 𝕄))
    (hout : ∀ c, outs 4 main_v11 c = Out1 (V3 m outs) c) :
    θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v11) = outs 4 main_v11 c) :=
  frame_cond_val m (Ix := Unit) (U := UR sig nD τ) (Lvl := ℕ) emb₁ () Variants.none L0 lv0 (fun _ _ => rfl) ρ outs
    (pdatsOf d0 (pdats1 (V3 m outs))) (O₀ := 0) (G := fun _ => iprop(emp)) (u₀ := u₀)
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Erest)
    (hE0 := by
      refine Pipeline.initEach L0 lv0 fun c => ?_
      iintro ⟨⟨-, HO, -, Hp, -⟩, -⟩
      imodintro
      isplitl [HO]; · iexists ∅; iexact HO
      iexists _; iexact Hp)
    (hE2 := fun c => by
      iintro ⟨HO, -⟩
      iexact HO)
    R0 hpre0 hpost0 (R1 (V3 m outs) d0) (hpre1 m outs d0) (hpost1 m outs d0 hout)

end Cert.ReferenceIdeal.RefChain

end
-- ==== Proof.RefPartialBase.lean ====
/-
  Region 0 (the batch-norm statistics and per-channel partial products): what its three cases share. The body's two
  conditionals on the grid coordinate in closed form (the first point zeroes the two accumulators; the last point
  reduces them to the scale and shift columns), where the two column outputs are idle, the staging and scratch memrefs
  as the pipeline passes them, the arrays as the region finds them and each input window's block.
-/
import proofs.«170975_g2000502485364553_pallasbulk_1302_22_alg».proof.Proof.Gen.ReferenceIdeal.Launch
import proofs.«170975_g2000502485364553_pallasbulk_1302_22_alg».proof.Proof.Gen.ReferenceIdeal.Skeleton
import proofs.«170975_g2000502485364553_pallasbulk_1302_22_alg».proof.Proof.Gen.ReferenceIdeal.Points
import proofs.«170975_g2000502485364553_pallasbulk_1302_22_alg».proof.Proof.Gen.ReferenceIdeal.Regions
import proofs.«170975_g2000502485364553_pallasbulk_1302_22_alg».proof.Proof.RefPartialFam
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s unscoped buffers when region 0 is entered: the launch contents after the first host stretch. -/
abbrev V (c : Dev nD) (b : Ref sig .tc) : Buf (Elt F) ((c : Thread nD τ).loc b) := Gen.V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first conditional's condition (the coordinate is 0), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)
/-- The second conditional's condition (the coordinate is 7). -/
abbrev cond0_1 (i : grid0.Coords) : Prop := k0_cond2 i = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last point the two column outputs are idle and not written back; at it they are live. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The staging and scratch memrefs -/

abbrev ms0_0 (t : Fin cfg0.N) : Memref sig .tc .vmem S256x16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x16x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S16x256 .f32 := Memref.whole cc0_scratch0
abbrev scM0_1 : Memref sig .tc .vmem S16x256 .f32 := Memref.whole cc0_scratch1
/-- Views through which the outputs' and the accumulators' contents are stated. -/
abbrev VO0_4 : View sig .tc .vmem S16x256x128 .f32 := (Memref.whole cc0_stg4_0 : Memref sig .tc .vmem S16x256x128 .f32).view
abbrev VO0_5 : View sig .tc .vmem S16x1 .f32 := (Memref.whole cc0_stg5_0 : Memref sig .tc .vmem S16x1 .f32).view
abbrev VO0_6 : View sig .tc .vmem S16x1 .f32 := (Memref.whole cc0_stg6_0 : Memref sig .tc .vmem S16x1 .f32).view
abbrev VS0_0 : View sig .tc .vmem S16x256 .f32 := scM0_0.view
abbrev VS0_1 : View sig .tc .vmem S16x256 .f32 := scM0_1.view

/-- The other pipeline's staging buffers, each at some contents: what the region's invariant carries beside the two
    accumulators. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped buffers region 0 does not stage: the two accumulators as memrefs owned at some contents, and the rest. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ restB c) := by
  rw [scopedRest0_eq]; unfold restB; simp only [scM0_0, scM0_1, owns_whole]; try rfl

end Cert.ReferenceIdeal.RefPartial

end
-- ==== Proof.RefPartialRunA.lean ====
/-
  Region 0's body at the first point: both accumulators are zeroed, then the tile's sums and sums of squares added and
  the sixteen per-channel products stored; the two column outputs are left untouched. The triple, by symbolic
  execution of the body's skeleton; the pieces each written buffer ends with are the witness the run finds.
-/
import proofs.«170975_g2000502485364553_pallasbulk_1302_22_alg».proof.Proof.RefPartialBase

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of the first point (first conditional taken, second not). -/
noncomputable def kernelRun0_A (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole) (hc0 : cond0_0 i) (hc1 : ¬cond0_1 i)
    (x0 : Vec F S256x16x256 .f32) (x1 : Vec F S16x1 .f32) (x2 : Vec F S16x1 .f32) (x3 : Vec F S128x16x256 .f32) :
    Σ' (L4 : List (View.Piece (Elt F) S16x256x128 .f32)) (LS0 : List (View.Piece (Elt F) S16x256 .f32)), { LS1 : List (View.Piece (Elt F) S16x256 .f32) //
      ∀ (xi5 : Vec F S16x1 .f32) (xi6 : Vec F S16x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__bn_fc_partial_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__bn_fc_partial_kernel_eq_skeleton]; unfold cc0__bn_fc_partial_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.ReferenceIdeal.RefPartial

end
-- ==== Proof.RefPartialRunB.lean ====
/-
  Region 0's body at a middle point: the tile's sums and sums of squares are added to the two accumulators as the
  point before left them, the sixteen per-channel products stored; the two column outputs are left untouched.
-/
import proofs.«170975_g2000502485364553_pallasbulk_1302_22_alg».proof.Proof.RefPartialRunA

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of a middle point (neither conditional taken). -/
noncomputable def kernelRun0_B (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole) (hc0 : ¬cond0_0 i) (hc1 : ¬cond0_1 i)
    (x0 : Vec F S256x16x256 .f32) (x1 : Vec F S16x1 .f32) (x2 : Vec F S16x1 .f32) (x3 : Vec F S128x16x256 .f32) (xs0 : Vec F S16x256 .f32) (xs1 : Vec F S16x256 .f32) :
    Σ' (L4 : List (View.Piece (Elt F) S16x256x128 .f32)) (LS0 : List (View.Piece (Elt F) S16x256 .f32)), { LS1 : List (View.Piece (Elt F) S16x256 .f32) //
      ∀ (xi5 : Vec F S16x1 .f32) (xi6 : Vec F S16x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__bn_fc_partial_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__bn_fc_partial_kernel_eq_skeleton]; unfold cc0__bn_fc_partial_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.ReferenceIdeal.RefPartial

end
-- ==== Proof.RefPartialRunC.lean ====
/-
  Region 0's body at the last point: the tile's sums and sums of squares are added to the two accumulators, the sixteen
  per-channel products stored, and the two accumulators reduced along their rows to the mean and the variance, from
  which the scale and shift columns are stored into the two column outputs.
-/
import proofs.«170975_g2000502485364553_pallasbulk_1302_22_alg».proof.Proof.RefPartialRunB

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in the case of the last point (first conditional not taken, second taken). -/
noncomputable def kernelRun0_C (c : Dev nD) (i : grid0.Coords) (arg1 : Memref sig .tc .vmem S256x16x256 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S128x16x256 .f32) (harg4 : arg4.IsWhole) (arg5 : Memref sig .tc .vmem S16x256x128 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x256 .f32) (harg8 : arg8.IsWhole) (arg9 : Memref sig .tc .vmem S16x256 .f32) (harg9 : arg9.IsWhole) (hc0 : ¬cond0_0 i) (hc1 : cond0_1 i)
    (x0 : Vec F S256x16x256 .f32) (x1 : Vec F S16x1 .f32) (x2 : Vec F S16x1 .f32) (x3 : Vec F S128x16x256 .f32) (xs0 : Vec F S16x256 .f32) (xs1 : Vec F S16x256 .f32) :
    Σ' (L4 : List (View.Piece (Elt F) S16x256x128 .f32)) (L5 : List (View.Piece (Elt F) S16x1 .f32)) (L6 : List (View.Piece (Elt F) S16x1 .f32)) (LS0 : List (View.Piece (Elt F) S16x256 .f32)), { LS1 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__bn_fc_partial_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__bn_fc_partial_kernel_eq_skeleton]; unfold cc0__bn_fc_partial_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.ReferenceIdeal.RefPartial

end
-- ==== Proof.RefPartialDat.lean ====
/-
  Region 0's proof data. What each case of the body leaves in the product window's staging buffer, in the two column
  outputs and in the two accumulators (the pieces its run found, read back), the accumulation point by point
  (`outsAt0`: the first point's case, then a middle point's over what the point before left, then the last point's),
  the invariant carrying the two accumulators at those named contents, and the proof data itself.
-/
import proofs.«170975_g2000502485364553_pallasbulk_1302_22_alg».proof.Proof.RefPartialRunC

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem N8 : cfg0.N = 8 := N_0

/-! ## The three cases run at a point of the grid -/

/-- The first point's run on the pipeline's memrefs and the input blocks there. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    ((hcond0_0 t).mpr h0) (fun h => by have := (hcond0_1 t).mp h; omega) (iblk m c 0 t) (iblk m c 1 t) (iblk m c 2 t) (iblk m c 3 t)
/-- A middle point's run, the accumulators at `xs0`, `xs1`. -/
abbrev runB (c : Dev nD) (t : Fin cfg0.N) (h0 : ¬t.val % 8 = 0) (h1 : ¬t.val % 8 = 7) (xs0 xs1 : Vec F S16x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => h0 ((hcond0_0 t).mp h)) (fun h => h1 ((hcond0_1 t).mp h)) (iblk m c 0 t) (iblk m c 1 t) (iblk m c 2 t) (iblk m c 3 t) xs0 xs1
/-- The last point's run, the accumulators at `xs0`, `xs1`. -/
abbrev runC (c : Dev nD) (t : Fin cfg0.N) (h1 : t.val % 8 = 7) (xs0 xs1 : Vec F S16x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => by have := (hcond0_0 t).mp h; omega) ((hcond0_1 t).mpr h1) (iblk m c 0 t) (iblk m c 1 t) (iblk m c 2 t) (iblk m c 3 t) xs0 xs1

/-! ## The pieces cover what they are read back over -/

theorem coverA_4 (c : Dev nD) (t : Fin cfg0.N) (h0 : t.val % 8 = 0) (y : S16x256x128.Idx) : ∃ pc ∈ (runA m c t h0).1, y ∈ pc.1.set :=
  View.cover_of_tiledL (runA m c t h0).1 S1x256x128.size (by sl_kernel_rfl) y
theorem scoverA_0 (c : Dev nD) (t : Fin cfg0.N) (h0 : t.val % 8 = 0) (y : S16x256.Idx) : ∃ pc ∈ (runA m c t h0).2.1, y ∈ pc.1.set :=
  View.cover_of_tiledL (runA m c t h0).2.1 S16x256.size (by sl_kernel_rfl) y
theorem scoverA_1 (c : Dev nD) (t : Fin cfg0.N) (h0 : t.val % 8 = 0) (y : S16x256.Idx) : ∃ pc ∈ (runA m c t h0).2.2.1, y ∈ pc.1.set :=
  View.cover_of_tiledL (runA m c t h0).2.2.1 S16x256.size (by sl_kernel_rfl) y
theorem coverB_4 (c : Dev nD) (t : Fin cfg0.N) (h0 : ¬t.val % 8 = 0) (h1 : ¬t.val % 8 = 7) (xs0 xs1 : Vec F S16x256 .f32) (y : S16x256x128.Idx) : ∃ pc ∈ (runB m c t h0 h1 xs0 xs1).1, y ∈ pc.1.set :=
  View.cover_of_tiledL (runB m c t h0 h1 xs0 xs1).1 S1x256x128.size (by sl_kernel_rfl) y
theorem scoverB_0 (c : Dev nD) (t : Fin cfg0.N) (h0 : ¬t.val % 8 = 0) (h1 : ¬t.val % 8 = 7) (xs0 xs1 : Vec F S16x256 .f32) (y : S16x256.Idx) : ∃ pc ∈ (runB m c t h0 h1 xs0 xs1).2.1, y ∈ pc.1.set :=
  View.cover_of_tiledL (runB m c t h0 h1 xs0 xs1).2.1 S16x256.size (by sl_kernel_rfl) y
theorem scoverB_1 (c : Dev nD) (t : Fin cfg0.N) (h0 : ¬t.val % 8 = 0) (h1 : ¬t.val % 8 = 7) (xs0 xs1 : Vec F S16x256 .f32) (y : S16x256.Idx) : ∃ pc ∈ (runB m c t h0 h1 xs0 xs1).2.2.1, y ∈ pc.1.set :=
  View.cover_of_tiledL (runB m c t h0 h1 xs0 xs1).2.2.1 S16x256.size (by sl_kernel_rfl) y
theorem coverC_4 (c : Dev nD) (t : Fin cfg0.N) (h1 : t.val % 8 = 7) (xs0 xs1 : Vec F S16x256 .f32) (y : S16x256x128.Idx) : ∃ pc ∈ (runC m c t h1 xs0 xs1).1, y ∈ pc.1.set :=
  View.cover_of_tiledL (runC m c t h1 xs0 xs1).1 S1x256x128.size (by sl_kernel_rfl) y
theorem coverC_5 (c : Dev nD) (t : Fin cfg0.N) (h1 : t.val % 8 = 7) (xs0 xs1 : Vec F S16x256 .f32) (y : S16x1.Idx) : ∃ pc ∈ (runC m c t h1 xs0 xs1).2.1, y ∈ pc.1.set :=
  View.cover_of_tiledL (runC m c t h1 xs0 xs1).2.1 S16x1.size (by sl_kernel_rfl) y
theorem coverC_6 (c : Dev nD) (t : Fin cfg0.N) (h1 : t.val % 8 = 7) (xs0 xs1 : Vec F S16x256 .f32) (y : S16x1.Idx) : ∃ pc ∈ (runC m c t h1 xs0 xs1).2.2.1, y ∈ pc.1.set :=
  View.cover_of_tiledL (runC m c t h1 xs0 xs1).2.2.1 S16x1.size (by sl_kernel_rfl) y
theorem scoverC_0 (c : Dev nD) (t : Fin cfg0.N) (h1 : t.val % 8 = 7) (xs0 xs1 : Vec F S16x256 .f32) (y : S16x256.Idx) : ∃ pc ∈ (runC m c t h1 xs0 xs1).2.2.2.1, y ∈ pc.1.set :=
  View.cover_of_tiledL (runC m c t h1 xs0 xs1).2.2.2.1 S16x256.size (by sl_kernel_rfl) y
theorem scoverC_1 (c : Dev nD) (t : Fin cfg0.N) (h1 : t.val % 8 = 7) (xs0 xs1 : Vec F S16x256 .f32) (y : S16x256.Idx) : ∃ pc ∈ (runC m c t h1 xs0 xs1).2.2.2.2.1, y ∈ pc.1.set :=
  View.cover_of_tiledL (runC m c t h1 xs0 xs1).2.2.2.2.1 S16x256.size (by sl_kernel_rfl) y

/-! ## What each case leaves: its pieces read back -/

def out4_A (c : Dev nD) (t : Fin cfg0.N) (h0 : t.val % 8 = 0) : Vec F S16x256x128 .f32 :=
  VO0_4.read (Elt F) (VO0_4.writes (Elt F) VO0_4.junk (runA m c t h0).1)
def s0_A (c : Dev nD) (t : Fin cfg0.N) (h0 : t.val % 8 = 0) : Vec F S16x256 .f32 :=
  VS0_0.read (Elt F) (VS0_0.writes (Elt F) VS0_0.junk (runA m c t h0).2.1)
def s1_A (c : Dev nD) (t : Fin cfg0.N) (h0 : t.val % 8 = 0) : Vec F S16x256 .f32 :=
  VS0_1.read (Elt F) (VS0_1.writes (Elt F) VS0_1.junk (runA m c t h0).2.2.1)
def out4_B (c : Dev nD) (t : Fin cfg0.N) (h0 : ¬t.val % 8 = 0) (h1 : ¬t.val % 8 = 7) (xs0 xs1 : Vec F S16x256 .f32) : Vec F S16x256x128 .f32 :=
  VO0_4.read (Elt F) (VO0_4.writes (Elt F) VO0_4.junk (runB m c t h0 h1 xs0 xs1).1)
def s0_B (c : Dev nD) (t : Fin cfg0.N) (h0 : ¬t.val % 8 = 0) (h1 : ¬t.val % 8 = 7) (xs0 xs1 : Vec F S16x256 .f32) : Vec F S16x256 .f32 :=
  VS0_0.read (Elt F) (VS0_0.writes (Elt F) VS0_0.junk (runB m c t h0 h1 xs0 xs1).2.1)
def s1_B (c : Dev nD) (t : Fin cfg0.N) (h0 : ¬t.val % 8 = 0) (h1 : ¬t.val % 8 = 7) (xs0 xs1 : Vec F S16x256 .f32) : Vec F S16x256 .f32 :=
  VS0_1.read (Elt F) (VS0_1.writes (Elt F) VS0_1.junk (runB m c t h0 h1 xs0 xs1).2.2.1)
def out4_C (c : Dev nD) (t : Fin cfg0.N) (h1 : t.val % 8 = 7) (xs0 xs1 : Vec F S16x256 .f32) : Vec F S16x256x128 .f32 :=
  VO0_4.read (Elt F) (VO0_4.writes (Elt F) VO0_4.junk (runC m c t h1 xs0 xs1).1)
def out5_C (c : Dev nD) (t : Fin cfg0.N) (h1 : t.val % 8 = 7) (xs0 xs1 : Vec F S16x256 .f32) : Vec F S16x1 .f32 :=
  VO0_5.read (Elt F) (VO0_5.writes (Elt F) VO0_5.junk (runC m c t h1 xs0 xs1).2.1)
def out6_C (c : Dev nD) (t : Fin cfg0.N) (h1 : t.val % 8 = 7) (xs0 xs1 : Vec F S16x256 .f32) : Vec F S16x1 .f32 :=
  VO0_6.read (Elt F) (VO0_6.writes (Elt F) VO0_6.junk (runC m c t h1 xs0 xs1).2.2.1)
def s0_C (c : Dev nD) (t : Fin cfg0.N) (h1 : t.val % 8 = 7) (xs0 xs1 : Vec F S16x256 .f32) : Vec F S16x256 .f32 :=
  VS0_0.read (Elt F) (VS0_0.writes (Elt F) VS0_0.junk (runC m c t h1 xs0 xs1).2.2.2.1)
def s1_C (c : Dev nD) (t : Fin cfg0.N) (h1 : t.val % 8 = 7) (xs0 xs1 : Vec F S16x256 .f32) : Vec F S16x256 .f32 :=
  VS0_1.read (Elt F) (VS0_1.writes (Elt F) VS0_1.junk (runC m c t h1 xs0 xs1).2.2.2.2.1)
/-- Off the last point the column outputs' buffers are neither stored into nor written back: a placeholder nothing reads. -/
def junk5 : Vec F S16x1 .f32 := VO0_5.read (Elt F) VO0_5.junk
def junk6 : Vec F S16x1 .f32 := VO0_6.read (Elt F) VO0_6.junk

/-! ## The accumulation, point by point -/

/-- After the body at a point: the product block, the two columns, the two accumulators. -/
abbrev Outs5 : Type := Vec F S16x256x128 .f32 × Vec F S16x1 .f32 × Vec F S16x1 .f32 × Vec F S16x256 .f32 × Vec F S16x256 .f32

/-- What the output buffers and the two accumulators hold after the body at position `n`: the first point's case, a
    middle point's and the last point's over what the point before left in the accumulators. -/
def outsAt0 (c : Dev nD) : (n : ℕ) → n < cfg0.N → Outs5 (F := F)
  | 0, hn => (out4_A m c ⟨0, hn⟩ (Nat.zero_mod _), junk5, junk6, s0_A m c ⟨0, hn⟩ (Nat.zero_mod _), s1_A m c ⟨0, hn⟩ (Nat.zero_mod _))
  | n + 1, hn =>
    if h1 : (n + 1) % 8 = 7 then
      (out4_C m c ⟨n + 1, hn⟩ h1 (outsAt0 c n (Nat.lt_of_succ_lt hn)).2.2.2.1 (outsAt0 c n (Nat.lt_of_succ_lt hn)).2.2.2.2,
        out5_C m c ⟨n + 1, hn⟩ h1 (outsAt0 c n (Nat.lt_of_succ_lt hn)).2.2.2.1 (outsAt0 c n (Nat.lt_of_succ_lt hn)).2.2.2.2,
        out6_C m c ⟨n + 1, hn⟩ h1 (outsAt0 c n (Nat.lt_of_succ_lt hn)).2.2.2.1 (outsAt0 c n (Nat.lt_of_succ_lt hn)).2.2.2.2,
        s0_C m c ⟨n + 1, hn⟩ h1 (outsAt0 c n (Nat.lt_of_succ_lt hn)).2.2.2.1 (outsAt0 c n (Nat.lt_of_succ_lt hn)).2.2.2.2,
        s1_C m c ⟨n + 1, hn⟩ h1 (outsAt0 c n (Nat.lt_of_succ_lt hn)).2.2.2.1 (outsAt0 c n (Nat.lt_of_succ_lt hn)).2.2.2.2)
    else
      (out4_B m c ⟨n + 1, hn⟩ (by have hN : n + 1 < 8 := lt_of_lt_of_eq hn N8; show ¬(n + 1) % 8 = 0; omega) h1 (outsAt0 c n (Nat.lt_of_succ_lt hn)).2.2.2.1 (outsAt0 c n (Nat.lt_of_succ_lt hn)).2.2.2.2,
        junk5, junk6,
        s0_B m c ⟨n + 1, hn⟩ (by have hN : n + 1 < 8 := lt_of_lt_of_eq hn N8; show ¬(n + 1) % 8 = 0; omega) h1 (outsAt0 c n (Nat.lt_of_succ_lt hn)).2.2.2.1 (outsAt0 c n (Nat.lt_of_succ_lt hn)).2.2.2.2,
        s1_B m c ⟨n + 1, hn⟩ (by have hN : n + 1 < 8 := lt_of_lt_of_eq hn N8; show ¬(n + 1) % 8 = 0; omega) h1 (outsAt0 c n (Nat.lt_of_succ_lt hn)).2.2.2.1 (outsAt0 c n (Nat.lt_of_succ_lt hn)).2.2.2.2)

/-- The accumulators after the point before `t` (`t` not the first). -/
abbrev prevS0 (c : Dev nD) (t : Fin cfg0.N) : Vec F S16x256 .f32 := (outsAt0 m c (t.val - 1) (Nat.lt_of_le_of_lt (Nat.sub_le _ _) t.isLt)).2.2.2.1
abbrev prevS1 (c : Dev nD) (t : Fin cfg0.N) : Vec F S16x256 .f32 := (outsAt0 m c (t.val - 1) (Nat.lt_of_le_of_lt (Nat.sub_le _ _) t.isLt)).2.2.2.2

theorem outsAt0_A (c : Dev nD) (t : Fin cfg0.N) (h0 : t.val % 8 = 0) :
    outsAt0 m c t.val t.isLt = (out4_A m c t h0, junk5, junk6, s0_A m c t h0, s1_A m c t h0) := by
  obtain ⟨n, hn⟩ := t
  have hN : n < 8 := lt_of_lt_of_eq hn N8
  have hz : n = 0 := by dsimp only at h0; omega
  subst hz; rfl

theorem outsAt0_B (c : Dev nD) (t : Fin cfg0.N) (h0 : ¬t.val % 8 = 0) (h1 : ¬t.val % 8 = 7) :
    outsAt0 m c t.val t.isLt = (out4_B m c t h0 h1 (prevS0 m c t) (prevS1 m c t), junk5, junk6,
      s0_B m c t h0 h1 (prevS0 m c t) (prevS1 m c t), s1_B m c t h0 h1 (prevS0 m c t) (prevS1 m c t)) := by
  obtain ⟨n, hn⟩ := t
  cases n with
  | zero => exact absurd (Nat.zero_mod _) h0
  | succ n => exact (dif_neg h1).trans rfl

theorem outsAt0_C (c : Dev nD) (t : Fin cfg0.N) (h1 : t.val % 8 = 7) :
    outsAt0 m c t.val t.isLt = (out4_C m c t h1 (prevS0 m c t) (prevS1 m c t), out5_C m c t h1 (prevS0 m c t) (prevS1 m c t),
      out6_C m c t h1 (prevS0 m c t) (prevS1 m c t), s0_C m c t h1 (prevS0 m c t) (prevS1 m c t), s1_C m c t h1 (prevS0 m c t) (prevS1 m c t)) := by
  obtain ⟨n, hn⟩ := t
  cases n with
  | zero => exact absurd (show (0 : ℕ) % 8 = 7 from h1) (by decide)
  | succ n => exact (dif_pos h1).trans rfl

/-! ## The invariant: the two accumulators at named contents -/

/-- Before the first point the scoped buffers the region does not stage, each at anything; afterwards the two
    accumulators at what the point before left in them, beside the other pipeline's staging buffers. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (outsAt0 m c n hn).2.2.2.1 ∗ owns (c : Thread nD τ) scM0_1 fullShare (outsAt0 m c n hn).2.2.2.2 ∗ restB c)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare (outsAt0 m c n hn).2.2.2.1 ∗ owns (c : Thread nD τ) scM0_1 fullShare (outsAt0 m c n hn).2.2.2.2 ∗ restB c) := rfl
theorem PhiS_pos (c : Dev nD) (n : ℕ) (h : n ≤ cfg0.N) (hz : n ≠ 0) :
    PhiS m c n h = iprop(owns (c : Thread nD τ) scM0_0 fullShare (outsAt0 m c (n - 1) (by omega)).2.2.2.1 ∗ owns (c : Thread nD τ) scM0_1 fullShare (outsAt0 m c (n - 1) (by omega)).2.2.2.2 ∗ restB c) := by
  cases n with
  | zero => exact absurd rfl hz
  | succ n => rfl

/-! ## The proof data -/

/-- Region 0's proof data on core `c`: the arrays as the region finds them; after the body each input's buffer at its
    block and the outputs' at `outsAt0`'s components; the invariant `PhiS`; nothing owed; full shares. -/
def pdats0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

theorem A_eq (c : Dev nD) (w : Fin cfg0.W) : (pdats0 m c).A w = V m c (Pipeline.arrRef spec0 w) := by
  dsimp only [pdats0]
theorem PhiS_castSucc (c : Dev nD) (t : Fin cfg0.N) :
    (pdats0 m c).Φ t.castSucc = PhiS m c t.val (Nat.le_of_lt t.isLt) := by
  dsimp only [pdats0]; simp only [Fin.coe_castSucc]
theorem after0_0 (c : Dev nD) (t : Fin cfg0.N) : (pdats0 m c).after 0 t = iblk m c 0 t := by dsimp only [pdats0]
theorem after0_1 (c : Dev nD) (t : Fin cfg0.N) : (pdats0 m c).after 1 t = iblk m c 1 t := by dsimp only [pdats0]
theorem after0_2 (c : Dev nD) (t : Fin cfg0.N) : (pdats0 m c).after 2 t = iblk m c 2 t := by dsimp only [pdats0]
theorem after0_3 (c : Dev nD) (t : Fin cfg0.N) : (pdats0 m c).after 3 t = iblk m c 3 t := by dsimp only [pdats0]
theorem after0_4 (c : Dev nD) (t : Fin cfg0.N) : (pdats0 m c).after 4 t = (outsAt0 m c t.val t.isLt).1 := by dsimp only [pdats0]
theorem after0_5 (c : Dev nD) (t : Fin cfg0.N) : (pdats0 m c).after 5 t = (outsAt0 m c t.val t.isLt).2.1 := by dsimp only [pdats0]
theorem after0_6 (c : Dev nD) (t : Fin cfg0.N) : (pdats0 m c).after 6 t = (outsAt0 m c t.val t.isLt).2.2.1 := by dsimp only [pdats0]
theorem before0_0 (c : Dev nD) (t : Fin cfg0.N) (d) : (pdats0 m c).before 0 t d = iblk m c 0 t :=
  before0_0_of m (pdats0 m c) (A_eq m c 0) (after0_0 m c) t d
theorem before0_1 (c : Dev nD) (t : Fin cfg0.N) (d) : (pdats0 m c).before 1 t d = iblk m c 1 t :=
  before0_1_of m (pdats0 m c) (A_eq m c 1) (after0_1 m c) t d
theorem before0_2 (c : Dev nD) (t : Fin cfg0.N) (d) : (pdats0 m c).before 2 t d = iblk m c 2 t :=
  before0_2_of m (pdats0 m c) (A_eq m c 2) (after0_2 m c) t d
theorem before0_3 (c : Dev nD) (t : Fin cfg0.N) (d) : (pdats0 m c).before 3 t d = iblk m c 3 t :=
  before0_3_of m (pdats0 m c) (A_eq m c 3) (after0_3 m c) t d

end Cert.ReferenceIdeal.RefPartial

end
-- ==== Proof.RefPartialBody.lean ====
/-
  Region 0's body obligation: at every point of the grid the body, called on the current staging buffers at the
  inputs' blocks and on the two accumulators as the invariant holds them, runs to the invariant at the next point —
  by cases on the point (first, middle, last), each case's run applied and its written buffers read back.
-/
import proofs.«170975_g2000502485364553_pallasbulk_1302_22_alg».proof.Proof.RefPartialDat

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((pdats0 m c).Φ t.castSucc ∗ (pdats0 m c).owesAt () t.castSucc
    ∗ (∃ d, owns (c : Thread nD τ) (ms0_0 t) fullShare ((pdats0 m c).before 0 t d))
    ∗ (∃ d, owns (c : Thread nD τ) (ms0_1 t) fullShare ((pdats0 m c).before 1 t d))
    ∗ (∃ d, owns (c : Thread nD τ) (ms0_2 t) fullShare ((pdats0 m c).before 2 t d))
    ∗ (∃ d, owns (c : Thread nD τ) (ms0_3 t) fullShare ((pdats0 m c).before 3 t d))
    ∗ (∃ d, owns (c : Thread nD τ) (ms0_4 t) fullShare ((pdats0 m c).before 4 t d))
    ∗ (∃ d, owns (c : Thread nD τ) (ms0_5 t) fullShare ((pdats0 m c).before 5 t d))
    ∗ (∃ d, owns (c : Thread nD τ) (ms0_6 t) fullShare ((pdats0 m c).before 6 t d)))

/-- and what it returns. -/
def bodyPost (c : Dev nD) (t : Fin cfg0.N) : sProp 𝕄 :=
  iprop((pdats0 m c).Φ t.succ ∗ (pdats0 m c).owesAt () t.succ
    ∗ (pdats0 m c).leavesExact 0 t ∗ (pdats0 m c).leavesExact 1 t ∗ (pdats0 m c).leavesExact 2 t ∗ (pdats0 m c).leavesExact 3 t
    ∗ (pdats0 m c).leavesExact 4 t ∗ (pdats0 m c).leavesExact 5 t ∗ (pdats0 m c).leavesExact 6 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (pdats0 m c).owesAt () t.succ = (pdats0 m c).owesAt () t.castSucc from rfl]
  rw [show (pdats0 m c).Φ t.succ = PhiS m c (t.val + 1) t.isLt from rfl, PhiS_succ]
  have hN : t.val < 8 := lt_of_lt_of_eq t.isLt N8
  rw [show (pdats0 m c).leavesExact 0 t = owns (c : Thread nD τ) (ms0_0 t) fullShare ((pdats0 m c).after 0 t) from by
    unfold Dat.leavesExact; rw [liveAt0_0 t], after0_0]
  rw [show (pdats0 m c).leavesExact 1 t = owns (c : Thread nD τ) (ms0_1 t) fullShare ((pdats0 m c).after 1 t) from by
    unfold Dat.leavesExact; rw [liveAt0_1 t], after0_1]
  rw [show (pdats0 m c).leavesExact 2 t = owns (c : Thread nD τ) (ms0_2 t) fullShare ((pdats0 m c).after 2 t) from by
    unfold Dat.leavesExact; rw [liveAt0_2 t], after0_2]
  rw [show (pdats0 m c).leavesExact 3 t = owns (c : Thread nD τ) (ms0_3 t) fullShare ((pdats0 m c).after 3 t) from by
    unfold Dat.leavesExact; rw [liveAt0_3 t], after0_3]
  rw [show (pdats0 m c).leavesExact 4 t = owns (c : Thread nD τ) (ms0_4 t) fullShare ((pdats0 m c).after 4 t) from by
    unfold Dat.leavesExact; rw [liveAt0_4 t], after0_4]
  by_cases h1 : t.val % 8 = 7
  · -- the last point
    have hz : t.val ≠ 0 := by omega
    rw [show (pdats0 m c).leavesExact 5 t = owns (c : Thread nD τ) (ms0_5 t) fullShare ((pdats0 m c).after 5 t) from by
      unfold Dat.leavesExact; rw [liveAt0_5 t ((hcond0_1 t).mpr h1)], after0_5]
    rw [show (pdats0 m c).leavesExact 6 t = owns (c : Thread nD τ) (ms0_6 t) fullShare ((pdats0 m c).after 6 t) from by
      unfold Dat.leavesExact; rw [liveAt0_6 t ((hcond0_1 t).mpr h1)], after0_6]
    rw [outsAt0_C m c t h1]
    unfold out4_C out5_C out6_C s0_C s1_C; (try dsimp only)
    rw [PhiS_castSucc m c t, PhiS_pos m c _ _ hz]
    iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩⟩
    iapply ((runC m c t h1 (prevS0 m c t) (prevS1 m c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hr]
    · isplitl [HS0]
      · unfold owns; iexists _; isplitr
        swap; · iexact HS0
        ipureintro; exact View.read_writes_of_cover _ _ _ _ _ (scoverC_0 m c t h1 _ _)
      isplitl [HS1]
      · unfold owns; iexists _; isplitr
        swap; · iexact HS1
        ipureintro; exact View.read_writes_of_cover _ _ _ _ _ (scoverC_1 m c t h1 _ _)
      iexact Hr
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverC_4 m c t h1 _ _)
    isplitl [H5]
    · unfold owns; iexists _; isplitr
      swap; · iexact H5
      ipureintro; exact View.read_writes_of_cover _ _ _ _ _ (coverC_5 m c t h1 _ _)
    unfold owns; iexists _; isplitr
    swap; · iexact H6
    ipureintro; exact View.read_writes_of_cover _ _ _ _ _ (coverC_6 m c t h1 _ _)
  · rw [Dat.leavesExact_idle (pdats0 m c) 5 t (idleAt0_5 t (fun h => h1 ((hcond0_1 t).mp h))) (noFlush0_5 t (fun h => h1 ((hcond0_1 t).mp h)))]
    rw [Dat.leavesExact_idle (pdats0 m c) 6 t (idleAt0_6 t (fun h => h1 ((hcond0_1 t).mp h))) (noFlush0_6 t (fun h => h1 ((hcond0_1 t).mp h)))]
    by_cases h0 : t.val % 8 = 0
    · -- the first point
      have hz : t.val = 0 := by omega
      rw [outsAt0_A m c t h0]
      unfold out4_A s0_A s1_A; (try dsimp only)
      rw [PhiS_castSucc m c t, PhiS_zero m c _ _ hz, scopedRest0_owns]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩⟩
      iapply ((runA m c t h0).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (scoverA_0 m c t h0)
        isplitl [HS1]
        · unfold owns; iexists _; isplitr
          swap; · iexact HS1
          ipureintro; exact View.read_writes_of_cover _ _ _ _ _ (scoverA_1 m c t h0)
        iexact Hr
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverA_4 m c t h0)
      isplitl [H5]; · iexists _; iexact H5
      iexists _; iexact H6
    · -- a middle point
      have hz : t.val ≠ 0 := by omega
      rw [outsAt0_B m c t h0 h1]
      unfold out4_B s0_B s1_B; (try dsimp only)
      rw [PhiS_castSucc m c t, PhiS_pos m c _ _ hz]
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 (prevS0 m c t) (prevS1 m c t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr]
      · isplitl [HS0]
        · unfold owns; iexists _; isplitr
          swap; · iexact HS0
          ipureintro; exact View.read_writes_of_cover _ _ _ _ _ (scoverB_0 m c t h0 h1 _ _)
        isplitl [HS1]
        · unfold owns; iexists _; isplitr
          swap; · iexact HS1
          ipureintro; exact View.read_writes_of_cover _ _ _ _ _ (scoverB_1 m c t h0 h1 _ _)
        iexact Hr
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 m c t h0 h1 _ _)
      isplitl [H5]; · iexists _; iexact H5
      iexists _; iexact H6

/-- The library's body obligation, at every point. -/
theorem body_obligation (c : Dev nD) : BodyObligation (pdats0 (F := F) m c) (defs₀ (F := F)) Variants.none () Set.univ := fun t => by
  rw [bigSep_W0, bigSep_W0]
  exact sound_body m c t

end Cert.ReferenceIdeal.RefPartial

end
-- ==== Proof.RefPartialSeg.lean ====
/-
  Region 0 as a segment of @main. The record of the region's protocol around the thread states of the program's
  conditional frame: entered from the unscoped buffers at the contents after the first host stretch, left with the
  three arrays it writes at NAMED contents `P0`, `S0`, `T0` (what the pipeline's write-backs make of the region-entry
  arrays), every other unscoped buffer as it was; the core owes nothing throughout and the generator register
  bypasses the region.
-/
import proofs.«170975_g2000502485364553_pallasbulk_1302_22_alg».proof.Proof.RefPartialBody
import Idealize.ShloMosaic.Lib.Pipeline.RegionsLoop

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region leaves in the arrays it writes -/

/-- The per-channel partial products `p`, as the region leaves them in `main_v4_0`. -/
def P0 (c : Dev nD) : Buf (Elt F) ((c : Thread nD τ).loc main_v4_0) := (pdats0 m c).arrAt 4 cfg0.N
/-- The scale column `s`, as the region leaves it in `main_v4_1`. -/
def S0 (c : Dev nD) : Buf (Elt F) ((c : Thread nD τ).loc main_v4_1) := (pdats0 m c).arrAt 5 cfg0.N
/-- The shift column `t`, as the region leaves it in `main_v4_2`. -/
def T0 (c : Dev nD) : Buf (Elt F) ((c : Thread nD τ).loc main_v4_2) := (pdats0 m c).arrAt 6 cfg0.N

/-- The contents the regions leave, pinned at region 0's three arrays. -/
structure OutsAt0 (outs : Gen.Outs (F := F)) : Prop where
  p : ∀ c, outs 2 main_v4_0 c = P0 m c
  s : ∀ c, outs 2 main_v4_1 c = S0 m c
  t : ∀ c, outs 2 main_v4_2 c = T0 m c

/-- Every array of the pipeline after the run, read off the valuation after the region. -/
theorem arrAt_V2 (outs : Gen.Outs (F := F)) (ho : OutsAt0 m outs) (c : Dev nD) (w : Fin cfg0.W) :
    (pdats0 m c).arrAt w cfg0.N = Gen.V2 m outs c (Proc.devRef .tc (Pipeline.arrRef spec0 w)) := by
  fin_cases w
  · exact ((pdats0 m c).arrAt_in 0 rfl _).trans ((A_eq m c 0).trans (Gen.V2_of m outs c main_v0 (by decide)).symm)
  · exact ((pdats0 m c).arrAt_in 1 rfl _).trans ((A_eq m c 1).trans (Gen.V2_of m outs c main_v2 (by decide)).symm)
  · exact ((pdats0 m c).arrAt_in 2 rfl _).trans ((A_eq m c 2).trans (Gen.V2_of m outs c main_v3 (by decide)).symm)
  · exact ((pdats0 m c).arrAt_in 3 rfl _).trans ((A_eq m c 3).trans (Gen.V2_of m outs c main_v1 (by decide)).symm)
  · show P0 m c = _
    rw [← ho.p c]
    simp only [Gen.V2, Function.update_of_ne (StableHlo.devRef_ne_of_ne (by decide) : (Proc.devRef .tc main_v4_0 : DevRef τ sig) ≠ Proc.devRef .tc main_v4_2),
      Function.update_of_ne (StableHlo.devRef_ne_of_ne (by decide) : (Proc.devRef .tc main_v4_0 : DevRef τ sig) ≠ Proc.devRef .tc main_v4_1), Function.update_self]
  · show S0 m c = _
    rw [← ho.s c]
    simp only [Gen.V2, Function.update_of_ne (StableHlo.devRef_ne_of_ne (by decide) : (Proc.devRef .tc main_v4_1 : DevRef τ sig) ≠ Proc.devRef .tc main_v4_2), Function.update_self]
  · show T0 m c = _
    rw [← ho.t c]
    simp only [Gen.V2, Function.update_self]

/-! ## The record's four entailments -/

/-- The region-entry thread state, as the record states it. -/
abbrev pre0 (c : Dev nD) : sProp 𝕄 := iprop(StableHlo.held (c : Thread nD τ) (Pipeline.ucRefs τ sig) (Gen.V1 m c) ∗ Erest 0 c)
/-- The thread state the region leaves. -/
abbrev post0 (outs : Gen.Outs (F := F)) (c : Dev nD) : sProp 𝕄 := iprop(StableHlo.held (c : Thread nD τ) (Pipeline.ucRefs τ sig) (Gen.V2 m outs c) ∗ Erest 1 c)
/-- What bypasses the region: the unscoped buffers no window stages, the generator register. -/
abbrev Z0 (c : Dev nD) : sProp 𝕄 := iprop(Pipeline.unscopedRest spec0 c (V m c) ∗ ∃ r, prngReg c r)

set_option backward.isDefEq.respectTransparency.types false in
set_option maxHeartbeats 1000000 in
/-- ENTRY: the unscoped buffers split into the pipeline's arrays at their entry contents and the rest; no table; the
    core owes nothing. -/
theorem hentry0 (d1 : (c : Dev nD) → DatAt (F := F) 1 c) (c : Dev nD) :
    iprop(pre0 m c ∗ Pipeline.ownSems0 (fun k : PEmpty => k.elim) c ∗ levAts L0 lv0)
      ⊢ |={Set.univ}=> iprop((pdatsOf (pdats0 m) d1 0 c).arrays ((pdatsOf (pdats0 m) d1 0 c).arrAt · 0) ∗ Pipeline.prefHeld (pcfgs (F := F) 0).pre c (fun _ => fullShare) (Gen.adm (F := F) 0).1
        ∗ (pdatsOf (pdats0 m) d1 0 c).owesAt () 0 ∗ iprop(emp) ∗ Z0 m c) := by
  unfold pre0
  rw [← Pipeline.unscopedBufs_held (Ix := Unit) (Name := ℕ) (U := UR sig nD τ) (Lvl := ℕ) c (Gen.V1 m c)]
  have hsplit := Pipeline.arrays_of_unscopedBufs (pcfgs (F := F)) Gen.adm (pdatsOf (pdats0 m) d1) (p := (0 : Fin 2)) launch0.win launch0.arr_whole c
    ((pdats0 m c).share_full fun _ => rfl) (V m c) (fun w => A_eq m c w)
  iintro ⟨⟨Hub, ⟨HO, Hg⟩⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact Hg

/-- The invariant before the first point is the scoped buffers the region does not stage. -/
theorem hin0 (c : Dev nD) :
    iprop(iprop(emp) ∗ Pipeline.prefHeld (pcfgs (F := F) 0).pre c (fun _ => fullShare) (Gen.adm (F := F) 0).1
      ∗ Pipeline.scopedRest (Ix := Unit) (Name := ℕ) (U := UR sig nD τ) (Lvl := ℕ) (Val := Elt F) spec0 c) ⊢ PhiS m c 0 (Nat.zero_le _) := by
  rw [PhiS_zero m c 0 _ rfl]
  iintro ⟨-, -, Hr⟩; iexact Hr

/-- The invariant after the last point gives those buffers back: the accumulators' named contents are forgotten. -/
theorem hout0 (c : Dev nD) :
    PhiS m c cfg0.N (le_refl _) ⊢ iprop(iprop(emp) ∗ iprop(emp) ∗ Pipeline.scopedRest (Ix := Unit) (Name := ℕ) (U := UR sig nD τ) (Lvl := ℕ) (Val := Elt F) spec0 c) := by
  rw [PhiS_pos m c _ _ (by have : cfg0.N = 8 := N8; omega), scopedRest0_owns]
  iintro ⟨HS0, HS1, Hr⟩
  isplitr; · iempintro
  isplitr; · iempintro
  isplitl [HS0]; · iexists _; iexact HS0
  isplitl [HS1]; · iexists _; iexact HS1
  iexact Hr

set_option backward.isDefEq.respectTransparency.types false in
set_option maxHeartbeats 1000000 in
/-- EXIT: the arrays after the write-backs and the bypassing buffers are the unscoped buffers at the valuation after
    the region. -/
theorem hexit0 (d1 : (c : Dev nD) → DatAt (F := F) 1 c) (outs : Gen.Outs (F := F)) (ho : OutsAt0 m outs) (c : Dev nD) :
    iprop((pdatsOf (pdats0 m) d1 0 c).arrays ((pdatsOf (pdats0 m) d1 0 c).arrAt · cfg0.N) ∗ (pdatsOf (pdats0 m) d1 0 c).owesAt () (Fin.last cfg0.N) ∗ iprop(emp) ∗ Z0 m c)
      ⊢ |={Set.univ}=> post0 m outs c := by
  have hback := Pipeline.unscopedBufs_of_arrays (pcfgs (F := F)) Gen.adm (p := (0 : Fin 2)) launch0.win launch0.arr_whole c (pdatsOf (pdats0 m) d1)
    ((pdats0 m c).share_full fun _ => rfl) (V m c) (fun b => Gen.V2 m outs c (Proc.devRef .tc b)) (fun w => (pdatsOf (pdats0 m) d1 0 c).arrAt w cfg0.N)
    (fun w => arrAt_V2 m outs ho c w)
    (fun b hb => Gen.V2_of m outs c b (by
      simp only [List.mem_cons, List.not_mem_nil, or_false, not_or]
      refine ⟨fun h => hb ?_, fun h => hb ?_, fun h => hb ?_⟩
      · rw [h]; exact Finset.mem_image_of_mem (Pipeline.arrRef spec0) (Finset.mem_univ (4 : Fin 7))
      · rw [h]; exact Finset.mem_image_of_mem (Pipeline.arrRef spec0) (Finset.mem_univ (5 : Fin 7))
      · rw [h]; exact Finset.mem_image_of_mem (Pipeline.arrRef spec0) (Finset.mem_univ (6 : Fin 7))))
  unfold post0 Z0
  iintro ⟨Ha, HO, -, ⟨Hrest, Hg⟩⟩
  ihave Hub := hback $$ [Ha Hrest]
  · isplitl [Ha]; · iexact Ha
    iexact Hrest
  imodintro
  isplitl [Hub]
  · rw [← Pipeline.unscopedBufs_held (Ix := Unit) (Name := ℕ) (U := UR sig nD τ) (Lvl := ℕ) c (Gen.V2 m outs c)]; iexact Hub
  isplitl [HO]
  · unfold Pipeline.Dat.owesAt Pipeline.owesWithin
    icases HO with ⟨%W, -, HO⟩; iexists W; iexact HO
  iexact Hg

/-! ## The record -/

set_option backward.isDefEq.respectTransparency.types false in
set_option maxHeartbeats 1000000 in
/-- REGION 0: the launch kit's layout, no semaphore of the kernel's own, the body obligation; entered from the
    unscoped buffers after the first host stretch beside the rest state, left with them after the region's
    write-backs (`Gen.V2` at contents pinned by `ho`) beside the same rest state. -/
def R0 (d1 : (c : Dev nD) → DatAt (F := F) 1 c) (outs : Gen.Outs (F := F)) (ho : OutsAt0 m outs) :
    Pipeline.RegionSeg (pcfgs (F := F)) Gen.adm (pdatsOf (pdats0 m) d1) () defs₀ Variants.none L0 lv0 0 where
  win := launch0.win.to₀
  block_pos := launch0.block_pos
  stage_whole := launch0.stage_whole
  K := PEmpty
  osem := fun k => k.elim
  ho := Pipeline.OwnSemFacts.none _
  hbody c := (body_obligation m c).loose
  hwaits := Pipeline.hwaits_of_owed_zero _ _ _ _ L0 lv0 0 fun _ _ => rfl
  pre := pre0 m
  post := post0 m outs
  X _ := iprop(emp)
  Y _ := iprop(emp)
  Z := Z0 m
  hentry c := hentry0 m d1 c
  hin c := hin0 m c
  hout c := by
    rw [Pipeline.ownSems0_none nD τ sig (Elt F) Unit ℕ (UR sig nD τ) ℕ c]
    exact hout0 m c
  hexit c := hexit0 m d1 outs ho c

/-- The region is entered from the conditional frame's thread state before it, -/
theorem hpre0 (d1 : (c : Dev nD) → DatAt (F := F) 1 c) (outs : Gen.Outs (F := F)) (ho : OutsAt0 m outs) (c : Dev nD) :
    iprop(StableHlo.held (c : Thread nD τ) (Pipeline.ucRefs τ sig) (Gen.V1 m c) ∗ Erest 0 c) ⊢ (R0 m d1 outs ho).pre c := .rfl
/-- and left at the one after it. -/
theorem hpost0 (d1 : (c : Dev nD) → DatAt (F := F) 1 c) (outs : Gen.Outs (F := F)) (ho : OutsAt0 m outs) (c : Dev nD) :
    (R0 m d1 outs ho).post c ⊢ iprop(StableHlo.held (c : Thread nD τ) (Pipeline.ucRefs τ sig) (Gen.V2 m outs c) ∗ Erest 1 c) := .rfl

end Cert.ReferenceIdeal.RefPartial

end
-- ==== Proof.RefChainClosed.lean ====
import proofs.«170975_g2000502485364553_pallasbulk_1302_22_alg».proof.Proof.RefChainAsm
import proofs.«170975_g2000502485364553_pallasbulk_1302_22_alg».proof.Proof.RefPartialSeg

/-! # The reference's run, closed

The contents the two regions leave, chosen: the first region's three results as its proof data computes them, the
second region's result from those; with them the run of @main has no hypothesis left — every argument ends as
launched and the result array holds `RefOut m c`. -/

set_option maxRecDepth 16384

noncomputable section

namespace Cert.ReferenceIdeal.RefChain

open Cert.ReferenceIdeal Cert.ReferenceIdeal.Gen Cert.ReferenceIdeal.RefPartial Cert.ReferenceIdeal.RefCombine
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- What the first region leaves in its three results; any other buffer as launched (never read). -/
def outs2 : Outs (F := F) := fun _ r c =>
  if h0 : r = main_v4_0 then h0 ▸ P0 m c
  else if h1 : r = main_v4_1 then h1 ▸ S0 m c
  else if h2 : r = main_v4_2 then h2 ▸ T0 m c
  else m ((c : Thread nD τ).loc r)

theorem outs2_p (J : ℕ) (c : Dev nD) : outs2 m J main_v4_0 c = P0 m c := by
  unfold outs2; rw [dif_pos rfl]
theorem outs2_s (J : ℕ) (c : Dev nD) : outs2 m J main_v4_1 c = S0 m c := by
  unfold outs2; rw [dif_neg (by decide), dif_pos rfl]
theorem outs2_t (J : ℕ) (c : Dev nD) : outs2 m J main_v4_2 c = T0 m c := by
  unfold outs2; rw [dif_neg (by decide), dif_neg (by decide), dif_pos rfl]

/-- THE REFERENCE'S RESULT: what the second region leaves in `main_v11`, entered from the thread state the first region
    and the second host stretch leave. -/
def RefOut (c : Dev nD) : Buf (Elt F) ((c : Thread nD τ).loc main_v11) := Out1 (V3 m (outs2 m)) c

/-- The contents both regions leave. -/
def outsF : Outs (F := F) := fun J r c =>
  if h : r = main_v11 then h ▸ RefOut m c else outs2 m J r c

theorem outsF_v11 (J : ℕ) (c : Dev nD) : outsF m J main_v11 c = RefOut m c := by
  unfold outsF; rw [dif_pos rfl]
theorem outsF_p (J : ℕ) (c : Dev nD) : outsF m J main_v4_0 c = P0 m c := by
  unfold outsF; rw [dif_neg (by decide)]; exact outs2_p m J c
theorem outsF_s (J : ℕ) (c : Dev nD) : outsF m J main_v4_1 c = S0 m c := by
  unfold outsF; rw [dif_neg (by decide)]; exact outs2_s m J c
theorem outsF_t (J : ℕ) (c : Dev nD) : outsF m J main_v4_2 c = T0 m c := by
  unfold outsF; rw [dif_neg (by decide)]; exact outs2_t m J c

/-- They are the first region's. -/
theorem outsF_at0 : OutsAt0 m (outsF m) := ⟨outsF_p m 2, outsF_s m 2, outsF_t m 2⟩

/-- The thread state the second region is entered from reads only the first region's results. -/
theorem V3_outsF : V3 m (outsF m) = V3 m (outs2 m) := by
  funext c
  show StableHlo.after hostOps1 (V2 m (outsF m) c) = StableHlo.after hostOps1 (V2 m (outs2 m) c)
  congr 1

theorem outsF_hout (c : Dev nD) : outsF m 4 main_v11 c = Out1 (V3 m (outsF m)) c := by
  rw [outsF_v11, V3_outsF]; rfl

/-- THE REFERENCE'S RUN: every weakly fair execution of @main from memory `m` with zero counters terminates; every
    argument ends as launched and the result array holds `RefOut m c`. -/
theorem ref_run : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v11) = RefOut m c) :=
  (θ_run defs _ _).mono (fun r h c => ⟨(h c).1, (h c).2.trans (outsF_v11 m 4 c)⟩)
    (run_val m ρ (outsF m) (pdats0 m)
      (R0 m (pdats1 (V3 m (outsF m))) (outsF m) (outsF_at0 m))
      (hpre0 m (pdats1 (V3 m (outsF m))) (outsF m) (outsF_at0 m))
      (hpost0 m (pdats1 (V3 m (outsF m))) (outsF m) (outsF_at0 m))
      (outsF_hout m))

/-- THE REFERENCE'S FRAME: the run with the result dropped. -/
theorem ref_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).1) (ref_run m ρ)

end Cert.ReferenceIdeal.RefChain

end
-- ==== Proof.RefCombineValue.lean ====
import proofs.«170975_g2000502485364553_pallasbulk_1302_22_alg».proof.Proof.RefCombineDat
import Idealize.ShloMosaic.Lib.ValueIdx
import Idealize.ShloMosaic.Lib.Pipeline.Value
import Idealize.ShloMosaic.PureOps.Ideal.Laws

/-! # Region 1 of the reference: what it leaves, index by index

At the ideal values the body's stored vector at row `r`, column `k` of the block is the sixteen channel entries
`P(ch, r, k)` each times its scale `s(ch, 0)`, added one after another onto zero, plus the constant row's entry at
`k`; the output's blocks tile the result array by rows, so the array ends holding that function of the three operand
arrays at every index. -/

set_option maxRecDepth 16384

noncomputable section

namespace Cert.ReferenceIdeal.RefCombine

open Cert.ReferenceIdeal Cert.ReferenceIdeal.Gen
open Idealize.ShloMosaic Idealize.ShloMosaic.TcCoe Idealize.ShloMosaic.ValueIdx
open Idealize.ShloMosaic.Pipeline (Dat Cfg Window)

/-! ## The body's layout operations read at an index -/

/-- A channel slab of the staged block, viewed as a matrix, read at (r, k). -/
theorem slab_apply {Val : EltTy → Type} {e : EltTy} (x0 : S16x256x128.Idx → Val e) (n : ℕ) (hn : n < 16)
    (inb : ∀ a, (![n, 0, 0] : Fin 3 → ℕ) a + S1x256x128.size a ≤ S16x256x128.size a)
    (h : S1x256x128.ShapeCasts S256x128) (r : Fin 256) (k : Fin 128) :
    shapeCast S256x128 (View.ld x0 (Rect.unit (s := S16x256x128) ![n, 0, 0] S1x256x128.size inb)) h (ix2 r k)
      = x0 (ix3 ⟨n, hn⟩ r k) := by
  refine (shapeCast_apply (s := S1x256x128) (t := S256x128) _ h (ix2 r k) (ix3 0 r k) ?_).trans ?_
  · rw [Shape.rowMajor_val_three, Shape.rowMajor_val_two]
    show ((0 * 256 + r.val) * 128 + k.val) = r.val * 128 + k.val
    omega
  · show x0 _ = x0 _
    congr 1
    funext a
    apply Fin.ext
    match a with
    | ⟨0, _⟩ => show n + 1 * 0 = n; omega
    | ⟨1, _⟩ => show 0 + 1 * r.val = r.val; omega
    | ⟨2, _⟩ => show 0 + 1 * k.val = k.val; omega

/-- A channel's scale, broadcast over the block, read at (r, k). -/
theorem scale_apply {Val : EltTy → Type} {e : EltTy} (x1 : S16x1.Idx → Val e) (n : ℕ) (hn : n < 16)
    (inb : ∀ a, (![n, 0] : Fin 2 → ℕ) a + S1x1.size a ≤ S16x1.size a)
    (h : S1x1.ShapeCasts S1x1) (hb : S1x1.Broadcasts S256x128) (r : Fin 256) (k : Fin 128) :
    broadcastTo S256x128 (shapeCast S1x1 (View.ld x1 (Rect.unit (s := S16x1) ![n, 0] S1x1.size inb)) h) hb (ix2 r k)
      = x1 (ix2 ⟨n, hn⟩ 0) := by
  refine (broadcastTo_apply (s := S1x1) (t := S256x128) _ hb (ix2 r k) (ix2 0 0) ?_).trans ?_
  · intro a; match a with | ⟨0, _⟩ => rfl | ⟨1, _⟩ => rfl
  · refine (congrFun (shapeCast_self (s := S1x1) (View.ld x1 (Rect.unit (s := S16x1) ![n, 0] S1x1.size inb)) h) (ix2 0 0)).trans ?_
    show x1 _ = x1 _
    congr 1
    funext a
    apply Fin.ext
    match a with
    | ⟨0, _⟩ => show n + 1 * 0 = n; omega
    | ⟨1, _⟩ => show 0 + 1 * 0 = 0; omega

/-- The constant row, broadcast over the block's rows, read at (r, k). -/
theorem row_apply {Val : EltTy → Type} {e : EltTy} (x2 : S1x128.Idx → Val e)
    (inb : ∀ a, (![0, 0] : Fin 2 → ℕ) a + S1x128.size a ≤ S1x128.size a)
    (h : S1x128.ShapeCasts S1x128) (hb : S1x128.Broadcasts S256x128) (r : Fin 256) (k : Fin 128) :
    broadcastTo S256x128 (shapeCast S1x128 (View.ld x2 (Rect.unit (s := S1x128) ![0, 0] S1x128.size inb)) h) hb (ix2 r k)
      = x2 (ix2 0 k) := by
  refine (broadcastTo_apply (s := S1x128) (t := S256x128) _ hb (ix2 r k) (ix2 0 k) ?_).trans ?_
  · intro a; match a with | ⟨0, _⟩ => rfl | ⟨1, _⟩ => rfl
  · refine (congrFun (shapeCast_self (s := S1x128) (View.ld x2 (Rect.unit (s := S1x128) ![0, 0] S1x128.size inb)) h) (ix2 0 k)).trans ?_
    show x2 _ = x2 _
    congr 1
    funext a
    apply Fin.ext
    match a with
    | ⟨0, _⟩ => show 0 + 1 * 0 = 0; omega
    | ⟨1, _⟩ => show 0 + 1 * k.val = k.val; omega

/-- The stored vector at (r, k): the sixteen channels folded from zero, the constant row added. -/
theorem stored_apply (x0 : Vec Ideal S16x256x128 .f32) (x1 : Vec Ideal S16x1 .f32) (x2 : Vec Ideal S1x128 .f32) (r : Fin 256) (k : Fin 128) :
    stored x0 x1 x2 (ix2 r k)
      = ((((((((((((((((((0 : EReal) + x0 (ix3 (0 : Fin 16) r k) * x1 (ix2 (0 : Fin 16) (0 : Fin 1))) + x0 (ix3 (1 : Fin 16) r k) * x1 (ix2 (1 : Fin 16) (0 : Fin 1)))
          + x0 (ix3 (2 : Fin 16) r k) * x1 (ix2 (2 : Fin 16) (0 : Fin 1))) + x0 (ix3 (3 : Fin 16) r k) * x1 (ix2 (3 : Fin 16) (0 : Fin 1)))
          + x0 (ix3 (4 : Fin 16) r k) * x1 (ix2 (4 : Fin 16) (0 : Fin 1))) + x0 (ix3 (5 : Fin 16) r k) * x1 (ix2 (5 : Fin 16) (0 : Fin 1)))
          + x0 (ix3 (6 : Fin 16) r k) * x1 (ix2 (6 : Fin 16) (0 : Fin 1))) + x0 (ix3 (7 : Fin 16) r k) * x1 (ix2 (7 : Fin 16) (0 : Fin 1)))
          + x0 (ix3 (8 : Fin 16) r k) * x1 (ix2 (8 : Fin 16) (0 : Fin 1))) + x0 (ix3 (9 : Fin 16) r k) * x1 (ix2 (9 : Fin 16) (0 : Fin 1)))
          + x0 (ix3 (10 : Fin 16) r k) * x1 (ix2 (10 : Fin 16) (0 : Fin 1))) + x0 (ix3 (11 : Fin 16) r k) * x1 (ix2 (11 : Fin 16) (0 : Fin 1)))
          + x0 (ix3 (12 : Fin 16) r k) * x1 (ix2 (12 : Fin 16) (0 : Fin 1))) + x0 (ix3 (13 : Fin 16) r k) * x1 (ix2 (13 : Fin 16) (0 : Fin 1)))
          + x0 (ix3 (14 : Fin 16) r k) * x1 (ix2 (14 : Fin 16) (0 : Fin 1))) + x0 (ix3 (15 : Fin 16) r k) * x1 (ix2 (15 : Fin 16) (0 : Fin 1)))
          + x2 (ix2 (0 : Fin 1) k)) := by
  have hP : ∀ (n : ℕ) (hn : n < 16) (inb) (h), shapeCast S256x128 (View.ld x0 (Rect.unit (s := S16x256x128) ![n, 0, 0] S1x256x128.size inb)) h (ix2 r k) = x0 (ix3 ⟨n, hn⟩ r k) :=
    fun n hn inb h => slab_apply x0 n hn inb h r k
  have hS : ∀ (n : ℕ) (hn : n < 16) (inb) (h) (hb), broadcastTo S256x128 (shapeCast S1x1 (View.ld x1 (Rect.unit (s := S16x1) ![n, 0] S1x1.size inb)) h) hb (ix2 r k) = x1 (ix2 ⟨n, hn⟩ 0) :=
    fun n hn inb h hb => scale_apply x1 n hn inb h hb r k
  have hC : ∀ (inb) (h) (hb), broadcastTo S256x128 (shapeCast S1x128 (View.ld x2 (Rect.unit (s := S1x128) ![0, 0] S1x128.size inb)) h) hb (ix2 r k) = x2 (ix2 0 k) :=
    fun inb h hb => row_apply x2 inb h hb r k
  have hZ : (Scalar.ofBits (F := Ideal) .f32 0x00000000#32 : EReal) = 0 := Ideal.ofBits_zero_f32
  unfold stored acc14 acc9 acc4 k1_pay1 k1_pay2 k1_pay3 k1_pay4 k1_pay5 k1_pay6 k1_pay7 k1_pay8 k1_pay9 k1_pay10
  show ((((((((((((((((((_ : EReal) + _ * _) + _ * _) + _ * _) + _ * _) + _ * _) + _ * _) + _ * _) + _ * _) + _ * _) + _ * _) + _ * _) + _ * _) + _ * _) + _ * _) + _ * _) + _ * _) + _) = _
  have p0 := hP 0 (by decide)
  have s0 := hS 0 (by decide)
  have p1 := hP 1 (by decide)
  have s1 := hS 1 (by decide)
  have p2 := hP 2 (by decide)
  have s2 := hS 2 (by decide)
  have p3 := hP 3 (by decide)
  have s3 := hS 3 (by decide)
  have p4 := hP 4 (by decide)
  have s4 := hS 4 (by decide)
  have p5 := hP 5 (by decide)
  have s5 := hS 5 (by decide)
  have p6 := hP 6 (by decide)
  have s6 := hS 6 (by decide)
  have p7 := hP 7 (by decide)
  have s7 := hS 7 (by decide)
  have p8 := hP 8 (by decide)
  have s8 := hS 8 (by decide)
  have p9 := hP 9 (by decide)
  have s9 := hS 9 (by decide)
  have p10 := hP 10 (by decide)
  have s10 := hS 10 (by decide)
  have p11 := hP 11 (by decide)
  have s11 := hS 11 (by decide)
  have p12 := hP 12 (by decide)
  have s12 := hS 12 (by decide)
  have p13 := hP 13 (by decide)
  have s13 := hS 13 (by decide)
  have p14 := hP 14 (by decide)
  have s14 := hS 14 (by decide)
  have p15 := hP 15 (by decide)
  have s15 := hS 15 (by decide)
  simp only [p0, s0, p1, s1, p2, s2, p3, s3, p4, s4, p5, s5, p6, s6, p7, s7, p8, s8, p9, s9, p10, s10, p11, s11, p12, s12, p13, s13, p14, s14, p15, s15, hC, hZ, broadcast_apply]
  rfl

/-! ## The fold over the channels -/

/-- Sixteen terms added one after another onto zero, in the channels' order. -/
def fold16 (f : Fin 16 → EReal) : EReal :=
  (((((((((((((((((0 : EReal) + f (0 : Fin 16)) + f (1 : Fin 16)) + f (2 : Fin 16)) + f (3 : Fin 16)) + f (4 : Fin 16)) + f (5 : Fin 16)) + f (6 : Fin 16)) + f (7 : Fin 16)) + f (8 : Fin 16)) + f (9 : Fin 16)) + f (10 : Fin 16)) + f (11 : Fin 16)) + f (12 : Fin 16)) + f (13 : Fin 16)) + f (14 : Fin 16)) + f (15 : Fin 16))

/-- Addition of extended reals is associative and commutative, so the fold is the sum. -/
theorem fold16_eq_sum (f : Fin 16 → EReal) : fold16 f = ∑ ch : Fin 16, f ch := by
  unfold fold16
  simp only [Fin.sum_univ_succ, Fin.sum_univ_zero, zero_add, add_zero]
  simp only [add_assoc]
  rfl

/-- The stored vector at (r, k), as the fold. -/
theorem stored_apply_fold (x0 : Vec Ideal S16x256x128 .f32) (x1 : Vec Ideal S16x1 .f32) (x2 : Vec Ideal S1x128 .f32) (r : Fin 256) (k : Fin 128) :
    stored x0 x1 x2 (ix2 r k) = fold16 (fun ch => x0 (ix3 ch r k) * x1 (ix2 ch (0 : Fin 1))) + x2 (ix2 (0 : Fin 1) k) :=
  (stored_apply x0 x1 x2 r k).trans rfl

/-! ## The result array -/

/-- What the region leaves in the result array at (b, k), from the three operand arrays: the channels of `P` at (b, k)
    scaled by `s` and folded from zero, plus the row `cst` at k. -/
def G1 (P : S16x2048x128.Idx → EReal) (s : S16x1.Idx → EReal) (cst : S1x128.Idx → EReal) : S2048x128.Idx → EReal :=
  fun i => fold16 (fun ch => P (ix3 ch (i 0) (i 1)) * s (ix2 ch (0 : Fin 1))) + cst (ix2 (0 : Fin 1) (i 1))

/-- The stored vector of a block's operands is the block of `G1`: for operands that are the `q`-th row block of `P`,
    and `s` and `cst` whole. -/
theorem stored_eq_G1 (P : S16x2048x128.Idx → EReal) (s : S16x1.Idx → EReal) (cst : S1x128.Idx → EReal)
    (x0 : Vec Ideal S16x256x128 .f32) (x1 : Vec Ideal S16x1 .f32) (x2 : Vec Ideal S1x128 .f32)
    (r : Fin 256) (k : Fin 128) (i : S2048x128.Idx)
    (h0 : ∀ ch : Fin 16, x0 (ix3 ch r k) = P (ix3 ch (i 0) (i 1)))
    (h1 : ∀ ch : Fin 16, x1 (ix2 ch (0 : Fin 1)) = s (ix2 ch (0 : Fin 1)))
    (h2 : x2 (ix2 (0 : Fin 1) k) = cst (ix2 (0 : Fin 1) (i 1))) :
    stored x0 x1 x2 (ix2 r k) = G1 P s cst i := by
  rw [stored_apply_fold]
  unfold G1
  simp only [h0, h1, h2]

variable (V : Dev nD → Valuation τ sig (Elt Ideal))

/-- The printed index maps, decided over the grid: the output's row block is the point's; `P`'s window moves with it on
    its middle axis; `s` and `cst` are staged whole. -/
theorem idx_facts : ∀ t : Fin cfg1.N,
    win1_0.index t (0 : Fin 3) = 0 ∧ win1_0.index t (1 : Fin 3) = win1_3.index t (0 : Fin 2) ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every row block of the result array is some point's. -/
theorem idx_onto : ∀ q : Fin 8, ∃ t : Fin cfg1.N, win1_3.index t = ![q.val, 0] :=
  (by decide +kernel : ∀ q : Fin 8, ∃ t : Fin grid1.N, win1_3.index t = ![q.val, 0])

/-- WHAT POINT `t` WRITES BACK is block `t` of `G1` of the operand arrays as the region finds them. -/
theorem flushed_eq (c : Dev nD) (t : Fin cfg1.N) :
    (pdats1 V c).flushed 3 t
      = ((cfg1.win 3).blk t).view.read (Elt Ideal) (G1 (At V c main_v4_0) (At V c main_v4_1) (At V c main_v10)) := by
  show (cfg1.win 3).cut (grid1.coords t) ((pdats1 V c).after 3 t) = _
  rw [after1_3, out1_3_eq]
  obtain ⟨e00, e01, e02, e10, e11, e20, e21, e31, e30⟩ := idx_facts t
  funext j
  refine (congrArg (stored (iblk V c 0 t) (iblk V c 1 t) (iblk V c 2 t)) (eq_ix2 (n0 := 256) (n1 := 128) j)).trans ?_
  refine stored_eq_G1 (At V c main_v4_0) (At V c main_v4_1) (At V c main_v10) (iblk V c 0 t) (iblk V c 1 t) (iblk V c 2 t) (j 0) (j 1) (((cfg1.win 3).blk t).view.emb j) (fun ch => ?_) (fun ch => ?_) ?_
  · show At V c main_v4_0 (((cfg1.win 0).blk t).view.emb (ix3 ch (j 0) (j 1))) = At V c main_v4_0 _
    congr 1
    funext a; apply Fin.ext
    match a with
    | ⟨0, _⟩ => show win1_0.index t (0 : Fin 3) * 16 + 1 * ch.val = ch.val; omega
    | ⟨1, _⟩ => show win1_0.index t (1 : Fin 3) * 256 + 1 * (j 0).val = win1_3.index t (0 : Fin 2) * 256 + 1 * (j 0).val; omega
    | ⟨2, _⟩ => show win1_0.index t (2 : Fin 3) * 128 + 1 * (j 1).val = win1_3.index t (1 : Fin 2) * 128 + 1 * (j 1).val; omega
  · show At V c main_v4_1 (((cfg1.win 1).blk t).view.emb (ix2 ch (0 : Fin 1))) = At V c main_v4_1 _
    congr 1
    funext a; apply Fin.ext
    match a with
    | ⟨0, _⟩ => show win1_1.index t (0 : Fin 2) * 16 + 1 * ch.val = ch.val; omega
    | ⟨1, _⟩ => show win1_1.index t (1 : Fin 2) * 1 + 1 * 0 = 0; omega
  · show At V c main_v10 (((cfg1.win 2).blk t).view.emb (ix2 (0 : Fin 1) (j 1))) = At V c main_v10 _
    congr 1
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result array is in point `t`'s block iff each coordinate is in the block's range on its axis. -/
theorem mem_blk (t : Fin cfg1.N) (i : S2048x128.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v11).slice (win1_3.rect t)).set ↔ _
  rw [View.set_slice_whole, Rect.mem_set_unit]
  exact Iff.rfl

/-- The output's blocks cover the result array: row `b` is in block `b / 256`. -/
theorem cover (i : S2048x128.Idx) : ∃ t : Fin cfg1.N, (cfg1.win 3).flush t = true ∧ i ∈ ((cfg1.win 3).blk t).view.set := by
  have hi0 : (i 0).val < 2048 := (i 0).isLt
  have hi1 : (i 1).val < 128 := (i 1).isLt
  obtain ⟨t, ht⟩ := idx_onto ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 128 ≤ (i 1).val ∧ (i 1).val < win1_3.index t (1 : Fin 2) * 128 + 128; omega

/-- THE RESULT ARRAY after the region: `G1` of the three operand arrays as the region finds them. -/
theorem Out1_eq (c : Dev nD) : Out1 V c = G1 (At V c main_v4_0) (At V c main_v4_1) (At V c main_v10) :=
  (pdats1 V c).arrAt_eq_of_cover 3 _ (fun t _ => flushed_eq V c t) cover

/-- `G1` at (b, k): the sum over the channels of `P(ch, b, k) · s(ch, 0)`, plus `cst(0, k)`. -/
theorem G1_apply (P : S16x2048x128.Idx → EReal) (s : S16x1.Idx → EReal) (cst : S1x128.Idx → EReal) (b : Fin 2048) (k : Fin 128) :
    G1 P s cst (ix2 b k) = (∑ ch : Fin 16, P (ix3 ch b k) * s (ix2 ch (0 : Fin 1))) + cst (ix2 (0 : Fin 1) k) := by
  unfold G1; rw [fold16_eq_sum]

end Cert.ReferenceIdeal.RefCombine

end
-- ==== Proof.RefChainHost.lean ====
import proofs.«170975_g2000502485364553_pallasbulk_1302_22_alg».proof.Proof.Gen.ReferenceIdeal.Regions
import Idealize.ShloMosaic.Lib.ValueIdx
import Idealize.ShloMosaic.Lib.StackMember
import Idealize.ShloMosaic.Lib.Pipeline.Value
import Idealize.ShloMosaic.PureOps.Ideal.Laws

/-! # The reference's host stretches, read at an index

Before the first region @main reshapes its arguments; between the regions it sums the weights over their last axis,
contracts the per-channel shifts the first region left against those sums, and adds the bias: the row the second
region adds to every row of its result. Each is read here at an index. -/

set_option maxRecDepth 16384

noncomputable section

namespace Cert.ReferenceIdeal.RefChain

open Cert.ReferenceIdeal Cert.ReferenceIdeal.Gen
open Idealize.ShloMosaic Idealize.ShloMosaic.TcCoe Idealize.ShloMosaic.ValueIdx
open Idealize.ShloMosaic.StableHlo

/-! ## The reshapes at an index -/

section Reshapes
variable {α : Type}

/-- [2048,16,16,16] viewed [2048,16,256]: the last two axes run together. -/
theorem reshape_x_apply (a0 : S2048x16x16x16.Idx → α) (h : S2048x16x16x16.ShapeCasts S2048x16x256)
    (n : Fin 2048) (ch : Fin 16) (p q : Fin 16) (hw : Fin 256) (hhw : hw.val = p.val * 16 + q.val) :
    shapeCast S2048x16x256 a0 h (ix3 n ch hw) = a0 (ix4 n ch p q) :=
  shapeCast_apply (s := S2048x16x16x16) (t := S2048x16x256) a0 h (ix3 n ch hw) (ix4 n ch p q)
    (by rw [Shape.rowMajor_val_four, Shape.rowMajor_val_three]
        show ((n.val * 16 + ch.val) * 16 + p.val) * 16 + q.val = (n.val * 16 + ch.val) * 256 + hw.val
        omega)

/-- [128,4096] viewed [128,16,256]: the last axis split. -/
theorem reshape_w_apply (a3 : S128x4096.Idx → α) (h : S128x4096.ShapeCasts S128x16x256)
    (k : Fin 128) (ch : Fin 16) (hw : Fin 256) (j : Fin 4096) (hj : j.val = ch.val * 256 + hw.val) :
    shapeCast S128x16x256 a3 h (ix3 k ch hw) = a3 (ix2 k j) :=
  shapeCast_apply (s := S128x4096) (t := S128x16x256) a3 h (ix3 k ch hw) (ix2 k j)
    (by rw [Shape.rowMajor_val_two, Shape.rowMajor_val_three]
        show k.val * 4096 + j.val = (k.val * 16 + ch.val) * 256 + hw.val
        omega)

/-- [16] viewed as a column [16,1]. -/
theorem reshape_col_apply (a : S16.Idx → α) (h : S16.ShapeCasts S16x1) (ch : Fin 16) :
    shapeCast S16x1 a h (ix2 ch (0 : Fin 1)) = a (ix1 ch) :=
  shapeCast_apply (s := S16) (t := S16x1) a h (ix2 ch (0 : Fin 1)) (ix1 ch)
    (by rw [Shape.rowMajor_val_one, Shape.rowMajor_val_two]
        show ch.val = ch.val * 1 + 0
        omega)

end Reshapes

/-! ## The first host stretch -/

section First
variable {F : FTy → Type} [FloatOps F] (m : (ℓ : Loc nD τ sig) → Buf (Elt F) ℓ)

theorem V1_main_v0 (c : Dev nD) : (V1 m c main_v0 : S2048x16x256.Idx → Elt F .f32)
    = shapeCast S2048x16x256 (m ((c : Thread nD τ).loc main_arg0)) shapeCasts_S2048x16x16x16_S2048x16x256 := by
  dsimp only [Gen.V1, Gen.hostOps0]; after_results; rfl
theorem V1_main_v1 (c : Dev nD) : (V1 m c main_v1 : S128x16x256.Idx → Elt F .f32)
    = shapeCast S128x16x256 (m ((c : Thread nD τ).loc main_arg3)) shapeCasts_S128x4096_S128x16x256 := by
  dsimp only [Gen.V1, Gen.hostOps0]; after_results; rfl
theorem V1_main_v2 (c : Dev nD) : (V1 m c main_v2 : S16x1.Idx → Elt F .f32)
    = shapeCast S16x1 (m ((c : Thread nD τ).loc main_arg1)) shapeCasts_S16_S16x1 := by
  dsimp only [Gen.V1, Gen.hostOps0]; after_results; rfl
theorem V1_main_v3 (c : Dev nD) : (V1 m c main_v3 : S16x1.Idx → Elt F .f32)
    = shapeCast S16x1 (m ((c : Thread nD τ).loc main_arg2)) shapeCasts_S16_S16x1 := by
  dsimp only [Gen.V1, Gen.hostOps0]; after_results; rfl

end First

/-! ## The second host stretch -/

/-- The row the second host stretch hands the second region, from the bias, the per-channel shifts and the weights. -/
def host10 (bias : FVec Ideal S128 .f32) (T : FVec Ideal S16x1 .f32) (w3 : FVec Ideal S128x16x256 .f32) : FVec Ideal S1x128 .f32 :=
  addf (shapeCast S1x128 bias shapeCasts_S128_S1x128)
    (Host.dotGeneral dot_S1x16_S16x128_S1x128_1_0_0_1_n_n (some .fp32) (shapeCast S1x16 T shapeCasts_S16x1_S1x16)
      (transpose S16x128 [1, 0] (Host.reduceAdd w3 (constant (F := Ideal) S_ .f32 0x00000000#32) reducesTo_S128x16x256_S128x16_d2 h_S_) transposes_S128x16_S16x128_1_0))

/-- At column `k`: the bias there, plus over the channels the shift times the weights' sum over the last axis (taken
    from the initial value zero). -/
theorem host10_apply (bias : FVec Ideal S128 .f32) (T : FVec Ideal S16x1 .f32) (w3 : FVec Ideal S128x16x256 .f32) (k : Fin 128) :
    host10 bias T w3 (ix2 (0 : Fin 1) k)
      = bias (ix1 k) + ∑ ch : Fin 16, T (ix2 ch (0 : Fin 1)) * ((0 : EReal) + ∑ hw : Fin 256, w3 (ix3 k ch hw)) := by
  unfold host10
  show shapeCast S1x128 bias shapeCasts_S128_S1x128 (ix2 (0 : Fin 1) k)
      + Host.dotGeneral (DotDims.plain 1 16 128) (some .fp32) (shapeCast S1x16 T shapeCasts_S16x1_S1x16) _ (ix2 (0 : Fin 1) k) = _
  rw [StackMember.dotGeneral_plain_apply]
  congr 1
  · exact shapeCast_apply (s := S128) (t := S1x128) bias _ (ix2 (0 : Fin 1) k) (ix1 k)
      (by rw [Shape.rowMajor_val_one, Shape.rowMajor_val_two]; show k.val = 0 * 128 + k.val; omega)
  · refine Finset.sum_congr rfl fun ch _ => ?_
    congr 1
    · exact shapeCast_apply (s := S16x1) (t := S1x16) T _ (ix2 (0 : Fin 1) ch) (ix2 ch (0 : Fin 1))
        (by rw [Shape.rowMajor_val_two, Shape.rowMajor_val_two]; show ch.val * 1 + 0 = 0 * 16 + ch.val; omega)
    · refine (transpose_apply (s := S128x16) (t := S16x128) [1, 0] _ _ (ix2 ch k) (ix2 k ch)
        (fun b => by match b with | ⟨0, _⟩ => rfl | ⟨1, _⟩ => rfl)).trans ?_
      unfold Host.reduceAdd
      rw [Ideal.hostReduceAdd_def, Ideal.hostReduceAdd_single reducesTo_S128x16x256_S128x16_d2 (by decide : S128x16x256.Reduces [2] S128x16)]
      congr 1
      · exact Ideal.ofBits_zero_f32
      · refine Finset.sum_congr rfl fun hw _ => congrArg w3 ?_
        funext a; apply Fin.ext
        match a with
        | ⟨0, _⟩ => rfl
        | ⟨1, _⟩ => rfl
        | ⟨2, _⟩ => rfl

section Second
variable (m : (ℓ : Loc nD τ sig) → Buf (Elt Ideal) ℓ) (outs : Outs (F := Ideal))

/-- What the second region finds in `main_v10`: `host10` of the bias as launched, the shifts the first region left and
    the reshaped weights. -/
theorem V3_main_v10 (c : Dev nD) : (V3 m outs c main_v10 : FVec Ideal S1x128 .f32)
    = host10 (m ((c : Thread nD τ).loc main_arg4)) (outs 2 main_v4_2 c) (V1 m c main_v1) := by
  have e1 : V2 m outs c main_arg4 = m ((c : Thread nD τ).loc main_arg4) :=
    (V2_of m outs c main_arg4 (by decide)).trans ((V1_of m c main_arg4 (by decide)).trans rfl)
  have e2 : V2 m outs c main_v4_2 = outs 2 main_v4_2 c := Function.update_self ..
  have e3 : V2 m outs c main_v1 = V1 m c main_v1 := V2_of m outs c main_v1 (by decide)
  dsimp only [Gen.V3, Gen.hostOps1]
  after_results
  rw [e1, e2, e3]
  rfl

/-- The second region's other operands are what the first region left. -/
theorem V3_main_v4_0 (c : Dev nD) : V3 m outs c main_v4_0 = outs 2 main_v4_0 c :=
  (V3_of m outs c main_v4_0 (by decide)).trans
    ((Function.update_of_ne (StableHlo.devRef_ne_of_ne (by decide)) _ _).trans
      ((Function.update_of_ne (StableHlo.devRef_ne_of_ne (by decide)) _ _).trans (Function.update_self ..)))
theorem V3_main_v4_1 (c : Dev nD) : V3 m outs c main_v4_1 = outs 2 main_v4_1 c :=
  (V3_of m outs c main_v4_1 (by decide)).trans
    ((Function.update_of_ne (StableHlo.devRef_ne_of_ne (by decide)) _ _).trans (Function.update_self ..))

end Second

end Cert.ReferenceIdeal.RefChain

end
-- ==== Proof.RefChainValue.lean ====
import proofs.«170975_g2000502485364553_pallasbulk_1302_22_alg».proof.Proof.RefCombineValue
import proofs.«170975_g2000502485364553_pallasbulk_1302_22_alg».proof.Proof.RefChainHost

/-! # The reference's result array, index by index

What the second region leaves in `main_v11`, from what the first region left (`P`, the scales `s`, the shifts `T`) and
the arguments (the bias, the weights): at (b, k) the sum over the channels of `P(ch, b, k) · s(ch, 0)`, plus the bias
at `k`, plus over the channels the shift times the weights' sum over the spatial axis (taken from zero). -/

set_option maxRecDepth 16384

noncomputable section

namespace Cert.ReferenceIdeal.RefChain

open Cert.ReferenceIdeal Cert.ReferenceIdeal.Gen Cert.ReferenceIdeal.RefCombine
open Idealize.ShloMosaic Idealize.ShloMosaic.TcCoe Idealize.ShloMosaic.ValueIdx

variable (m : (ℓ : Loc nD τ sig) → Buf (Elt Ideal) ℓ) (outs : Outs (F := Ideal))

/-- The result array after the second region, entered from the generated thread state: `G1` of what the first region
    left and the second host stretch's row. -/
theorem Out1_closed (c : Dev nD) :
    Out1 (V3 m outs) c
      = G1 (outs 2 main_v4_0 c) (outs 2 main_v4_1 c) (host10 (m ((c : Thread nD τ).loc main_arg4)) (outs 2 main_v4_2 c) (V1 m c main_v1)) := by
  rw [Out1_eq]
  show G1 (V3 m outs c main_v4_0) (V3 m outs c main_v4_1) (V3 m outs c main_v10) = _
  rw [V3_main_v4_0, V3_main_v4_1, V3_main_v10]

/-- The column of the flattened weights behind channel `ch`, spatial position `hw`. -/
def flat (ch : Fin 16) (hw : Fin 256) : Fin 4096 := ⟨ch.val * 256 + hw.val, by have := ch.isLt; have := hw.isLt; omega⟩

/-- THE RESULT at (b, k), from named operands: `P s T` what the first region left in its three results, `bias` and `w`
    the fifth and fourth arguments as launched. -/
theorem ref_value (c : Dev nD) (P : S16x2048x128.Idx → EReal) (s T : S16x1.Idx → EReal) (bias : S128.Idx → EReal) (w : S128x4096.Idx → EReal)
    (hP : outs 2 main_v4_0 c = P) (hs : outs 2 main_v4_1 c = s) (hT : outs 2 main_v4_2 c = T)
    (hb : m ((c : Thread nD τ).loc main_arg4) = bias) (hw : m ((c : Thread nD τ).loc main_arg3) = w) (b : Fin 2048) (k : Fin 128) :
    (Out1 (V3 m outs) c : S2048x128.Idx → EReal) (ix2 b k)
      = (∑ ch : Fin 16, P (ix3 ch b k) * s (ix2 ch (0 : Fin 1)))
        + (bias (ix1 k) + ∑ ch : Fin 16, T (ix2 ch (0 : Fin 1)) * ((0 : EReal) + ∑ q : Fin 256, w (ix2 k (flat ch q)))) := by
  rw [Out1_closed, G1_apply, host10_apply, hP, hs, hT, hb, V1_main_v1, hw]
  congr 2
  refine Finset.sum_congr rfl fun ch _ => ?_
  congr 2
  refine Finset.sum_congr rfl fun q _ => ?_
  exact reshape_w_apply w _ k ch q (flat ch q) rfl

end Cert.ReferenceIdeal.RefChain

end
-- ==== Proof.RefChainOut.lean ====
import proofs.«170975_g2000502485364553_pallasbulk_1302_22_alg».proof.Proof.RefChainClosed
import proofs.«170975_g2000502485364553_pallasbulk_1302_22_alg».proof.Proof.RefChainValue

/-! # The reference's result, from what the first region leaves and the arguments

`RefOut m c` at (b, k), at the ideal values: over the channels, the first region's partial product times the
channel's scale; plus the bias; plus over the channels the shift times the weights' sum over the spatial axis. -/

set_option maxRecDepth 16384

noncomputable section

namespace Cert.ReferenceIdeal.RefChain

open Cert.ReferenceIdeal Cert.ReferenceIdeal.Gen Cert.ReferenceIdeal.RefPartial Cert.ReferenceIdeal.RefCombine
open Idealize.ShloMosaic Idealize.ShloMosaic.TcCoe Idealize.ShloMosaic.ValueIdx

variable (m : (ℓ : Loc nD τ sig) → Buf (Elt Ideal) ℓ)

/-- A spatial position's row and column in the 16 × 16 image. -/
def hi (q : Fin 256) : Fin 16 := ⟨q.val / 16, by have := q.isLt; omega⟩
def lo (q : Fin 256) : Fin 16 := ⟨q.val % 16, Nat.mod_lt _ (by decide)⟩

/-- THE RESULT at (b, k), from what the first region leaves (`P`, the scale column `s`, the shift column `T`) and the
    arguments `bias` and `w` (the weights). -/
theorem RefOut_apply (c : Dev nD) (P : S16x2048x128.Idx → EReal) (s T : S16x1.Idx → EReal) (bias : S128.Idx → EReal) (w : S128x4096.Idx → EReal)
    (hP : P0 m c = P) (hs : S0 m c = s) (hT : T0 m c = T)
    (hb : m ((c : Thread nD τ).loc main_arg4) = bias) (hw : m ((c : Thread nD τ).loc main_arg3) = w) (b : Fin 2048) (k : Fin 128) :
    (RefOut m c : S2048x128.Idx → EReal) (ix2 b k)
      = (∑ ch : Fin 16, P (ix3 ch b k) * s (ix2 ch (0 : Fin 1)))
        + (bias (ix1 k) + ∑ ch : Fin 16, T (ix2 ch (0 : Fin 1)) * ((0 : EReal) + ∑ q : Fin 256, w (ix2 k (flat ch q)))) :=
  ref_value m (outs2 m) c P s T bias w ((outs2_p m 2 c).trans hP) ((outs2_s m 2 c).trans hs) ((outs2_t m 2 c).trans hT) hb hw b k

/-- The first region's input as it finds it, at (b, ch, q): the argument at (b, ch, q / 16, q % 16). -/
theorem X_apply (c : Dev nD) (x : S2048x16x16x16.Idx → EReal) (hx : m ((c : Thread nD τ).loc main_arg0) = x) (b : Fin 2048) (ch : Fin 16) (q : Fin 256) :
    (V1 m c main_v0 : S2048x16x256.Idx → EReal) (ix3 b ch q) = x (ix4 b ch (hi q) (lo q)) := by
  rw [V1_main_v0, hx]
  exact reshape_x_apply x _ b ch (hi q) (lo q) q (by show q.val = q.val / 16 * 16 + q.val % 16; omega)

/-- The first region's weights as it finds them, at (k, ch, q): the argument at (k, ch·256 + q). -/
theorem W_apply (c : Dev nD) (w : S128x4096.Idx → EReal) (hw : m ((c : Thread nD τ).loc main_arg3) = w) (k : Fin 128) (ch : Fin 16) (q : Fin 256) :
    (V1 m c main_v1 : S128x16x256.Idx → EReal) (ix3 k ch q) = w (ix2 k (flat ch q)) := by
  rw [V1_main_v1, hw]
  exact reshape_w_apply w _ k ch q (flat ch q) rfl

end Cert.ReferenceIdeal.RefChain

end
-- ==== Proof.RefPartialPieces.lean ====
/-
  What each case of region 0's body leaves in the two accumulators and in the two column outputs, as the body's
  arithmetic (the generated payloads) of the tile and of what the accumulators held: the first point adds the tile's
  sums to the zero block, a later point to what the point before left; the last point reduces the two accumulators,
  as it has just left them, to the scale and shift columns.
-/
import proofs.«170975_g2000502485364553_pallasbulk_1302_22_alg».proof.Proof.RefPartialDat
import Idealize.ShloMosaic.Lib.Pipeline.Value

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- An accumulator read back whole. -/
theorem rd0 (h : (scM0_0 : Memref sig .tc .vmem S16x256 .f32).IsWhole) (x : Vec F S16x256 .f32) :
    View.read (Elt F) (View.whole cc0_scratch0) (h.unread x) = x := h.read_unread x
theorem rd1 (h : (scM0_1 : Memref sig .tc .vmem S16x256 .f32).IsWhole) (x : Vec F S16x256 .f32) :
    View.read (Elt F) (View.whole cc0_scratch1) (h.unread x) = x := h.read_unread x

/-- The tile's sums added to an accumulator (`k0_pay10`), its sums of squares to the other (`k0_pay11`). -/
theorem s0_A_eq (c : Dev nD) (t : Fin cfg0.N) (h0 : t.val % 8 = 0) : s0_A m c t h0 = k0_pay10 (iblk m c 0 t) (k0_pay7 (F := F)) := by
  unfold s0_A
  rw [View.read_writes_eq_canon _ _ _ (scoverA_0 m c t h0)]
  unfold runA kernelRun0_A
  dsimp only
  sl_unfold_words
  rw [View.canon_cons_unit_zero (S := S16x256) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]
theorem s1_A_eq (c : Dev nD) (t : Fin cfg0.N) (h0 : t.val % 8 = 0) : s1_A m c t h0 = k0_pay11 (iblk m c 0 t) (k0_pay8 (F := F)) := by
  unfold s1_A
  rw [View.read_writes_eq_canon _ _ _ (scoverA_1 m c t h0)]
  unfold runA kernelRun0_A
  dsimp only
  sl_unfold_words
  rw [View.canon_cons_unit_zero (S := S16x256) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]
theorem s0_B_eq (c : Dev nD) (t : Fin cfg0.N) (h0 : ¬t.val % 8 = 0) (h1 : ¬t.val % 8 = 7) (xs0 xs1 : Vec F S16x256 .f32) :
    s0_B m c t h0 h1 xs0 xs1 = k0_pay10 (iblk m c 0 t) xs0 := by
  unfold s0_B
  rw [View.read_writes_eq_canon _ _ _ (scoverB_0 m c t h0 h1 xs0 xs1)]
  unfold runB kernelRun0_B
  dsimp only
  sl_unfold_words
  rw [View.canon_unit_zero (S := S16x256) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]
theorem s1_B_eq (c : Dev nD) (t : Fin cfg0.N) (h0 : ¬t.val % 8 = 0) (h1 : ¬t.val % 8 = 7) (xs0 xs1 : Vec F S16x256 .f32) :
    s1_B m c t h0 h1 xs0 xs1 = k0_pay11 (iblk m c 0 t) xs1 := by
  unfold s1_B
  rw [View.read_writes_eq_canon _ _ _ (scoverB_1 m c t h0 h1 xs0 xs1)]
  unfold runB kernelRun0_B
  dsimp only
  sl_unfold_words
  rw [View.canon_unit_zero (S := S16x256) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]
theorem s0_C_eq (c : Dev nD) (t : Fin cfg0.N) (h1 : t.val % 8 = 7) (xs0 xs1 : Vec F S16x256 .f32) :
    s0_C m c t h1 xs0 xs1 = k0_pay10 (iblk m c 0 t) xs0 := by
  unfold s0_C
  rw [View.read_writes_eq_canon _ _ _ (scoverC_0 m c t h1 xs0 xs1)]
  unfold runC kernelRun0_C
  dsimp only
  sl_unfold_words
  rw [View.canon_unit_zero (S := S16x256) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]
theorem s1_C_eq (c : Dev nD) (t : Fin cfg0.N) (h1 : t.val % 8 = 7) (xs0 xs1 : Vec F S16x256 .f32) :
    s1_C m c t h1 xs0 xs1 = k0_pay11 (iblk m c 0 t) xs1 := by
  unfold s1_C
  rw [View.read_writes_eq_canon _ _ _ (scoverC_1 m c t h1 xs0 xs1)]
  unfold runC kernelRun0_C
  dsimp only
  sl_unfold_words
  rw [View.canon_unit_zero (S := S16x256) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]
/-- The scale column: the body's arithmetic (`k0_pay5`) of the two accumulators as the last point leaves them and of
    the `gamma` column. -/
theorem out5_C_eq (c : Dev nD) (t : Fin cfg0.N) (h1 : t.val % 8 = 7) (xs0 xs1 : Vec F S16x256 .f32) :
    out5_C m c t h1 xs0 xs1 = k0_pay5 (k0_pay10 (iblk m c 0 t) xs0) (k0_pay11 (iblk m c 0 t) xs1) (iblk m c 1 t) := by
  unfold out5_C
  rw [View.read_writes_eq_canon _ _ _ (coverC_5 m c t h1 xs0 xs1)]
  unfold runC kernelRun0_C
  dsimp only
  sl_unfold_words
  rw [View.canon_unit_zero (S := S16x1) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]
/-- The shift column: `k0_pay6` of the same and of the `beta` column. -/
theorem out6_C_eq (c : Dev nD) (t : Fin cfg0.N) (h1 : t.val % 8 = 7) (xs0 xs1 : Vec F S16x256 .f32) :
    out6_C m c t h1 xs0 xs1 = k0_pay6 (k0_pay10 (iblk m c 0 t) xs0) (k0_pay11 (iblk m c 0 t) xs1) (iblk m c 1 t) (iblk m c 2 t) := by
  unfold out6_C
  rw [View.read_writes_eq_canon _ _ _ (coverC_6 m c t h1 xs0 xs1)]
  unfold runC kernelRun0_C
  dsimp only
  sl_unfold_words
  rw [View.canon_unit_zero (S := S16x1) hz2]
  simp only [View.readAt_eq_ld, Memref.IsWhole.read_unread, rd0, rd1, View.readCov_unit_zero (S := S16x256) _ hz2, View.ld_unit_zero (S := S256x16x256) hz3, View.ld_unit_zero (S := S16x256) hz2, View.ld_unit_zero (S := S16x1) hz2]

end Cert.ReferenceIdeal.RefPartial

end
-- ==== Proof.RefPartialAcc.lean ====
/-
  Region 0's two accumulators point by point, as the body's arithmetic: the tile's sums (and sums of squares) added to
  the zero block at the first point and to what the point before left at every later one — the fold over the eight
  batch tiles —, and the two columns the last point stores, as the body's arithmetic of that fold's end.
-/
import proofs.«170975_g2000502485364553_pallasbulk_1302_22_alg».proof.Proof.RefPartialPieces

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The sum accumulator and the sum-of-squares accumulator after point `n`. -/
def accAt (c : Dev nD) : (n : ℕ) → n < cfg0.N → Vec F S16x256 .f32 × Vec F S16x256 .f32
  | 0, h => (k0_pay10 (iblk m c 0 ⟨0, h⟩) (k0_pay7 (F := F)), k0_pay11 (iblk m c 0 ⟨0, h⟩) (k0_pay8 (F := F)))
  | n + 1, h => (k0_pay10 (iblk m c 0 ⟨n + 1, h⟩) (accAt c n (Nat.lt_of_succ_lt h)).1, k0_pay11 (iblk m c 0 ⟨n + 1, h⟩) (accAt c n (Nat.lt_of_succ_lt h)).2)

/-- What the invariant carries after point `n` IS that fold — by induction on the point. -/
theorem outsAt0_acc (c : Dev nD) : ∀ (n : ℕ) (h : n < cfg0.N), (outsAt0 m c n h).2.2.2 = accAt m c n h
  | 0, h => by
    rw [outsAt0_A m c ⟨0, h⟩ (Nat.zero_mod 8)]
    show (s0_A m c ⟨0, h⟩ (Nat.zero_mod 8), s1_A m c ⟨0, h⟩ (Nat.zero_mod 8)) = _
    rw [s0_A_eq, s1_A_eq]; rfl
  | n + 1, h => by
    have ih := outsAt0_acc c n (Nat.lt_of_succ_lt h)
    have hN : n + 1 < 8 := lt_of_lt_of_eq h N8
    by_cases h1 : (n + 1) % 8 = 7
    · rw [outsAt0_C m c ⟨n + 1, h⟩ h1]
      show (s0_C m c ⟨n + 1, h⟩ h1 _ _, s1_C m c ⟨n + 1, h⟩ h1 _ _) = _
      rw [s0_C_eq, s1_C_eq]
      show (k0_pay10 _ (outsAt0 m c n _).2.2.2.1, k0_pay11 _ (outsAt0 m c n _).2.2.2.2) = _
      rw [ih]; rfl
    · have h0 : ¬(n + 1) % 8 = 0 := by omega
      rw [outsAt0_B m c ⟨n + 1, h⟩ h0 h1]
      show (s0_B m c ⟨n + 1, h⟩ h0 h1 _ _, s1_B m c ⟨n + 1, h⟩ h0 h1 _ _) = _
      rw [s0_B_eq, s1_B_eq]
      show (k0_pay10 _ (outsAt0 m c n _).2.2.2.1, k0_pay11 _ (outsAt0 m c n _).2.2.2.2) = _
      rw [ih]; rfl

theorem lt7 : 7 < cfg0.N := by rw [N8]; decide
theorem h77 : (7 : ℕ) % 8 = 7 := by decide
/-- The last point. -/
abbrev t7 : Fin cfg0.N := ⟨7, lt7⟩

/-- The scale column the last point stores: the body's arithmetic of the fold's end and of the `gamma` column. -/
theorem out5_last (c : Dev nD) :
    (outsAt0 m c 7 lt7).2.1 = k0_pay5 (accAt m c 7 lt7).1 (accAt m c 7 lt7).2 (iblk m c 1 t7) := by
  rw [outsAt0_C m c t7 h77]
  show out5_C m c t7 h77 _ _ = _
  rw [out5_C_eq]
  show k0_pay5 (k0_pay10 _ (outsAt0 m c 6 _).2.2.2.1) (k0_pay11 _ (outsAt0 m c 6 _).2.2.2.2) _ = _
  rw [outsAt0_acc m c 6]; rfl
/-- The shift column: of the same and of the `beta` column. -/
theorem out6_last (c : Dev nD) :
    (outsAt0 m c 7 lt7).2.2.1 = k0_pay6 (accAt m c 7 lt7).1 (accAt m c 7 lt7).2 (iblk m c 1 t7) (iblk m c 2 t7) := by
  rw [outsAt0_C m c t7 h77]
  show out6_C m c t7 h77 _ _ = _
  rw [out6_C_eq]
  show k0_pay6 (k0_pay10 _ (outsAt0 m c 6 _).2.2.2.1) (k0_pay11 _ (outsAt0 m c 6 _).2.2.2.2) _ _ = _
  rw [outsAt0_acc m c 6]; rfl

end Cert.ReferenceIdeal.RefPartial

end
-- ==== Proof.RefPartialProd.lean ====
/-
  One channel's partial product at an index, over the extended reals: the body's matrix product of the tile's rows of
  channel `j` against the weight's rows of channel `j`, into a zero accumulator, is the plain sum over the 256 feature
  positions of the products — and so, channel by channel, is the whole product block.
-/
import proofs.«170975_g2000502485364553_pallasbulk_1302_22_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefPartial

open Cert.ReferenceIdeal Cert.ReferenceIdeal.Gen
open Cert.ReferenceIdeal.Facts₀ Cert.ReferenceIdeal.Facts
open Idealize.ShloMosaic Idealize.ShloMosaic.ValueIdx

/-- The contraction's index maps, axis by axis. -/
theorem lhs_0 (i : S256x128.Idx) (q : dot_S256x256_S128x256_S256x128_1_1_0_0_n_n.contr.Idx) :
    (dot_S256x256_S128x256_S256x128_1_1_0_0_n_n.lhsIdx i q 0).val = (i 0).val := by
  unfold DotDims.lhsIdx
  rw [dif_neg (show ¬(0 : Fin S256x256.rank) ∈ dot_S256x256_S128x256_S256x128_1_1_0_0_n_n.lhsBatch by decide), dif_pos (show (0 : Fin S256x256.rank) ∈ dot_S256x256_S128x256_S256x128_1_1_0_0_n_n.lhsNonContracting by decide)]
  rfl
theorem lhs_1 (i : S256x128.Idx) (q : dot_S256x256_S128x256_S256x128_1_1_0_0_n_n.contr.Idx) :
    (dot_S256x256_S128x256_S256x128_1_1_0_0_n_n.lhsIdx i q 1).val = (q ⟨0, by decide⟩).val :=
  dot_S256x256_S128x256_S256x128_1_1_0_0_n_n.lhsIdx_val_of_single rfl i q
theorem rhs_0 (i : S256x128.Idx) (q : dot_S256x256_S128x256_S256x128_1_1_0_0_n_n.contr.Idx) :
    (dot_S256x256_S128x256_S256x128_1_1_0_0_n_n.rhsIdx i q 0).val = (i 1).val := by
  unfold DotDims.rhsIdx
  rw [dif_neg (show ¬(0 : Fin S128x256.rank) ∈ dot_S256x256_S128x256_S256x128_1_1_0_0_n_n.rhsBatch by decide), dif_pos (show (0 : Fin S128x256.rank) ∈ dot_S256x256_S128x256_S256x128_1_1_0_0_n_n.rhsNonContracting by decide)]
  rfl
theorem rhs_1 (i : S256x128.Idx) (q : dot_S256x256_S128x256_S256x128_1_1_0_0_n_n.contr.Idx) :
    (dot_S256x256_S128x256_S256x128_1_1_0_0_n_n.rhsIdx i q 1).val = (q ⟨0, by decide⟩).val :=
  dot_S256x256_S128x256_S256x128_1_1_0_0_n_n.rhsIdx_val_of_single rfl i q

/-- The product of a [256,256] block against a [128,256] block along their second axes, into a zero accumulator. -/
theorem matmul_zero_apply (l : FVec Ideal S256x256 .f32) (r : FVec Ideal S128x256 .f32) (b : Fin 256) (k : Fin 128) :
    (matmul dot_S256x256_S128x256_S256x128_1_1_0_0_n_n (some .fp32) l r (constant (F := Ideal) S256x128 .f32 0x00000000#32) : FVec Ideal S256x128 .f32) (ix2 b k)
      = ∑ hw : Fin 256, l (ix2 b hw) * r (ix2 k hw) := by
  refine (Ideal.matmul_constant_zero_apply dot_S256x256_S128x256_S256x128_1_1_0_0_n_n (some .fp32) l r (ix2 b k)).trans ?_
  rw [← Equiv.sum_comp (contrEquiv1 dot_S256x256_S128x256_S256x128_1_1_0_0_n_n 256 rfl rfl).symm]
  refine Finset.sum_congr rfl fun hw _ => ?_
  have hk := contrEquiv1_symm_val dot_S256x256_S128x256_S256x128_1_1_0_0_n_n 256 rfl rfl hw
  have el : dot_S256x256_S128x256_S256x128_1_1_0_0_n_n.lhsIdx (ix2 b k) ((contrEquiv1 dot_S256x256_S128x256_S256x128_1_1_0_0_n_n 256 rfl rfl).symm hw) = ix2 b hw := funext fun a => Fin.ext (by
    match a with
    | ⟨0, _⟩ => exact lhs_0 _ _
    | ⟨1, _⟩ => exact (lhs_1 _ _).trans hk)
  have er : dot_S256x256_S128x256_S256x128_1_1_0_0_n_n.rhsIdx (ix2 b k) ((contrEquiv1 dot_S256x256_S128x256_S256x128_1_1_0_0_n_n 256 rfl rfl).symm hw) = ix2 k hw := funext fun a => Fin.ext (by
    match a with
    | ⟨0, _⟩ => exact rhs_0 _ _
    | ⟨1, _⟩ => exact (rhs_1 _ _).trans hk)
  rw [el, er]

/-- A [a,1,b] vector recast to [a,b], at an index. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- ONE CHANNEL'S PRODUCT: the rows of channel `j` of the tile against the rows of channel `j` of the weight. -/
theorem chanProd_apply (j : ℕ) (hj : j < 16)
    (inb0 : ∀ a, (![0, j, 0] : Fin 3 → ℕ) a + S256x1x256.size a ≤ S256x16x256.size a)
    (inb3 : ∀ a, (![0, j, 0] : Fin 3 → ℕ) a + S128x1x256.size a ≤ S128x16x256.size a)
    (x0 : Vec Ideal S256x16x256 .f32) (x3 : Vec Ideal S128x16x256 .f32) (u : Fin 1) (b : Fin 256) (k : Fin 128) :
    (shapeCast S1x256x128 (matmul dot_S256x256_S128x256_S256x128_1_1_0_0_n_n (some .fp32)
        (shapeCast S256x256 (View.ld x0 (Rect.unit (s := S256x16x256) ![0, j, 0] S256x1x256.size inb0)) Facts₀.shapeCasts_S256x1x256_S256x256 : FVec Ideal S256x256 .f32)
        (shapeCast S128x256 (View.ld x3 (Rect.unit (s := S128x16x256) ![0, j, 0] S128x1x256.size inb3)) Facts₀.shapeCasts_S128x1x256_S128x256 : FVec Ideal S128x256 .f32)
        (constant (F := Ideal) S256x128 .f32 0x00000000#32)) Facts₀.shapeCasts_S256x128_S1x256x128 : FVec Ideal S1x256x128 .f32) (ix3 u b k)
      = ∑ hw : Fin 256, x0 (ix3 b (⟨j, hj⟩ : Fin 16) hw) * x3 (ix3 k (⟨j, hj⟩ : Fin 16) hw) := by
  rw [shapeCast_ab_1ab_apply, matmul_zero_apply]
  refine Finset.sum_congr rfl fun hw _ => ?_
  rw [shapeCast_a1b_ab_apply, shapeCast_a1b_ab_apply]
  congr 1
  · exact congrArg x0 (funext fun a => Fin.ext (by
      match a with
      | ⟨0, _⟩ => show 0 + 1 * b.val = b.val; omega
      | ⟨1, _⟩ => show j + 1 * 0 = j; omega
      | ⟨2, _⟩ => show 0 + 1 * hw.val = hw.val; omega))
  · exact congrArg x3 (funext fun a => Fin.ext (by
      match a with
      | ⟨0, _⟩ => show 0 + 1 * k.val = k.val; omega
      | ⟨1, _⟩ => show j + 1 * 0 = j; omega
      | ⟨2, _⟩ => show 0 + 1 * hw.val = hw.val; omega))

end Cert.ReferenceIdeal.RefPartial

end
-- ==== Proof.RefPartialBlock.lean ====
/-
  The product block region 0's body leaves at a point, over the extended reals: in every case the sixteen stores,
  channel by channel, leave at (channel, row, class) the sum over the 256 feature positions of the tile's entry times
  the weight's.
-/
import proofs.«170975_g2000502485364553_pallasbulk_1302_22_alg».proof.Proof.RefPartialAcc
import proofs.«170975_g2000502485364553_pallasbulk_1302_22_alg».proof.Proof.RefPartialProd

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The product at (channel, row, class): the sum over the feature positions. -/
def prodAt (x0 : Vec Ideal S256x16x256 .f32) (x3 : Vec Ideal S128x16x256 .f32) (j : Fin 16) (b : Fin 256) (k : Fin 128) : Ideal .f32 :=
  ∑ hw : Fin 256, x0 (ix3 b j hw) * x3 (ix3 k j hw)
/-- The product block of a tile against the weight. -/
def prodBlk (x0 : Vec Ideal S256x16x256 .f32) (x3 : Vec Ideal S128x16x256 .f32) : S16x256x128.Idx → Ideal .f32 :=
  fun y => prodAt x0 x3 (y 0) (y 1) (y 2)

/-- The block at an index of channel `j`'s rectangle. -/
theorem prodBlk_emb (j : ℕ) (hj : j < 16) (inb : ∀ a, (![j, 0, 0] : Fin 3 → ℕ) a + S1x256x128.size a ≤ S16x256x128.size a)
    (x0 : Vec Ideal S256x16x256 .f32) (x3 : Vec Ideal S128x16x256 .f32) (u : Fin 1) (b : Fin 256) (k : Fin 128) :
    prodBlk x0 x3 ((Rect.unit (s := S16x256x128) ![j, 0, 0] S1x256x128.size inb).emb (ix3 u b k))
      = ∑ hw : Fin 256, x0 (ix3 b (⟨j, hj⟩ : Fin 16) hw) * x3 (ix3 k (⟨j, hj⟩ : Fin 16) hw) := by
  have e0 : ((Rect.unit (s := S16x256x128) ![j, 0, 0] S1x256x128.size inb).emb (ix3 u b k) 0 : Fin 16) = ⟨j, hj⟩ :=
    Fin.ext (by show j + 1 * u.val = j; have := u.isLt; omega)
  have e1 : ((Rect.unit (s := S16x256x128) ![j, 0, 0] S1x256x128.size inb).emb (ix3 u b k) 1 : Fin 256) = b :=
    Fin.ext (by show 0 + 1 * b.val = b.val; omega)
  have e2 : ((Rect.unit (s := S16x256x128) ![j, 0, 0] S1x256x128.size inb).emb (ix3 u b k) 2 : Fin 128) = k :=
    Fin.ext (by show 0 + 1 * k.val = k.val; omega)
  exact congr (congr (congrArg (prodAt x0 x3) e0) e1) e2

variable (m : (ℓ : Loc nD τ sig) → Buf (Elt Ideal) ℓ)

set_option maxHeartbeats 4000000 in
theorem out4_A_eq (c : Dev nD) (t : Fin cfg0.N) (h0 : t.val % 8 = 0) :
    out4_A m c t h0 = prodBlk (iblk m c 0 t) (iblk m c 3 t) := by
  unfold out4_A
  rw [View.read_writes_eq_canon _ _ _ (coverA_4 m c t h0)]
  funext y
  refine View.canon_apply_of_pieces (prodBlk (iblk m c 0 t) (iblk m c 3 t)) _ ?_ y (coverA_4 m c t h0 y)
  unfold runA kernelRun0_A
  dsimp only
  sl_unfold_words
  simp only [View.readAt_eq_ld, Memref.IsWhole.read_unread]
  unfold k0_pay1 k0_pay2 k0_pay3 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29
  intro p hp
  simp only [List.mem_cons, List.not_mem_nil, or_false] at hp
  rcases hp with rfl | rfl | rfl | rfl | rfl | rfl | rfl | rfl | rfl | rfl | rfl | rfl | rfl | rfl | rfl | rfl
  all_goals
    intro x
    obtain ⟨u, b, k, rfl⟩ : ∃ (u : Fin 1) (b : Fin 256) (k : Fin 128), x = ix3 u b k := ⟨x 0, x 1, x 2, eq_ix3 x⟩
    refine (chanProd_apply _ (by decide) _ _ _ _ u b k).trans ?_
    symm
    apply prodBlk_emb
    all_goals decide

set_option maxHeartbeats 4000000 in
theorem out4_B_eq (c : Dev nD) (t : Fin cfg0.N) (h0 : ¬t.val % 8 = 0) (h1 : ¬t.val % 8 = 7) (xs0 xs1 : Vec Ideal S16x256 .f32) :
    out4_B m c t h0 h1 xs0 xs1 = prodBlk (iblk m c 0 t) (iblk m c 3 t) := by
  unfold out4_B
  rw [View.read_writes_eq_canon _ _ _ (coverB_4 m c t h0 h1 xs0 xs1)]
  funext y
  refine View.canon_apply_of_pieces (prodBlk (iblk m c 0 t) (iblk m c 3 t)) _ ?_ y (coverB_4 m c t h0 h1 xs0 xs1 y)
  unfold runB kernelRun0_B
  dsimp only
  sl_unfold_words
  simp only [View.readAt_eq_ld, Memref.IsWhole.read_unread]
  unfold k0_pay1 k0_pay2 k0_pay3 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29
  intro p hp
  simp only [List.mem_cons, List.not_mem_nil, or_false] at hp
  rcases hp with rfl | rfl | rfl | rfl | rfl | rfl | rfl | rfl | rfl | rfl | rfl | rfl | rfl | rfl | rfl | rfl
  all_goals
    intro x
    obtain ⟨u, b, k, rfl⟩ : ∃ (u : Fin 1) (b : Fin 256) (k : Fin 128), x = ix3 u b k := ⟨x 0, x 1, x 2, eq_ix3 x⟩
    refine (chanProd_apply _ (by decide) _ _ _ _ u b k).trans ?_
    symm
    apply prodBlk_emb
    all_goals decide

set_option maxHeartbeats 4000000 in
theorem out4_C_eq (c : Dev nD) (t : Fin cfg0.N) (h1 : t.val % 8 = 7) (xs0 xs1 : Vec Ideal S16x256 .f32) :
    out4_C m c t h1 xs0 xs1 = prodBlk (iblk m c 0 t) (iblk m c 3 t) := by
  unfold out4_C
  rw [View.read_writes_eq_canon _ _ _ (coverC_4 m c t h1 xs0 xs1)]
  funext y
  refine View.canon_apply_of_pieces (prodBlk (iblk m c 0 t) (iblk m c 3 t)) _ ?_ y (coverC_4 m c t h1 xs0 xs1 y)
  unfold runC kernelRun0_C
  dsimp only
  sl_unfold_words
  simp only [View.readAt_eq_ld, Memref.IsWhole.read_unread]
  unfold k0_pay1 k0_pay2 k0_pay3 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29
  intro p hp
  simp only [List.mem_cons, List.not_mem_nil, or_false] at hp
  rcases hp with rfl | rfl | rfl | rfl | rfl | rfl | rfl | rfl | rfl | rfl | rfl | rfl | rfl | rfl | rfl | rfl
  all_goals
    intro x
    obtain ⟨u, b, k, rfl⟩ : ∃ (u : Fin 1) (b : Fin 256) (k : Fin 128), x = ix3 u b k := ⟨x 0, x 1, x 2, eq_ix3 x⟩
    refine (chanProd_apply _ (by decide) _ _ _ _ u b k).trans ?_
    symm
    apply prodBlk_emb
    all_goals decide

set_option maxHeartbeats 1000000 in
/-- At every point the product window's buffer is left at the tile's product block. -/
theorem out4_eq (c : Dev nD) (t : Fin cfg0.N) : (outsAt0 m c t.val t.isLt).1 = prodBlk (iblk m c 0 t) (iblk m c 3 t) := by
  have hN : t.val < 8 := lt_of_lt_of_eq t.isLt N8
  by_cases h1 : t.val % 8 = 7
  · exact (congrArg (·.1) (outsAt0_C m c t h1)).trans (out4_C_eq m c t h1 (prevS0 m c t) (prevS1 m c t))
  · by_cases h0 : t.val % 8 = 0
    · exact (congrArg (·.1) (outsAt0_A m c t h0)).trans (out4_A_eq m c t h0)
    · exact (congrArg (·.1) (outsAt0_B m c t h0 h1)).trans (out4_B_eq m c t h0 h1 (prevS0 m c t) (prevS1 m c t))

end Cert.ReferenceIdeal.RefPartial

end
-- ==== Proof.RefPartialArr.lean ====
/-
  What region 0 leaves in the product array, over the extended reals, index by index: at (channel, batch row, class)
  the sum over the 256 feature positions of the input's entry times the weight's — each point of the grid writes back
  the rows of its batch tile, and the eight tiles' blocks cover the array.
-/
import proofs.«170975_g2000502485364553_pallasbulk_1302_22_alg».proof.Proof.RefPartialSeg
import proofs.«170975_g2000502485364553_pallasbulk_1302_22_alg».proof.Proof.RefPartialBlock

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The array of per-channel partial products of an input [2048,16,256] against a weight [128,16,256]. -/
def prodArr (X : S2048x16x256.Idx → Ideal .f32) (W : S128x16x256.Idx → Ideal .f32) : S16x2048x128.Idx → Ideal .f32 :=
  fun y => ∑ hw : Fin 256, X (ix3 (y 1 : Fin 2048) (y 0 : Fin 16) hw) * W (ix3 (y 2 : Fin 128) (y 0 : Fin 16) hw)

/-- The input and the weight as the region finds them (the first host stretch's two reshapes). -/
abbrev X3 (c : Dev nD) : S2048x16x256.Idx → Ideal .f32 := V m c main_v0
abbrev W3 (c : Dev nD) : S128x16x256.Idx → Ideal .f32 := V m c main_v1

/-- The printed index maps, decided over the grid: the product window's block moves along the batch axis with the
    input window's; the weight window stays. -/
theorem idx_facts4 : ∀ t : Fin cfg0.N, win0_0.index t (0 : Fin 3) = win0_4.index t (1 : Fin 3)
    ∧ win0_0.index t (1 : Fin 3) = 0 ∧ win0_0.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (2 : Fin 3) = 0 ∧ win0_4.index t (1 : Fin 3) = t.val :=
  (by decide +kernel : ∀ t : Fin grid0.N, _)

/-- WHAT POINT `t` WRITES BACK is block `t` of the product array. -/
theorem flushed4_eq (c : Dev nD) (t : Fin cfg0.N) :
    (pdats0 m c).flushed 4 t = ((cfg0.win 4).blk t).view.read (Elt Ideal) (prodArr (X3 m c) (W3 m c)) := by
  show (cfg0.win 4).cut (grid0.coords t) ((pdats0 m c).after 4 t) = _
  rw [after0_4, out4_eq]
  obtain ⟨e0, e1, e2, e3, e4, e5, e6, e7, e8⟩ := idx_facts4 t
  funext j
  show (∑ hw : Fin 256, X3 m c (((cfg0.win 0).blk t).view.emb (ix3 (j 1 : Fin 256) (j 0 : Fin 16) hw)) * W3 m c (((cfg0.win 3).blk t).view.emb (ix3 (j 2 : Fin 128) (j 0 : Fin 16) hw)))
    = ∑ hw : Fin 256, X3 m c (ix3 ((((cfg0.win 4).blk t).view.emb j) 1 : Fin 2048) ((((cfg0.win 4).blk t).view.emb j) 0 : Fin 16) hw) * W3 m c (ix3 ((((cfg0.win 4).blk t).view.emb j) 2 : Fin 128) ((((cfg0.win 4).blk t).view.emb j) 0 : Fin 16) hw)
  refine Finset.sum_congr rfl fun hw _ => ?_
  have hj0 : (j 0).val < 16 := (j 0).isLt
  have hj1 : (j 1).val < 256 := (j 1).isLt
  have hj2 : (j 2).val < 128 := (j 2).isLt
  have h0 : ((cfg0.win 0).blk t).view.emb (ix3 (j 1 : Fin 256) (j 0 : Fin 16) hw) = ix3 ((((cfg0.win 4).blk t).view.emb j) 1 : Fin 2048) ((((cfg0.win 4).blk t).view.emb j) 0 : Fin 16) hw := by
    funext a; apply Fin.ext
    match a with
    | ⟨0, _⟩ => show win0_0.index t (0 : Fin 3) * 256 + 1 * (j 1).val = win0_4.index t (1 : Fin 3) * 256 + 1 * (j 1).val; omega
    | ⟨1, _⟩ => show win0_0.index t (1 : Fin 3) * 16 + 1 * (j 0).val = win0_4.index t (0 : Fin 3) * 16 + 1 * (j 0).val; omega
    | ⟨2, _⟩ => show win0_0.index t (2 : Fin 3) * 256 + 1 * hw.val = hw.val; omega
  have h3 : ((cfg0.win 3).blk t).view.emb (ix3 (j 2 : Fin 128) (j 0 : Fin 16) hw) = ix3 ((((cfg0.win 4).blk t).view.emb j) 2 : Fin 128) ((((cfg0.win 4).blk t).view.emb j) 0 : Fin 16) hw := by
    funext a; apply Fin.ext
    match a with
    | ⟨0, _⟩ => show win0_3.index t (0 : Fin 3) * 128 + 1 * (j 2).val = win0_4.index t (2 : Fin 3) * 128 + 1 * (j 2).val; omega
    | ⟨1, _⟩ => show win0_3.index t (1 : Fin 3) * 16 + 1 * (j 0).val = win0_4.index t (0 : Fin 3) * 16 + 1 * (j 0).val; omega
    | ⟨2, _⟩ => show win0_3.index t (2 : Fin 3) * 256 + 1 * hw.val = hw.val; omega
  rw [h0, h3]; rfl

/-- An index of the array is in point `t`'s block iff each coordinate is in the block's range on its axis. -/
theorem mem_blk4 (t : Fin cfg0.N) (i : S16x2048x128.Idx) :
    i ∈ ((cfg0.win 4).blk t).view.set ↔ ∀ a : Fin 3, win0_4.index t a * S16x256x128.size a ≤ (i a).val ∧ (i a).val < win0_4.index t a * S16x256x128.size a + S16x256x128.size a := by
  show i ∈ ((View.whole main_v4_0).slice (win0_4.rect t)).set ↔ _
  rw [View.set_slice_whole, Rect.mem_set_unit]
  exact Iff.rfl

/-- REGION 0 LEAVES the product array in `main_v4_0`. -/
theorem final4 (c : Dev nD) : (pdats0 m c).arrAt 4 cfg0.N = prodArr (X3 m c) (W3 m c) :=
  (pdats0 m c).arrAt_eq_of_cover 4 (prodArr (X3 m c) (W3 m c)) (fun t _ => flushed4_eq m c t) fun i => by
    have hi0 : (i 0).val < 16 := (i 0).isLt
    have hi1 : (i 1).val < 2048 := (i 1).isLt
    have hi2 : (i 2).val < 128 := (i 2).isLt
    refine ⟨⟨(i 1).val / 256, by rw [N8]; omega⟩, flush0_4 _, ?_⟩
    rw [mem_blk4]
    obtain ⟨e0, e1, e2, e3, e4, e5, e6, e7, e8⟩ := idx_facts4 ⟨(i 1).val / 256, by rw [N8]; omega⟩
    intro a
    match a with
    | ⟨0, _⟩ => show win0_4.index _ (0 : Fin 3) * 16 ≤ (i 0).val ∧ (i 0).val < win0_4.index _ (0 : Fin 3) * 16 + 16; rw [e6]; omega
    | ⟨1, _⟩ => show win0_4.index _ (1 : Fin 3) * 256 ≤ (i 1).val ∧ (i 1).val < win0_4.index _ (1 : Fin 3) * 256 + 256; rw [e8]; dsimp only; omega
    | ⟨2, _⟩ => show win0_4.index _ (2 : Fin 3) * 128 ≤ (i 2).val ∧ (i 2).val < win0_4.index _ (2 : Fin 3) * 128 + 128; rw [e7]; omega

theorem P0_eq (c : Dev nD) : P0 m c = prodArr (X3 m c) (W3 m c) := final4 m c

/-- INDEX BY INDEX: the partial product at (channel `j`, batch row `b`, class `k`). -/
theorem P0_apply (c : Dev nD) (j : Fin 16) (b : Fin 2048) (k : Fin 128) :
    (P0 m c : S16x2048x128.Idx → Ideal .f32) (ix3 j b k) = ∑ hw : Fin 256, X3 m c (ix3 b j hw) * W3 m c (ix3 k j hw) := by
  rw [P0_eq]; rfl

end Cert.ReferenceIdeal.RefPartial

end
-- ==== Proof.RefPartialCols.lean ====
/-
  The two columns region 0 leaves: the scale column `s` and the shift column `t` are what the last point stores — the
  body's arithmetic of the two accumulators at the end of their fold over the eight tiles and of the `gamma` and `beta`
  columns — written back whole at that point and at no other.
-/
import proofs.«170975_g2000502485364553_pallasbulk_1302_22_alg».proof.Proof.RefPartialSeg
import proofs.«170975_g2000502485364553_pallasbulk_1302_22_alg».proof.Proof.RefPartialAcc

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The scale column: `gamma · rsqrt(max(E[x²] − mean², 0) + eps)` as the body computes it from the two accumulators. -/
def colS (c : Dev nD) : Buf (Elt F) ((c : Thread nD τ).loc main_v4_1) :=
  k0_pay5 (accAt m c 7 lt7).1 (accAt m c 7 lt7).2 (iblk m c 1 t7)
/-- The shift column: `beta − mean · s`. -/
def colT (c : Dev nD) : Buf (Elt F) ((c : Thread nD τ).loc main_v4_2) :=
  k0_pay6 (accAt m c 7 lt7).1 (accAt m c 7 lt7).2 (iblk m c 1 t7) (iblk m c 2 t7)

theorem flushed5_eq (c : Dev nD) (t : Fin cfg0.N) (hf : (cfg0.win 5).flush t = true) :
    (pdats0 m c).flushed 5 t = ((cfg0.win 5).blk t).view.read (Elt F) (colS m c) := by
  have h7 : t.val = 7 := by have := (flush0_5 t).mp hf; have := lt_of_lt_of_eq t.isLt N8; omega
  obtain rfl : t = t7 := Fin.ext h7
  show (cfg0.win 5).cut (grid0.coords t7) ((pdats0 m c).after 5 t7) = _
  rw [after0_5]
  show (outsAt0 m c 7 lt7).2.1 = _
  rw [out5_last]
  have hz' : (fun a => win0_5.index t7 a * main_v4_1.ty.shape.size a) = fun _ => 0 := funext fun a => by fin_cases a <;> decide +kernel
  exact (Memref.read_access_unit_zero (Elt F) main_v4_1 hz' (fun a => by rw [congrFun hz' a]; simp) (colS m c)).symm

theorem final5 (c : Dev nD) : (pdats0 m c).arrAt 5 cfg0.N = colS m c :=
  (pdats0 m c).arrAt_eq_of_cover 5 (colS m c) (flushed5_eq m c) fun i =>
    ⟨t7, (flush0_5 t7).mpr h77, by
      show i ∈ ((View.whole main_v4_1).slice (win0_5.rect t7)).set
      rw [View.set_slice_whole, Rect.mem_set_unit]
      intro a
      have h0 : (i 0 : Nat) < 16 := (i 0).isLt
      have h1 : (i 1 : Nat) < 1 := (i 1).isLt
      match a with
      | ⟨0, _⟩ => show win0_5.index t7 0 * win0_5.size 0 ≤ (i 0 : Nat) ∧ (i 0 : Nat) < win0_5.index t7 0 * win0_5.size 0 + win0_5.xsize (grid0.coords t7) 0
                  rw [show win0_5.index t7 0 * win0_5.size 0 = 0 from by decide +kernel, show win0_5.xsize (grid0.coords t7) 0 = 16 from by decide +kernel]; omega
      | ⟨1, _⟩ => show win0_5.index t7 1 * win0_5.size 1 ≤ (i 1 : Nat) ∧ (i 1 : Nat) < win0_5.index t7 1 * win0_5.size 1 + win0_5.xsize (grid0.coords t7) 1
                  rw [show win0_5.index t7 1 * win0_5.size 1 = 0 from by decide +kernel, show win0_5.xsize (grid0.coords t7) 1 = 1 from by decide +kernel]; omega⟩

theorem flushed6_eq (c : Dev nD) (t : Fin cfg0.N) (hf : (cfg0.win 6).flush t = true) :
    (pdats0 m c).flushed 6 t = ((cfg0.win 6).blk t).view.read (Elt F) (colT m c) := by
  have h7 : t.val = 7 := by have := (flush0_6 t).mp hf; have := lt_of_lt_of_eq t.isLt N8; omega
  obtain rfl : t = t7 := Fin.ext h7
  show (cfg0.win 6).cut (grid0.coords t7) ((pdats0 m c).after 6 t7) = _
  rw [after0_6]
  show (outsAt0 m c 7 lt7).2.2.1 = _
  rw [out6_last]
  have hz' : (fun a => win0_6.index t7 a * main_v4_2.ty.shape.size a) = fun _ => 0 := funext fun a => by fin_cases a <;> decide +kernel
  exact (Memref.read_access_unit_zero (Elt F) main_v4_2 hz' (fun a => by rw [congrFun hz' a]; simp) (colT m c)).symm

theorem final6 (c : Dev nD) : (pdats0 m c).arrAt 6 cfg0.N = colT m c :=
  (pdats0 m c).arrAt_eq_of_cover 6 (colT m c) (flushed6_eq m c) fun i =>
    ⟨t7, (flush0_6 t7).mpr h77, by
      show i ∈ ((View.whole main_v4_2).slice (win0_6.rect t7)).set
      rw [View.set_slice_whole, Rect.mem_set_unit]
      intro a
      have h0 : (i 0 : Nat) < 16 := (i 0).isLt
      have h1 : (i 1 : Nat) < 1 := (i 1).isLt
      match a with
      | ⟨0, _⟩ => show win0_6.index t7 0 * win0_6.size 0 ≤ (i 0 : Nat) ∧ (i 0 : Nat) < win0_6.index t7 0 * win0_6.size 0 + win0_6.xsize (grid0.coords t7) 0
                  rw [show win0_6.index t7 0 * win0_6.size 0 = 0 from by decide +kernel, show win0_6.xsize (grid0.coords t7) 0 = 16 from by decide +kernel]; omega
      | ⟨1, _⟩ => show win0_6.index t7 1 * win0_6.size 1 ≤ (i 1 : Nat) ∧ (i 1 : Nat) < win0_6.index t7 1 * win0_6.size 1 + win0_6.xsize (grid0.coords t7) 1
                  rw [show win0_6.index t7 1 * win0_6.size 1 = 0 from by decide +kernel, show win0_6.xsize (grid0.coords t7) 1 = 1 from by decide +kernel]; omega⟩

/-- REGION 0 LEAVES the scale column in `main_v4_1` and the shift column in `main_v4_2`. -/
theorem S0_eq (c : Dev nD) : S0 m c = colS m c := final5 m c
theorem T0_eq (c : Dev nD) : T0 m c = colT m c := final6 m c

end Cert.ReferenceIdeal.RefPartial

end
-- ==== Proof.RefPartialStats.lean ====
/-
  The statistics' arithmetic at an index, over the extended reals: a tile's contribution to the two accumulators (the
  sum over the tile's 256 rows of the entry, and of its square, added to what the accumulator held), the zero block,
  and the scale and shift columns from the accumulators: mean = (sum over the 256 feature positions of the sum
  accumulator) · 1/n, variance = (the same of the sum-of-squares accumulator) · 1/n − mean², clamped at zero, scale =
  gamma · rsqrt(variance + eps), shift = beta − mean · scale. The float literals stay as words.
-/
import proofs.«170975_g2000502485364553_pallasbulk_1302_22_alg».proof.Proof.Gen.ReferenceIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefPartial

open Cert.ReferenceIdeal Cert.ReferenceIdeal.Gen
open Cert.ReferenceIdeal.Facts₀ Cert.ReferenceIdeal.Facts
open Idealize.ShloMosaic Idealize.ShloMosaic.ValueIdx

/-- The literals the body multiplies and adds: 1/n (n = 2048·256), the variance's epsilon, and zero. -/
abbrev invN : Ideal .f32 := Ideal.ofBits .f32 0x36000000#32
abbrev epsW : Ideal .f32 := Ideal.ofBits .f32 0x3727C5AC#32
abbrev zeroW : Ideal .f32 := Ideal.ofBits .f32 0x00000000#32

/-- The zero block. -/
theorem pay7_apply (i : S16x256.Idx) : (k0_pay7 (F := Ideal)) i = zeroW := by
  unfold k0_pay7; simp only [shapeCast_self]; rfl
theorem pay8_apply (i : S16x256.Idx) : (k0_pay8 (F := Ideal)) i = zeroW := by
  unfold k0_pay8; simp only [shapeCast_self]; rfl

/-- A tile's sums added to an accumulator. -/
theorem pay10_apply (x : Vec Ideal S256x16x256 .f32) (a : Vec Ideal S16x256 .f32) (ch : Fin 16) (hw : Fin 256) :
    k0_pay10 x a (ix2 ch hw) = a (ix2 ch hw) + ∑ b : Fin 256, x (ix3 b ch hw) := by
  unfold k0_pay10 k0_pay9; simp only [shapeCast_self]
  show a (ix2 ch hw) + _ = _
  refine (congrArg (a (ix2 ch hw) + ·) (Ideal.multiReduction_add_single _ _ _ _ _ (ix2 ch hw))).trans ?_
  refine congrArg (a (ix2 ch hw) + ·) (Finset.sum_congr rfl fun b _ => congrArg x (funext fun d => ?_))
  match d with
  | ⟨0, _⟩ => rfl
  | ⟨1, _⟩ => rfl
  | ⟨2, _⟩ => rfl
/-- A tile's sums of squares added to the other. -/
theorem pay11_apply (x : Vec Ideal S256x16x256 .f32) (a : Vec Ideal S16x256 .f32) (ch : Fin 16) (hw : Fin 256) :
    k0_pay11 x a (ix2 ch hw) = a (ix2 ch hw) + ∑ b : Fin 256, x (ix3 b ch hw) * x (ix3 b ch hw) := by
  unfold k0_pay11 k0_pay9; simp only [shapeCast_self]
  show a (ix2 ch hw) + _ = _
  refine (congrArg (a (ix2 ch hw) + ·) (Ideal.multiReduction_add_single _ _ _ _ _ (ix2 ch hw))).trans ?_
  refine congrArg (a (ix2 ch hw) + ·) (Finset.sum_congr rfl fun b _ => ?_)
  show x _ * x _ = _
  have e : (Facts₀.reduces_S256x16x256_S16x256.lift (ix2 ch hw) b : S256x16x256.Idx) = ix3 b ch hw := funext fun d => by
    match d with
    | ⟨0, _⟩ => rfl
    | ⟨1, _⟩ => rfl
    | ⟨2, _⟩ => rfl
  rw [e]; rfl

/-- The mean of a channel: the sum accumulator summed over the feature positions, times 1/n. -/
def meanOf (s : Vec Ideal S16x256 .f32) (ch : Fin 16) : Ideal .f32 := (∑ hw : Fin 256, s (ix2 ch hw)) * invN
/-- The scale of a channel. -/
def scaleOf (s q : Vec Ideal S16x256 .f32) (g : Vec Ideal S16x1 .f32) (ch : Fin 16) : Ideal .f32 :=
  (g (ix2 ch (0 : Fin 1)) : Ideal .f32) * Ideal.rsqrt (max ((∑ hw : Fin 256, q (ix2 ch hw)) * invN - meanOf s ch * meanOf s ch) zeroW + epsW)
/-- The shift of a channel. -/
def shiftOf (s q : Vec Ideal S16x256 .f32) (g bt : Vec Ideal S16x1 .f32) (ch : Fin 16) : Ideal .f32 :=
  (bt (ix2 ch (0 : Fin 1)) : Ideal .f32) - meanOf s ch * scaleOf s q g ch

/-- A [16] vector recast to the column [16,1], at an index. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A row sum of an accumulator, as the body takes it. -/
theorem rowSum_apply (s : Vec Ideal S16x256 .f32) (hφ : FKind.Formats FTy.f32) (hacc : (0x00000000#32 : BitVec FTy.f32.bits) = FKind.add.neutral FTy.f32 hφ) (ch : Fin 16) (u : Fin 1) :
    (shapeCast S16x1 (multiReduction (F := Ideal) .add [1] S16 s 0x00000000#32 Facts₀.reduces_S16x256_S16 hφ hacc) Facts₀.shapeCasts_S16_S16x1 : FVec Ideal S16x1 .f32) (ix2 ch u)
      = ∑ hw : Fin 256, s (ix2 ch hw) := by
  rw [shapeCast_a_a1_apply]
  refine (Ideal.multiReduction_add_single _ _ _ _ _ (ix1 ch)).trans ?_
  refine Finset.sum_congr rfl fun hw _ => congrArg s (funext fun d => ?_)
  match d with
  | ⟨0, _⟩ => rfl
  | ⟨1, _⟩ => rfl

theorem pay4_apply (s : Vec Ideal S16x256 .f32) (ch : Fin 16) (u : Fin 1) : k0_pay4 s (ix2 ch u) = meanOf s ch := by
  unfold k0_pay4 meanOf
  show _ * invN = _
  exact congrArg (· * invN) (rowSum_apply s _ _ ch u)

theorem pay5_apply (s q : Vec Ideal S16x256 .f32) (g : Vec Ideal S16x1 .f32) (ch : Fin 16) (u : Fin 1) :
    k0_pay5 s q g (ix2 ch u) = scaleOf s q g ch := by
  have hu : u = 0 := Fin.ext (by omega)
  subst hu
  unfold k0_pay5 scaleOf; simp only [shapeCast_self]
  show (g (ix2 ch 0) : Ideal .f32) * Ideal.rsqrt (max (_ * invN - k0_pay4 s (ix2 ch 0) * k0_pay4 s (ix2 ch 0)) zeroW + epsW) = _
  rw [pay4_apply]
  exact congrArg (fun z => (g (ix2 ch 0) : Ideal .f32) * Ideal.rsqrt (max (z * invN - meanOf s ch * meanOf s ch) zeroW + epsW)) (rowSum_apply q _ _ ch 0)

theorem pay6_apply (s q : Vec Ideal S16x256 .f32) (g bt : Vec Ideal S16x1 .f32) (ch : Fin 16) (u : Fin 1) :
    k0_pay6 s q g bt (ix2 ch u) = shiftOf s q g bt ch := by
  have hu : u = 0 := Fin.ext (by omega)
  subst hu
  unfold k0_pay6 shiftOf; simp only [shapeCast_self]
  show (bt (ix2 ch 0) : Ideal .f32) - k0_pay4 s (ix2 ch 0) * k0_pay5 s q g (ix2 ch 0) = _
  rw [pay4_apply, pay5_apply]

end Cert.ReferenceIdeal.RefPartial

end
-- ==== Proof.RefPartialVal.lean ====
/-
  What region 0 leaves in the scale and shift columns, over the extended reals, index by index. The two accumulators
  at the end are the fold over the eight batch tiles of each tile's column sums (of the entries, and of their squares),
  starting from zero; the scale of a channel is gamma · rsqrt(max(E[x²] − mean², 0) + eps) and its shift
  beta − mean · scale, with mean and E[x²] the accumulators summed over the 256 feature positions times 1/n.
-/
import proofs.«170975_g2000502485364553_pallasbulk_1302_22_alg».proof.Proof.RefPartialCols
import proofs.«170975_g2000502485364553_pallasbulk_1302_22_alg».proof.Proof.RefPartialStats
import proofs.«170975_g2000502485364553_pallasbulk_1302_22_alg».proof.Proof.RefPartialArr

set_option maxRecDepth 16384

noncomputable section

namespace Cert.ReferenceIdeal.RefPartial

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- Row `b` of batch tile `n` (the eight tiles have 256 rows each). -/
def rowOf (n : ℕ) (b : Fin 256) : Fin 2048 := ⟨(256 * n + b.val) % 2048, Nat.mod_lt _ (by decide)⟩

/-- The sum accumulator after tile `n`: the fold from zero of the tiles' column sums. -/
def accSum (X : S2048x16x256.Idx → Ideal .f32) : ℕ → Fin 16 → Fin 256 → Ideal .f32
  | 0, ch, hw => zeroW + ∑ b : Fin 256, X (ix3 (rowOf 0 b) ch hw)
  | n + 1, ch, hw => accSum X n ch hw + ∑ b : Fin 256, X (ix3 (rowOf (n + 1) b) ch hw)
/-- The sum-of-squares accumulator after tile `n`. -/
def accSq (X : S2048x16x256.Idx → Ideal .f32) : ℕ → Fin 16 → Fin 256 → Ideal .f32
  | 0, ch, hw => zeroW + ∑ b : Fin 256, X (ix3 (rowOf 0 b) ch hw) * X (ix3 (rowOf 0 b) ch hw)
  | n + 1, ch, hw => accSq X n ch hw + ∑ b : Fin 256, X (ix3 (rowOf (n + 1) b) ch hw) * X (ix3 (rowOf (n + 1) b) ch hw)

/-- The input window's block at a point is the tile's rows of the input. -/
theorem iblk0_apply (c : Dev nD) (t : Fin cfg0.N) (b : Fin 256) (ch : Fin 16) (hw : Fin 256) :
    (iblk m c 0 t : S256x16x256.Idx → Ideal .f32) (ix3 b ch hw) = X3 m c (ix3 (rowOf t.val b) ch hw) := by
  obtain ⟨e0, e1, e2, e3, e4, e5, e6, e7, e8⟩ := idx_facts4 t
  have hN : t.val < 8 := lt_of_lt_of_eq t.isLt N8
  show V m c main_v0 (((cfg0.win 0).blk t).view.emb (ix3 b ch hw)) = V m c main_v0 (ix3 (rowOf t.val b) ch hw)
  refine congrArg (V m c main_v0) (funext fun a => Fin.ext ?_)
  match a with
  | ⟨0, _⟩ => show win0_0.index t (0 : Fin 3) * 256 + 1 * b.val = (256 * t.val + b.val) % 2048; rw [e0, e8]; omega
  | ⟨1, _⟩ => show win0_0.index t (1 : Fin 3) * 16 + 1 * ch.val = ch.val; omega
  | ⟨2, _⟩ => show win0_0.index t (2 : Fin 3) * 256 + 1 * hw.val = hw.val; omega

/-- The accumulators the invariant carries ARE those folds — by induction on the point. -/
theorem accAt_apply (c : Dev nD) : ∀ (n : ℕ) (h : n < cfg0.N) (ch : Fin 16) (hw : Fin 256),
    (accAt m c n h).1 (ix2 ch hw) = accSum (X3 m c) n ch hw ∧ (accAt m c n h).2 (ix2 ch hw) = accSq (X3 m c) n ch hw
  | 0, h, ch, hw => by
    constructor
    · show k0_pay10 (iblk m c 0 ⟨0, h⟩) (k0_pay7 (F := Ideal)) (ix2 ch hw) = _
      rw [pay10_apply, pay7_apply]
      exact congrArg (zeroW + ·) (Finset.sum_congr rfl fun b _ => iblk0_apply m c ⟨0, h⟩ b ch hw)
    · show k0_pay11 (iblk m c 0 ⟨0, h⟩) (k0_pay8 (F := Ideal)) (ix2 ch hw) = _
      rw [pay11_apply, pay8_apply]
      exact congrArg (zeroW + ·) (Finset.sum_congr rfl fun b _ => by rw [iblk0_apply m c ⟨0, h⟩ b ch hw])
  | n + 1, h, ch, hw => by
    obtain ⟨ih1, ih2⟩ := accAt_apply c n (Nat.lt_of_succ_lt h) ch hw
    constructor
    · show k0_pay10 (iblk m c 0 ⟨n + 1, h⟩) (accAt m c n (Nat.lt_of_succ_lt h)).1 (ix2 ch hw) = _
      rw [pay10_apply, ih1]
      exact congrArg (accSum (X3 m c) n ch hw + ·) (Finset.sum_congr rfl fun b _ => iblk0_apply m c ⟨n + 1, h⟩ b ch hw)
    · show k0_pay11 (iblk m c 0 ⟨n + 1, h⟩) (accAt m c n (Nat.lt_of_succ_lt h)).2 (ix2 ch hw) = _
      rw [pay11_apply, ih2]
      exact congrArg (accSq (X3 m c) n ch hw + ·) (Finset.sum_congr rfl fun b _ => by rw [iblk0_apply m c ⟨n + 1, h⟩ b ch hw])

/-- The `gamma` and `beta` columns as the region finds them (the first host stretch's reshapes of the arguments). -/
abbrev Gm (c : Dev nD) : S16x1.Idx → Ideal .f32 := V m c main_v2
abbrev Bt (c : Dev nD) : S16x1.Idx → Ideal .f32 := V m c main_v3

/-- The column windows' blocks are the whole columns. -/
theorem iblk1_apply (c : Dev nD) (t : Fin cfg0.N) (ch : Fin 16) (u : Fin 1) :
    (iblk m c 1 t : S16x1.Idx → Ideal .f32) (ix2 ch u) = Gm m c (ix2 ch u) := by
  show V m c main_v2 (((cfg0.win 1).blk t).view.emb (ix2 ch u)) = V m c main_v2 (ix2 ch u)
  refine congrArg (V m c main_v2) (funext fun a => Fin.ext ?_)
  have h0 : win0_1.index t (0 : Fin 2) = 0 ∧ win0_1.index t (1 : Fin 2) = 0 := (by decide +kernel : ∀ t : Fin grid0.N, win0_1.index t (0 : Fin 2) = 0 ∧ win0_1.index t (1 : Fin 2) = 0) t
  match a with
  | ⟨0, _⟩ => show win0_1.index t (0 : Fin 2) * 16 + 1 * ch.val = ch.val; omega
  | ⟨1, _⟩ => show win0_1.index t (1 : Fin 2) * 1 + 1 * u.val = u.val; omega
theorem iblk2_apply (c : Dev nD) (t : Fin cfg0.N) (ch : Fin 16) (u : Fin 1) :
    (iblk m c 2 t : S16x1.Idx → Ideal .f32) (ix2 ch u) = Bt m c (ix2 ch u) := by
  show V m c main_v3 (((cfg0.win 2).blk t).view.emb (ix2 ch u)) = V m c main_v3 (ix2 ch u)
  refine congrArg (V m c main_v3) (funext fun a => Fin.ext ?_)
  have h0 : win0_2.index t (0 : Fin 2) = 0 ∧ win0_2.index t (1 : Fin 2) = 0 := (by decide +kernel : ∀ t : Fin grid0.N, win0_2.index t (0 : Fin 2) = 0 ∧ win0_2.index t (1 : Fin 2) = 0) t
  match a with
  | ⟨0, _⟩ => show win0_2.index t (0 : Fin 2) * 16 + 1 * ch.val = ch.val; omega
  | ⟨1, _⟩ => show win0_2.index t (1 : Fin 2) * 1 + 1 * u.val = u.val; omega

/-- A channel's mean and mean of squares, from the folds' ends. -/
def meanX (X : S2048x16x256.Idx → Ideal .f32) (ch : Fin 16) : Ideal .f32 := (∑ hw : Fin 256, accSum X 7 ch hw) * invN
def meanSqX (X : S2048x16x256.Idx → Ideal .f32) (ch : Fin 16) : Ideal .f32 := (∑ hw : Fin 256, accSq X 7 ch hw) * invN
/-- A channel's scale and shift. -/
def scaleX (X : S2048x16x256.Idx → Ideal .f32) (G : S16x1.Idx → Ideal .f32) (ch : Fin 16) : Ideal .f32 :=
  G (ix2 ch (0 : Fin 1)) * Ideal.rsqrt (max (meanSqX X ch - meanX X ch * meanX X ch) zeroW + epsW)
def shiftX (X : S2048x16x256.Idx → Ideal .f32) (G B : S16x1.Idx → Ideal .f32) (ch : Fin 16) : Ideal .f32 :=
  B (ix2 ch (0 : Fin 1)) - meanX X ch * scaleX X G ch

theorem meanOf_acc (c : Dev nD) (ch : Fin 16) : meanOf (accAt m c 7 lt7).1 ch = meanX (X3 m c) ch := by
  unfold meanOf meanX
  exact congrArg (· * invN) (Finset.sum_congr rfl fun hw _ => (accAt_apply m c 7 lt7 ch hw).1)

/-- INDEX BY INDEX: the scale column region 0 leaves. -/
theorem S0_apply (c : Dev nD) (ch : Fin 16) (u : Fin 1) :
    (S0 m c : S16x1.Idx → Ideal .f32) (ix2 ch u) = scaleX (X3 m c) (Gm m c) ch := by
  rw [S0_eq]
  show k0_pay5 (accAt m c 7 lt7).1 (accAt m c 7 lt7).2 (iblk m c 1 t7) (ix2 ch u) = _
  rw [pay5_apply]
  unfold scaleOf scaleX meanSqX
  rw [meanOf_acc, iblk1_apply]
  have hq : (∑ hw : Fin 256, (accAt m c 7 lt7).2 (ix2 ch hw)) = ∑ hw : Fin 256, accSq (X3 m c) 7 ch hw :=
    Finset.sum_congr rfl fun hw _ => (accAt_apply m c 7 lt7 ch hw).2
  rw [hq]

/-- INDEX BY INDEX: the shift column region 0 leaves. -/
theorem T0_apply (c : Dev nD) (ch : Fin 16) (u : Fin 1) :
    (T0 m c : S16x1.Idx → Ideal .f32) (ix2 ch u) = shiftX (X3 m c) (Gm m c) (Bt m c) ch := by
  rw [T0_eq]
  show k0_pay6 (accAt m c 7 lt7).1 (accAt m c 7 lt7).2 (iblk m c 1 t7) (iblk m c 2 t7) (ix2 ch u) = _
  rw [pay6_apply]
  unfold shiftOf shiftX
  rw [meanOf_acc, iblk2_apply]
  have hs : scaleOf (accAt m c 7 lt7).1 (accAt m c 7 lt7).2 (iblk m c 1 t7) ch = scaleX (X3 m c) (Gm m c) ch := by
    rw [← pay5_apply _ _ _ ch (0 : Fin 1)]
    exact (congrFun (S0_eq m c) (ix2 ch 0)).symm.trans (S0_apply m c ch 0)
  rw [hs]

end Cert.ReferenceIdeal.RefPartial

end
-- ==== Proof.RefChainFinal.lean ====
import proofs.«170975_g2000502485364553_pallasbulk_1302_22_alg».proof.Proof.RefChainOut
import proofs.«170975_g2000502485364553_pallasbulk_1302_22_alg».proof.Proof.RefPartialArr
import proofs.«170975_g2000502485364553_pallasbulk_1302_22_alg».proof.Proof.RefPartialVal

/-! # The reference's result, from the arguments

`RefOut m c` at (b, k), at the ideal values, with what the first region leaves opened: over the channels, the input's
row against the weights' row over the spatial axis, times the channel's scale; plus the bias; plus over the channels
the channel's shift times the weights' sum over the spatial axis. The input, the weights, the scale and shift rows
enter as the first region finds them (the first host stretch's reshapes of the arguments). -/

set_option maxRecDepth 16384

noncomputable section

namespace Cert.ReferenceIdeal.RefChain

open Cert.ReferenceIdeal Cert.ReferenceIdeal.Gen Cert.ReferenceIdeal.RefPartial Cert.ReferenceIdeal.RefCombine
open Idealize.ShloMosaic Idealize.ShloMosaic.TcCoe Idealize.ShloMosaic.ValueIdx

variable (m : (ℓ : Loc nD τ sig) → Buf (Elt Ideal) ℓ)

/-- THE RESULT at (b, k) (`P`, `s`, `T` name what the first region leaves; instantiate them by `rfl`). -/
theorem RefOut_closed (c : Dev nD) (P : S16x2048x128.Idx → EReal) (s T : S16x1.Idx → EReal) (bias : S128.Idx → EReal) (w : S128x4096.Idx → EReal)
    (hP : P0 m c = P) (hs : S0 m c = s) (hT : T0 m c = T)
    (hb : m ((c : Thread nD τ).loc main_arg4) = bias) (hw : m ((c : Thread nD τ).loc main_arg3) = w) (b : Fin 2048) (k : Fin 128) :
    (RefOut m c : S2048x128.Idx → EReal) (ix2 b k)
      = (∑ ch : Fin 16, (∑ q : Fin 256, X3 m c (ix3 b ch q) * W3 m c (ix3 k ch q)) * scaleX (X3 m c) (Gm m c) ch)
        + (bias (ix1 k) + ∑ ch : Fin 16, shiftX (X3 m c) (Gm m c) (Bt m c) ch * ((0 : EReal) + ∑ q : Fin 256, w (ix2 k (flat ch q)))) := by
  rw [RefOut_apply m c P s T bias w hP hs hT hb hw b k]
  have eP : ∀ ch : Fin 16, P (ix3 ch b k) = ∑ q : Fin 256, X3 m c (ix3 b ch q) * W3 m c (ix3 k ch q) := fun ch => by
    rw [← hP]; exact P0_apply m c ch b k
  have eS : ∀ ch : Fin 16, s (ix2 ch (0 : Fin 1)) = scaleX (X3 m c) (Gm m c) ch := fun ch => by
    rw [← hs]; exact S0_apply m c ch 0
  have eT : ∀ ch : Fin 16, T (ix2 ch (0 : Fin 1)) = shiftX (X3 m c) (Gm m c) (Bt m c) ch := fun ch => by
    rw [← hT]; exact T0_apply m c ch 0
  simp only [eP, eS, eT]

end Cert.ReferenceIdeal.RefChain

end
-- ==== Proof.KIdealValuePay.lean ====
import proofs.«170975_g2000502485364553_pallasbulk_1302_22_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.PureOps.Ideal.Laws

/-! # The fused kernel's last point: what it stores, from what it loads

At the last point the body reads the two sum scratches whole, the scale and shift rows, the bias row, the sixteen slabs
of the converted weight and the sixteen slabs of the partial products, and stores one vector over the whole output
block. This module names that vector as a function of the buffers' contents. -/

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.Sem

variable {F : FTy → Type} [FloatOps F]

/-! ## The last point's accesses -/

abbrev rSum : Rect S16x1x2048 := Rect.unit (s := S16x1x2048) ![0, 0, 0] S16x1x2048.size inb_S16x1x2048_S16x1x2048_0_0_0
abbrev rRow16 : Rect S1x16 := Rect.unit (s := S1x16) ![0, 0] S1x16.size inb_S1x16_S1x16_0_0
abbrev rRow128 : Rect S1x128 := Rect.unit (s := S1x128) ![0, 0] S1x128.size inb_S1x128_S1x128_0_0
abbrev rW0 : Rect S16x128x256 := Rect.unit (s := S16x128x256) ![0, 0, 0] S1x128x256.size inb_S16x128x256_S1x128x256_0_0_0
abbrev rW1 : Rect S16x128x256 := Rect.unit (s := S16x128x256) ![1, 0, 0] S1x128x256.size inb_S16x128x256_S1x128x256_1_0_0
abbrev rW2 : Rect S16x128x256 := Rect.unit (s := S16x128x256) ![2, 0, 0] S1x128x256.size inb_S16x128x256_S1x128x256_2_0_0
abbrev rW3 : Rect S16x128x256 := Rect.unit (s := S16x128x256) ![3, 0, 0] S1x128x256.size inb_S16x128x256_S1x128x256_3_0_0
abbrev rW4 : Rect S16x128x256 := Rect.unit (s := S16x128x256) ![4, 0, 0] S1x128x256.size inb_S16x128x256_S1x128x256_4_0_0
abbrev rW5 : Rect S16x128x256 := Rect.unit (s := S16x128x256) ![5, 0, 0] S1x128x256.size inb_S16x128x256_S1x128x256_5_0_0
abbrev rW6 : Rect S16x128x256 := Rect.unit (s := S16x128x256) ![6, 0, 0] S1x128x256.size inb_S16x128x256_S1x128x256_6_0_0
abbrev rW7 : Rect S16x128x256 := Rect.unit (s := S16x128x256) ![7, 0, 0] S1x128x256.size inb_S16x128x256_S1x128x256_7_0_0
abbrev rW8 : Rect S16x128x256 := Rect.unit (s := S16x128x256) ![8, 0, 0] S1x128x256.size inb_S16x128x256_S1x128x256_8_0_0
abbrev rW9 : Rect S16x128x256 := Rect.unit (s := S16x128x256) ![9, 0, 0] S1x128x256.size inb_S16x128x256_S1x128x256_9_0_0
abbrev rW10 : Rect S16x128x256 := Rect.unit (s := S16x128x256) ![10, 0, 0] S1x128x256.size inb_S16x128x256_S1x128x256_10_0_0
abbrev rW11 : Rect S16x128x256 := Rect.unit (s := S16x128x256) ![11, 0, 0] S1x128x256.size inb_S16x128x256_S1x128x256_11_0_0
abbrev rW12 : Rect S16x128x256 := Rect.unit (s := S16x128x256) ![12, 0, 0] S1x128x256.size inb_S16x128x256_S1x128x256_12_0_0
abbrev rW13 : Rect S16x128x256 := Rect.unit (s := S16x128x256) ![13, 0, 0] S1x128x256.size inb_S16x128x256_S1x128x256_13_0_0
abbrev rW14 : Rect S16x128x256 := Rect.unit (s := S16x128x256) ![14, 0, 0] S1x128x256.size inb_S16x128x256_S1x128x256_14_0_0
abbrev rW15 : Rect S16x128x256 := Rect.unit (s := S16x128x256) ![15, 0, 0] S1x128x256.size inb_S16x128x256_S1x128x256_15_0_0
abbrev rQ0 : Rect S16x2048x128 := Rect.unit (s := S16x2048x128) ![0, 0, 0] S1x2048x128.size inb_S16x2048x128_S1x2048x128_0_0_0
abbrev rQ1 : Rect S16x2048x128 := Rect.unit (s := S16x2048x128) ![1, 0, 0] S1x2048x128.size inb_S16x2048x128_S1x2048x128_1_0_0
abbrev rQ2 : Rect S16x2048x128 := Rect.unit (s := S16x2048x128) ![2, 0, 0] S1x2048x128.size inb_S16x2048x128_S1x2048x128_2_0_0
abbrev rQ3 : Rect S16x2048x128 := Rect.unit (s := S16x2048x128) ![3, 0, 0] S1x2048x128.size inb_S16x2048x128_S1x2048x128_3_0_0
abbrev rQ4 : Rect S16x2048x128 := Rect.unit (s := S16x2048x128) ![4, 0, 0] S1x2048x128.size inb_S16x2048x128_S1x2048x128_4_0_0
abbrev rQ5 : Rect S16x2048x128 := Rect.unit (s := S16x2048x128) ![5, 0, 0] S1x2048x128.size inb_S16x2048x128_S1x2048x128_5_0_0
abbrev rQ6 : Rect S16x2048x128 := Rect.unit (s := S16x2048x128) ![6, 0, 0] S1x2048x128.size inb_S16x2048x128_S1x2048x128_6_0_0
abbrev rQ7 : Rect S16x2048x128 := Rect.unit (s := S16x2048x128) ![7, 0, 0] S1x2048x128.size inb_S16x2048x128_S1x2048x128_7_0_0
abbrev rQ8 : Rect S16x2048x128 := Rect.unit (s := S16x2048x128) ![8, 0, 0] S1x2048x128.size inb_S16x2048x128_S1x2048x128_8_0_0
abbrev rQ9 : Rect S16x2048x128 := Rect.unit (s := S16x2048x128) ![9, 0, 0] S1x2048x128.size inb_S16x2048x128_S1x2048x128_9_0_0
abbrev rQ10 : Rect S16x2048x128 := Rect.unit (s := S16x2048x128) ![10, 0, 0] S1x2048x128.size inb_S16x2048x128_S1x2048x128_10_0_0
abbrev rQ11 : Rect S16x2048x128 := Rect.unit (s := S16x2048x128) ![11, 0, 0] S1x2048x128.size inb_S16x2048x128_S1x2048x128_11_0_0
abbrev rQ12 : Rect S16x2048x128 := Rect.unit (s := S16x2048x128) ![12, 0, 0] S1x2048x128.size inb_S16x2048x128_S1x2048x128_12_0_0
abbrev rQ13 : Rect S16x2048x128 := Rect.unit (s := S16x2048x128) ![13, 0, 0] S1x2048x128.size inb_S16x2048x128_S1x2048x128_13_0_0
abbrev rQ14 : Rect S16x2048x128 := Rect.unit (s := S16x2048x128) ![14, 0, 0] S1x2048x128.size inb_S16x2048x128_S1x2048x128_14_0_0
abbrev rQ15 : Rect S16x2048x128 := Rect.unit (s := S16x2048x128) ![15, 0, 0] S1x2048x128.size inb_S16x2048x128_S1x2048x128_15_0_0

/-! ## The stored vector -/

/-- The scale column `gamma · rsqrt(max(E[x²] − mean², 0) + eps)`, from the two sum scratches and the scale row. -/
def scaleCol (S1 S2 : Vec F S16x1x2048 .f32) (g : Vec F S1x16 .f32) : FVec F S16x1 .f32 :=
  k0_pay15 (View.ld S1 rSum) (View.ld S2 rSum) (View.ld g rRow16)

/-- The shift column `beta − mean · scale`. -/
def shiftCol (S1 S2 : Vec F S16x1x2048 .f32) (g bt : Vec F S1x16 .f32) : FVec F S16x1 .f32 :=
  k0_pay16 (View.ld S1 rSum) (View.ld S2 rSum) (View.ld g rRow16) (View.ld bt rRow16)

/-- The constant row: the bias plus, channel after channel, the shift times the weight slab's row sums (a product
    with a row of ones). -/
def cstRow (S1 S2 : Vec F S16x1x2048 .f32) (WB : Vec F S16x128x256 .bf16) (g bt : Vec F S1x16 .f32) (bias : Vec F S1x128 .f32) : FVec F S1x128 .f32 :=
  k0_pay24 (shiftCol S1 S2 g bt) (k0_pay17 (F := F))
    (k0_pay21 (shiftCol S1 S2 g bt) (k0_pay17 (F := F))
      (k0_pay20 (shiftCol S1 S2 g bt) (k0_pay17 (F := F)) (k0_pay18 (View.ld bias rRow128))
        (k0_pay19 (View.ld S1 rSum) (View.ld S2 rSum) (View.ld g rRow16) (View.ld bt rRow16) (View.ld WB rW0))
        (View.ld WB rW1) (View.ld WB rW2) (View.ld WB rW3) (View.ld WB rW4) (View.ld WB rW5))
      (View.ld WB rW6) (View.ld WB rW7) (View.ld WB rW8) (View.ld WB rW9) (View.ld WB rW10))
    (k0_pay22 (k0_pay17 (F := F)) (View.ld WB rW11)) (k0_pay23 (shiftCol S1 S2 g bt))
    (View.ld WB rW12) (View.ld WB rW13) (View.ld WB rW14) (View.ld WB rW15)

/-- The accumulator after channels 0–13: each partial-product slab times its channel's scale, from zero. -/
def acc14 (sv : FVec F S16x1 .f32) (P : Vec F S16x2048x128 .f32) : FVec F S2048x128 .f32 :=
  k0_pay27 sv
    (k0_pay26 sv (k0_pay25 sv (View.ld P rQ0))
      (View.ld P rQ1) (View.ld P rQ2) (View.ld P rQ3) (View.ld P rQ4) (View.ld P rQ5) (View.ld P rQ6) (View.ld P rQ7))
    (View.ld P rQ8) (View.ld P rQ9) (View.ld P rQ10) (View.ld P rQ11) (View.ld P rQ12) (View.ld P rQ13)

/-- THE STORED VECTOR: channels 14 and 15 folded in, the constant row added. -/
def outPay (S1 S2 : Vec F S16x1x2048 .f32) (P : Vec F S16x2048x128 .f32) (WB : Vec F S16x128x256 .bf16)
    (g bt : Vec F S1x16 .f32) (bias : Vec F S1x128 .f32) : FVec F S2048x128 .f32 :=
  k0_pay1 (scaleCol S1 S2 g) (cstRow S1 S2 WB g bt bias) (acc14 (scaleCol S1 S2 g) P)
    (k0_pay28 (View.ld P rQ14)) (k0_pay29 (scaleCol S1 S2 g)) (View.ld P rQ15)

/-! ## The stored vector at an index, at the ideal values -/

section AtIndex

open Idealize.ShloMosaic.ValueIdx

/-- Sixteen terms added one after another onto `init`, in the channels' order. -/
def foldl16 (init : EReal) (f : Fin 16 → EReal) : EReal :=
  ((((((((((((((((init + f (0 : Fin 16)) + f (1 : Fin 16)) + f (2 : Fin 16)) + f (3 : Fin 16)) + f (4 : Fin 16)) + f (5 : Fin 16)) + f (6 : Fin 16)) + f (7 : Fin 16)) + f (8 : Fin 16)) + f (9 : Fin 16)) + f (10 : Fin 16)) + f (11 : Fin 16)) + f (12 : Fin 16)) + f (13 : Fin 16)) + f (14 : Fin 16)) + f (15 : Fin 16))

/-- Addition of extended reals is associative and commutative, so the fold is `init` plus the sum. -/
theorem foldl16_eq_sum (init : EReal) (f : Fin 16 → EReal) : foldl16 init f = init + ∑ ch : Fin 16, f ch := by
  unfold foldl16
  simp only [Fin.sum_univ_succ, Fin.sum_univ_zero, add_zero]
  simp only [add_assoc]
  rfl

/-- A partial-product slab, viewed as a matrix, read at (b, k). -/
theorem slabQ_apply {Val : EltTy → Type} {e : EltTy} (P : S16x2048x128.Idx → Val e) (n : ℕ) (hn : n < 16)
    (inb : ∀ a, (![n, 0, 0] : Fin 3 → ℕ) a + S1x2048x128.size a ≤ S16x2048x128.size a)
    (h : S1x2048x128.ShapeCasts S2048x128) (b : Fin 2048) (k : Fin 128) :
    shapeCast S2048x128 (View.ld P (Rect.unit (s := S16x2048x128) ![n, 0, 0] S1x2048x128.size inb)) h (ix2 b k)
      = P (ix3 ⟨n, hn⟩ b k) := by
  refine (shapeCast_apply (s := S1x2048x128) (t := S2048x128) _ h (ix2 b k) (ix3 0 b k) ?_).trans ?_
  · rw [Shape.rowMajor_val_three, Shape.rowMajor_val_two]
    show ((0 * 2048 + b.val) * 128 + k.val) = b.val * 128 + k.val
    omega
  · show P _ = P _
    congr 1
    funext a
    apply Fin.ext
    match a with
    | ⟨0, _⟩ => show n + 1 * 0 = n; omega
    | ⟨1, _⟩ => show 0 + 1 * b.val = b.val; omega
    | ⟨2, _⟩ => show 0 + 1 * k.val = k.val; omega

/-- One entry of a column, broadcast over the block, read anywhere. -/
theorem sliceBc_apply {α : Type} (sv : S16x1.Idx → α) (n : ℕ) (hn : n < 16) (hs : S16x1.Slices ![n, 0] S1x1)
    (hb : S1x1.Broadcasts S2048x128) (b : Fin 2048) (k : Fin 128) :
    broadcastTo S2048x128 (extractStridedSlice S1x1 ![n, 0] sv hs) hb (ix2 b k) = sv (ix2 ⟨n, hn⟩ (0 : Fin 1)) := by
  refine (broadcastTo_apply (s := S1x1) (t := S2048x128) _ hb (ix2 b k) (ix2 0 0) ?_).trans ?_
  · intro a; match a with | ⟨0, _⟩ => rfl | ⟨1, _⟩ => rfl
  · exact extractStridedSlice_apply (s := S16x1) (t := S1x1) ![n, 0] sv hs (ix2 0 0) (ix2 ⟨n, hn⟩ 0)
      (fun a => by match a with | ⟨0, _⟩ => (show n = n + 0; omega) | ⟨1, _⟩ => (show 0 = 0 + 0; omega))

/-- The same over a row of 128. -/
theorem sliceBcRow_apply {α : Type} (tv : S16x1.Idx → α) (n : ℕ) (hn : n < 16) (hs : S16x1.Slices ![n, 0] S1x1)
    (hb : S1x1.Broadcasts S1x128) (k : Fin 128) :
    broadcastTo S1x128 (extractStridedSlice S1x1 ![n, 0] tv hs) hb (ix2 (0 : Fin 1) k) = tv (ix2 ⟨n, hn⟩ (0 : Fin 1)) := by
  refine (broadcastTo_apply (s := S1x1) (t := S1x128) _ hb (ix2 (0 : Fin 1) k) (ix2 0 0) ?_).trans ?_
  · intro a; match a with | ⟨0, _⟩ => rfl | ⟨1, _⟩ => rfl
  · exact extractStridedSlice_apply (s := S16x1) (t := S1x1) ![n, 0] tv hs (ix2 0 0) (ix2 ⟨n, hn⟩ 0)
      (fun a => by match a with | ⟨0, _⟩ => (show n = n + 0; omega) | ⟨1, _⟩ => (show 0 = 0 + 0; omega))

/-- A row, broadcast over the block's rows, read at (b, k). -/
theorem rowBc_apply {α : Type} (cst : S1x128.Idx → α) (hb : S1x128.Broadcasts S2048x128) (b : Fin 2048) (k : Fin 128) :
    broadcastTo S2048x128 cst hb (ix2 b k) = cst (ix2 (0 : Fin 1) k) :=
  broadcastTo_apply (s := S1x128) (t := S2048x128) cst hb (ix2 b k) (ix2 0 k)
    (fun a => by match a with | ⟨0, _⟩ => rfl | ⟨1, _⟩ => rfl)

/-- THE STORED VECTOR at (b, k): the partial products of the sixteen channels at (b, k), each times its channel's
    scale, added one after another onto zero; plus the constant row at k. -/
theorem outPay_apply (S1 S2 : Vec Ideal S16x1x2048 .f32) (P : Vec Ideal S16x2048x128 .f32) (WB : Vec Ideal S16x128x256 .bf16)
    (g bt : Vec Ideal S1x16 .f32) (bias : Vec Ideal S1x128 .f32) (b : Fin 2048) (k : Fin 128) :
    outPay S1 S2 P WB g bt bias (ix2 b k)
      = foldl16 0 (fun ch => P (ix3 ch b k) * scaleCol S1 S2 g (ix2 ch (0 : Fin 1)))
        + cstRow S1 S2 WB g bt bias (ix2 (0 : Fin 1) k) := by
  have hP : ∀ (n : ℕ) (hn : n < 16) (inb) (h), shapeCast S2048x128 (View.ld P (Rect.unit (s := S16x2048x128) ![n, 0, 0] S1x2048x128.size inb)) h (ix2 b k) = P (ix3 ⟨n, hn⟩ b k) :=
    fun n hn inb h => slabQ_apply P n hn inb h b k
  have hS : ∀ (n : ℕ) (hn : n < 16) (hs) (hb), broadcastTo S2048x128 (extractStridedSlice S1x1 ![n, 0] (scaleCol S1 S2 g) hs) hb (ix2 b k) = scaleCol S1 S2 g (ix2 ⟨n, hn⟩ (0 : Fin 1)) :=
    fun n hn hs hb => sliceBc_apply (scaleCol S1 S2 g) n hn hs hb b k
  have hC : ∀ (hb), broadcastTo S2048x128 (cstRow S1 S2 WB g bt bias) hb (ix2 b k) = cstRow S1 S2 WB g bt bias (ix2 (0 : Fin 1) k) :=
    fun hb => rowBc_apply _ hb b k
  have hZ : (Scalar.ofBits (F := Ideal) .f32 0x00000000#32 : EReal) = 0 := Ideal.ofBits_zero_f32
  unfold outPay acc14 k0_pay1 k0_pay25 k0_pay26 k0_pay27 k0_pay28 k0_pay29
  show ((((((((((((((((((_ : EReal) + _ * _) + _ * _) + _ * _) + _ * _) + _ * _) + _ * _) + _ * _) + _ * _) + _ * _) + _ * _) + _ * _) + _ * _) + _ * _) + _ * _) + _ * _) + _ * _) + _) = _
  have p0 := hP 0 (by decide)
  have s0 := hS 0 (by decide)
  have p1 := hP 1 (by decide)
  have s1 := hS 1 (by decide)
  have p2 := hP 2 (by decide)
  have s2 := hS 2 (by decide)
  have p3 := hP 3 (by decide)
  have s3 := hS 3 (by decide)
  have p4 := hP 4 (by decide)
  have s4 := hS 4 (by decide)
  have p5 := hP 5 (by decide)
  have s5 := hS 5 (by decide)
  have p6 := hP 6 (by decide)
  have s6 := hS 6 (by decide)
  have p7 := hP 7 (by decide)
  have s7 := hS 7 (by decide)
  have p8 := hP 8 (by decide)
  have s8 := hS 8 (by decide)
  have p9 := hP 9 (by decide)
  have s9 := hS 9 (by decide)
  have p10 := hP 10 (by decide)
  have s10 := hS 10 (by decide)
  have p11 := hP 11 (by decide)
  have s11 := hS 11 (by decide)
  have p12 := hP 12 (by decide)
  have s12 := hS 12 (by decide)
  have p13 := hP 13 (by decide)
  have s13 := hS 13 (by decide)
  have p14 := hP 14 (by decide)
  have s14 := hS 14 (by decide)
  have p15 := hP 15 (by decide)
  have s15 := hS 15 (by decide)
  simp only [p0, s0, p1, s1, p2, s2, p3, s3, p4, s4, p5, s5, p6, s6, p7, s7, p8, s8, p9, s9, p10, s10, p11, s11, p12, s12, p13, s13, p14, s14, p15, s15, hC, hZ, broadcast_apply]
  rfl

end AtIndex

end Cert.KernelIdeal.KValue

end
-- ==== Proof.KIdealValueL5.lean ====
import proofs.«170975_g2000502485364553_pallasbulk_1302_22_alg».proof.Proof.KIdealRunC
import proofs.«170975_g2000502485364553_pallasbulk_1302_22_alg».proof.Proof.KIdealValuePay

/-! # The fused kernel's last point: the run's stored piece carries the named vector

The one piece the run of the last point found for the output buffer carries the stored vector `outPay` of the three
partially stored scratches AFTER the point's own stores, the converted weight, and the scale, shift and bias rows. -/

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl

set_option maxHeartbeats 8000000 in
/-- The output's stored piece, from what the three partially stored scratches hold after the point's own stores. -/
theorem L5_eq (c : Dev nD) (i : grid0.Coords) (arg1 : Memref sig .tc .vmem S1024x2048 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S128x4096 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S16x128x256 .bf16) (harg7 : arg7.IsWhole) (arg8 : Memref sig .tc .vmem S16x1x2048 .f32) (harg8 : arg8.IsWhole) (arg9 : Memref sig .tc .vmem S16x1x2048 .f32) (harg9 : arg9.IsWhole) (arg10 : Memref sig .tc .vmem S16x2048x128 .f32) (harg10 : arg10.IsWhole) (hc0 : ¬cond0_0 i) (hc1 : cond0_1 i) (x0 : Vec F S1024x2048 .f32) (x1 : Vec F S1x16 .f32) (x2 : Vec F S1x16 .f32) (x3 : Vec F S128x4096 .f32) (x4 : Vec F S1x128 .f32) (xs0 : Vec F S16x128x256 .bf16) (xs1 : Vec F S16x1x2048 .f32) (xs2 : Vec F S16x1x2048 .f32) (xs3 : Vec F S16x2048x128 .f32)
    (W1 : arg8.view.ty.Contents (Elt F)) (W2 : arg9.view.ty.Contents (Elt F)) (W3 : arg10.view.ty.Contents (Elt F))
    (h8 : arg8.view.writes (Elt F) (harg8.unread xs1) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.1 = W1)
    (h9 : arg9.view.writes (Elt F) (harg9.unread xs2) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.1 = W2)
    (h10 : arg10.view.writes (Elt F) (harg10.unread xs3) (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).2.2.2.1 = W3) :
    (kernelRun0_C c i arg1 harg1 arg2 harg2 arg3 harg3 arg4 harg4 arg5 harg5 arg6 harg6 arg7 harg7 arg8 harg8 arg9 harg9 arg10 harg10 hc0 hc1 x0 x1 x2 x3 x4 xs0 xs1 xs2 xs3).1
      = [⟨Rect.unit (s := S2048x128) ![0, 0] S2048x128.size inb_S2048x128_S2048x128_0_0,
          outPay (arg8.view.read (Elt F) W1) (arg9.view.read (Elt F) W2) (arg10.view.read (Elt F) W3) xs0 x1 x2 x4⟩] := by
  revert h8 h9 h10
  unfold kernelRun0_C; dsimp only; sl_unfold_run_names
  intro h8 h9 h10
  rw [h8, h9, h10]
  simp only [View.readAt_eq_ld, Memref.IsWhole.read_unread]
  unfold outPay acc14 cstRow shiftCol scaleCol
  rfl

end Cert.KernelIdeal.KValue

end
-- ==== Proof.KIdealValueOutC.lean ====
import proofs.«170975_g2000502485364553_pallasbulk_1302_22_alg».proof.Proof.KIdealDat
import proofs.«170975_g2000502485364553_pallasbulk_1302_22_alg».proof.Proof.KIdealValueL5

/-! # The fused kernel's last point: the run's stored piece is the named vector

The one piece the run of the last point found for the output buffer carries the stored vector `outPay` of the three
partially stored scratches AFTER the point's own stores, the converted weight, and the scale, shift and bias rows. -/

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-- One store over the whole output block covers it. -/
theorem coverOut (p0 : Vec F S2048x128 .f32) (y : S2048x128.Idx) :
    ∃ pc ∈ ([⟨Rect.unit (s := S2048x128) ![0, 0] S2048x128.size inb_S2048x128_S2048x128_0_0, p0⟩] : List (View.Piece (Elt F) S2048x128 .f32)), y ∈ pc.1.set :=
  View.cover_of_tiled [⟨Rect.unit (s := S2048x128) ![0, 0] S2048x128.size inb_S2048x128_S2048x128_0_0, p0⟩] S2048x128.size (by rfl) y

set_option maxHeartbeats 4000000 in
/-- The last point's output block is the stored vector of the three scratches AFTER the point's own stores, the
    converted weight, and the three rows. -/
theorem outC_eq (c : Dev nD) (t : Fin cfg0.N) (h0 : ¬t.val % 4 = 0) (h1 : t.val % 4 = 3) (s : St F) :
    outC m c t h0 h1 s
      = outPay (stepC m c t h0 h1 s).2.1 (stepC m c t h0 h1 s).2.2.1 (stepC m c t h0 h1 s).2.2.2 s.1
          (iblk m c 1 t) (iblk m c 2 t) (iblk m c 4 t) := by
  obtain ⟨s0, s1, s2, s3⟩ := s
  have e := L5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s0 s1 s2 s3 _ _ _ rfl rfl rfl
  unfold outC
  refine (congrArg (fun L => (ms0_5 t).view.read (Elt F) ((ms0_5 t).view.writes (Elt F) (ms0_5 t).view.junk L)) e).trans ?_
  refine (View.read_writes_eq_canon (ms0_5 t).view _ _ (coverOut _)).trans ?_
  refine (View.canon_unit_zero (S := S2048x128) hz2 _ _).trans ?_
  unfold stepC
  dsimp only

end Cert.KernelIdeal.KValue

end
-- ==== Proof.KIdealValueRun.lean ====
import proofs.«170975_g2000502485364553_pallasbulk_1302_22_alg».proof.Proof.KIdealBody
import Idealize.ShloMosaic.Lib.Pipeline.Value

/-! # The fused kernel's run, with its result array named

The output window is written back once, at the last point, and its block is the whole array: so after the run the
result array holds the block the last point stored, computed from the scratch the first three points left. -/

set_option maxRecDepth 16384

noncomputable section

namespace Cert.KernelIdeal.KValue

open Cert.KernelIdeal Cert.KernelIdeal.Gen Cert.KernelIdeal.Body
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem N4 : cfg0.N = 4 := N_0

/-- The last point, and the one before it. -/
abbrev t3 : Fin cfg0.N := ⟨3, by rw [N4]; decide⟩
theorem lt2 : 2 < cfg0.N := by rw [N4]; decide

/-- THE KERNEL'S RESULT: what the output buffer holds after the last point. -/
def KerOut (c : Dev nD) : Vec F S2048x128 .f32 := outAt m c t3.val t3.isLt

/-- It is the block the last point stores, from the scratch the first three points leave. -/
theorem KerOut_eq (c : Dev nD) :
    KerOut m c = outC m c t3 (by decide) (by decide) (stAt m c J0 (t3.val - 1) (Nat.lt_of_le_of_lt (Nat.sub_le _ _) t3.isLt)) := by
  unfold KerOut outAt
  exact dif_pos ⟨by decide, by decide⟩

/-- The output window's block index is (0, 0) at every point. -/
theorem idx5 : ∀ t : Fin cfg0.N, win0_5.index t (0 : Fin 2) = 0 ∧ win0_5.index t (1 : Fin 2) = 0 :=
  (by decide +kernel : ∀ t : Fin grid0.N, _)

set_option maxHeartbeats 1000000 in
/-- What the last point writes back is the whole of `KerOut`. -/
theorem flushed5_eq (c : Dev nD) (t : Fin cfg0.N) (hf : (cfg0.win 5).flush t = true) :
    (dats m 0 c).flushed 5 t = ((cfg0.win 5).blk t).view.read (Elt F) (KerOut m c) := by
  have h3 : t.val % 4 = 3 := (flush0_5 t).mp hf
  have hN : t.val < 4 := lt_of_lt_of_eq t.isLt N4
  obtain rfl : t = t3 := Fin.ext (by show t.val = 3; omega)
  show (cfg0.win 5).cut (grid0.coords t3) ((dats m 0 c).after 5 t3) = _
  rw [after0_5]
  unfold KerOut
  generalize outAt m c t3.val t3.isLt = G
  obtain ⟨e0, e1⟩ := idx5 t3
  funext j
  show G j = G (((cfg0.win 5).blk t3).view.emb j)
  congr 1
  funext a; apply Fin.ext
  match a with
  | ⟨0, _⟩ => show (j 0).val = win0_5.index t3 (0 : Fin 2) * 2048 + 1 * (j 0).val; omega
  | ⟨1, _⟩ => show (j 1).val = win0_5.index t3 (1 : Fin 2) * 128 + 1 * (j 1).val; omega

/-- The last point's block covers the result array. -/
theorem cover5 (i : S2048x128.Idx) : ∃ t : Fin cfg0.N, (cfg0.win 5).flush t = true ∧ i ∈ ((cfg0.win 5).blk t).view.set := by
  have hi0 : (i 0).val < 2048 := (i 0).isLt
  have hi1 : (i 1).val < 128 := (i 1).isLt
  obtain ⟨e0, e1⟩ := idx5 t3
  refine ⟨t3, (flush0_5 t3).mpr (by decide), ?_⟩
  show i ∈ ((View.whole main_v5).slice (win0_5.rect t3)).set
  rw [View.set_slice_whole, Rect.mem_set_unit]
  intro a
  match a with
  | ⟨0, _⟩ => show win0_5.index t3 (0 : Fin 2) * 2048 ≤ (i 0).val ∧ (i 0).val < win0_5.index t3 (0 : Fin 2) * 2048 + 2048; omega
  | ⟨1, _⟩ => show win0_5.index t3 (1 : Fin 2) * 128 ≤ (i 1).val ∧ (i 1).val < win0_5.index t3 (1 : Fin 2) * 128 + 128; omega

/-- THE RESULT ARRAY after the run. -/
theorem final5 (c : Dev nD) : (dats m 0 c).arrAt 5 cfg0.N = KerOut m c :=
  (dats m 0 c).arrAt_eq_of_cover 5 _ (fun t hf => flushed5_eq m c t hf) cover5

/-- THE KERNEL'S RUN: every weakly fair execution of @main from memory `m` with zero counters terminates; the result
    array holds `KerOut m c` and every argument ends as launched. -/
theorem kernel_run : θ_run defs (onTc (τ := τ) (main (F := F))) ⟨m, fun _ => 0, ρ⟩ (fun r => ∀ c : Dev nD,
      r.2.mem ((c.tc : Thread nD τ).loc main_v5) = KerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.KernelIdeal.KValue

end
-- ==== Proof.KIdealValueCst.lean ====
import proofs.«170975_g2000502485364553_pallasbulk_1302_22_alg».proof.Proof.KIdealValuePay
import Idealize.ShloMosaic.Lib.StackMember

/-! # The fused kernel's last point: the constant row at an index

The constant row is the bias plus, channel after channel, the channel's shift times the row sums of the channel's
weight slab — each row sum a product of the slab with a row of ones. -/

set_option maxRecDepth 16384

noncomputable section

namespace Cert.KernelIdeal.KValue

open Cert.KernelIdeal Cert.KernelIdeal.Gen
open Idealize.ShloMosaic Idealize.ShloMosaic.TcCoe Idealize.ShloMosaic.ValueIdx

theorem hz2' : (![0, 0] : Fin 2 → Nat) = fun _ => 0 := funext fun a => by fin_cases a <;> rfl

/-- A product with the right operand contracted on its last axis, into the zero accumulator, read at (a, b): the sum over
    the contracted coordinate of the products of the entries. At the ideal values. -/
theorem matmul_tr_apply {M K N : ℕ} {φ₁ φ₂ : FTy} (prec : Option ContractPrecision)
    (A : FVec Ideal ⟨2, ![M, K]⟩ φ₁) (B : FVec Ideal ⟨2, ![N, K]⟩ φ₂) (a : Fin M) (b : Fin N) :
    matmul (DotDims.transposedRhs M K N) prec A B (constant (F := Ideal) ⟨2, ![M, N]⟩ .f32 0x00000000#32) (ix2 a b)
      = ∑ c : Fin K, A (ix2 a c) * B (ix2 b c) := by
  show FloatOps.matmul (DotDims.transposedRhs M K N) prec A B (constant ⟨2, ![M, N]⟩ .f32 0x00000000#32) (ix2 a b) = _
  rw [Ideal.matmul_constant_zero_apply, ← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A weight slab, viewed as a matrix, read at (k, hw). -/
theorem slabW_apply {Val : EltTy → Type} {e : EltTy} (WB : S16x128x256.Idx → Val e) (n : ℕ) (hn : n < 16)
    (inb : ∀ a, (![n, 0, 0] : Fin 3 → ℕ) a + S1x128x256.size a ≤ S16x128x256.size a)
    (h : S1x128x256.ShapeCasts S128x256) (k : Fin 128) (hw : Fin 256) :
    shapeCast S128x256 (View.ld WB (Rect.unit (s := S16x128x256) ![n, 0, 0] S1x128x256.size inb)) h (ix2 k hw)
      = WB (ix3 ⟨n, hn⟩ k hw) := by
  refine (shapeCast_apply (s := S1x128x256) (t := S128x256) _ h (ix2 k hw) (ix3 0 k hw) ?_).trans ?_
  · rw [Shape.rowMajor_val_three, Shape.rowMajor_val_two]
    show ((0 * 128 + k.val) * 256 + hw.val) = k.val * 256 + hw.val
    omega
  · show WB _ = WB _
    congr 1
    funext a
    apply Fin.ext
    match a with
    | ⟨0, _⟩ => show n + 1 * 0 = n; omega
    | ⟨1, _⟩ => show 0 + 1 * k.val = k.val; omega
    | ⟨2, _⟩ => show 0 + 1 * hw.val = hw.val; omega

/-- A weight slab's product with a row: at column k, the sum over the spatial axis of the row's entry times the
    slab's. -/
theorem wsum_apply (WB : Vec Ideal S16x128x256 .bf16) (ones : FVec Ideal S1x256 .bf16) (n : ℕ) (hn : n < 16)
    (inb : ∀ a, (![n, 0, 0] : Fin 3 → ℕ) a + S1x128x256.size a ≤ S16x128x256.size a)
    (h : S1x128x256.ShapeCasts S128x256) (k : Fin 128) :
    matmul dot_S1x256_S128x256_S1x128_1_1_0_0_n_n none ones
        (shapeCast S128x256 (View.ld WB (Rect.unit (s := S16x128x256) ![n, 0, 0] S1x128x256.size inb)) h : FVec Ideal S128x256 .bf16)
        (constant (F := Ideal) S1x128 .f32 0x00000000#32) (ix2 (0 : Fin 1) k)
      = ∑ hw : Fin 256, ones (ix2 (0 : Fin 1) hw) * WB (ix3 ⟨n, hn⟩ k hw) := by
  refine (matmul_tr_apply (M := 1) (K := 256) (N := 128) none ones _ (0 : Fin 1) k).trans ?_
  refine Finset.sum_congr rfl fun hw _ => ?_
  rw [slabW_apply WB n hn inb h k hw]

/-- THE CONSTANT ROW at k: from the bias at k, channel after channel, the channel's shift times the sum over the
    spatial axis of one times the channel's converted weight at (k, ·). -/
theorem cstRow_apply (S1 S2 : Vec Ideal S16x1x2048 .f32) (WB : Vec Ideal S16x128x256 .bf16)
    (g bt : Vec Ideal S1x16 .f32) (bias : Vec Ideal S1x128 .f32) (k : Fin 128) :
    cstRow S1 S2 WB g bt bias (ix2 (0 : Fin 1) k)
      = foldl16 (bias (ix2 (0 : Fin 1) k))
          (fun ch => shiftCol S1 S2 g bt (ix2 ch (0 : Fin 1))
            * ∑ hw : Fin 256, k0_pay17 (F := Ideal) (ix2 (0 : Fin 1) hw) * WB (ix3 ch k hw)) := by
  have hT : ∀ (n : ℕ) (hn : n < 16) (hs) (hb), broadcastTo S1x128 (extractStridedSlice S1x1 ![n, 0] (k0_pay16 (View.ld S1 rSum) (View.ld S2 rSum) (View.ld g rRow16) (View.ld bt rRow16)) hs) hb (ix2 (0 : Fin 1) k)
      = k0_pay16 (View.ld S1 rSum) (View.ld S2 rSum) (View.ld g rRow16) (View.ld bt rRow16) (ix2 ⟨n, hn⟩ (0 : Fin 1)) :=
    fun n hn hs hb => sliceBcRow_apply _ n hn hs hb k
  have hW : ∀ (n : ℕ) (hn : n < 16) (inb) (h), matmul dot_S1x256_S128x256_S1x128_1_1_0_0_n_n none (k0_pay17 (F := Ideal))
        (shapeCast S128x256 (View.ld WB (Rect.unit (s := S16x128x256) ![n, 0, 0] S1x128x256.size inb)) h : FVec Ideal S128x256 .bf16)
        (constant (F := Ideal) S1x128 .f32 0x00000000#32) (ix2 (0 : Fin 1) k)
      = ∑ hw : Fin 256, k0_pay17 (F := Ideal) (ix2 (0 : Fin 1) hw) * WB (ix3 ⟨n, hn⟩ k hw) :=
    fun n hn inb h => wsum_apply WB _ n hn inb h k
  have hB : ∀ (h), shapeCast S1x128 (View.ld bias rRow128) h (ix2 (0 : Fin 1) k) = bias (ix2 (0 : Fin 1) k) := fun h =>
    (congrFun (shapeCast_self (s := S1x128) (View.ld bias rRow128) h) _).trans (congrFun (View.ld_unit_zero (S := S1x128) hz2' _ bias) _)
  unfold cstRow shiftCol k0_pay24 k0_pay21 k0_pay20 k0_pay22 k0_pay23 k0_pay19 k0_pay18 foldl16
  show (((((((((((((((((_ : EReal) + _ * _) + _ * _) + _ * _) + _ * _) + _ * _) + _ * _) + _ * _) + _ * _) + _ * _) + _ * _) + _ * _) + _ * _) + _ * _) + _ * _) + _ * _) + _ * _) = _
  have t0 := hT 0 (by decide)
  have w0 := hW 0 (by decide)
  have t1 := hT 1 (by decide)
  have w1 := hW 1 (by decide)
  have t2 := hT 2 (by decide)
  have w2 := hW 2 (by decide)
  have t3 := hT 3 (by decide)
  have w3 := hW 3 (by decide)
  have t4 := hT 4 (by decide)
  have w4 := hW 4 (by decide)
  have t5 := hT 5 (by decide)
  have w5 := hW 5 (by decide)
  have t6 := hT 6 (by decide)
  have w6 := hW 6 (by decide)
  have t7 := hT 7 (by decide)
  have w7 := hW 7 (by decide)
  have t8 := hT 8 (by decide)
  have w8 := hW 8 (by decide)
  have t9 := hT 9 (by decide)
  have w9 := hW 9 (by decide)
  have t10 := hT 10 (by decide)
  have w10 := hW 10 (by decide)
  have t11 := hT 11 (by decide)
  have w11 := hW 11 (by decide)
  have t12 := hT 12 (by decide)
  have w12 := hW 12 (by decide)
  have t13 := hT 13 (by decide)
  have w13 := hW 13 (by decide)
  have t14 := hT 14 (by decide)
  have w14 := hW 14 (by decide)
  have t15 := hT 15 (by decide)
  have w15 := hW 15 (by decide)
  simp only [t0, w0, t1, w1, t2, w2, t3, w3, t4, w4, t5, w5, t6, w6, t7, w7, t8, w8, t9, w9, t10, w10, t11, w11, t12, w12, t13, w13, t14, w14, t15, w15, hB]
  rfl

end Cert.KernelIdeal.KValue

end
-- ==== Proof.KIdealValueStat.lean ====
import proofs.«170975_g2000502485364553_pallasbulk_1302_22_alg».proof.Proof.KIdealValuePay

/-! # The fused kernel's last point: scale and shift of a channel

From the row-sum scratch and the row-sum-of-squares scratch (one row of 2048 batch entries per channel): the
channel's mean is the row's total times 1/n, its variance the other row's total times 1/n less the mean squared,
clamped at zero; the scale is gamma times the reciprocal square root of variance plus epsilon, the shift beta less
mean times scale. -/

set_option maxRecDepth 16384

noncomputable section

namespace Cert.KernelIdeal.KValue

open Cert.KernelIdeal Cert.KernelIdeal.Gen
open Idealize.ShloMosaic Idealize.ShloMosaic.TcCoe Idealize.ShloMosaic.ValueIdx

/-- The literals the body multiplies and adds: 1/n (n = 2048·256), the variance's epsilon, and zero. -/
abbrev invN : Ideal .f32 := Ideal.ofBits .f32 0x36000000#32
abbrev epsW : Ideal .f32 := Ideal.ofBits .f32 0x3727C5AC#32
abbrev zeroW : Ideal .f32 := Ideal.ofBits .f32 0x00000000#32

/-- A channel's mean, scale and shift, from the two sum scratches and the scale and shift rows. -/
def meanK (S1 : S16x1x2048.Idx → EReal) (ch : Fin 16) : EReal := (∑ b : Fin 2048, S1 (ix3 ch (0 : Fin 1) b)) * invN
def scaleK (S1 S2 : S16x1x2048.Idx → EReal) (g : S1x16.Idx → EReal) (ch : Fin 16) : EReal :=
  g (ix2 (0 : Fin 1) ch) * Ideal.rsqrt (max ((∑ b : Fin 2048, S2 (ix3 ch (0 : Fin 1) b)) * invN - meanK S1 ch * meanK S1 ch) zeroW + epsW)
def shiftK (S1 S2 : S16x1x2048.Idx → EReal) (g bt : S1x16.Idx → EReal) (ch : Fin 16) : EReal :=
  bt (ix2 (0 : Fin 1) ch) - meanK S1 ch * scaleK S1 S2 g ch

theorem hz3 : (![0, 0, 0] : Fin 3 → Nat) = fun _ => 0 := funext fun a => by fin_cases a <;> rfl
theorem hz2s : (![0, 0] : Fin 2 → Nat) = fun _ => 0 := funext fun a => by fin_cases a <;> rfl

/-- A sum scratch's row total, as the body takes it. -/
theorem rowTot_apply (v : Vec Ideal S16x1x2048 .f32) (h1 : S16x1x2048.ShapeCasts S16x2048) (hr : S16x2048.Reduces [1] S16)
    (hφ : FKind.Formats FTy.f32) (hacc : (0x00000000#32 : BitVec FTy.f32.bits) = FKind.add.neutral FTy.f32 hφ)
    (h2 : S16.ShapeCasts S16x1) (ch : Fin 16) :
    (shapeCast S16x1 (multiReduction (F := Ideal) .add [1] S16 (shapeCast S16x2048 v h1) 0x00000000#32 hr hφ hacc) h2 : FVec Ideal S16x1 .f32) (ix2 ch (0 : Fin 1))
      = ∑ b : Fin 2048, v (ix3 ch (0 : Fin 1) b) := by
  refine (shapeCast_apply (s := S16) (t := S16x1) _ h2 (ix2 ch (0 : Fin 1)) (ix1 ch)
    (by rw [Shape.rowMajor_val_one, Shape.rowMajor_val_two]; show ch.val = ch.val * 1 + 0; omega)).trans ?_
  refine (Ideal.multiReduction_add_single _ _ hr hφ hacc (ix1 ch)).trans ?_
  refine Finset.sum_congr rfl fun b _ => ?_
  refine shapeCast_apply (s := S16x1x2048) (t := S16x2048) v h1 _ (ix3 ch (0 : Fin 1) b) ?_
  rw [Shape.rowMajor_val_three, Shape.rowMajor_val_two]
  show (ch.val * 1 + 0) * 2048 + b.val = ch.val * 2048 + b.val
  omega

theorem pay14_apply (v : Vec Ideal S16x1x2048 .f32) (ch : Fin 16) : k0_pay14 v (ix2 ch (0 : Fin 1)) = meanK v ch := by
  unfold k0_pay14 meanK
  show _ * invN = _
  exact congrArg (· * invN) (rowTot_apply v _ _ _ _ _ ch)

theorem pay15_apply (v w : Vec Ideal S16x1x2048 .f32) (g : Vec Ideal S1x16 .f32) (ch : Fin 16) :
    k0_pay15 v w g (ix2 ch (0 : Fin 1)) = scaleK v w g ch := by
  unfold k0_pay15 scaleK
  show (transpose S16x1 [1, 0] (shapeCast S1x16 g _) _ (ix2 ch (0 : Fin 1)) : EReal)
      * Ideal.rsqrt (max (_ * invN - k0_pay14 v (ix2 ch (0 : Fin 1)) * k0_pay14 v (ix2 ch (0 : Fin 1))) zeroW + epsW) = _
  rw [pay14_apply]
  have hg : (transpose S16x1 [1, 0] (shapeCast S1x16 g shapeCasts_S1x16_S1x16) transposes_S1x16_p1_0_S16x1 (ix2 ch (0 : Fin 1)) : EReal) = g (ix2 (0 : Fin 1) ch) := by
    refine (transpose_apply (s := S1x16) (t := S16x1) [1, 0] _ _ (ix2 ch (0 : Fin 1)) (ix2 (0 : Fin 1) ch)
      (fun b => by match b with | ⟨0, _⟩ => rfl | ⟨1, _⟩ => rfl)).trans ?_
    exact congrFun (shapeCast_self (s := S1x16) g _) _
  exact congr (congrArg HMul.hMul hg)
    (congrArg (fun z => Ideal.rsqrt (max (z * invN - meanK v ch * meanK v ch) zeroW + epsW)) (rowTot_apply w _ _ _ _ _ ch))

theorem pay16_apply (v w : Vec Ideal S16x1x2048 .f32) (g bt : Vec Ideal S1x16 .f32) (ch : Fin 16) :
    k0_pay16 v w g bt (ix2 ch (0 : Fin 1)) = shiftK v w g bt ch := by
  unfold k0_pay16 shiftK
  show (transpose S16x1 [1, 0] (shapeCast S1x16 bt _) _ (ix2 ch (0 : Fin 1)) : EReal)
      - k0_pay14 v (ix2 ch (0 : Fin 1)) * k0_pay15 v w g (ix2 ch (0 : Fin 1)) = _
  rw [pay14_apply, pay15_apply]
  have hb : (transpose S16x1 [1, 0] (shapeCast S1x16 bt shapeCasts_S1x16_S1x16) transposes_S1x16_p1_0_S16x1 (ix2 ch (0 : Fin 1)) : EReal) = bt (ix2 (0 : Fin 1) ch) := by
    refine (transpose_apply (s := S1x16) (t := S16x1) [1, 0] _ _ (ix2 ch (0 : Fin 1)) (ix2 (0 : Fin 1) ch)
      (fun b => by match b with | ⟨0, _⟩ => rfl | ⟨1, _⟩ => rfl)).trans ?_
    exact congrFun (shapeCast_self (s := S1x16) bt _) _
  exact congrArg (· - meanK v ch * scaleK v w g ch) hb

/-- THE SCALE COLUMN at a channel. -/
theorem scaleCol_apply (S1 S2 : Vec Ideal S16x1x2048 .f32) (g : Vec Ideal S1x16 .f32) (ch : Fin 16) :
    scaleCol S1 S2 g (ix2 ch (0 : Fin 1)) = scaleK S1 S2 g ch := by
  unfold scaleCol
  rw [View.ld_unit_zero (S := S16x1x2048) hz3, View.ld_unit_zero (S := S16x1x2048) hz3, View.ld_unit_zero (S := S1x16) hz2s]
  exact pay15_apply S1 S2 g ch

/-- THE SHIFT COLUMN at a channel. -/
theorem shiftCol_apply (S1 S2 : Vec Ideal S16x1x2048 .f32) (g bt : Vec Ideal S1x16 .f32) (ch : Fin 16) :
    shiftCol S1 S2 g bt (ix2 ch (0 : Fin 1)) = shiftK S1 S2 g bt ch := by
  unfold shiftCol
  rw [View.ld_unit_zero (S := S16x1x2048) hz3, View.ld_unit_zero (S := S16x1x2048) hz3, View.ld_unit_zero (S := S1x16) hz2s, View.ld_unit_zero (S := S1x16) hz2s]
  exact pay16_apply S1 S2 g bt ch

end Cert.KernelIdeal.KValue

end
-- ==== Proof.KIdealValueOut.lean ====
import proofs.«170975_g2000502485364553_pallasbulk_1302_22_alg».proof.Proof.KIdealValueCst
import proofs.«170975_g2000502485364553_pallasbulk_1302_22_alg».proof.Proof.KIdealValueStat

/-! # The fused kernel's last point: the stored vector, whole

At (b, k), from the four scratches' contents, the scale, shift and bias rows: the sixteen channels' partial products
at (b, k), each times its channel's scale, added one after another onto zero; plus, from the bias at k, channel after
channel, the channel's shift times the sum over the spatial axis of one times the converted weight. -/

set_option maxRecDepth 16384

noncomputable section

namespace Cert.KernelIdeal.KValue

open Cert.KernelIdeal Cert.KernelIdeal.Gen
open Idealize.ShloMosaic Idealize.ShloMosaic.TcCoe Idealize.ShloMosaic.ValueIdx

/-- The row of ones' entry: the literal one. -/
abbrev oneW : Ideal .bf16 := Ideal.ofBits .bf16 0x3F80#16

/-- THE STORED VECTOR at (b, k), from the buffers' contents. -/
theorem outPay_full (S1 S2 : Vec Ideal S16x1x2048 .f32) (P : Vec Ideal S16x2048x128 .f32) (WB : Vec Ideal S16x128x256 .bf16)
    (g bt : Vec Ideal S1x16 .f32) (bias : Vec Ideal S1x128 .f32) (b : Fin 2048) (k : Fin 128) :
    outPay S1 S2 P WB g bt bias (ix2 b k)
      = foldl16 0 (fun ch => P (ix3 ch b k) * scaleK S1 S2 g ch)
        + foldl16 (bias (ix2 (0 : Fin 1) k)) (fun ch => shiftK S1 S2 g bt ch * ∑ hw : Fin 256, oneW * WB (ix3 ch k hw)) := by
  rw [outPay_apply, cstRow_apply]
  simp only [scaleCol_apply, shiftCol_apply]
  rfl

end Cert.KernelIdeal.KValue

end
-- ==== Proof.KIdealValueKer.lean ====
import proofs.«170975_g2000502485364553_pallasbulk_1302_22_alg».proof.Proof.KIdealValueOutC
import proofs.«170975_g2000502485364553_pallasbulk_1302_22_alg».proof.Proof.KIdealValueRun
import proofs.«170975_g2000502485364553_pallasbulk_1302_22_alg».proof.Proof.KIdealValueOut

/-! # The fused kernel's result, from the final scratch

The result array holds the last point's stored vector of the scratch as the last point leaves it; at (b, k), at the
ideal values, it is the fold over the channels of partial product times scale, plus the constant row's fold. -/

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx

section AnyF
variable {F : FTy → Type} [FloatOps F] (m : (ℓ : Loc nD τ sig) → Buf (Elt F) ℓ)

/-- The last point keeps the converted weight. -/
theorem stepC_fst (c : Dev nD) (t : Fin cfg0.N) (h0 : ¬t.val % 4 = 0) (h1 : t.val % 4 = 3) (s : St F) :
    (stepC m c t h0 h1 s).1 = s.1 := by
  unfold stepC; rfl

/-- The scratch after the last point. -/
abbrev Zf (c : Dev nD) : St F := stAt m c J0 t3.val t3.isLt

set_option maxHeartbeats 1000000 in
/-- THE KERNEL'S RESULT is the stored vector of the scratch after the last point and the three rows. -/
theorem KerOut_pay (c : Dev nD) :
    KerOut m c = outPay (Zf m c).2.1 (Zf m c).2.2.1 (Zf m c).2.2.2 (Zf m c).1 (iblk m c 1 t3) (iblk m c 2 t3) (iblk m c 4 t3) := by
  have hZ : Zf m c = stepC m c t3 (by decide) (by decide) (stAt m c J0 (t3.val - 1) (Nat.lt_of_le_of_lt (Nat.sub_le _ _) t3.isLt)) :=
    stAt_C m c J0 t3 (by decide) (by decide)
  rw [KerOut_eq, outC_eq, hZ, stepC_fst]

end AnyF

/-- THE KERNEL'S RESULT at (b, k), at the ideal values, from the final scratch `Z` and the three rows. -/
theorem KerOut_apply (m : (ℓ : Loc nD τ sig) → Buf (Elt Ideal) ℓ) (c : Dev nD) (b : Fin 2048) (k : Fin 128) :
    KerOut m c (ix2 b k)
      = foldl16 0 (fun ch => (Zf m c).2.2.2 (ix3 ch b k) * scaleK (Zf m c).2.1 (Zf m c).2.2.1 (iblk m c 1 t3) ch)
        + foldl16 (iblk m c 4 t3 (ix2 (0 : Fin 1) k))
            (fun ch => shiftK (Zf m c).2.1 (Zf m c).2.2.1 (iblk m c 1 t3) (iblk m c 2 t3) ch * ∑ hw : Fin 256, oneW * (Zf m c).1 (ix3 ch k hw)) := by
  rw [KerOut_pay]
  exact outPay_full _ _ _ _ _ _ _ b k

end Cert.KernelIdeal.KValue

end
-- ==== Proof.KIdealValueRows.lean ====
import proofs.«170975_g2000502485364553_pallasbulk_1302_22_alg».proof.Proof.Gen.KernelIdeal.Frame
import Idealize.ShloMosaic.Lib.ValueIdx
import Idealize.ShloMosaic.Lib.Pipeline.Value

/-! # The fused kernel's row operands

The scale, shift and bias rows the body is handed at every point are the arguments themselves, each viewed as a
one-row matrix by the host's reshape and staged whole. -/

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.ShloMosaic.StableHlo

variable {F : FTy → Type} [FloatOps F] (m : (ℓ : Loc nD τ sig) → Buf (Elt F) ℓ)

theorem V_main_v2 (c : Dev nD) : (V m c main_v2 : S1x16.Idx → Elt F .f32)
    = shapeCast S1x16 (m ((c : Thread nD τ).loc main_arg1)) shapeCasts_S16_S1x16 := by
  dsimp only [Gen.V, Gen.hostOps0]; after_results; rfl
theorem V_main_v3 (c : Dev nD) : (V m c main_v3 : S1x16.Idx → Elt F .f32)
    = shapeCast S1x16 (m ((c : Thread nD τ).loc main_arg2)) shapeCasts_S16_S1x16 := by
  dsimp only [Gen.V, Gen.hostOps0]; after_results; rfl
theorem V_main_v4 (c : Dev nD) : (V m c main_v4 : S1x128.Idx → Elt F .f32)
    = shapeCast S1x128 (m ((c : Thread nD τ).loc main_arg4)) shapeCasts_S128_S1x128 := by
  dsimp only [Gen.V, Gen.hostOps0]; after_results; rfl

/-- The three row windows are staged whole at every point. -/
theorem idxRows : ∀ t : Fin cfg0.N, win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0 :=
  (by decide +kernel : ∀ t : Fin grid0.N, _)

/-- A vector viewed as a one-row matrix, read at (0, i). -/
theorem reshape_row_apply {α : Type} {n : ℕ} (a : (⟨1, ![n]⟩ : Shape).Idx → α) (h : (⟨1, ![n]⟩ : Shape).ShapeCasts ⟨2, ![1, n]⟩) (i : Fin n) :
    shapeCast ⟨2, ![1, n]⟩ a h (ix2 (0 : Fin 1) i) = a (ix1 i) :=
  shapeCast_apply a h (ix2 (0 : Fin 1) i) (ix1 i)
    (by rw [Shape.rowMajor_val_one, Shape.rowMajor_val_two]; show i.val = 0 * n + i.val; omega)

/-- The scale row at channel `ch` is the second argument there. -/
theorem iblk1_apply (c : Dev nD) (t : Fin cfg0.N) (gam : S16.Idx → Elt F .f32) (hg : m ((c : Thread nD τ).loc main_arg1) = gam) (ch : Fin 16) :
    iblk m c 1 t (ix2 (0 : Fin 1) ch) = gam (ix1 ch) := by
  obtain ⟨e0, e1, -, -, -, -⟩ := idxRows t
  show V m c main_v2 (((cfg0.win 1).blk t).view.emb (ix2 (0 : Fin 1) ch)) = _
  have he : ((cfg0.win 1).blk t).view.emb (ix2 (0 : Fin 1) ch) = ix2 (0 : Fin 1) ch := by
    funext a; apply Fin.ext
    match a with
    | ⟨0, _⟩ => show win0_1.index t (0 : Fin 2) * 1 + 1 * 0 = 0; omega
    | ⟨1, _⟩ => show win0_1.index t (1 : Fin 2) * 16 + 1 * ch.val = ch.val; omega
  rw [he, V_main_v2, hg]
  exact reshape_row_apply gam _ ch

/-- The shift row at channel `ch` is the third argument there. -/
theorem iblk2_apply (c : Dev nD) (t : Fin cfg0.N) (bet : S16.Idx → Elt F .f32) (hb : m ((c : Thread nD τ).loc main_arg2) = bet) (ch : Fin 16) :
    iblk m c 2 t (ix2 (0 : Fin 1) ch) = bet (ix1 ch) := by
  obtain ⟨-, -, e0, e1, -, -⟩ := idxRows t
  show V m c main_v3 (((cfg0.win 2).blk t).view.emb (ix2 (0 : Fin 1) ch)) = _
  have he : ((cfg0.win 2).blk t).view.emb (ix2 (0 : Fin 1) ch) = ix2 (0 : Fin 1) ch := by
    funext a; apply Fin.ext
    match a with
    | ⟨0, _⟩ => show win0_2.index t (0 : Fin 2) * 1 + 1 * 0 = 0; omega
    | ⟨1, _⟩ => show win0_2.index t (1 : Fin 2) * 16 + 1 * ch.val = ch.val; omega
  rw [he, V_main_v3, hb]
  exact reshape_row_apply bet _ ch

/-- The bias row at column `k` is the fifth argument there. -/
theorem iblk4_apply (c : Dev nD) (t : Fin cfg0.N) (bias : S128.Idx → Elt F .f32) (hb : m ((c : Thread nD τ).loc main_arg4) = bias) (k : Fin 128) :
    iblk m c 4 t (ix2 (0 : Fin 1) k) = bias (ix1 k) := by
  obtain ⟨-, -, -, -, e0, e1⟩ := idxRows t
  show V m c main_v4 (((cfg0.win 4).blk t).view.emb (ix2 (0 : Fin 1) k)) = _
  have he : ((cfg0.win 4).blk t).view.emb (ix2 (0 : Fin 1) k) = ix2 (0 : Fin 1) k := by
    funext a; apply Fin.ext
    match a with
    | ⟨0, _⟩ => show win0_4.index t (0 : Fin 2) * 1 + 1 * 0 = 0; omega
    | ⟨1, _⟩ => show win0_4.index t (1 : Fin 2) * 128 + 1 * k.val = k.val; omega
  rw [he, V_main_v4, hb]
  exact reshape_row_apply bias _ k

end Cert.KernelIdeal.KValue

end
-- ==== Proof.FusedSpec.lean ====
/-
  Finite sums regrouped: the laws that join the two programs' statistics.
  A sum over the 2048 batch rows is the sum over eight tiles of 256 rows of the tiles' sums; a double sum may be
  taken in either order; adding sixteen terms one after the other to a start value is the start value plus their sum.
  All of it holds in any commutative additive monoid, so on the extended reals without a finiteness assumption.
-/
import Mathlib.Algebra.BigOperators.Fin
import Mathlib.Algebra.BigOperators.Group.Finset.Basic
import Mathlib.Logic.Equiv.Fin.Basic

namespace Cert.FusedSpec

open Finset

variable {M : Type} [AddCommMonoid M]

/-- Row `256·i + r` of the batch, as an index below 2048. -/
def tileRow (i : Fin 8) (r : Fin 256) : Fin 2048 := ⟨256 * i.val + r.val, by have := i.isLt; have := r.isLt; omega⟩

/-- A sum over the batch is the sum over the eight tiles of each tile's sum. -/
theorem sum_tiles (f : Fin 2048 → M) : ∑ b : Fin 2048, f b = ∑ i : Fin 8, ∑ r : Fin 256, f (tileRow i r) := by
  rw [← Fintype.sum_prod_type' (fun (i : Fin 8) (r : Fin 256) => f (tileRow i r))]
  refine (Fintype.sum_equiv (finProdFinEquiv (m := 8) (n := 256)) _ _ (fun p => ?_)).symm
  congr 1
  apply Fin.ext
  simp [tileRow, finProdFinEquiv, Nat.add_comm]

/-- Sixteen terms added one after the other to a start value. -/
def foldAdd16 (a : M) (f : Fin 16 → M) : M :=
  a + f 0 + f 1 + f 2 + f 3 + f 4 + f 5 + f 6 + f 7 + f 8 + f 9 + f 10 + f 11 + f 12 + f 13 + f 14 + f 15

theorem foldAdd16_eq (a : M) (f : Fin 16 → M) : foldAdd16 a f = a + ∑ c : Fin 16, f c := by
  unfold foldAdd16
  simp only [Fin.sum_univ_succ, Fin.sum_univ_zero, add_zero, add_assoc]
  rfl

/-- Eight terms added one after the other to a start value. -/
def foldAdd8 (a : M) (f : Fin 8 → M) : M :=
  a + f 0 + f 1 + f 2 + f 3 + f 4 + f 5 + f 6 + f 7

theorem foldAdd8_eq (a : M) (f : Fin 8 → M) : foldAdd8 a f = a + ∑ c : Fin 8, f c := by
  unfold foldAdd8
  simp only [Fin.sum_univ_succ, Fin.sum_univ_zero, add_zero, add_assoc]
  rfl

/-- The two orders of the statistics' sums: rows then pixels within a channel, against pixels of the tile sums. -/
theorem stat_sums (x : Fin 2048 → Fin 256 → M) :
    ∑ b : Fin 2048, ∑ q : Fin 256, x b q = ∑ q : Fin 256, ∑ i : Fin 8, ∑ r : Fin 256, x (tileRow i r) q := by
  rw [Finset.sum_comm]
  exact Finset.sum_congr rfl fun q _ => sum_tiles fun b => x b q

end Cert.FusedSpec
-- ==== Proof.BridgeStat.lean ====
import proofs.«170975_g2000502485364553_pallasbulk_1302_22_alg».proof.Proof.RefPartialVal
import proofs.«170975_g2000502485364553_pallasbulk_1302_22_alg».proof.Proof.FusedSpec

/-! # The reference's statistics as plain double sums

The reference accumulates a channel's sums tile by tile (eight tiles of 256 batch rows) and then sums over the
spatial positions; regrouped, that is the sum over all 2048 batch rows and all positions. -/

set_option maxRecDepth 16384

noncomputable section

namespace Cert.Bridge

open Cert.ReferenceIdeal Cert.ReferenceIdeal.RefPartial Cert.FusedSpec
open Idealize.ShloMosaic Idealize.ShloMosaic.ValueIdx

/-- A tile's row, the two ways of writing it. -/
theorem rowOf_eq (n : ℕ) (hn : n < 8) (r : Fin 256) : rowOf n r = tileRow ⟨n, hn⟩ r :=
  Fin.ext (by show (256 * n + r.val) % 2048 = 256 * n + r.val; have := r.isLt; omega)

theorem zeroW_eq : (zeroW : EReal) = 0 := Ideal.ofBits_zero_f32

/-- The sum accumulator after the last tile: the eight tiles' sums. -/
theorem accSum7 (X : S2048x16x256.Idx → Ideal .f32) (ch : Fin 16) (q : Fin 256) :
    accSum X 7 ch q = ∑ i : Fin 8, ∑ r : Fin 256, X (ix3 (tileRow i r) ch q) := by
  have h0 : accSum X 0 ch q = zeroW + ∑ r : Fin 256, X (ix3 (rowOf 0 r) ch q) := rfl
  have h1 : accSum X 1 ch q = accSum X 0 ch q + ∑ r : Fin 256, X (ix3 (rowOf 1 r) ch q) := rfl
  have h2 : accSum X 2 ch q = accSum X 1 ch q + ∑ r : Fin 256, X (ix3 (rowOf 2 r) ch q) := rfl
  have h3 : accSum X 3 ch q = accSum X 2 ch q + ∑ r : Fin 256, X (ix3 (rowOf 3 r) ch q) := rfl
  have h4 : accSum X 4 ch q = accSum X 3 ch q + ∑ r : Fin 256, X (ix3 (rowOf 4 r) ch q) := rfl
  have h5 : accSum X 5 ch q = accSum X 4 ch q + ∑ r : Fin 256, X (ix3 (rowOf 5 r) ch q) := rfl
  have h6 : accSum X 6 ch q = accSum X 5 ch q + ∑ r : Fin 256, X (ix3 (rowOf 6 r) ch q) := rfl
  have h7 : accSum X 7 ch q = accSum X 6 ch q + ∑ r : Fin 256, X (ix3 (rowOf 7 r) ch q) := rfl
  rw [h7, h6, h5, h4, h3, h2, h1, h0, zeroW_eq, zero_add, Fin.sum_univ_eight]
  simp only [rowOf_eq 0 (by decide), rowOf_eq 1 (by decide), rowOf_eq 2 (by decide), rowOf_eq 3 (by decide), rowOf_eq 4 (by decide), rowOf_eq 5 (by decide), rowOf_eq 6 (by decide), rowOf_eq 7 (by decide)]
  rfl

/-- The sum-of-squares accumulator after the last tile. -/
theorem accSq7 (X : S2048x16x256.Idx → Ideal .f32) (ch : Fin 16) (q : Fin 256) :
    accSq X 7 ch q = ∑ i : Fin 8, ∑ r : Fin 256, X (ix3 (tileRow i r) ch q) * X (ix3 (tileRow i r) ch q) := by
  have h0 : accSq X 0 ch q = zeroW + ∑ r : Fin 256, X (ix3 (rowOf 0 r) ch q) * X (ix3 (rowOf 0 r) ch q) := rfl
  have h1 : accSq X 1 ch q = accSq X 0 ch q + ∑ r : Fin 256, X (ix3 (rowOf 1 r) ch q) * X (ix3 (rowOf 1 r) ch q) := rfl
  have h2 : accSq X 2 ch q = accSq X 1 ch q + ∑ r : Fin 256, X (ix3 (rowOf 2 r) ch q) * X (ix3 (rowOf 2 r) ch q) := rfl
  have h3 : accSq X 3 ch q = accSq X 2 ch q + ∑ r : Fin 256, X (ix3 (rowOf 3 r) ch q) * X (ix3 (rowOf 3 r) ch q) := rfl
  have h4 : accSq X 4 ch q = accSq X 3 ch q + ∑ r : Fin 256, X (ix3 (rowOf 4 r) ch q) * X (ix3 (rowOf 4 r) ch q) := rfl
  have h5 : accSq X 5 ch q = accSq X 4 ch q + ∑ r : Fin 256, X (ix3 (rowOf 5 r) ch q) * X (ix3 (rowOf 5 r) ch q) := rfl
  have h6 : accSq X 6 ch q = accSq X 5 ch q + ∑ r : Fin 256, X (ix3 (rowOf 6 r) ch q) * X (ix3 (rowOf 6 r) ch q) := rfl
  have h7 : accSq X 7 ch q = accSq X 6 ch q + ∑ r : Fin 256, X (ix3 (rowOf 7 r) ch q) * X (ix3 (rowOf 7 r) ch q) := rfl
  rw [h7, h6, h5, h4, h3, h2, h1, h0, zeroW_eq, zero_add, Fin.sum_univ_eight]
  simp only [rowOf_eq 0 (by decide), rowOf_eq 1 (by decide), rowOf_eq 2 (by decide), rowOf_eq 3 (by decide), rowOf_eq 4 (by decide), rowOf_eq 5 (by decide), rowOf_eq 6 (by decide), rowOf_eq 7 (by decide)]
  rfl

/-- A channel's mean: the sum over the batch and the spatial positions, times 1/n. -/
theorem meanX_eq (X : S2048x16x256.Idx → Ideal .f32) (ch : Fin 16) :
    meanX X ch = (∑ b : Fin 2048, ∑ q : Fin 256, X (ix3 b ch q)) * invN := by
  unfold meanX
  rw [stat_sums (fun b q => X (ix3 b ch q))]
  exact congrArg (· * invN) (Finset.sum_congr rfl fun q _ => accSum7 X ch q)

/-- A channel's mean of squares. -/
theorem meanSqX_eq (X : S2048x16x256.Idx → Ideal .f32) (ch : Fin 16) :
    meanSqX X ch = (∑ b : Fin 2048, ∑ q : Fin 256, X (ix3 b ch q) * X (ix3 b ch q)) * invN := by
  unfold meanSqX
  rw [stat_sums (fun b q => X (ix3 b ch q) * X (ix3 b ch q))]
  exact congrArg (· * invN) (Finset.sum_congr rfl fun q _ => accSq7 X ch q)

end Cert.Bridge

end
-- ==== Proof.Bridge.lean ====
import proofs.«170975_g2000502485364553_pallasbulk_1302_22_alg».proof.Proof.RefChainFinal
import proofs.«170975_g2000502485364553_pallasbulk_1302_22_alg».proof.Proof.KIdealValueKer
import proofs.«170975_g2000502485364553_pallasbulk_1302_22_alg».proof.Proof.KIdealValueRows
import proofs.«170975_g2000502485364553_pallasbulk_1302_22_alg».proof.Proof.BridgeStat

/-! # The two results are the same function of the arguments

At the ideal values both programs compute, at (b, k): over the channels, the input's row against the weights' row
over the spatial positions times the channel's scale; plus the bias; plus over the channels the channel's shift times
the weights' sum over the spatial positions — with the same mean, variance, scale and shift per channel. The kernel
adds the channels one after another onto a start value and multiplies the weights by a literal one; the reference
takes sums and adds a literal zero: equal by associativity and commutativity of addition, `1 · w = w` and `0 + s = s`. -/

set_option maxRecDepth 16384

noncomputable section

namespace Cert.Bridge

open Idealize.ShloMosaic Idealize.ShloMosaic.TcCoe Idealize.ShloMosaic.ValueIdx
open Cert.ReferenceIdeal.RefChain (hi lo flat RefOut RefOut_closed)
open Cert.ReferenceIdeal.RefPartial (P0 S0 T0 X3 W3 Gm Bt scaleX shiftX meanX meanSqX)
open Cert.KernelIdeal.KValue (KerOut KerOut_apply Zf t3 foldl16 foldl16_eq_sum scaleK shiftK meanK oneW)

/-- The literal the kernel multiplies the weights by is one. -/
theorem oneW_eq : (oneW : EReal) = 1 := by
  simp [oneW, Ideal.ofBits, Ideal.ieee]
  rw [← EReal.coe_mul]
  norm_num

set_option maxHeartbeats 4000000 in
/-- THE TWO RESULTS AGREE, from: the arguments named (`x`, `gam`, `bet`, `w`, `bias`) on both sides; what the first
    region of the reference leaves, named; the reference's operands as its first region finds them read at the
    arguments; and the kernel's four scratches after its last point read at the arguments. -/
theorem out_eq_aux
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (x : Cert.KernelIdeal.S2048x16x16x16.Idx → EReal) (gam bet : Cert.KernelIdeal.S16.Idx → EReal)
    (w : Cert.KernelIdeal.S128x4096.Idx → EReal) (bias : Cert.KernelIdeal.S128.Idx → EReal)
    (P : Cert.ReferenceIdeal.S16x2048x128.Idx → EReal) (s T : Cert.ReferenceIdeal.S16x1.Idx → EReal)
    (hP : P0 m' c = P) (hs : S0 m' c = s) (hT : T0 m' c = T)
    (hb' : m' ((c : Thread Cert.ReferenceIdeal.nD Cert.ReferenceIdeal.τ).loc Cert.ReferenceIdeal.main_arg4) = bias)
    (hw' : m' ((c : Thread Cert.ReferenceIdeal.nD Cert.ReferenceIdeal.τ).loc Cert.ReferenceIdeal.main_arg3) = w)
    -- the reference's operands as its first region finds them
    (hX3 : ∀ (b : Fin 2048) (ch : Fin 16) (q : Fin 256), X3 m' c (ix3 b ch q) = x (ix4 b ch (hi q) (lo q)))
    (hW3 : ∀ (k : Fin 128) (ch : Fin 16) (q : Fin 256), W3 m' c (ix3 k ch q) = w (ix2 k (flat ch q)))
    (hGm : ∀ ch : Fin 16, Gm m' c (ix2 ch (0 : Fin 1)) = gam (ix1 ch))
    (hBt : ∀ ch : Fin 16, Bt m' c (ix2 ch (0 : Fin 1)) = bet (ix1 ch))
    -- the kernel's rows and final scratches
    (hg : ∀ ch : Fin 16, Cert.KernelIdeal.Gen.iblk m c 1 t3 (ix2 (0 : Fin 1) ch) = gam (ix1 ch))
    (hbt : ∀ ch : Fin 16, Cert.KernelIdeal.Gen.iblk m c 2 t3 (ix2 (0 : Fin 1) ch) = bet (ix1 ch))
    (hbi : ∀ k : Fin 128, Cert.KernelIdeal.Gen.iblk m c 4 t3 (ix2 (0 : Fin 1) k) = bias (ix1 k))
    (h7 : ∀ (ch : Fin 16) (k : Fin 128) (q : Fin 256), (Zf m c).1 (ix3 ch k q) = w (ix2 k (flat ch q)))
    (h8 : ∀ (ch : Fin 16) (b : Fin 2048), (Zf m c).2.1 (ix3 ch (0 : Fin 1) b) = ∑ q : Fin 256, x (ix4 b ch (hi q) (lo q)))
    (h9 : ∀ (ch : Fin 16) (b : Fin 2048), (Zf m c).2.2.1 (ix3 ch (0 : Fin 1) b) = ∑ q : Fin 256, x (ix4 b ch (hi q) (lo q)) * x (ix4 b ch (hi q) (lo q)))
    (h10 : ∀ (ch : Fin 16) (b : Fin 2048) (k : Fin 128), (Zf m c).2.2.2 (ix3 ch b k) = ∑ q : Fin 256, x (ix4 b ch (hi q) (lo q)) * w (ix2 k (flat ch q)))
    (b : Fin 2048) (k : Fin 128) :
    (RefOut m' c : Cert.ReferenceIdeal.S2048x128.Idx → EReal) (ix2 b k) = (KerOut m c : Cert.KernelIdeal.S2048x128.Idx → EReal) (ix2 b k) := by
  rw [RefOut_closed m' c P s T bias w hP hs hT hb' hw' b k, KerOut_apply m c b k]
  unfold shiftK shiftX scaleK scaleX meanK
  simp only [meanX_eq, meanSqX_eq, hX3, hW3, hGm, hBt, hg, hbt, hbi, h7, h8, h9, h10]
  rw [foldl16_eq_sum, foldl16_eq_sum]
  simp only [oneW_eq, one_mul, zero_add]

end Cert.Bridge

end
-- ==== Proof.BridgeKIn.lean ====
import proofs.«170975_g2000502485364553_pallasbulk_1302_22_alg».proof.Proof.Gen.KernelIdeal.Frame
import proofs.«170975_g2000502485364553_pallasbulk_1302_22_alg».proof.Proof.RefChainOut
import Idealize.ShloMosaic.Lib.ValueIdx
import Idealize.ShloMosaic.Lib.Pipeline.Value

/-! # The fused kernel's transposed input, at an index

The kernel is handed the input flattened to [2048, 4096] and transposed: row `ch·256 + q`, column `b` holds the
argument at (b, ch, q / 16, q % 16). -/

set_option maxRecDepth 16384

noncomputable section

namespace Cert.Bridge

open Cert.KernelIdeal Cert.KernelIdeal.Gen
open Cert.ReferenceIdeal.RefChain (hi lo flat)
open Idealize.ShloMosaic Idealize.ShloMosaic.TcCoe Idealize.ShloMosaic.ValueIdx
open Idealize.ShloMosaic.StableHlo

variable {F : FTy → Type} [FloatOps F] (m : (ℓ : Loc nD τ sig) → Buf (Elt F) ℓ)

theorem KV_main_v1 (c : Dev nD) : (V m c main_v1 : S4096x2048.Idx → Elt F .f32)
    = transpose S4096x2048 [1, 0] (shapeCast S2048x4096 (m ((c : Thread nD τ).loc main_arg0)) shapeCasts_S2048x16x16x16_S2048x4096) transposes_S2048x4096_S4096x2048_1_0 := by
  dsimp only [Gen.V, Gen.hostOps0]; after_results; rfl

/-- The transposed input at row `ch·256 + q`, column `b`. -/
theorem Xt_apply (c : Dev nD) (x : S2048x16x16x16.Idx → Elt F .f32) (hx : m ((c : Thread nD τ).loc main_arg0) = x)
    (ch : Fin 16) (q : Fin 256) (b : Fin 2048) :
    (V m c main_v1 : S4096x2048.Idx → Elt F .f32) (ix2 (flat ch q) b) = x (ix4 b ch (hi q) (lo q)) := by
  rw [KV_main_v1, hx]
  refine (transpose_apply (s := S2048x4096) (t := S4096x2048) [1, 0] _ _ (ix2 (flat ch q) b) (ix2 b (flat ch q))
    (fun a => by match a with | ⟨0, _⟩ => rfl | ⟨1, _⟩ => rfl)).trans ?_
  refine shapeCast_apply (s := S2048x16x16x16) (t := S2048x4096) x _ (ix2 b (flat ch q)) (ix4 b ch (hi q) (lo q)) ?_
  rw [Shape.rowMajor_val_four, Shape.rowMajor_val_two]
  show ((b.val * 16 + ch.val) * 16 + q.val / 16) * 16 + q.val % 16 = b.val * 4096 + (ch.val * 256 + q.val)
  omega

end Cert.Bridge

end
-- ==== Proof.BridgeZ.lean ====
import proofs.«170975_g2000502485364553_pallasbulk_1302_22_alg».proof.Proof.Bridge
import proofs.«170975_g2000502485364553_pallasbulk_1302_22_alg».proof.Proof.BridgeKIn

/-! # The two programs' results agree

The hypotheses of the comparison discharged: the reference's operands read at its arguments, the kernel's rows read at its
arguments, its four scratches after the last point read at what the region finds in its operands (hypotheses here:
the scratch modules' four equations), and the two programs' arguments equal. -/

set_option maxRecDepth 16384

noncomputable section

namespace Cert.Bridge

open Idealize.ShloMosaic Idealize.ShloMosaic.TcCoe Idealize.ShloMosaic.ValueIdx
open Cert.ReferenceIdeal.RefChain (hi lo flat RefOut)
open Cert.ReferenceIdeal.RefPartial (P0 S0 T0 X3 W3 Gm Bt)
open Cert.KernelIdeal.KValue (KerOut Zf t3)

set_option maxHeartbeats 8000000 in
/-- THE RESULTS AGREE when the arguments do. -/
theorem out_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD)
    -- the kernel's transposed input and weight as its region finds them, named
    (xt : Cert.KernelIdeal.S4096x2048.Idx → EReal) (hxt : Cert.KernelIdeal.Gen.V m c Cert.KernelIdeal.main_v1 = xt)
    (wt : Cert.KernelIdeal.S128x4096.Idx → EReal) (hwt : Cert.KernelIdeal.Gen.V m c Cert.KernelIdeal.main_arg3 = wt)
    -- the kernel's four scratches after the last point, read at those
    (hZW : ∀ (ch : Fin 16) (k : Fin 128) (q : Fin 256),
      ((Zf m c).1 : Cert.KernelIdeal.S16x128x256.Idx → EReal) (ix3 ch k q) = wt (ix2 k (flat ch q)))
    (hZS : ∀ (ch : Fin 16) (b : Fin 2048),
      ((Zf m c).2.1 : Cert.KernelIdeal.S16x1x2048.Idx → EReal) (ix3 ch (0 : Fin 1) b) = ∑ q : Fin 256, xt (ix2 (flat ch q) b))
    (hZQ : ∀ (ch : Fin 16) (b : Fin 2048),
      ((Zf m c).2.2.1 : Cert.KernelIdeal.S16x1x2048.Idx → EReal) (ix3 ch (0 : Fin 1) b)
        = ∑ q : Fin 256, xt (ix2 (flat ch q) b) * xt (ix2 (flat ch q) b))
    (hZP : ∀ (ch : Fin 16) (b : Fin 2048) (k : Fin 128),
      ((Zf m c).2.2.2 : Cert.KernelIdeal.S16x2048x128.Idx → EReal) (ix3 ch b k)
        = ∑ q : Fin 256, xt (ix2 (flat ch q) b) * wt (ix2 k (flat ch q))) :
    (RefOut m' c : Cert.ReferenceIdeal.S2048x128.Idx → EReal) = (KerOut m c : Cert.KernelIdeal.S2048x128.Idx → EReal) := by
  obtain ⟨a0, a1, a2, a3, a4⟩ := hagree c
  funext i
  obtain ⟨b, k, rfl⟩ : ∃ (b : Fin 2048) (k : Fin 128), i = ix2 b k := ⟨i 0, i 1, eq_ix2 (n0 := 2048) (n1 := 128) i⟩
  refine out_eq_aux m m' c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (P0 m' c) (S0 m' c) (T0 m' c) rfl rfl rfl a4 a3 ?hX3 ?hW3 ?hGm ?hBt ?hg ?hbt ?hbi ?h7 ?h8 ?h9 ?h10 b k
  case hX3 => exact fun b ch q => Cert.ReferenceIdeal.RefChain.X_apply m' c _ a0 b ch q
  case hW3 => exact fun k ch q => Cert.ReferenceIdeal.RefChain.W_apply m' c _ a3 k ch q
  case hGm =>
    intro ch
    show (Cert.ReferenceIdeal.Gen.V1 m' c Cert.ReferenceIdeal.main_v2 : Cert.ReferenceIdeal.S16x1.Idx → EReal) (ix2 ch (0 : Fin 1)) = _
    rw [Cert.ReferenceIdeal.RefChain.V1_main_v2, a1]
    exact Cert.ReferenceIdeal.RefChain.reshape_col_apply _ _ ch
  case hBt =>
    intro ch
    show (Cert.ReferenceIdeal.Gen.V1 m' c Cert.ReferenceIdeal.main_v3 : Cert.ReferenceIdeal.S16x1.Idx → EReal) (ix2 ch (0 : Fin 1)) = _
    rw [Cert.ReferenceIdeal.RefChain.V1_main_v3, a2]
    exact Cert.ReferenceIdeal.RefChain.reshape_col_apply _ _ ch
  case hg => exact fun ch => Cert.KernelIdeal.KValue.iblk1_apply m c t3 _ rfl ch
  case hbt => exact fun ch => Cert.KernelIdeal.KValue.iblk2_apply m c t3 _ rfl ch
  case hbi => exact fun k => Cert.KernelIdeal.KValue.iblk4_apply m c t3 _ rfl k
  case h7 =>
    intro ch k q
    refine (hZW ch k q).trans ?_
    exact (congrFun hwt.symm _).trans (congrFun (Cert.KernelIdeal.Gen.V_main_arg3 m c) _)
  case h8 =>
    intro ch b
    refine (hZS ch b).trans ?_
    exact Finset.sum_congr rfl fun q _ => (congrFun hxt.symm _).trans (Xt_apply m c _ rfl ch q b)
  case h9 =>
    intro ch b
    refine (hZQ ch b).trans ?_
    exact Finset.sum_congr rfl fun q _ => congrArg₂ (· * ·) ((congrFun hxt.symm _).trans (Xt_apply m c _ rfl ch q b)) ((congrFun hxt.symm _).trans (Xt_apply m c _ rfl ch q b))
  case h10 =>
    intro ch b k
    refine (hZP ch b k).trans ?_
    exact Finset.sum_congr rfl fun q _ => congrArg₂ (· * ·) ((congrFun hxt.symm _).trans (Xt_apply m c _ rfl ch q b)) ((congrFun hwt.symm _).trans (congrFun (Cert.KernelIdeal.Gen.V_main_arg3 m c) _))

end Cert.Bridge

end
-- ==== Proof.KIdealScratchPay.lean ====
/-
  The fused kernel's per-channel arithmetic at an index, over the extended reals: the column sums of a 256-row slice of
  the tile (and of its squares), the product of that slice — contracted along its rows — against a slab of the converted
  weight into a zero accumulator, and a converted weight slab itself. Conversions between float formats are the
  identity here.
-/
import proofs.«170975_g2000502485364553_pallasbulk_1302_22_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KScratch

open Cert.KernelIdeal Cert.KernelIdeal.Gen
open Cert.KernelIdeal.Facts₀ Cert.KernelIdeal.Facts
open Idealize.ShloMosaic Idealize.ShloMosaic.ValueIdx

/-- A [n] vector recast to [1,n] and then to [1,1,n], at an index. -/
theorem cast_row3_apply {α : Type} (x : S2048.Idx → α) (u v : Fin 1) (b : Fin 2048) :
    shapeCast S1x1x2048 (shapeCast S1x2048 x Facts₀.shapeCasts_S2048_S1x2048) Facts₀.shapeCasts_S1x2048_S1x1x2048 (ix3 u v b) = x (ix1 b) := by
  rw [shapeCast_ab_1ab_apply, shapeCast_a_1a_apply]

/-- THE COLUMN SUMS of the 256-row slice at row offset `o` of a tile. -/
theorem sliceSum_apply (o : ℕ) (ho : o + 256 ≤ 1024) (hs : S1024x2048.Slices ![o, 0] S256x2048) (x : FVec Ideal S1024x2048 .f32)
    (hφ : FKind.Formats FTy.f32) (hacc : (0x00000000#32 : BitVec FTy.f32.bits) = FKind.add.neutral FTy.f32 hφ) (u v : Fin 1) (b : Fin 2048) :
    (shapeCast S1x1x2048 (shapeCast S1x2048 (multiReduction (F := Ideal) .add [0] S2048 (extractStridedSlice S256x2048 ![o, 0] x hs : FVec Ideal S256x2048 .f32) 0x00000000#32 Facts₀.reduces_S256x2048_S2048 hφ hacc) Facts₀.shapeCasts_S2048_S1x2048) Facts₀.shapeCasts_S1x2048_S1x1x2048 : FVec Ideal S1x1x2048 .f32) (ix3 u v b)
      = ∑ hw : Fin 256, x (ix2 (⟨o + hw.val, by omega⟩ : Fin 1024) b) := by
  rw [cast_row3_apply]
  refine (Ideal.multiReduction_add_single _ _ _ _ _ (ix1 b)).trans ?_
  refine Finset.sum_congr rfl fun hw _ => ?_
  refine extractStridedSlice_apply _ _ _ _ _ fun a => ?_
  match a with
  | ⟨0, _⟩ => rfl
  | ⟨1, _⟩ => show b.val = 0 + b.val; omega

/-- THE COLUMN SUMS OF SQUARES of the same slice. -/
theorem sliceSq_apply (o : ℕ) (ho : o + 256 ≤ 1024) (hs : S1024x2048.Slices ![o, 0] S256x2048) (x : FVec Ideal S1024x2048 .f32)
    (hφ : FKind.Formats FTy.f32) (hacc : (0x00000000#32 : BitVec FTy.f32.bits) = FKind.add.neutral FTy.f32 hφ) (u v : Fin 1) (b : Fin 2048) :
    (shapeCast S1x1x2048 (shapeCast S1x2048 (multiReduction (F := Ideal) .add [0] S2048 (mulf (F := Ideal) (extractStridedSlice S256x2048 ![o, 0] x hs : FVec Ideal S256x2048 .f32) (extractStridedSlice S256x2048 ![o, 0] x hs : FVec Ideal S256x2048 .f32)) 0x00000000#32 Facts₀.reduces_S256x2048_S2048 hφ hacc) Facts₀.shapeCasts_S2048_S1x2048) Facts₀.shapeCasts_S1x2048_S1x1x2048 : FVec Ideal S1x1x2048 .f32) (ix3 u v b)
      = ∑ hw : Fin 256, x (ix2 (⟨o + hw.val, by omega⟩ : Fin 1024) b) * x (ix2 (⟨o + hw.val, by omega⟩ : Fin 1024) b) := by
  rw [cast_row3_apply]
  refine (Ideal.multiReduction_add_single _ _ _ _ _ (ix1 b)).trans ?_
  refine Finset.sum_congr rfl fun hw _ => ?_
  have hlt : hw.val < 256 := hw.isLt
  have e : (extractStridedSlice S256x2048 ![o, 0] x hs : FVec Ideal S256x2048 .f32) (Facts₀.reduces_S256x2048_S2048.lift (ix1 b) hw) = x (ix2 (⟨o + hw.val, by omega⟩ : Fin 1024) b) := by
    refine extractStridedSlice_apply _ _ _ _ _ fun a => ?_
    match a with
    | ⟨0, _⟩ => rfl
    | ⟨1, _⟩ => show b.val = 0 + b.val; omega
  show (extractStridedSlice S256x2048 ![o, 0] x hs : FVec Ideal S256x2048 .f32) _ * (extractStridedSlice S256x2048 ![o, 0] x hs : FVec Ideal S256x2048 .f32) _ = _
  rw [e]

/-- The transposed-left product's index maps, axis by axis. -/
theorem lhsK_0 (i : S2048x128.Idx) (q : dot_S256x2048_S128x256_S2048x128_0_1_1_0_n_n.contr.Idx) :
    (dot_S256x2048_S128x256_S2048x128_0_1_1_0_n_n.lhsIdx i q 0).val = (q ⟨0, by decide⟩).val :=
  dot_S256x2048_S128x256_S2048x128_0_1_1_0_n_n.lhsIdx_val_of_single rfl i q
theorem lhsK_1 (i : S2048x128.Idx) (q : dot_S256x2048_S128x256_S2048x128_0_1_1_0_n_n.contr.Idx) :
    (dot_S256x2048_S128x256_S2048x128_0_1_1_0_n_n.lhsIdx i q 1).val = (i 0).val := by
  unfold DotDims.lhsIdx
  rw [dif_neg (show ¬(1 : Fin S256x2048.rank) ∈ dot_S256x2048_S128x256_S2048x128_0_1_1_0_n_n.lhsBatch by decide), dif_pos (show (1 : Fin S256x2048.rank) ∈ dot_S256x2048_S128x256_S2048x128_0_1_1_0_n_n.lhsNonContracting by decide)]
  rfl
theorem rhsK_0 (i : S2048x128.Idx) (q : dot_S256x2048_S128x256_S2048x128_0_1_1_0_n_n.contr.Idx) :
    (dot_S256x2048_S128x256_S2048x128_0_1_1_0_n_n.rhsIdx i q 0).val = (i 1).val := by
  unfold DotDims.rhsIdx
  rw [dif_neg (show ¬(0 : Fin S128x256.rank) ∈ dot_S256x2048_S128x256_S2048x128_0_1_1_0_n_n.rhsBatch by decide), dif_pos (show (0 : Fin S128x256.rank) ∈ dot_S256x2048_S128x256_S2048x128_0_1_1_0_n_n.rhsNonContracting by decide)]
  rfl
theorem rhsK_1 (i : S2048x128.Idx) (q : dot_S256x2048_S128x256_S2048x128_0_1_1_0_n_n.contr.Idx) :
    (dot_S256x2048_S128x256_S2048x128_0_1_1_0_n_n.rhsIdx i q 1).val = (q ⟨0, by decide⟩).val :=
  dot_S256x2048_S128x256_S2048x128_0_1_1_0_n_n.rhsIdx_val_of_single rfl i q

/-- The product of a [256,2048] slice, contracted along its rows, against a [128,256] slab along its columns, into zero. -/
theorem matmulT_zero_apply (l : FVec Ideal S256x2048 .bf16) (r : FVec Ideal S128x256 .bf16) (b : Fin 2048) (k : Fin 128) :
    (matmul dot_S256x2048_S128x256_S2048x128_0_1_1_0_n_n none l r (constant (F := Ideal) S2048x128 .f32 0x00000000#32) : FVec Ideal S2048x128 .f32) (ix2 b k)
      = ∑ hw : Fin 256, l (ix2 hw b) * r (ix2 k hw) := by
  refine (Ideal.matmul_constant_zero_apply dot_S256x2048_S128x256_S2048x128_0_1_1_0_n_n none l r (ix2 b k)).trans ?_
  rw [← Equiv.sum_comp (contrEquiv1 dot_S256x2048_S128x256_S2048x128_0_1_1_0_n_n 256 rfl rfl).symm]
  refine Finset.sum_congr rfl fun hw _ => ?_
  have hk := contrEquiv1_symm_val dot_S256x2048_S128x256_S2048x128_0_1_1_0_n_n 256 rfl rfl hw
  have el : dot_S256x2048_S128x256_S2048x128_0_1_1_0_n_n.lhsIdx (ix2 b k) ((contrEquiv1 dot_S256x2048_S128x256_S2048x128_0_1_1_0_n_n 256 rfl rfl).symm hw) = ix2 hw b := funext fun a => Fin.ext (by
    match a with
    | ⟨0, _⟩ => exact (lhsK_0 _ _).trans hk
    | ⟨1, _⟩ => exact lhsK_1 _ _)
  have er : dot_S256x2048_S128x256_S2048x128_0_1_1_0_n_n.rhsIdx (ix2 b k) ((contrEquiv1 dot_S256x2048_S128x256_S2048x128_0_1_1_0_n_n 256 rfl rfl).symm hw) = ix2 k hw := funext fun a => Fin.ext (by
    match a with
    | ⟨0, _⟩ => exact rhsK_0 _ _
    | ⟨1, _⟩ => exact (rhsK_1 _ _).trans hk)
  rw [el, er]

/-- ONE CHANNEL'S PRODUCT: the slice at row offset `o` of the converted tile against a slab of the converted weight. -/
theorem chanProdK_apply (o : ℕ) (ho : o + 256 ≤ 1024) (hs : S1024x2048.Slices ![o, 0] S256x2048) (xb : FVec Ideal S1024x2048 .bf16)
    (ws : Vec Ideal S1x128x256 .bf16) (u : Fin 1) (b : Fin 2048) (k : Fin 128) :
    (shapeCast S1x2048x128 (matmul dot_S256x2048_S128x256_S2048x128_0_1_1_0_n_n none
        (extractStridedSlice S256x2048 ![o, 0] xb hs : FVec Ideal S256x2048 .bf16)
        (shapeCast S128x256 ws Facts₀.shapeCasts_S1x128x256_S128x256 : FVec Ideal S128x256 .bf16)
        (constant (F := Ideal) S2048x128 .f32 0x00000000#32)) Facts₀.shapeCasts_S2048x128_S1x2048x128 : FVec Ideal S1x2048x128 .f32) (ix3 u b k)
      = ∑ hw : Fin 256, xb (ix2 (⟨o + hw.val, by omega⟩ : Fin 1024) b) * ws (ix3 (0 : Fin 1) k hw) := by
  rw [shapeCast_ab_1ab_apply, matmulT_zero_apply]
  refine Finset.sum_congr rfl fun hw _ => ?_
  rw [shapeCast_1ab_ab_apply]
  congr 1
  refine extractStridedSlice_apply _ _ _ _ _ fun a => ?_
  match a with
  | ⟨0, _⟩ => rfl
  | ⟨1, _⟩ => show b.val = 0 + b.val; omega

/-- A CONVERTED WEIGHT SLAB at an index: the weight's entries (the conversion is the identity here). -/
theorem wslab_apply (w : Vec Ideal S128x256 .f32) (u : Fin 1) (k : Fin 128) (hw : Fin 256) :
    (shapeCast S1x128x256 (truncf (F := Ideal) .bf16 (w : FVec Ideal S128x256 .f32) Facts₀.bitsLt_bf16_f32 : FVec Ideal S128x256 .bf16) Facts₀.shapeCasts_S128x256_S1x128x256 : FVec Ideal S1x128x256 .bf16) (ix3 u k hw)
      = w (ix2 k hw) := by
  rw [shapeCast_ab_1ab_apply]; rfl

end Cert.KernelIdeal.KScratch

end
-- ==== Proof.KIdealScratchBand.lean ====
/-
  What a stored row of a sum scratch, a stored slab of the partial products and a stored slab of the converted weight
  hold, as functions of the point's tile, of the converted weight and of the weight: the column sums of a 256-row slice of
  the tile (and of its squares), the slice's product against the weight slab, the weight's column block — and each of
  them read at an index of the rectangle its store names.
-/
import proofs.«170975_g2000502485364553_pallasbulk_1302_22_alg».proof.Proof.KIdealDat
import proofs.«170975_g2000502485364553_pallasbulk_1302_22_alg».proof.Proof.KIdealScratchPay

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem hzK2 : (![0, 0] : Fin 2 → Nat) = fun _ => 0 := funext fun a => by fin_cases a <;> rfl

/-- The stored rows' and slabs' offsets in closed form. -/
theorem off1_0 (i : grid0.Coords) : k0_off1 i (0#32) = ![4 * (i 0).val + 0, 0, 0] := Gen.k0_off1_eq i ⟨0, by decide⟩
theorem off1_1 (i : grid0.Coords) : k0_off1 i (1#32) = ![4 * (i 0).val + 1, 0, 0] := Gen.k0_off1_eq i ⟨1, by decide⟩
theorem off1_2 (i : grid0.Coords) : k0_off1 i (2#32) = ![4 * (i 0).val + 2, 0, 0] := Gen.k0_off1_eq i ⟨2, by decide⟩
theorem off1_3 (i : grid0.Coords) : k0_off1 i (3#32) = ![4 * (i 0).val + 3, 0, 0] := Gen.k0_off1_eq i ⟨3, by decide⟩
theorem off2_0 (i : grid0.Coords) : k0_off2 i (0#32) = ![4 * (i 0).val + 0, 0, 0] := Gen.k0_off2_eq i ⟨0, by decide⟩
theorem off2_1 (i : grid0.Coords) : k0_off2 i (1#32) = ![4 * (i 0).val + 1, 0, 0] := Gen.k0_off2_eq i ⟨1, by decide⟩
theorem off2_2 (i : grid0.Coords) : k0_off2 i (2#32) = ![4 * (i 0).val + 2, 0, 0] := Gen.k0_off2_eq i ⟨2, by decide⟩
theorem off2_3 (i : grid0.Coords) : k0_off2 i (3#32) = ![4 * (i 0).val + 3, 0, 0] := Gen.k0_off2_eq i ⟨3, by decide⟩
theorem off3_0 (i : grid0.Coords) : k0_off3 i (0#32) = ![4 * (i 0).val + 0, 0, 0] := Gen.k0_off3_eq i ⟨0, by decide⟩
theorem off3_1 (i : grid0.Coords) : k0_off3 i (1#32) = ![4 * (i 0).val + 1, 0, 0] := Gen.k0_off3_eq i ⟨1, by decide⟩
theorem off3_2 (i : grid0.Coords) : k0_off3 i (2#32) = ![4 * (i 0).val + 2, 0, 0] := Gen.k0_off3_eq i ⟨2, by decide⟩
theorem off3_3 (i : grid0.Coords) : k0_off3 i (3#32) = ![4 * (i 0).val + 3, 0, 0] := Gen.k0_off3_eq i ⟨3, by decide⟩

/-- A scratch read back whole. -/
theorem rdW0 (h : (scM0_0 : Memref sig .tc .vmem S16x128x256 .bf16).IsWhole) (x : Vec Ideal S16x128x256 .bf16) :
    scM0_0.view.read (Elt Ideal) (h.unread x) = x := h.read_unread x
theorem rdS1 (h : (scM0_1 : Memref sig .tc .vmem S16x1x2048 .f32).IsWhole) (x : Vec Ideal S16x1x2048 .f32) :
    scM0_1.view.read (Elt Ideal) (h.unread x) = x := h.read_unread x
theorem rdS2 (h : (scM0_2 : Memref sig .tc .vmem S16x1x2048 .f32).IsWhole) (x : Vec Ideal S16x1x2048 .f32) :
    scM0_2.view.read (Elt Ideal) (h.unread x) = x := h.read_unread x
theorem rdS3 (h : (scM0_3 : Memref sig .tc .vmem S16x2048x128 .f32).IsWhole) (x : Vec Ideal S16x2048x128 .f32) :
    scM0_3.view.read (Elt Ideal) (h.unread x) = x := h.read_unread x

/-- Row `r` of a sum scratch, from a tile: the column sums of the tile's slice `r mod 4`. -/
def band1 (x0 : Vec Ideal S1024x2048 .f32) : S16x1x2048.Idx → Ideal .f32 :=
  fun y => ∑ hw : Fin 256, x0 (ix2 (⟨(y 0).val % 4 * 256 + hw.val, by have := Nat.mod_lt (y 0).val (by decide : 0 < 4); have := hw.isLt; omega⟩ : Fin 1024) (y 2 : Fin 2048))
/-- Row `r` of the sum-of-squares scratch. -/
def band2 (x0 : Vec Ideal S1024x2048 .f32) : S16x1x2048.Idx → Ideal .f32 :=
  fun y => ∑ hw : Fin 256, x0 (ix2 (⟨(y 0).val % 4 * 256 + hw.val, by have := Nat.mod_lt (y 0).val (by decide : 0 < 4); have := hw.isLt; omega⟩ : Fin 1024) (y 2 : Fin 2048))
    * x0 (ix2 (⟨(y 0).val % 4 * 256 + hw.val, by have := Nat.mod_lt (y 0).val (by decide : 0 < 4); have := hw.isLt; omega⟩ : Fin 1024) (y 2 : Fin 2048))

/-- The row functions at an index of a stored row's rectangle. -/
theorem band1_emb (x0 : Vec Ideal S1024x2048 .f32) (off : Fin 3 → ℕ) (inb : ∀ a, off a + S1x1x2048.size a ≤ S16x1x2048.size a) (o : ℕ) (ho : o + 256 ≤ 1024)
    (u v : Fin 1) (b : Fin 2048) (h0 : off 0 % 4 * 256 = o) (h2 : off 2 = 0) :
    band1 x0 ((Rect.unit (s := S16x1x2048) off S1x1x2048.size inb).emb (ix3 u v b)) = ∑ hw : Fin 256, x0 (ix2 (⟨o + hw.val, by omega⟩ : Fin 1024) b) := by
  unfold band1
  refine Finset.sum_congr rfl fun hw _ => congrArg x0 (funext fun a => Fin.ext ?_)
  match a with
  | ⟨0, _⟩ => show (off 0 + 1 * u.val) % 4 * 256 + hw.val = o + hw.val; have := u.isLt; rw [show off 0 + 1 * u.val = off 0 by omega, h0]
  | ⟨1, _⟩ => show off 2 + 1 * b.val = b.val; omega
theorem band2_emb (x0 : Vec Ideal S1024x2048 .f32) (off : Fin 3 → ℕ) (inb : ∀ a, off a + S1x1x2048.size a ≤ S16x1x2048.size a) (o : ℕ) (ho : o + 256 ≤ 1024)
    (u v : Fin 1) (b : Fin 2048) (h0 : off 0 % 4 * 256 = o) (h2 : off 2 = 0) :
    band2 x0 ((Rect.unit (s := S16x1x2048) off S1x1x2048.size inb).emb (ix3 u v b)) = ∑ hw : Fin 256, x0 (ix2 (⟨o + hw.val, by omega⟩ : Fin 1024) b) * x0 (ix2 (⟨o + hw.val, by omega⟩ : Fin 1024) b) := by
  unfold band2
  refine Finset.sum_congr rfl fun hw _ => ?_
  have e : (ix2 (⟨((Rect.unit (s := S16x1x2048) off S1x1x2048.size inb).emb (ix3 u v b) 0).val % 4 * 256 + hw.val, by have := Nat.mod_lt ((Rect.unit (s := S16x1x2048) off S1x1x2048.size inb).emb (ix3 u v b) 0).val (by decide : 0 < 4); have := hw.isLt; omega⟩ : Fin 1024) ((Rect.unit (s := S16x1x2048) off S1x1x2048.size inb).emb (ix3 u v b) 2 : Fin 2048) : S1024x2048.Idx)
      = ix2 (⟨o + hw.val, by omega⟩ : Fin 1024) b := funext fun a => Fin.ext (by
    match a with
    | ⟨0, _⟩ => show (off 0 + 1 * u.val) % 4 * 256 + hw.val = o + hw.val; have := u.isLt; rw [show off 0 + 1 * u.val = off 0 by omega, h0]
    | ⟨1, _⟩ => show off 2 + 1 * b.val = b.val; omega)
  rw [e]

/-- Slab `r` of the partial products, from a tile and the converted weight: slice `r mod 4` of the tile against slab `r`. -/
def band3 (x0 : Vec Ideal S1024x2048 .f32) (wb : Vec Ideal S16x128x256 .bf16) : S16x2048x128.Idx → Ideal .f32 :=
  fun y => ∑ hw : Fin 256, x0 (ix2 (⟨(y 0).val % 4 * 256 + hw.val, by have := Nat.mod_lt (y 0).val (by decide : 0 < 4); have := hw.isLt; omega⟩ : Fin 1024) (y 1 : Fin 2048))
    * wb (ix3 (y 0 : Fin 16) (y 2 : Fin 128) hw)

theorem band3_emb (x0 : Vec Ideal S1024x2048 .f32) (wb : Vec Ideal S16x128x256 .bf16) (off : Fin 3 → ℕ) (inb : ∀ a, off a + S1x2048x128.size a ≤ S16x2048x128.size a)
    (off2 : Fin 3 → ℕ) (inb2 : ∀ a, off2 a + S1x128x256.size a ≤ S16x128x256.size a) (o : ℕ) (ho : o + 256 ≤ 1024)
    (u : Fin 1) (b : Fin 2048) (k : Fin 128) (h0 : off 0 % 4 * 256 = o) (h1 : off 1 = 0) (h2 : off 2 = 0) (g0 : off2 0 = off 0) (g1 : off2 1 = 0) (g2 : off2 2 = 0) :
    band3 x0 wb ((Rect.unit (s := S16x2048x128) off S1x2048x128.size inb).emb (ix3 u b k))
      = ∑ hw : Fin 256, (x0 (ix2 (⟨o + hw.val, by omega⟩ : Fin 1024) b) : Ideal .bf16) * (View.ld wb (Rect.unit (s := S16x128x256) off2 S1x128x256.size inb2)) (ix3 (0 : Fin 1) k hw) := by
  unfold band3
  refine Finset.sum_congr rfl fun hw _ => ?_
  have hu : u.val = 0 := by have := u.isLt; omega
  have e1 : (ix2 (⟨((Rect.unit (s := S16x2048x128) off S1x2048x128.size inb).emb (ix3 u b k) 0).val % 4 * 256 + hw.val, by have := Nat.mod_lt ((Rect.unit (s := S16x2048x128) off S1x2048x128.size inb).emb (ix3 u b k) 0).val (by decide : 0 < 4); have := hw.isLt; omega⟩ : Fin 1024) ((Rect.unit (s := S16x2048x128) off S1x2048x128.size inb).emb (ix3 u b k) 1 : Fin 2048) : S1024x2048.Idx)
      = ix2 (⟨o + hw.val, by omega⟩ : Fin 1024) b := funext fun a => Fin.ext (by
    match a with
    | ⟨0, _⟩ => show (off 0 + 1 * u.val) % 4 * 256 + hw.val = o + hw.val; rw [show off 0 + 1 * u.val = off 0 by omega, h0]
    | ⟨1, _⟩ => show off 1 + 1 * b.val = b.val; omega)
  have e2 : (ix3 ((Rect.unit (s := S16x2048x128) off S1x2048x128.size inb).emb (ix3 u b k) 0 : Fin 16) ((Rect.unit (s := S16x2048x128) off S1x2048x128.size inb).emb (ix3 u b k) 2 : Fin 128) hw : S16x128x256.Idx)
      = (Rect.unit (s := S16x128x256) off2 S1x128x256.size inb2).emb (ix3 (0 : Fin 1) k hw) := funext fun a => Fin.ext (by
    match a with
    | ⟨0, _⟩ => show off 0 + 1 * u.val = off2 0 + 1 * 0; omega
    | ⟨1, _⟩ => show off 2 + 1 * k.val = off2 1 + 1 * k.val; omega
    | ⟨2, _⟩ => show hw.val = off2 2 + 1 * hw.val; omega)
  rw [e1, e2]; rfl

/-- The weight [128,4096] as sixteen slabs [128,256]. -/
def wfun (x3 : Vec Ideal S128x4096 .f32) : S16x128x256.Idx → Ideal .bf16 :=
  fun y => x3 (ix2 (y 1 : Fin 128) (⟨(y 0).val * 256 + (y 2).val, by have h0 : (y 0).val < 16 := (y 0).isLt; have h2 : (y 2).val < 256 := (y 2).isLt; omega⟩ : Fin 4096))

/-- The slab function at an index of slab `cc`'s rectangle is the weight's column block `cc` there. -/
theorem wfun_emb (cc o : ℕ) (ho : o = cc * 256) (hcc : cc < 16) (inb : ∀ a, (![cc, 0, 0] : Fin 3 → ℕ) a + S1x128x256.size a ≤ S16x128x256.size a)
    (inbL : ∀ a, (![0, o] : Fin 2 → ℕ) a + S128x256.size a ≤ S128x4096.size a)
    (x3 : Vec Ideal S128x4096 .f32) (u : Fin 1) (k : Fin 128) (hw : Fin 256) :
    wfun x3 ((Rect.unit (s := S16x128x256) ![cc, 0, 0] S1x128x256.size inb).emb (ix3 u k hw))
      = (View.ld x3 (Rect.unit (s := S128x4096) ![0, o] S128x256.size inbL)) (ix2 k hw) := by
  subst ho
  unfold wfun
  show x3 _ = x3 _
  refine congrArg x3 (funext fun a => Fin.ext ?_)
  match a with
  | ⟨0, _⟩ => show 0 + 1 * k.val = 0 + 1 * k.val; rfl
  | ⟨1, _⟩ => show (cc + 1 * u.val) * 256 + (0 + 1 * hw.val) = cc * 256 + 1 * hw.val; have := u.isLt; omega

end Cert.KernelIdeal.KScratch

end
-- ==== Proof.KIdealScratchProdA.lean ====
/-
  The partial-product scratch after the first point, over the extended reals: the first point converts the weight into
  its scratch and then multiplies against the slabs it has just stored, so its four slabs hold the tile's slices'
  products against the weight's first four column blocks; every other slab holds what it held.
-/
import proofs.«170975_g2000502485364553_pallasbulk_1302_22_alg».proof.Proof.KIdealRowsA
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- Stores whose payloads all agree with one function, covering the buffer, leave that function. -/
theorem read_writes_of_pieces {sg : RefSig} {κ : Kind} {sp : Space} {s : Shape} {e : EltTy} (v : View sg κ sp s e) (f : v.ty.Contents (Elt Ideal))
    (G : s.Idx → Elt Ideal e) (L : List (View.Piece (Elt Ideal) s e))
    (hG : ∀ p ∈ L, ∀ x : p.1.shape.Idx, p.2 x = G (p.1.emb x)) (hcov : ∀ y, ∃ p ∈ L, y ∈ p.1.set) :
    v.read (Elt Ideal) (v.writes (Elt Ideal) f L) = G :=
  funext fun y => View.read_writes_apply_of_pieces v f G L hG y (hcov y)

/-- `band3_emb` over the converted tile, as the run spells it. -/
theorem band3_embA (x0 : Vec Ideal S1024x2048 .f32) (wb : Vec Ideal S16x128x256 .bf16)
    (off : Fin 3 → ℕ) (inb : ∀ a, off a + S1x2048x128.size a ≤ S16x2048x128.size a)
    (off2 : Fin 3 → ℕ) (inb2 : ∀ a, off2 a + S1x128x256.size a ≤ S16x128x256.size a) (o : ℕ) (ho : o + 256 ≤ 1024)
    (u : Fin 1) (b : Fin 2048) (k : Fin 128) (h0 : off 0 % 4 * 256 = o) (h1 : off 1 = 0) (h2 : off 2 = 0) (g0 : off2 0 = off 0) (g1 : off2 1 = 0) (g2 : off2 2 = 0) :
    band3 x0 wb ((Rect.unit (s := S16x2048x128) off S1x2048x128.size inb).emb (ix3 u b k))
      = ∑ hw : Fin 256, (truncf (F := Ideal) .bf16 (x0 : FVec Ideal S1024x2048 .f32) Gen.bitsLt_bf16_f32 : FVec Ideal S1024x2048 .bf16) (ix2 (⟨o + hw.val, by omega⟩ : Fin 1024) b)
          * View.ld wb (Rect.unit (s := S16x128x256) off2 S1x128x256.size inb2) (ix3 (0 : Fin 1) k hw) :=
  band3_emb x0 wb off inb off2 inb2 o ho u b k h0 h1 h2 g0 g1 g2

set_option maxHeartbeats 8000000 in
/-- The slabs the first point stores in the partial-product scratch. -/
theorem inA3 (c : Dev nD) (t : Fin cfg0.N) (h0 : t.val % 4 = 0) (h1 : ¬t.val % 4 = 3) (j : St Ideal) (y : S16x2048x128.Idx)
    (hy : 4 * t.val ≤ (y 0).val ∧ (y 0).val < 4 * t.val + 4) :
    (stepA m c t h0 h1 j).2.2.2 y = band3 (iblk m c 0 t) (wfun (iblk m c 3 t)) y := by
  have hcov := (rowsA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2 y).mpr (by rw [coords_val]; exact hy)
  unfold stepA
  dsimp only
  refine View.read_writes_apply_of_pieces _ _ (band3 (iblk m c 0 t) (wfun (iblk m c 3 t))) _ ?_ y hcov
  unfold kernelRun0_A
  dsimp only
  sl_unfold_run_names
  simp only [View.readAt_eq_ld, Memref.IsWhole.read_unread, View.ld_unit_zero (S := S1024x2048) hzK2]
  simp only [k0_pay40, k0_pay45, k0_pay49, k0_pay53, k0_pay36, k0_pay35, shapeCast_self, k0_pay2, k0_pay3, k0_pay4, k0_pay5, k0_pay6, k0_pay7, k0_pay8, k0_pay9, k0_pay10, k0_pay11, k0_pay12, k0_pay13, k0_pay30, k0_pay31, k0_pay32, k0_pay33, k0_pay34]
  intro p hp
  simp only [List.mem_cons, List.not_mem_nil, or_false] at hp
  rcases hp with rfl | rfl | rfl | rfl
  all_goals
    intro x
    obtain ⟨u, b, k, rfl⟩ : ∃ (u : Fin 1) (b : Fin 2048) (k : Fin 128), x = ix3 u b k := ⟨x 0, x 1, x 2, eq_ix3 x⟩
    refine (chanProdK_apply _ (by decide) _ _ _ u b k).trans ?_
    rw [read_writes_of_pieces (G := wfun (iblk m c 3 t))]
    · symm
      apply band3_embA
      all_goals first
        | omega
        | (simp only [off2_0, off2_1, off2_2, off2_3, off3_0, off3_1, off3_2, off3_3, Matrix.cons_val_zero]; first | done | omega | rfl)
        | exact Facts₀.k0_off3_inb _ ⟨0, by decide⟩
        | exact Facts₀.k0_off3_inb _ ⟨1, by decide⟩
        | exact Facts₀.k0_off3_inb _ ⟨2, by decide⟩
        | exact Facts₀.k0_off3_inb _ ⟨3, by decide⟩
        | exact Facts₀.k0_off2_inb _ ⟨0, by decide⟩
        | exact Facts₀.k0_off2_inb _ ⟨1, by decide⟩
        | exact Facts₀.k0_off2_inb _ ⟨2, by decide⟩
        | exact Facts₀.k0_off2_inb _ ⟨3, by decide⟩
        | decide
    · intro p hp
      simp only [List.mem_cons, List.not_mem_nil, _root_.or_false] at hp
      rcases hp with rfl | rfl | rfl | rfl | rfl | rfl | rfl | rfl | rfl | rfl | rfl | rfl | rfl | rfl | rfl | rfl
      all_goals
        intro x
        obtain ⟨u', k', hw', rfl⟩ : ∃ (u' : Fin 1) (k' : Fin 128) (hw' : Fin 256), x = ix3 u' k' hw' := ⟨x 0, x 1, x 2, eq_ix3 x⟩
        refine (wslab_apply _ u' k' hw').trans ?_
        symm
        apply wfun_emb
        all_goals decide
    · exact fun y' => View.cover_of_tiledL (s := S16x128x256) _ S1x128x256.size (by sl_kernel_rfl) y'

end Cert.KernelIdeal.KScratch

end
-- ==== Proof.KIdealScratchProdB.lean ====
/-
  The partial-product scratch after a middle point, over the extended reals: the four slabs the point stores hold, at (batch
  row, class), the sum over the 256 feature positions of the tile's slice entry times the converted weight's slab entry;
  every other slab holds what it held.
-/
import proofs.«170975_g2000502485364553_pallasbulk_1302_22_alg».proof.Proof.KIdealRowsB
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The converted-weight scratch read back whole. -/
theorem rdW0' (h : (scM0_0 : Memref sig .tc .vmem S16x128x256 .bf16).IsWhole) (x : Vec Ideal S16x128x256 .bf16) :
    View.read (Elt Ideal) (View.whole cc0_scratch0) (h.unread x) = x := h.read_unread x

/-- `band3_emb` over the converted tile and the scratch read back, as the run spells them. -/
theorem band3_emb' (x0 : Vec Ideal S1024x2048 .f32) (wb : Vec Ideal S16x128x256 .bf16) (hW : (scM0_0 : Memref sig .tc .vmem S16x128x256 .bf16).IsWhole)
    (off : Fin 3 → ℕ) (inb : ∀ a, off a + S1x2048x128.size a ≤ S16x2048x128.size a)
    (off2 : Fin 3 → ℕ) (inb2 : ∀ a, off2 a + S1x128x256.size a ≤ S16x128x256.size a) (o : ℕ) (ho : o + 256 ≤ 1024)
    (u : Fin 1) (b : Fin 2048) (k : Fin 128) (h0 : off 0 % 4 * 256 = o) (h1 : off 1 = 0) (h2 : off 2 = 0) (g0 : off2 0 = off 0) (g1 : off2 1 = 0) (g2 : off2 2 = 0) :
    band3 x0 wb ((Rect.unit (s := S16x2048x128) off S1x2048x128.size inb).emb (ix3 u b k))
      = ∑ hw : Fin 256, (truncf (F := Ideal) .bf16 (x0 : FVec Ideal S1024x2048 .f32) Gen.bitsLt_bf16_f32 : FVec Ideal S1024x2048 .bf16) (ix2 (⟨o + hw.val, by omega⟩ : Fin 1024) b)
          * View.ld (View.read (Elt Ideal) (View.whole cc0_scratch0) (hW.unread wb)) (Rect.unit (s := S16x128x256) off2 S1x128x256.size inb2) (ix3 (0 : Fin 1) k hw) := by
  rw [rdW0' hW wb]
  exact band3_emb x0 wb off inb off2 inb2 o ho u b k h0 h1 h2 g0 g1 g2

set_option maxHeartbeats 4000000 in
/-- The slabs point `t` stores in the partial-product scratch. -/
theorem inB3 (c : Dev nD) (t : Fin cfg0.N) (h0 : ¬t.val % 4 = 0) (h1 : ¬t.val % 4 = 3) (s : St Ideal) (y : S16x2048x128.Idx)
    (hy : 4 * t.val ≤ (y 0).val ∧ (y 0).val < 4 * t.val + 4) :
    (stepB m c t h0 h1 s).2.2.2 y = band3 (iblk m c 0 t) s.1 y := by
  have hcov := (rowsB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2 y).mpr (by rw [coords_val]; exact hy)
  unfold stepB
  dsimp only
  refine View.read_writes_apply_of_pieces _ _ (band3 (iblk m c 0 t) s.1) _ ?_ y hcov
  unfold kernelRun0_B
  dsimp only
  sl_unfold_run_names
  simp only [View.readAt_eq_ld, Memref.IsWhole.read_unread, View.ld_unit_zero (S := S1024x2048) hzK2, rdW0]
  simp only [k0_pay40, k0_pay45, k0_pay49, k0_pay53, k0_pay36, k0_pay35, shapeCast_self]
  intro p hp
  simp only [List.mem_cons, List.not_mem_nil, or_false] at hp
  rcases hp with rfl | rfl | rfl | rfl
  all_goals
    intro x
    obtain ⟨u, b, k, rfl⟩ : ∃ (u : Fin 1) (b : Fin 2048) (k : Fin 128), x = ix3 u b k := ⟨x 0, x 1, x 2, eq_ix3 x⟩
    simp only [shapeCast_self]
    refine (chanProdK_apply _ (by decide) _ _ _ u b k).trans ?_
    symm
    refine band3_emb' _ _ _ _ _ _ _ _ (by decide) u b k ?_ ?_ ?_ ?_ ?_ ?_
    all_goals (simp only [off2_0, off2_1, off2_2, off2_3, off3_0, off3_1, off3_2, off3_3, Matrix.cons_val_zero]; first | done | omega | rfl)

/-- The rows point `t` leaves in scratch 3. -/
theorem outB3 (c : Dev nD) (t : Fin cfg0.N) (h0 : ¬t.val % 4 = 0) (h1 : ¬t.val % 4 = 3) (s : St Ideal) (y : S16x2048x128.Idx)
    (hy : ¬(4 * t.val ≤ (y 0).val ∧ (y 0).val < 4 * t.val + 4)) :
    (stepB m c t h0 h1 s).2.2.2 y = s.2.2.2 y := by
  have hn : ∀ p ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2).2.2.1, y ∉ p.1.set := fun p hp hm => hy (by
    have := (rowsB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2 y).mp ⟨p, hp, hm⟩
    rwa [coords_val] at this)
  unfold stepB
  dsimp only
  rw [View.read_writes_apply_of_forall_not_mem _ _ y _ hn]
  exact congrFun (rdS3 _ _) y

end Cert.KernelIdeal.KScratch

end
-- ==== Proof.KIdealScratchProdC.lean ====
/-
  The partial-product scratch after the last point, over the extended reals: the four slabs the point stores hold, at (batch
  row, class), the sum over the 256 feature positions of the tile's slice entry times the converted weight's slab entry;
  every other slab holds what it held.
-/
import proofs.«170975_g2000502485364553_pallasbulk_1302_22_alg».proof.Proof.KIdealRowsC
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The converted-weight scratch read back whole. -/
theorem rdW0' (h : (scM0_0 : Memref sig .tc .vmem S16x128x256 .bf16).IsWhole) (x : Vec Ideal S16x128x256 .bf16) :
    View.read (Elt Ideal) (View.whole cc0_scratch0) (h.unread x) = x := h.read_unread x

/-- `band3_emb` over the converted tile and the scratch read back, as the run spells them. -/
theorem band3_emb' (x0 : Vec Ideal S1024x2048 .f32) (wb : Vec Ideal S16x128x256 .bf16) (hW : (scM0_0 : Memref sig .tc .vmem S16x128x256 .bf16).IsWhole)
    (off : Fin 3 → ℕ) (inb : ∀ a, off a + S1x2048x128.size a ≤ S16x2048x128.size a)
    (off2 : Fin 3 → ℕ) (inb2 : ∀ a, off2 a + S1x128x256.size a ≤ S16x128x256.size a) (o : ℕ) (ho : o + 256 ≤ 1024)
    (u : Fin 1) (b : Fin 2048) (k : Fin 128) (h0 : off 0 % 4 * 256 = o) (h1 : off 1 = 0) (h2 : off 2 = 0) (g0 : off2 0 = off 0) (g1 : off2 1 = 0) (g2 : off2 2 = 0) :
    band3 x0 wb ((Rect.unit (s := S16x2048x128) off S1x2048x128.size inb).emb (ix3 u b k))
      = ∑ hw : Fin 256, (truncf (F := Ideal) .bf16 (x0 : FVec Ideal S1024x2048 .f32) Gen.bitsLt_bf16_f32 : FVec Ideal S1024x2048 .bf16) (ix2 (⟨o + hw.val, by omega⟩ : Fin 1024) b)
          * View.ld (View.read (Elt Ideal) (View.whole cc0_scratch0) (hW.unread wb)) (Rect.unit (s := S16x128x256) off2 S1x128x256.size inb2) (ix3 (0 : Fin 1) k hw) := by
  rw [rdW0' hW wb]
  exact band3_emb x0 wb off inb off2 inb2 o ho u b k h0 h1 h2 g0 g1 g2

set_option maxHeartbeats 4000000 in
/-- The slabs point `t` stores in the partial-product scratch. -/
theorem inC3 (c : Dev nD) (t : Fin cfg0.N) (h0 : ¬t.val % 4 = 0) (h1 : t.val % 4 = 3) (s : St Ideal) (y : S16x2048x128.Idx)
    (hy : 4 * t.val ≤ (y 0).val ∧ (y 0).val < 4 * t.val + 4) :
    (stepC m c t h0 h1 s).2.2.2 y = band3 (iblk m c 0 t) s.1 y := by
  have hcov := (rowsC3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2 y).mpr (by rw [coords_val]; exact hy)
  unfold stepC
  dsimp only
  refine View.read_writes_apply_of_pieces _ _ (band3 (iblk m c 0 t) s.1) _ ?_ y hcov
  unfold kernelRun0_C
  dsimp only
  sl_unfold_run_names
  simp only [View.readAt_eq_ld, Memref.IsWhole.read_unread, View.ld_unit_zero (S := S1024x2048) hzK2, rdW0]
  simp only [k0_pay40, k0_pay45, k0_pay49, k0_pay53, k0_pay36, k0_pay35, shapeCast_self]
  intro p hp
  simp only [List.mem_cons, List.not_mem_nil, or_false] at hp
  rcases hp with rfl | rfl | rfl | rfl
  all_goals
    intro x
    obtain ⟨u, b, k, rfl⟩ : ∃ (u : Fin 1) (b : Fin 2048) (k : Fin 128), x = ix3 u b k := ⟨x 0, x 1, x 2, eq_ix3 x⟩
    simp only [shapeCast_self]
    refine (chanProdK_apply _ (by decide) _ _ _ u b k).trans ?_
    symm
    refine band3_emb' _ _ _ _ _ _ _ _ (by decide) u b k ?_ ?_ ?_ ?_ ?_ ?_
    all_goals (simp only [off2_0, off2_1, off2_2, off2_3, off3_0, off3_1, off3_2, off3_3, Matrix.cons_val_zero]; first | done | omega | rfl)

/-- The rows point `t` leaves in scratch 3. -/
theorem outC3 (c : Dev nD) (t : Fin cfg0.N) (h0 : ¬t.val % 4 = 0) (h1 : t.val % 4 = 3) (s : St Ideal) (y : S16x2048x128.Idx)
    (hy : ¬(4 * t.val ≤ (y 0).val ∧ (y 0).val < 4 * t.val + 4)) :
    (stepC m c t h0 h1 s).2.2.2 y = s.2.2.2 y := by
  have hn : ∀ p ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2).2.2.2.1, y ∉ p.1.set := fun p hp hm => hy (by
    have := (rowsC3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2 y).mp ⟨p, hp, hm⟩
    rwa [coords_val] at this)
  unfold stepC
  dsimp only
  rw [View.read_writes_apply_of_forall_not_mem _ _ y _ hn]
  exact congrFun (rdS3 _ _) y

end Cert.KernelIdeal.KScratch

end
-- ==== Proof.KIdealScratchW.lean ====
/-
  The converted-weight scratch after the first point, over the extended reals: its sixteen slabs, stored at that point
  and never again, are the weight's sixteen column blocks — slab `cc` holds at (class, feature position) the weight's
  entry at (class, `cc · 256 +` position).
-/
import proofs.«170975_g2000502485364553_pallasbulk_1302_22_alg».proof.Proof.KIdealRowsBase
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

set_option maxHeartbeats 4000000 in
/-- THE CONVERTED WEIGHT after the first point. -/
theorem stepA_W (c : Dev nD) (t : Fin cfg0.N) (h0 : t.val % 4 = 0) (h1 : ¬t.val % 4 = 3) (j : St Ideal) :
    (stepA m c t h0 h1 j).1 = wfun (iblk m c 3 t) := by
  funext y
  have hcov := scoverA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2 y
  unfold stepA
  dsimp only
  refine View.read_writes_apply_of_pieces _ _ (wfun (iblk m c 3 t)) _ ?_ y hcov
  unfold kernelRun0_A
  dsimp only
  sl_unfold_run_names
  simp only [View.readAt_eq_ld, Memref.IsWhole.read_unread]
  unfold k0_pay2 k0_pay3 k0_pay4 k0_pay5 k0_pay6 k0_pay7 k0_pay8 k0_pay9 k0_pay10 k0_pay11 k0_pay12 k0_pay13 k0_pay30 k0_pay31 k0_pay32 k0_pay33 k0_pay34
  intro p hp
  simp only [List.mem_cons, List.not_mem_nil, or_false] at hp
  rcases hp with rfl | rfl | rfl | rfl | rfl | rfl | rfl | rfl | rfl | rfl | rfl | rfl | rfl | rfl | rfl | rfl
  all_goals
    intro x
    obtain ⟨u, k, hw, rfl⟩ : ∃ (u : Fin 1) (k : Fin 128) (hw : Fin 256), x = ix3 u k hw := ⟨x 0, x 1, x 2, eq_ix3 x⟩
    refine (wslab_apply _ u k hw).trans ?_
    symm
    apply wfun_emb
    all_goals decide

/-- Later points keep it. -/
theorem stepB_W (c : Dev nD) (t : Fin cfg0.N) (h0 : ¬t.val % 4 = 0) (h1 : ¬t.val % 4 = 3) (s : St Ideal) : (stepB m c t h0 h1 s).1 = s.1 := by
  unfold stepB; dsimp only
theorem stepC_W (c : Dev nD) (t : Fin cfg0.N) (h0 : ¬t.val % 4 = 0) (h1 : t.val % 4 = 3) (s : St Ideal) : (stepC m c t h0 h1 s).1 = s.1 := by
  unfold stepC; dsimp only

theorem N4w : cfg0.N = 4 := N_0

set_option maxHeartbeats 2000000 in
/-- After every point the converted-weight scratch holds the weight window's block of the first point, slab by slab. -/
theorem W_at (c : Dev nD) (j : St Ideal) : ∀ (n : ℕ) (hn : n < cfg0.N), (stAt m c j n hn).1 = wfun (iblk m c 3 ⟨0, by rw [N4w]; decide⟩)
  | 0, hn => stepA_W m c ⟨0, hn⟩ (Nat.zero_mod _) (show ¬0 % 4 = 3 by decide) j
  | n + 1, hn => by
    have hN : n + 1 < 4 := lt_of_lt_of_eq hn N4w
    have h0 : ¬(n + 1) % 4 = 0 := by omega
    have ih := W_at c j n (Nat.lt_of_succ_lt hn)
    by_cases h1 : (n + 1) % 4 = 3
    · rw [stAt_C m c j ⟨n + 1, hn⟩ h0 h1, stepC_W]; exact ih
    · rw [stAt_B m c j ⟨n + 1, hn⟩ h0 h1, stepB_W]; exact ih

end Cert.KernelIdeal.KScratch

end
-- ==== Proof.KIdealScratchZBase.lean ====
/-
  The state of the four scratches after the last point, the arrays the region reads, and the windows' blocks at an
  index: point `t`'s tile is rows `1024 t ..` of the transposed input; the weight window's block is the whole weight.
-/
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

theorem N4s : cfg0.N = 4 := N_0
theorem lt3 : 3 < cfg0.N := by rw [N4s]; decide

/-- The transposed input as the region finds it: row `f = ch·256 + hw`, column the batch row. -/
abbrev Xt (c : Dev nD) : S4096x2048.Idx → Ideal .f32 := V m c main_v1

/-- The tile window's index map: point `t`'s tile is rows `1024 t ..` of the transposed input. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The tile at an index. -/
theorem iblk0_apply (c : Dev nD) (t : Fin cfg0.N) (r : Fin 1024) (b : Fin 2048) :
    (iblk m c 0 t : S1024x2048.Idx → Ideal .f32) (ix2 r b) = Xt m c (ix2 (⟨1024 * t.val + r.val, by have := lt_of_lt_of_eq t.isLt N4s; omega⟩ : Fin 4096) b) := by
  obtain ⟨e0, e1⟩ := idx_facts0 t
  show V m c main_v1 (((cfg0.win 0).blk t).view.emb (ix2 r b)) = V m c main_v1 (ix2 _ b)
  refine congrArg (V m c main_v1) (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 2048 + 1 * b.val = b.val; rw [e1]; omega

/-- The state after the last point, from the chosen entry contents. -/
abbrev Zst (c : Dev nD) : St Ideal := stAt m c J0 3 lt3

/-- The weight as the region finds it. -/
abbrev Wt (c : Dev nD) : S128x4096.Idx → Ideal .f32 := V m c main_arg3

theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The weight window's block at an index. -/
theorem iblk3_apply (c : Dev nD) (t : Fin cfg0.N) (k : Fin 128) (f : Fin 4096) :
    (iblk m c 3 t : S128x4096.Idx → Ideal .f32) (ix2 k f) = Wt m c (ix2 k f) := by
  obtain ⟨e0, e1⟩ := idx_facts3 t
  show V m c main_arg3 (((cfg0.win 3).blk t).view.emb (ix2 k f)) = V m c main_arg3 (ix2 k f)
  refine congrArg (V m c main_arg3) (funext fun a => Fin.ext ?_)
  match a with
  | ⟨0, _⟩ => show win0_3.index t (0 : Fin 2) * 128 + 1 * k.val = k.val; rw [e0]; omega
  | ⟨1, _⟩ => show win0_3.index t (1 : Fin 2) * 4096 + 1 * f.val = f.val; rw [e1]; omega

end Cert.KernelIdeal.KScratch

end
-- ==== Proof.KIdealScratchZProd.lean ====
/-
  The partial-product scratch after the last point, over the extended reals, index by index: slab `ch` was stored at
  point `ch / 4` — slice `ch mod 4` of that point's tile against slab `ch` of the converted weight — and no later point
  reaches it; so it holds at (batch row, class) the sum over the 256 feature positions of channel `ch` of the input's
  entry times the weight's.
-/
import proofs.«170975_g2000502485364553_pallasbulk_1302_22_alg».proof.Proof.KIdealScratchProdA
import proofs.«170975_g2000502485364553_pallasbulk_1302_22_alg».proof.Proof.KIdealScratchProdB
import proofs.«170975_g2000502485364553_pallasbulk_1302_22_alg».proof.Proof.KIdealScratchProdC
import proofs.«170975_g2000502485364553_pallasbulk_1302_22_alg».proof.Proof.KIdealScratchW
import proofs.«170975_g2000502485364553_pallasbulk_1302_22_alg».proof.Proof.KIdealScratchZBase

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The first point. -/
abbrev t0p : Fin cfg0.N := ⟨0, by rw [N4s]; decide⟩

/-- The slab function of point `t`'s tile against the converted weight. -/
abbrev slab3 (c : Dev nD) (t : Fin cfg0.N) : S16x2048x128.Idx → Ideal .f32 := band3 (iblk m c 0 t) (wfun (iblk m c 3 t0p))

set_option maxHeartbeats 2000000 in
/-- After point `n` every slab below `4n + 4` holds its point's products — by induction on the point. -/
theorem prod_at (c : Dev nD) (j : St Ideal) : ∀ (n : ℕ) (hn : n < cfg0.N) (y : S16x2048x128.Idx), (y 0).val < 4 * n + 4 →
    (stAt m c j n hn).2.2.2 y = slab3 m c ⟨(y 0).val / 4, by have h16 : (y 0).val < 16 := (y 0).isLt; rw [N4s]; omega⟩ y
  | 0, hn, y, hy => by
    have ht : (⟨(y 0).val / 4, by have h16 : (y 0).val < 16 := (y 0).isLt; rw [N4s]; omega⟩ : Fin cfg0.N) = ⟨0, hn⟩ := Fin.ext (by show (y 0).val / 4 = 0; omega)
    rw [ht]
    exact inA3 m c ⟨0, hn⟩ (Nat.zero_mod _) (show ¬0 % 4 = 3 by decide) j y (by show 4 * 0 ≤ _ ∧ _ < 4 * 0 + 4; omega)
  | n + 1, hn, y, hy => by
    have hN : n + 1 < 4 := lt_of_lt_of_eq hn N4s
    have h0 : ¬(n + 1) % 4 = 0 := by omega
    have hW := W_at m c j n (Nat.lt_of_succ_lt hn)
    by_cases hb : 4 * (n + 1) ≤ (y 0).val
    · have ht : (⟨(y 0).val / 4, by have h16 : (y 0).val < 16 := (y 0).isLt; rw [N4s]; omega⟩ : Fin cfg0.N) = ⟨n + 1, hn⟩ := Fin.ext (by show (y 0).val / 4 = n + 1; omega)
      rw [ht]
      by_cases h1 : (n + 1) % 4 = 3
      · rw [stAt_C m c j ⟨n + 1, hn⟩ h0 h1, inC3 m c ⟨n + 1, hn⟩ h0 h1 _ y ⟨hb, hy⟩]
        show band3 _ (stAt m c j n _).1 y = _
        rw [hW]
      · rw [stAt_B m c j ⟨n + 1, hn⟩ h0 h1, inB3 m c ⟨n + 1, hn⟩ h0 h1 _ y ⟨hb, hy⟩]
        show band3 _ (stAt m c j n _).1 y = _
        rw [hW]
    · have ih := prod_at c j n (Nat.lt_of_succ_lt hn) y (by omega)
      by_cases h1 : (n + 1) % 4 = 3
      · rw [stAt_C m c j ⟨n + 1, hn⟩ h0 h1, outC3 m c ⟨n + 1, hn⟩ h0 h1 _ y (fun h => hb h.1)]
        exact ih
      · rw [stAt_B m c j ⟨n + 1, hn⟩ h0 h1, outB3 m c ⟨n + 1, hn⟩ h0 h1 _ y (fun h => hb h.1)]
        exact ih

/-- INDEX BY INDEX: the partial-product scratch after the last point. -/
theorem Z_prod (c : Dev nD) (ch : Fin 16) (b : Fin 2048) (k : Fin 128) :
    ((Zst m c).2.2.2 : S16x2048x128.Idx → Ideal .f32) (ix3 ch b k)
      = ∑ hw : Fin 256, Xt m c (ix2 (⟨ch.val * 256 + hw.val, by have := ch.isLt; have := hw.isLt; omega⟩ : Fin 4096) b)
          * Wt m c (ix2 k (⟨ch.val * 256 + hw.val, by have := ch.isLt; have := hw.isLt; omega⟩ : Fin 4096)) := by
  rw [prod_at m c J0 3 lt3 (ix3 ch b k) (by show ch.val < 4 * 3 + 4; have := ch.isLt; omega)]
  show band3 (iblk m c 0 _) (wfun (iblk m c 3 t0p)) (ix3 ch b k) = _
  unfold band3 wfun
  refine Finset.sum_congr rfl fun hw _ => ?_
  have e0 := iblk0_apply m c ⟨ch.val / 4, by have := ch.isLt; rw [N4s]; omega⟩ (⟨ch.val % 4 * 256 + hw.val, by have := Nat.mod_lt ch.val (by decide : 0 < 4); have := hw.isLt; omega⟩ : Fin 1024) b
  have e1 : (ix2 (⟨1024 * (ch.val / 4) + (ch.val % 4 * 256 + hw.val), by have := ch.isLt; have := hw.isLt; omega⟩ : Fin 4096) b : S4096x2048.Idx)
      = ix2 (⟨ch.val * 256 + hw.val, by have := ch.isLt; have := hw.isLt; omega⟩ : Fin 4096) b := funext fun a => Fin.ext (by
    match a with
    | ⟨0, _⟩ => show 1024 * (ch.val / 4) + (ch.val % 4 * 256 + hw.val) = ch.val * 256 + hw.val; omega
    | ⟨1, _⟩ => rfl)
  have e3 := iblk3_apply m c t0p k (⟨ch.val * 256 + hw.val, by have := ch.isLt; have := hw.isLt; omega⟩ : Fin 4096)
  rw [e1] at e0
  exact congrArg₂ (fun (a : Ideal .f32) (w : Ideal .f32) => a * w) e0 e3

end Cert.KernelIdeal.KScratch

end
-- ==== Proof.KIdealScratchSumA.lean ====
/-
  The two sum scratches after the first point, over the extended reals: the four rows the point stores hold the column sums
  (and the column sums of squares) of the four 256-row slices of the point's tile; every other row holds what it held.
-/
import proofs.«170975_g2000502485364553_pallasbulk_1302_22_alg».proof.Proof.KIdealRowsA
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

set_option maxHeartbeats 4000000 in
/-- The rows point `t` stores in sum scratch 1. -/
theorem inA1 (c : Dev nD) (t : Fin cfg0.N) (h0 : t.val % 4 = 0) (h1 : ¬t.val % 4 = 3) (j : St Ideal) (y : S16x1x2048.Idx)
    (hy : 4 * t.val ≤ (y 0).val ∧ (y 0).val < 4 * t.val + 4) :
    (stepA m c t h0 h1 j).2.1 y = band1 (iblk m c 0 t) y := by
  have hcov := (rowsA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2 y).mpr (by rw [coords_val]; exact hy)
  unfold stepA
  dsimp only
  refine View.read_writes_apply_of_pieces _ _ (band1 (iblk m c 0 t)) _ ?_ y hcov
  unfold kernelRun0_A
  dsimp only
  sl_unfold_run_names
  simp only [View.readAt_eq_ld, Memref.IsWhole.read_unread, View.ld_unit_zero (S := S1024x2048) hzK2]
  simp only [k0_pay38, k0_pay39, k0_pay42, k0_pay43, k0_pay44, k0_pay47, k0_pay48, k0_pay51, k0_pay52, k0_pay37, k0_pay41, k0_pay46, k0_pay50, k0_pay35, shapeCast_self]
  intro p hp
  simp only [List.mem_cons, List.not_mem_nil, or_false] at hp
  rcases hp with rfl | rfl | rfl | rfl
  all_goals
    intro x
    obtain ⟨u, v, b, rfl⟩ : ∃ (u v : Fin 1) (b : Fin 2048), x = ix3 u v b := ⟨x 0, x 1, x 2, eq_ix3 x⟩
    simp only [shapeCast_self]
    refine (sliceSum_apply _ (by decide) _ _ _ _ u v b).trans ?_
    symm
    apply band1_emb
    all_goals first
      | decide
      | exact Facts₀.k0_off1_inb _ _
      | exact Facts₀.k0_off2_inb _ _
      | exact Facts₀.k0_off3_inb _ _
      | (simp only [off1_0, off1_1, off1_2, off1_3, off2_0, off2_1, off2_2, off2_3, off3_0, off3_1, off3_2, off3_3, Matrix.cons_val_zero]; omega)
      | (simp only [off1_0, off1_1, off1_2, off1_3, off2_0, off2_1, off2_2, off2_3, off3_0, off3_1, off3_2, off3_3]; rfl)

set_option maxHeartbeats 4000000 in
/-- The rows point `t` stores in sum scratch 2. -/
theorem inA2 (c : Dev nD) (t : Fin cfg0.N) (h0 : t.val % 4 = 0) (h1 : ¬t.val % 4 = 3) (j : St Ideal) (y : S16x1x2048.Idx)
    (hy : 4 * t.val ≤ (y 0).val ∧ (y 0).val < 4 * t.val + 4) :
    (stepA m c t h0 h1 j).2.2.1 y = band2 (iblk m c 0 t) y := by
  have hcov := (rowsA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2 y).mpr (by rw [coords_val]; exact hy)
  unfold stepA
  dsimp only
  refine View.read_writes_apply_of_pieces _ _ (band2 (iblk m c 0 t)) _ ?_ y hcov
  unfold kernelRun0_A
  dsimp only
  sl_unfold_run_names
  simp only [View.readAt_eq_ld, Memref.IsWhole.read_unread, View.ld_unit_zero (S := S1024x2048) hzK2]
  simp only [k0_pay38, k0_pay39, k0_pay42, k0_pay43, k0_pay44, k0_pay47, k0_pay48, k0_pay51, k0_pay52, k0_pay37, k0_pay41, k0_pay46, k0_pay50, k0_pay35, shapeCast_self]
  intro p hp
  simp only [List.mem_cons, List.not_mem_nil, or_false] at hp
  rcases hp with rfl | rfl | rfl | rfl
  all_goals
    intro x
    obtain ⟨u, v, b, rfl⟩ : ∃ (u v : Fin 1) (b : Fin 2048), x = ix3 u v b := ⟨x 0, x 1, x 2, eq_ix3 x⟩
    simp only [shapeCast_self]
    refine (sliceSq_apply _ (by decide) _ _ _ _ u v b).trans ?_
    symm
    apply band2_emb
    all_goals first
      | decide
      | exact Facts₀.k0_off1_inb _ _
      | exact Facts₀.k0_off2_inb _ _
      | exact Facts₀.k0_off3_inb _ _
      | (simp only [off1_0, off1_1, off1_2, off1_3, off2_0, off2_1, off2_2, off2_3, off3_0, off3_1, off3_2, off3_3, Matrix.cons_val_zero]; omega)
      | (simp only [off1_0, off1_1, off1_2, off1_3, off2_0, off2_1, off2_2, off2_3, off3_0, off3_1, off3_2, off3_3]; rfl)

/-- The rows point `t` leaves in scratch 1. -/
theorem outA1 (c : Dev nD) (t : Fin cfg0.N) (h0 : t.val % 4 = 0) (h1 : ¬t.val % 4 = 3) (j : St Ideal) (y : S16x1x2048.Idx)
    (hy : ¬(4 * t.val ≤ (y 0).val ∧ (y 0).val < 4 * t.val + 4)) :
    (stepA m c t h0 h1 j).2.1 y = j.2.1 y := by
  have hn : ∀ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2).2.1, y ∉ p.1.set := fun p hp hm => hy (by
    have := (rowsA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2 y).mp ⟨p, hp, hm⟩
    rwa [coords_val] at this)
  unfold stepA
  dsimp only
  rw [View.read_writes_apply_of_forall_not_mem _ _ y _ hn]
  exact congrFun (rdS1 _ _) y

/-- The rows point `t` leaves in scratch 2. -/
theorem outA2 (c : Dev nD) (t : Fin cfg0.N) (h0 : t.val % 4 = 0) (h1 : ¬t.val % 4 = 3) (j : St Ideal) (y : S16x1x2048.Idx)
    (hy : ¬(4 * t.val ≤ (y 0).val ∧ (y 0).val < 4 * t.val + 4)) :
    (stepA m c t h0 h1 j).2.2.1 y = j.2.2.1 y := by
  have hn : ∀ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2).2.2.1, y ∉ p.1.set := fun p hp hm => hy (by
    have := (rowsA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2 y).mp ⟨p, hp, hm⟩
    rwa [coords_val] at this)
  unfold stepA
  dsimp only
  rw [View.read_writes_apply_of_forall_not_mem _ _ y _ hn]
  exact congrFun (rdS2 _ _) y

/-- The rows point `t` leaves in scratch 3. -/
theorem outA3 (c : Dev nD) (t : Fin cfg0.N) (h0 : t.val % 4 = 0) (h1 : ¬t.val % 4 = 3) (j : St Ideal) (y : S16x2048x128.Idx)
    (hy : ¬(4 * t.val ≤ (y 0).val ∧ (y 0).val < 4 * t.val + 4)) :
    (stepA m c t h0 h1 j).2.2.2 y = j.2.2.2 y := by
  have hn : ∀ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2).2.2.2.1, y ∉ p.1.set := fun p hp hm => hy (by
    have := (rowsA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) j.2.1 j.2.2.1 j.2.2.2 y).mp ⟨p, hp, hm⟩
    rwa [coords_val] at this)
  unfold stepA
  dsimp only
  rw [View.read_writes_apply_of_forall_not_mem _ _ y _ hn]
  exact congrFun (rdS3 _ _) y

end Cert.KernelIdeal.KScratch

end
-- ==== Proof.KIdealScratchSumB.lean ====
/-
  The two sum scratches after a middle point, over the extended reals: the four rows the point stores hold the column sums
  (and the column sums of squares) of the four 256-row slices of the point's tile; every other row holds what it held.
-/
import proofs.«170975_g2000502485364553_pallasbulk_1302_22_alg».proof.Proof.KIdealRowsB
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

set_option maxHeartbeats 4000000 in
/-- The rows point `t` stores in sum scratch 1. -/
theorem inB1 (c : Dev nD) (t : Fin cfg0.N) (h0 : ¬t.val % 4 = 0) (h1 : ¬t.val % 4 = 3) (s : St Ideal) (y : S16x1x2048.Idx)
    (hy : 4 * t.val ≤ (y 0).val ∧ (y 0).val < 4 * t.val + 4) :
    (stepB m c t h0 h1 s).2.1 y = band1 (iblk m c 0 t) y := by
  have hcov := (rowsB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2 y).mpr (by rw [coords_val]; exact hy)
  unfold stepB
  dsimp only
  refine View.read_writes_apply_of_pieces _ _ (band1 (iblk m c 0 t)) _ ?_ y hcov
  unfold kernelRun0_B
  dsimp only
  sl_unfold_run_names
  simp only [View.readAt_eq_ld, Memref.IsWhole.read_unread, View.ld_unit_zero (S := S1024x2048) hzK2]
  simp only [k0_pay38, k0_pay39, k0_pay42, k0_pay43, k0_pay44, k0_pay47, k0_pay48, k0_pay51, k0_pay52, k0_pay37, k0_pay41, k0_pay46, k0_pay50, k0_pay35, shapeCast_self]
  intro p hp
  simp only [List.mem_cons, List.not_mem_nil, or_false] at hp
  rcases hp with rfl | rfl | rfl | rfl
  all_goals
    intro x
    obtain ⟨u, v, b, rfl⟩ : ∃ (u v : Fin 1) (b : Fin 2048), x = ix3 u v b := ⟨x 0, x 1, x 2, eq_ix3 x⟩
    simp only [shapeCast_self]
    refine (sliceSum_apply _ (by decide) _ _ _ _ u v b).trans ?_
    symm
    apply band1_emb
    all_goals first
      | decide
      | exact Facts₀.k0_off1_inb _ _
      | exact Facts₀.k0_off2_inb _ _
      | exact Facts₀.k0_off3_inb _ _
      | (simp only [off1_0, off1_1, off1_2, off1_3, off2_0, off2_1, off2_2, off2_3, off3_0, off3_1, off3_2, off3_3, Matrix.cons_val_zero]; omega)
      | (simp only [off1_0, off1_1, off1_2, off1_3, off2_0, off2_1, off2_2, off2_3, off3_0, off3_1, off3_2, off3_3]; rfl)

set_option maxHeartbeats 4000000 in
/-- The rows point `t` stores in sum scratch 2. -/
theorem inB2 (c : Dev nD) (t : Fin cfg0.N) (h0 : ¬t.val % 4 = 0) (h1 : ¬t.val % 4 = 3) (s : St Ideal) (y : S16x1x2048.Idx)
    (hy : 4 * t.val ≤ (y 0).val ∧ (y 0).val < 4 * t.val + 4) :
    (stepB m c t h0 h1 s).2.2.1 y = band2 (iblk m c 0 t) y := by
  have hcov := (rowsB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2 y).mpr (by rw [coords_val]; exact hy)
  unfold stepB
  dsimp only
  refine View.read_writes_apply_of_pieces _ _ (band2 (iblk m c 0 t)) _ ?_ y hcov
  unfold kernelRun0_B
  dsimp only
  sl_unfold_run_names
  simp only [View.readAt_eq_ld, Memref.IsWhole.read_unread, View.ld_unit_zero (S := S1024x2048) hzK2]
  simp only [k0_pay38, k0_pay39, k0_pay42, k0_pay43, k0_pay44, k0_pay47, k0_pay48, k0_pay51, k0_pay52, k0_pay37, k0_pay41, k0_pay46, k0_pay50, k0_pay35, shapeCast_self]
  intro p hp
  simp only [List.mem_cons, List.not_mem_nil, or_false] at hp
  rcases hp with rfl | rfl | rfl | rfl
  all_goals
    intro x
    obtain ⟨u, v, b, rfl⟩ : ∃ (u v : Fin 1) (b : Fin 2048), x = ix3 u v b := ⟨x 0, x 1, x 2, eq_ix3 x⟩
    simp only [shapeCast_self]
    refine (sliceSq_apply _ (by decide) _ _ _ _ u v b).trans ?_
    symm
    apply band2_emb
    all_goals first
      | decide
      | exact Facts₀.k0_off1_inb _ _
      | exact Facts₀.k0_off2_inb _ _
      | exact Facts₀.k0_off3_inb _ _
      | (simp only [off1_0, off1_1, off1_2, off1_3, off2_0, off2_1, off2_2, off2_3, off3_0, off3_1, off3_2, off3_3, Matrix.cons_val_zero]; omega)
      | (simp only [off1_0, off1_1, off1_2, off1_3, off2_0, off2_1, off2_2, off2_3, off3_0, off3_1, off3_2, off3_3]; rfl)

/-- The rows point `t` leaves in scratch 1. -/
theorem outB1 (c : Dev nD) (t : Fin cfg0.N) (h0 : ¬t.val % 4 = 0) (h1 : ¬t.val % 4 = 3) (s : St Ideal) (y : S16x1x2048.Idx)
    (hy : ¬(4 * t.val ≤ (y 0).val ∧ (y 0).val < 4 * t.val + 4)) :
    (stepB m c t h0 h1 s).2.1 y = s.2.1 y := by
  have hn : ∀ p ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2).1, y ∉ p.1.set := fun p hp hm => hy (by
    have := (rowsB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2 y).mp ⟨p, hp, hm⟩
    rwa [coords_val] at this)
  unfold stepB
  dsimp only
  rw [View.read_writes_apply_of_forall_not_mem _ _ y _ hn]
  exact congrFun (rdS1 _ _) y

/-- The rows point `t` leaves in scratch 2. -/
theorem outB2 (c : Dev nD) (t : Fin cfg0.N) (h0 : ¬t.val % 4 = 0) (h1 : ¬t.val % 4 = 3) (s : St Ideal) (y : S16x1x2048.Idx)
    (hy : ¬(4 * t.val ≤ (y 0).val ∧ (y 0).val < 4 * t.val + 4)) :
    (stepB m c t h0 h1 s).2.2.1 y = s.2.2.1 y := by
  have hn : ∀ p ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2).2.1, y ∉ p.1.set := fun p hp hm => hy (by
    have := (rowsB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) s.1 s.2.1 s.2.2.1 s.2.2.2 y).mp ⟨p, hp, hm⟩
    rwa [coords_val] at this)
  unfold stepB
  dsimp only
  rw [View.read_writes_apply_of_forall_not_mem _ _ y _ hn]
  exact congrFun (rdS2 _ _) y

end Cert.KernelIdeal.KScratch

end
-- ==== Proof.KIdealScratchSumC.lean ====
/-
  The two sum scratches after the last point, over the extended reals: the four rows the point stores hold the column sums
  (and the column sums of squares) of the four 256-row slices of the point's tile; every other row holds what it held.
-/
import proofs.«170975_g2000502485364553_pallasbulk_1302_22_alg».proof.Proof.KIdealRowsC
import proofs.«170975_g2000502485364553_pallasbulk_1302_22_alg».proof.Proof.KIdealScratchBand

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

set_option maxHeartbeats 4000000 in
/-- The rows point `t` stores in sum scratch 1. -/
theorem inC1 (c : Dev nD) (t : Fin cfg0.N) (h0 : ¬t.val % 4 = 0) (h1 : t.val % 4 = 3) (s : St Ideal) (y : S16x1x2048.Idx)
    (hy : 4 * t.val ≤ (y 0).val ∧ (y 0).val < 4 * t.val + 4) :
    (stepC m c t h0 h1 s).2.1 y = band1 (iblk m c 0 t) y := by
  have hcov := (rowsC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2 y).mpr (by rw [coords_val]; exact hy)
  unfold stepC
  dsimp only
  refine View.read_writes_apply_of_pieces _ _ (band1 (iblk m c 0 t)) _ ?_ y hcov
  unfold kernelRun0_C
  dsimp only
  sl_unfold_run_names
  simp only [View.readAt_eq_ld, Memref.IsWhole.read_unread, View.ld_unit_zero (S := S1024x2048) hzK2]
  simp only [k0_pay38, k0_pay39, k0_pay42, k0_pay43, k0_pay44, k0_pay47, k0_pay48, k0_pay51, k0_pay52, k0_pay37, k0_pay41, k0_pay46, k0_pay50, k0_pay35, shapeCast_self]
  intro p hp
  simp only [List.mem_cons, List.not_mem_nil, or_false] at hp
  rcases hp with rfl | rfl | rfl | rfl
  all_goals
    intro x
    obtain ⟨u, v, b, rfl⟩ : ∃ (u v : Fin 1) (b : Fin 2048), x = ix3 u v b := ⟨x 0, x 1, x 2, eq_ix3 x⟩
    simp only [shapeCast_self]
    refine (sliceSum_apply _ (by decide) _ _ _ _ u v b).trans ?_
    symm
    apply band1_emb
    all_goals first
      | decide
      | exact Facts₀.k0_off1_inb _ _
      | exact Facts₀.k0_off2_inb _ _
      | exact Facts₀.k0_off3_inb _ _
      | (simp only [off1_0, off1_1, off1_2, off1_3, off2_0, off2_1, off2_2, off2_3, off3_0, off3_1, off3_2, off3_3, Matrix.cons_val_zero]; omega)
      | (simp only [off1_0, off1_1, off1_2, off1_3, off2_0, off2_1, off2_2, off2_3, off3_0, off3_1, off3_2, off3_3]; rfl)

set_option maxHeartbeats 4000000 in
/-- The rows point `t` stores in sum scratch 2. -/
theorem inC2 (c : Dev nD) (t : Fin cfg0.N) (h0 : ¬t.val % 4 = 0) (h1 : t.val % 4 = 3) (s : St Ideal) (y : S16x1x2048.Idx)
    (hy : 4 * t.val ≤ (y 0).val ∧ (y 0).val < 4 * t.val + 4) :
    (stepC m c t h0 h1 s).2.2.1 y = band2 (iblk m c 0 t) y := by
  have hcov := (rowsC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2 y).mpr (by rw [coords_val]; exact hy)
  unfold stepC
  dsimp only
  refine View.read_writes_apply_of_pieces _ _ (band2 (iblk m c 0 t)) _ ?_ y hcov
  unfold kernelRun0_C
  dsimp only
  sl_unfold_run_names
  simp only [View.readAt_eq_ld, Memref.IsWhole.read_unread, View.ld_unit_zero (S := S1024x2048) hzK2]
  simp only [k0_pay38, k0_pay39, k0_pay42, k0_pay43, k0_pay44, k0_pay47, k0_pay48, k0_pay51, k0_pay52, k0_pay37, k0_pay41, k0_pay46, k0_pay50, k0_pay35, shapeCast_self]
  intro p hp
  simp only [List.mem_cons, List.not_mem_nil, or_false] at hp
  rcases hp with rfl | rfl | rfl | rfl
  all_goals
    intro x
    obtain ⟨u, v, b, rfl⟩ : ∃ (u v : Fin 1) (b : Fin 2048), x = ix3 u v b := ⟨x 0, x 1, x 2, eq_ix3 x⟩
    simp only [shapeCast_self]
    refine (sliceSq_apply _ (by decide) _ _ _ _ u v b).trans ?_
    symm
    apply band2_emb
    all_goals first
      | decide
      | exact Facts₀.k0_off1_inb _ _
      | exact Facts₀.k0_off2_inb _ _
      | exact Facts₀.k0_off3_inb _ _
      | (simp only [off1_0, off1_1, off1_2, off1_3, off2_0, off2_1, off2_2, off2_3, off3_0, off3_1, off3_2, off3_3, Matrix.cons_val_zero]; omega)
      | (simp only [off1_0, off1_1, off1_2, off1_3, off2_0, off2_1, off2_2, off2_3, off3_0, off3_1, off3_2, off3_3]; rfl)

/-- The rows point `t` leaves in scratch 1. -/
theorem outC1 (c : Dev nD) (t : Fin cfg0.N) (h0 : ¬t.val % 4 = 0) (h1 : t.val % 4 = 3) (s : St Ideal) (y : S16x1x2048.Idx)
    (hy : ¬(4 * t.val ≤ (y 0).val ∧ (y 0).val < 4 * t.val + 4)) :
    (stepC m c t h0 h1 s).2.1 y = s.2.1 y := by
  have hn : ∀ p ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2).2.1, y ∉ p.1.set := fun p hp hm => hy (by
    have := (rowsC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2 y).mp ⟨p, hp, hm⟩
    rwa [coords_val] at this)
  unfold stepC
  dsimp only
  rw [View.read_writes_apply_of_forall_not_mem _ _ y _ hn]
  exact congrFun (rdS1 _ _) y

/-- The rows point `t` leaves in scratch 2. -/
theorem outC2 (c : Dev nD) (t : Fin cfg0.N) (h0 : ¬t.val % 4 = 0) (h1 : t.val % 4 = 3) (s : St Ideal) (y : S16x1x2048.Idx)
    (hy : ¬(4 * t.val ≤ (y 0).val ∧ (y 0).val < 4 * t.val + 4)) :
    (stepC m c t h0 h1 s).2.2.1 y = s.2.2.1 y := by
  have hn : ∀ p ∈ (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2).2.2.1, y ∉ p.1.set := fun p hp hm => hy (by
    have := (rowsC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) s.1 s.2.1 s.2.2.1 s.2.2.2 y).mp ⟨p, hp, hm⟩
    rwa [coords_val] at this)
  unfold stepC
  dsimp only
  rw [View.read_writes_apply_of_forall_not_mem _ _ y _ hn]
  exact congrFun (rdS2 _ _) y

end Cert.KernelIdeal.KScratch

end
-- ==== Proof.KIdealScratchZSum.lean ====
/-
  The two sum scratches after the last point, over the extended reals, index by index: row `ch` was stored at point
  `ch / 4` — the column sums (and column sums of squares) of slice `ch mod 4` of that point's tile — and no later point
  reaches it; the tiles being the consecutive 1024-row blocks of the transposed input, row `ch` holds at column `b` the
  sum over the 256 feature positions of channel `ch` of the input's entry (of its square) at batch row `b`.
-/
import proofs.«170975_g2000502485364553_pallasbulk_1302_22_alg».proof.Proof.KIdealScratchSumA
import proofs.«170975_g2000502485364553_pallasbulk_1302_22_alg».proof.Proof.KIdealScratchSumB
import proofs.«170975_g2000502485364553_pallasbulk_1302_22_alg».proof.Proof.KIdealScratchSumC
import proofs.«170975_g2000502485364553_pallasbulk_1302_22_alg».proof.Proof.KIdealScratchZBase

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The row functions of point `t`'s tile. -/
abbrev row1 (c : Dev nD) (t : Fin cfg0.N) : S16x1x2048.Idx → Ideal .f32 := band1 (iblk m c 0 t)
abbrev row2 (c : Dev nD) (t : Fin cfg0.N) : S16x1x2048.Idx → Ideal .f32 := band2 (iblk m c 0 t)

/-- After point `n` every row below `4n + 4` of the sum scratch holds its point's column sums — by induction on the point. -/
theorem sum1_at (c : Dev nD) (j : St Ideal) : ∀ (n : ℕ) (hn : n < cfg0.N) (y : S16x1x2048.Idx), (y 0).val < 4 * n + 4 →
    (stAt m c j n hn).2.1 y = row1 m c ⟨(y 0).val / 4, by have h16 : (y 0).val < 16 := (y 0).isLt; rw [N4s]; omega⟩ y
  | 0, hn, y, hy => by
    have ht : (⟨(y 0).val / 4, by have h16 : (y 0).val < 16 := (y 0).isLt; rw [N4s]; omega⟩ : Fin cfg0.N) = ⟨0, hn⟩ := Fin.ext (by show (y 0).val / 4 = 0; omega)
    rw [ht]
    exact inA1 m c ⟨0, hn⟩ (Nat.zero_mod _) (show ¬0 % 4 = 3 by decide) j y (by show 4 * 0 ≤ _ ∧ _ < 4 * 0 + 4; omega)
  | n + 1, hn, y, hy => by
    have hN : n + 1 < 4 := lt_of_lt_of_eq hn N4s
    have h0 : ¬(n + 1) % 4 = 0 := by omega
    by_cases hb : 4 * (n + 1) ≤ (y 0).val
    · have ht : (⟨(y 0).val / 4, by rw [N4s]; omega⟩ : Fin cfg0.N) = ⟨n + 1, hn⟩ := Fin.ext (by show (y 0).val / 4 = n + 1; omega)
      rw [ht]
      by_cases h1 : (n + 1) % 4 = 3
      · rw [stAt_C m c j ⟨n + 1, hn⟩ h0 h1]
        exact inC1 m c ⟨n + 1, hn⟩ h0 h1 _ y ⟨hb, hy⟩
      · rw [stAt_B m c j ⟨n + 1, hn⟩ h0 h1]
        exact inB1 m c ⟨n + 1, hn⟩ h0 h1 _ y ⟨hb, hy⟩
    · have ih := sum1_at c j n (Nat.lt_of_succ_lt hn) y (by omega)
      by_cases h1 : (n + 1) % 4 = 3
      · rw [stAt_C m c j ⟨n + 1, hn⟩ h0 h1, outC1 m c ⟨n + 1, hn⟩ h0 h1 _ y (fun h => hb h.1)]
        exact ih
      · rw [stAt_B m c j ⟨n + 1, hn⟩ h0 h1, outB1 m c ⟨n + 1, hn⟩ h0 h1 _ y (fun h => hb h.1)]
        exact ih

/-- The same for the sum-of-squares scratch. -/
theorem sum2_at (c : Dev nD) (j : St Ideal) : ∀ (n : ℕ) (hn : n < cfg0.N) (y : S16x1x2048.Idx), (y 0).val < 4 * n + 4 →
    (stAt m c j n hn).2.2.1 y = row2 m c ⟨(y 0).val / 4, by have h16 : (y 0).val < 16 := (y 0).isLt; rw [N4s]; omega⟩ y
  | 0, hn, y, hy => by
    have ht : (⟨(y 0).val / 4, by have h16 : (y 0).val < 16 := (y 0).isLt; rw [N4s]; omega⟩ : Fin cfg0.N) = ⟨0, hn⟩ := Fin.ext (by show (y 0).val / 4 = 0; omega)
    rw [ht]
    exact inA2 m c ⟨0, hn⟩ (Nat.zero_mod _) (show ¬0 % 4 = 3 by decide) j y (by show 4 * 0 ≤ _ ∧ _ < 4 * 0 + 4; omega)
  | n + 1, hn, y, hy => by
    have hN : n + 1 < 4 := lt_of_lt_of_eq hn N4s
    have h0 : ¬(n + 1) % 4 = 0 := by omega
    by_cases hb : 4 * (n + 1) ≤ (y 0).val
    · have ht : (⟨(y 0).val / 4, by rw [N4s]; omega⟩ : Fin cfg0.N) = ⟨n + 1, hn⟩ := Fin.ext (by show (y 0).val / 4 = n + 1; omega)
      rw [ht]
      by_cases h1 : (n + 1) % 4 = 3
      · rw [stAt_C m c j ⟨n + 1, hn⟩ h0 h1]
        exact inC2 m c ⟨n + 1, hn⟩ h0 h1 _ y ⟨hb, hy⟩
      · rw [stAt_B m c j ⟨n + 1, hn⟩ h0 h1]
        exact inB2 m c ⟨n + 1, hn⟩ h0 h1 _ y ⟨hb, hy⟩
    · have ih := sum2_at c j n (Nat.lt_of_succ_lt hn) y (by omega)
      by_cases h1 : (n + 1) % 4 = 3
      · rw [stAt_C m c j ⟨n + 1, hn⟩ h0 h1, outC2 m c ⟨n + 1, hn⟩ h0 h1 _ y (fun h => hb h.1)]
        exact ih
      · rw [stAt_B m c j ⟨n + 1, hn⟩ h0 h1, outB2 m c ⟨n + 1, hn⟩ h0 h1 _ y (fun h => hb h.1)]
        exact ih

/-- INDEX BY INDEX: the sum scratch after the last point. -/
theorem Z_sum (c : Dev nD) (ch : Fin 16) (u : Fin 1) (b : Fin 2048) :
    ((Zst m c).2.1 : S16x1x2048.Idx → Ideal .f32) (ix3 ch u b)
      = ∑ hw : Fin 256, Xt m c (ix2 (⟨ch.val * 256 + hw.val, by have := ch.isLt; have := hw.isLt; omega⟩ : Fin 4096) b) := by
  rw [sum1_at m c J0 3 lt3 (ix3 ch u b) (by show ch.val < 4 * 3 + 4; have := ch.isLt; omega)]
  show band1 (iblk m c 0 _) (ix3 ch u b) = _
  unfold band1
  refine Finset.sum_congr rfl fun hw _ => ?_
  refine (iblk0_apply m c _ _ _).trans ?_
  refine congrArg (Xt m c) (funext fun a => Fin.ext ?_)
  match a with
  | ⟨0, _⟩ => show 1024 * (ch.val / 4) + (ch.val % 4 * 256 + hw.val) = ch.val * 256 + hw.val; omega
  | ⟨1, _⟩ => rfl

/-- INDEX BY INDEX: the sum-of-squares scratch after the last point. -/
theorem Z_sumsq (c : Dev nD) (ch : Fin 16) (u : Fin 1) (b : Fin 2048) :
    ((Zst m c).2.2.1 : S16x1x2048.Idx → Ideal .f32) (ix3 ch u b)
      = ∑ hw : Fin 256, Xt m c (ix2 (⟨ch.val * 256 + hw.val, by have := ch.isLt; have := hw.isLt; omega⟩ : Fin 4096) b)
          * Xt m c (ix2 (⟨ch.val * 256 + hw.val, by have := ch.isLt; have := hw.isLt; omega⟩ : Fin 4096) b) := by
  rw [sum2_at m c J0 3 lt3 (ix3 ch u b) (by show ch.val < 4 * 3 + 4; have := ch.isLt; omega)]
  show band2 (iblk m c 0 _) (ix3 ch u b) = _
  unfold band2
  refine Finset.sum_congr rfl fun hw _ => ?_
  have e0 := iblk0_apply m c ⟨ch.val / 4, by have := ch.isLt; rw [N4s]; omega⟩ (⟨ch.val % 4 * 256 + hw.val, by have := Nat.mod_lt ch.val (by decide : 0 < 4); have := hw.isLt; omega⟩ : Fin 1024) b
  refine (congrArg (fun z : Ideal .f32 => z * z) e0).trans ?_
  have e : (ix2 (⟨1024 * (ch.val / 4) + (ch.val % 4 * 256 + hw.val), by have := ch.isLt; have := hw.isLt; omega⟩ : Fin 4096) b : S4096x2048.Idx)
      = ix2 (⟨ch.val * 256 + hw.val, by have := ch.isLt; have := hw.isLt; omega⟩ : Fin 4096) b := funext fun a => Fin.ext (by
    match a with
    | ⟨0, _⟩ => show 1024 * (ch.val / 4) + (ch.val % 4 * 256 + hw.val) = ch.val * 256 + hw.val; omega
    | ⟨1, _⟩ => rfl)
  exact congrArg (fun z => Xt m c z * Xt m c z) e

end Cert.KernelIdeal.KScratch

end
-- ==== Proof.KIdealScratchZW.lean ====
/-
  The converted-weight scratch after the last point, over the extended reals, index by index: slab `ch` holds at
  (class, feature position) the weight's entry at (class, `ch · 256 +` position).
-/
import proofs.«170975_g2000502485364553_pallasbulk_1302_22_alg».proof.Proof.KIdealScratchW
import proofs.«170975_g2000502485364553_pallasbulk_1302_22_alg».proof.Proof.KIdealScratchZBase

set_option maxRecDepth 16384

noncomputable section

namespace Cert.KernelIdeal.KScratch

open Cert.KernelIdeal Cert.KernelIdeal.Gen Cert.KernelIdeal.Body
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- INDEX BY INDEX: the converted-weight scratch after the last point. -/
theorem Z_W (c : Dev nD) (ch : Fin 16) (k : Fin 128) (hw : Fin 256) :
    ((Zst m c).1 : S16x128x256.Idx → Ideal .bf16) (ix3 ch k hw)
      = Wt m c (ix2 k (⟨ch.val * 256 + hw.val, by have := ch.isLt; have := hw.isLt; omega⟩ : Fin 4096)) := by
  rw [W_at m c J0 3 lt3]
  show (iblk m c 3 _ : S128x4096.Idx → Ideal .f32) (ix2 k _) = _
  exact iblk3_apply m c _ k _

end Cert.KernelIdeal.KScratch

end
-- ==== Proof.BridgeAlg.lean ====
import proofs.«170975_g2000502485364553_pallasbulk_1302_22_alg».proof.Defs
import proofs.«170975_g2000502485364553_pallasbulk_1302_22_alg».proof.Proof.Gen.KernelIdeal
import proofs.«170975_g2000502485364553_pallasbulk_1302_22_alg».proof.Proof.Gen.ReferenceIdeal
import proofs.«170975_g2000502485364553_pallasbulk_1302_22_alg».proof.Proof.Gen.Pre_finite_inputs
import proofs.«170975_g2000502485364553_pallasbulk_1302_22_alg».proof.Proof.BridgeZ
import proofs.«170975_g2000502485364553_pallasbulk_1302_22_alg».proof.Proof.KIdealScratchZProd
import proofs.«170975_g2000502485364553_pallasbulk_1302_22_alg».proof.Proof.KIdealScratchZSum
import proofs.«170975_g2000502485364553_pallasbulk_1302_22_alg».proof.Proof.KIdealScratchZW
import proofs.«170975_g2000502485364553_pallasbulk_1302_22_alg».proof.Proof.KIdealValueRun
import proofs.«170975_g2000502485364553_pallasbulk_1302_22_alg».proof.Proof.RefChainClosed

/-! # The algebraic claim

Both programs run to completion with their arguments unchanged, and their results are the same array: the kernel's
result array holds `KerOut`, the reference's `RefOut`, and the two agree when the arguments do. -/

noncomputable section

namespace Cert.Bridge

open Idealize.ShloMosaic Idealize.SL.Sem

set_option maxHeartbeats 4000000 in
theorem algebraic : Cert.algebraic_KernelIdeal_ReferenceIdeal := by
  intro m ρ m' ρ' _ hagree
  refine ⟨fun c => Cert.KernelIdeal.KValue.KerOut m c, Cert.KernelIdeal.KValue.kernel_run m ρ, ?_⟩
  exact (θ_run Cert.ReferenceIdeal.defs _ _).mono
    (fun r h c => ⟨(h c).2.trans (out_eq m m' hagree c (Cert.KernelIdeal.KScratch.Xt m c) rfl (Cert.KernelIdeal.KScratch.Wt m c) rfl
        (fun ch k q => Cert.KernelIdeal.KScratch.Z_W m c ch k q)
        (fun ch b => Cert.KernelIdeal.KScratch.Z_sum m c ch (0 : Fin 1) b)
        (fun ch b => Cert.KernelIdeal.KScratch.Z_sumsq m c ch (0 : Fin 1) b)
        (fun ch b k => Cert.KernelIdeal.KScratch.Z_prod m c ch b k)), (h c).1.1, (h c).1.2.1, (h c).1.2.2.1, (h c).1.2.2.2.1, (h c).1.2.2.2.2⟩)
    (Cert.ReferenceIdeal.RefChain.ref_run m' ρ')

end Cert.Bridge

end
-- ==== Proof.lean ====
/-
  A fused train-mode batch normalisation and linear head, computed by one kernel over four groups of
  four channels, against a two-pass reference: the same per-channel sums, scale and shift, the same
  per-channel partial products, combined in the same order; the sums over batch and pixels are taken
  in a different order on the two sides, and the shift's contribution is folded into the bias one
  channel at a time on one side and as one dot product on the other. On the extended reals a finite sum
  does not depend on the order or grouping of its terms, so both results are the same function of the
  argument arrays.
  The three frames come from the bodies' runs; the idealization rewrote nothing.
-/
import proofs.«170975_g2000502485364553_pallasbulk_1302_22_alg».proof.Defs
import proofs.«170975_g2000502485364553_pallasbulk_1302_22_alg».proof.Proof.Gen.Kernel
import proofs.«170975_g2000502485364553_pallasbulk_1302_22_alg».proof.Proof.Gen.KernelIdeal
import proofs.«170975_g2000502485364553_pallasbulk_1302_22_alg».proof.Proof.Gen.ReferenceIdeal
import proofs.«170975_g2000502485364553_pallasbulk_1302_22_alg».proof.Proof.Gen.Pre_finite_inputs
import proofs.«170975_g2000502485364553_pallasbulk_1302_22_alg».proof.Proof.KBitsBody
import proofs.«170975_g2000502485364553_pallasbulk_1302_22_alg».proof.Proof.KIdealBody
import proofs.«170975_g2000502485364553_pallasbulk_1302_22_alg».proof.Proof.RefChainClosed
import proofs.«170975_g2000502485364553_pallasbulk_1302_22_alg».proof.Proof.BridgeAlg
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ => Cert.ReferenceIdeal.RefChain.ref_frame m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
